-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024 32) (main_arg1 : FVec F S100000x64 .f32) (main_arg2 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg0 main_v9
  let main_c_3 : IVec S_ 32 := constantI S_ 32 99999#32
  let main_v11 : IVec S1024 32 := broadcastInDim S1024 ![] bcast_S_S1024 main_c_3
  let main_v12 : IVec S1024 1 := cmpi .sle main_arg0 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024 : Shape := ⟨1, ![1024]⟩
abbrev S100000x64 : Shape := ⟨2, ![100000, 64]⟩
abbrev S64x100000 : Shape := ⟨2, ![64, 100000]⟩
abbrev S65536x128 : Shape := ⟨2, ![65536, 128]⟩
abbrev S64x16384 : Shape := ⟨2, ![64, 16384]⟩
abbrev S16384x128 : Shape := ⟨2, ![16384, 128]⟩
abbrev S64x64 : Shape := ⟨2, ![64, 64]⟩
abbrev S16384x64 : Shape := ⟨2, ![16384, 64]⟩
abbrev S_ : Shape := ⟨0, ![]⟩
abbrev S1x1024 : Shape := ⟨2, ![1, 1024]⟩
abbrev S1024x128 : Shape := ⟨2, ![1024, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1024x1 : Shape := ⟨2, ![1024, 1]⟩
abbrev S100000x1024 : Shape := ⟨2, ![100000, 1024]⟩
abbrev S64x4096 : Shape := ⟨2, ![64, 4096]⟩
abbrev S4096x1024 : Shape := ⟨2, ![4096, 1024]⟩
abbrev S1024x64 : Shape := ⟨2, ![1024, 64]⟩
abbrev S1024x100000 : Shape := ⟨2, ![1024, 100000]⟩

abbrev nBuf : Table → Nat
  | .hbm => 22
  | .local .tc .vmem => 12
  | .local .scVector .vmem => 2
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S64x100000, .f32⟩
  | .hbm, ⟨4, _⟩ => ⟨S65536x128, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1x1024, .i32⟩
  | .hbm, ⟨13, _⟩ => ⟨S1024x128, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024x1, .i32⟩
  | .hbm, ⟨19, _⟩ => ⟨S64x100000, .f32⟩
  | .hbm, ⟨20, _⟩ => ⟨S100000x1024, .f32⟩
  | .hbm, ⟨21, _⟩ => ⟨S1024x100000, .f32⟩
  | .local .tc .vmem, ⟨0, _⟩ => ⟨S64x16384, .f32⟩
  | .local .tc .vmem, ⟨1, _⟩ => ⟨S64x16384, .f32⟩
  | .local .tc .vmem, ⟨2, _⟩ => ⟨S64x16384, .f32⟩
  | .local .tc .vmem, ⟨3, _⟩ => ⟨S64x16384, .f32⟩
  | .local .tc .vmem, ⟨4, _⟩ => ⟨S16384x128, .f32⟩
  | .local .tc .vmem, ⟨5, _⟩ => ⟨S16384x128, .f32⟩
  | .local .tc .vmem, ⟨6, _⟩ => ⟨S64x4096, .f32⟩
  | .local .tc .vmem, ⟨7, _⟩ => ⟨S64x4096, .f32⟩
  | .local .tc .vmem, ⟨8, _⟩ => ⟨S1024x128, .f32⟩
  | .local .tc .vmem, ⟨9, _⟩ => ⟨S1024x1, .i32⟩
  | .local .tc .vmem, ⟨10, _⟩ => ⟨S4096x1024, .f32⟩
  | .local .tc .vmem, ⟨11, _⟩ => ⟨S4096x1024, .f32⟩
  | .local .scVector .vmem, ⟨0, _⟩ => ⟨S2x1x128, .i32⟩
  | .local .scVector .vmem, ⟨1, _⟩ => ⟨S2x128x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v1_scv : Ref sig .scVector := ⟨.hbm, 4, rfl⟩
abbrev main_v7_scv : Ref sig .scVector := ⟨.hbm, 12, rfl⟩
abbrev main_v8_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c6_i32 : BitVec 32 := 6#32
  let v1 : BitVec 32 := Scalar.minsi v0 c6_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k1_off1 : Fin 3 → Nat :=
  let c0_i32_23_r0 : BitVec 32 := 0#32
  let c2_i32_r0 : BitVec 32 := 2#32
  let v35_r0 : BitVec 32 := Scalar.remui c0_i32_23_r0 c2_i32_r0
  let c0_i32_24_r0 : BitVec 32 := 0#32
  let c0_i32_25_r0 : BitVec 32 := 0#32
  ![v35_r0.toNat, 0, 0]
def k1_off2 (i : grid1.Coords) : Fin 2 → Nat :=
  let c0_i32_26_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v20_r0 : BitVec 32 := Scalar.addi c0_i32_12_r0 v10
  let v36_r0 : BitVec 32 := Scalar.muli c128_i32_r0 v20_r0
  ![0, v36_r0.toNat]
def k1_off3 : Fin 1 → Nat :=
  let c0_i32_23_r0 : BitVec 32 := 0#32
  let c2_i32_r0 : BitVec 32 := 2#32
  let v35_r0 : BitVec 32 := Scalar.remui c0_i32_23_r0 c2_i32_r0
  ![v35_r0.toNat]
@[reducible] def k1_t1_loop (i : grid1.Coords) : Scf.Loop 32 :=
  let c0_i32_32_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let c1_i32_38_r0 : BitVec 32 := 1#32
  ⟨c0_i32_32_r0, v50_r0, c1_i32_38_r0⟩
def k1_off4 (arg6_r0 : BitVec 32) : Fin 3 → Nat :=
  let c2_i32_106_r0 : BitVec 32 := 2#32
  let v172_r0 : BitVec 32 := Scalar.remui arg6_r0 c2_i32_106_r0
  let c0_i32_108_r0 : BitVec 32 := 0#32
  let c0_i32_109_r0 : BitVec 32 := 0#32
  ![v172_r0.toNat, 0, 0]
def k1_cond2 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let v97_r0 : BitVec 1 := Scalar.cmpi .eq v96_r0 v5
  let c0_i32_69_r0 : BitVec 32 := 0#32
  let v98_r0 : BitVec 32 := Scalar.select v97_r0 c0_i32_69_r0 v96_r0
  let v99_r0 : BitVec 32 := Scalar.addi v98_r0 v10
  let v105_r0 : BitVec 1 := Scalar.cmpi .ne v88_r0 v99_r0
  let c0_i32_32_r0 : BitVec 32 := 0#32
  let c1_i32_38_r0 : BitVec 32 := 1#32
  let arg5_r0 : BitVec 32 := Scf.iv c0_i32_32_r0 c1_i32_38_r0 k1_t1
  let c1_i32_60_r0 : BitVec 32 := 1#32
  let v84_r0 : BitVec 32 := Scalar.muli c1_i32_60_r0 v5
  let c2_i32_73_r0 : BitVec 32 := 2#32
  let v106_r0 : BitVec 32 := Scalar.subi v84_r0 c2_i32_73_r0
  let c1_i32_74_r0 : BitVec 32 := 1#32
  let v107_r0 : BitVec 32 := Scalar.addi v106_r0 c1_i32_74_r0
  let v108_r0 : BitVec 1 := Scalar.cmpi .sge arg5_r0 v107_r0
  let true_75_r0 : BitVec 1 := 1#1
  let v109_r0 : BitVec 1 := Scalar.xori v108_r0 true_75_r0
  let v110_r0 : BitVec 1 := Scalar.andi v105_r0 v109_r0
  let v111_r0 : BitVec 32 := Scalar.extui v110_r0
  let c0_i32_76_r0 : BitVec 32 := 0#32
  let v112_r0 : BitVec 1 := Scalar.cmpi .ne v111_r0 c0_i32_76_r0
  v112_r0

def k1_off5 (i : grid1.Coords) (arg10_r0 : BitVec 32) : Fin 2 → Nat :=
  let c0_i32_110_r0 : BitVec 32 := 0#32
  let c128_i32_107_r0 : BitVec 32 := 128#32
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v97_r0 : BitVec 1 := Scalar.cmpi .eq v96_r0 v5
  let c0_i32_69_r0 : BitVec 32 := 0#32
  let v98_r0 : BitVec 32 := Scalar.select v97_r0 c0_i32_69_r0 v96_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v99_r0 : BitVec 32 := Scalar.addi v98_r0 v10
  let v173_r0 : BitVec 32 := Scalar.muli c128_i32_107_r0 v99_r0
  ![0, v173_r0.toNat]
def k1_off6 (arg6_r0 : BitVec 32) : Fin 1 → Nat :=
  let c2_i32_106_r0 : BitVec 32 := 2#32
  let v172_r0 : BitVec 32 := Scalar.remui arg6_r0 c2_i32_106_r0
  ![v172_r0.toNat]
def k1_off7 (arg7_r0 : BitVec 32) : Fin 3 → Nat :=
  let c2_i32_107_r0 : BitVec 32 := 2#32
  let v173_r0 : BitVec 32 := Scalar.remui arg7_r0 c2_i32_107_r0
  let c0_i32_108_r0 : BitVec 32 := 0#32
  let c0_i32_109_r0 : BitVec 32 := 0#32
  ![v173_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c1_i32_66_r0 : BitVec 32 := 1#32
  let v92_r0 : BitVec 32 := Scalar.subi v5 c1_i32_66_r0
  let v93_r0 : BitVec 32 := Scalar.select v91_r0 v92_r0 v90_r0
  let v94_r0 : BitVec 32 := Scalar.addi v93_r0 v10
  let v122_r0 : BitVec 1 := Scalar.cmpi .ne v88_r0 v94_r0
  let c0_i32_32_r0 : BitVec 32 := 0#32
  let c1_i32_38_r0 : BitVec 32 := 1#32
  let arg5_r0 : BitVec 32 := Scf.iv c0_i32_32_r0 c1_i32_38_r0 k1_t1
  let c0_i32_61_r0 : BitVec 32 := 0#32
  let v85_r0 : BitVec 1 := Scalar.cmpi .eq arg5_r0 c0_i32_61_r0
  let v123_r0 : BitVec 1 := Scalar.ori v122_r0 v85_r0
  let c0_i32_82_r0 : BitVec 32 := 0#32
  let v124_r0 : BitVec 1 := Scalar.cmpi .slt arg5_r0 c0_i32_82_r0
  let true_83_r0 : BitVec 1 := 1#1
  let v125_r0 : BitVec 1 := Scalar.xori v124_r0 true_83_r0
  let v126_r0 : BitVec 1 := Scalar.andi v123_r0 v125_r0
  let v127_r0 : BitVec 32 := Scalar.extui v126_r0
  let c0_i32_84_r0 : BitVec 32 := 0#32
  let v128_r0 : BitVec 1 := Scalar.cmpi .ne v127_r0 c0_i32_84_r0
  v128_r0

def k1_off8 (i : grid1.Coords) (arg10_r0 : BitVec 32) : Fin 2 → Nat :=
  let c0_i32_110_r0 : BitVec 32 := 0#32
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let v172_r0 : BitVec 32 := Scalar.muli c128_i32_106_r0 v88_r0
  ![0, v172_r0.toNat]
def k1_off9 (arg7_r0 : BitVec 32) : Fin 1 → Nat :=
  let c2_i32_107_r0 : BitVec 32 := 2#32
  let v173_r0 : BitVec 32 := Scalar.remui arg7_r0 c2_i32_107_r0
  ![v173_r0.toNat]
def k1_off10 (arg8_r0 : BitVec 32) : Fin 3 → Nat :=
  let c2_i32_89_r0 : BitVec 32 := 2#32
  let v137_r0 : BitVec 32 := Scalar.remui arg8_r0 c2_i32_89_r0
  let c0_i32_106_r1 : BitVec 32 := 0#32
  let c0_i32_107_r1 : BitVec 32 := 0#32
  ![v137_r0.toNat, 0, 0]

def k1_chk2 (i : grid1.Coords) (arg8_r0 : BitVec 32) : Prop :=
  (∀ (k1_h1 : k1_cond1 i = 1#1), ∀ a, (k1_off10 arg8_r0) a + S1x128x128.size a ≤ S2x128x128.size a)
instance k1_chk2.dec : ∀ (i : grid1.Coords) (arg8_r0 : BitVec 32), Decidable (k1_chk2 i arg8_r0) := fun i arg8_r0 => decidable_of_iff' _ (Iff.of_eq (k1_chk2.eq_1 i arg8_r0))
theorem k1_off10_inb : ∀ (i : grid1.Coords) (arg8_r0 : BitVec 32) (k1_hw2 : k1_chk2 i arg8_r0), ∀ (k1_h1 : k1_cond1 i = 1#1), ∀ a, (k1_off10 arg8_r0) a + S1x128x128.size a ≤ S2x128x128.size a := fun i arg8_r0 k1_hw2 k1_h1 => k1_hw2 k1_h1

def k1_off11 (arg7_r0 : BitVec 32) : Fin 3 → Nat :=
  let c2_i32_88_r0 : BitVec 32 := 2#32
  let v136_r0 : BitVec 32 := Scalar.remui arg7_r0 c2_i32_88_r0
  let c0_i32_108_r1 : BitVec 32 := 0#32
  let c0_i32_109_r1 : BitVec 32 := 0#32
  ![v136_r0.toNat, 0, 0]

def k1_chk3 (i : grid1.Coords) (arg7_r0 : BitVec 32) : Prop :=
  (∀ (k1_h1 : k1_cond1 i = 1#1), ∀ a, (k1_off11 arg7_r0) a + S1x1x128.size a ≤ S2x1x128.size a)
instance k1_chk3.dec : ∀ (i : grid1.Coords) (arg7_r0 : BitVec 32), Decidable (k1_chk3 i arg7_r0) := fun i arg7_r0 => decidable_of_iff' _ (Iff.of_eq (k1_chk3.eq_1 i arg7_r0))
theorem k1_off11_inb : ∀ (i : grid1.Coords) (arg7_r0 : BitVec 32) (k1_hw3 : k1_chk3 i arg7_r0), ∀ (k1_h1 : k1_cond1 i = 1#1), ∀ a, (k1_off11 arg7_r0) a + S1x1x128.size a ≤ S2x1x128.size a := fun i arg7_r0 k1_hw3 k1_h1 => k1_hw3 k1_h1

def k1_off12 (arg8_r0 : BitVec 32) : Fin 3 → Nat :=
  let c2_i32_106_r0 : BitVec 32 := 2#32
  let v172_r0 : BitVec 32 := Scalar.remui arg8_r0 c2_i32_106_r0
  let c0_i32_108_r0 : BitVec 32 := 0#32
  let c0_i32_109_r0 : BitVec 32 := 0#32
  ![v172_r0.toNat, 0, 0]
def k1_cond6 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let v97_r0 : BitVec 1 := Scalar.cmpi .eq v96_r0 v5
  let c0_i32_69_r0 : BitVec 32 := 0#32
  let v98_r0 : BitVec 32 := Scalar.select v97_r0 c0_i32_69_r0 v96_r0
  let v99_r0 : BitVec 32 := Scalar.addi v98_r0 v10
  let v143_r0 : BitVec 1 := Scalar.cmpi .ne v88_r0 v99_r0
  let c0_i32_32_r0 : BitVec 32 := 0#32
  let c1_i32_38_r0 : BitVec 32 := 1#32
  let arg5_r0 : BitVec 32 := Scf.iv c0_i32_32_r0 c1_i32_38_r0 k1_t1
  let c1_i32_60_r0 : BitVec 32 := 1#32
  let v84_r0 : BitVec 32 := Scalar.muli c1_i32_60_r0 v5
  let c1_i32_62_r0 : BitVec 32 := 1#32
  let v86_r0 : BitVec 32 := Scalar.subi v84_r0 c1_i32_62_r0
  let v87_r0 : BitVec 1 := Scalar.cmpi .eq arg5_r0 v86_r0
  let v144_r0 : BitVec 1 := Scalar.ori v143_r0 v87_r0
  let v145_r0 : BitVec 32 := Scalar.extui v144_r0
  let c0_i32_92_r0 : BitVec 32 := 0#32
  let v146_r0 : BitVec 1 := Scalar.cmpi .ne v145_r0 c0_i32_92_r0
  v146_r0

def k1_off13 (i : grid1.Coords) (arg10_r0 : BitVec 32) : Fin 2 → Nat :=
  let c128_i32_107_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let v173_r0 : BitVec 32 := Scalar.muli c128_i32_107_r0 v88_r0
  let c0_i32_110_r0 : BitVec 32 := 0#32
  ![v173_r0.toNat, 0]
def k1_off14 (arg8_r0 : BitVec 32) : Fin 1 → Nat :=
  let c2_i32_106_r0 : BitVec 32 := 2#32
  let v172_r0 : BitVec 32 := Scalar.remui arg8_r0 c2_i32_106_r0
  ![v172_r0.toNat]
def k1_off15 (arg9_r0 : BitVec 32) : Fin 3 → Nat :=
  let c2_i32_106_r0 : BitVec 32 := 2#32
  let v172_r0 : BitVec 32 := Scalar.remui arg9_r0 c2_i32_106_r0
  let c0_i32_108_r0 : BitVec 32 := 0#32
  let c0_i32_109_r0 : BitVec 32 := 0#32
  ![v172_r0.toNat, 0, 0]
def k1_cond8 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c1_i32_66_r0 : BitVec 32 := 1#32
  let v92_r0 : BitVec 32 := Scalar.subi v5 c1_i32_66_r0
  let v93_r0 : BitVec 32 := Scalar.select v91_r0 v92_r0 v90_r0
  let v94_r0 : BitVec 32 := Scalar.addi v93_r0 v10
  let v156_r0 : BitVec 1 := Scalar.cmpi .ne v88_r0 v94_r0
  let c0_i32_32_r0 : BitVec 32 := 0#32
  let c1_i32_38_r0 : BitVec 32 := 1#32
  let arg5_r0 : BitVec 32 := Scf.iv c0_i32_32_r0 c1_i32_38_r0 k1_t1
  let c0_i32_61_r0 : BitVec 32 := 0#32
  let v85_r0 : BitVec 1 := Scalar.cmpi .eq arg5_r0 c0_i32_61_r0
  let true_98_r0 : BitVec 1 := 1#1
  let v157_r0 : BitVec 1 := Scalar.xori v85_r0 true_98_r0
  let v158_r0 : BitVec 1 := Scalar.andi v156_r0 v157_r0
  let v159_r0 : BitVec 32 := Scalar.extui v158_r0
  let c0_i32_99_r0 : BitVec 32 := 0#32
  let v160_r0 : BitVec 1 := Scalar.cmpi .ne v159_r0 c0_i32_99_r0
  v160_r0

def k1_off16 (i : grid1.Coords) (arg10_r0 : BitVec 32) : Fin 2 → Nat :=
  let c128_i32_107_r0 : BitVec 32 := 128#32
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_66_r0 : BitVec 32 := 1#32
  let v92_r0 : BitVec 32 := Scalar.subi v5 c1_i32_66_r0
  let v93_r0 : BitVec 32 := Scalar.select v91_r0 v92_r0 v90_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v94_r0 : BitVec 32 := Scalar.addi v93_r0 v10
  let v173_r0 : BitVec 32 := Scalar.muli c128_i32_107_r0 v94_r0
  let c0_i32_110_r0 : BitVec 32 := 0#32
  ![v173_r0.toNat, 0]
def k1_off17 (arg9_r0 : BitVec 32) : Fin 1 → Nat :=
  let c2_i32_106_r0 : BitVec 32 := 2#32
  let v172_r0 : BitVec 32 := Scalar.remui arg9_r0 c2_i32_106_r0
  ![v172_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h2 : k1_cond2 i k1_t1 arg10_r0 = 1#1), ∀ a, (k1_off4 arg6_r0) a + S1x1x128.size a ≤ S2x1x128.size a) ∧
  (∀ (k1_h1 : k1_cond1 i = 1#1), ∀ (k1_h2 : k1_cond2 i k1_t1 arg10_r0 = 1#1), ∀ a, (k1_off5 i arg10_r0) a + S1x128.size a ≤ S1x1024.size a) ∧
  (∀ (k1_h1 : k1_cond1 i = 1#1), ∀ (k1_h2 : k1_cond2 i k1_t1 arg10_r0 = 1#1), ∀ a, (k1_off6 arg6_r0) a + S1.size a ≤ S2.size a) ∧
  (∀ (k1_h1 : k1_cond1 i = 1#1), ∀ (k1_h3 : k1_cond3 i k1_t1 arg10_r0 = 1#1), ∀ a, (k1_off7 arg7_r0) a + S1x1x128.size a ≤ S2x1x128.size a) ∧
  (∀ (k1_h1 : k1_cond1 i = 1#1), ∀ (k1_h3 : k1_cond3 i k1_t1 arg10_r0 = 1#1), ∀ a, (k1_off8 i arg10_r0) a + S1x128.size a ≤ S1x1024.size a) ∧
  (∀ (k1_h1 : k1_cond1 i = 1#1), ∀ (k1_h3 : k1_cond3 i k1_t1 arg10_r0 = 1#1), ∀ a, (k1_off9 arg7_r0) a + S1.size a ≤ S2.size a) ∧
  (∀ (k1_h1 : k1_cond1 i = 1#1), ∀ (k1_h6 : k1_cond6 i k1_t1 arg10_r0 = 1#1), ∀ a, (k1_off12 arg8_r0) a + S1x128x128.size a ≤ S2x128x128.size a) ∧
  (∀ (k1_h1 : k1_cond1 i = 1#1), ∀ (k1_h6 : k1_cond6 i k1_t1 arg10_r0 = 1#1), ∀ a, (k1_off13 i arg10_r0) a + S128x128.size a ≤ S1024x128.size a) ∧
  (∀ (k1_h1 : k1_cond1 i = 1#1), ∀ (k1_h6 : k1_cond6 i k1_t1 arg10_r0 = 1#1), ∀ a, (k1_off14 arg8_r0) a + S1.size a ≤ S2.size a) ∧
  (∀ (k1_h1 : k1_cond1 i = 1#1), ∀ (k1_h8 : k1_cond8 i k1_t1 arg10_r0 = 1#1), ∀ a, (k1_off15 arg9_r0) a + S1x128x128.size a ≤ S2x128x128.size a) ∧
  (∀ (k1_h1 : k1_cond1 i = 1#1), ∀ (k1_h8 : k1_cond8 i k1_t1 arg10_r0 = 1#1), ∀ a, (k1_off16 i arg10_r0) a + S128x128.size a ≤ S1024x128.size a) ∧
  (∀ (k1_h1 : k1_cond1 i = 1#1), ∀ (k1_h8 : k1_cond8 i k1_t1 arg10_r0 = 1#1), ∀ a, (k1_off17 arg9_r0) a + S1.size a ≤ S2.size a)
instance k1_chk1.dec : ∀ (i : grid1.Coords) (k1_t1 : Fin (k1_t1_loop i).trips) (arg6_r0 : BitVec 32) (arg7_r0 : BitVec 32) (arg8_r0 : BitVec 32) (arg9_r0 : BitVec 32) (arg10_r0 : BitVec 32), Decidable (k1_chk1 i k1_t1 arg6_r0 arg7_r0 arg8_r0 arg9_r0 arg10_r0) := fun i k1_t1 arg6_r0 arg7_r0 arg8_r0 arg9_r0 arg10_r0 => decidable_of_iff' _ (Iff.of_eq (k1_chk1.eq_1 i k1_t1 arg6_r0 arg7_r0 arg8_r0 arg9_r0 arg10_r0))
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h2 => k1_hw1.1 k1_h1 k1_h2
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off5 i arg10_r0) a + S1x128.size a ≤ S1x1024.size a := fun i k1_t1 arg6_r0 arg7_r0 arg8_r0 arg9_r0 arg10_r0 k1_hw1 k1_h1 k1_h2 => k1_hw1.2.1 k1_h1 k1_h2
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off6 arg6_r0) a + S1.size a ≤ S2.size a := fun i k1_t1 arg6_r0 arg7_r0 arg8_r0 arg9_r0 arg10_r0 k1_hw1 k1_h1 k1_h2 => k1_hw1.2.2.1 k1_h1 k1_h2
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h3 => k1_hw1.2.2.2.1 k1_h1 k1_h3
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off8 i arg10_r0) a + S1x128.size a ≤ S1x1024.size a := fun i k1_t1 arg6_r0 arg7_r0 arg8_r0 arg9_r0 arg10_r0 k1_hw1 k1_h1 k1_h3 => k1_hw1.2.2.2.2.1 k1_h1 k1_h3
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off9 arg7_r0) a + S1.size a ≤ S2.size a := fun i k1_t1 arg6_r0 arg7_r0 arg8_r0 arg9_r0 arg10_r0 k1_hw1 k1_h1 k1_h3 => k1_hw1.2.2.2.2.2.1 k1_h1 k1_h3
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h6 => k1_hw1.2.2.2.2.2.2.1 k1_h1 k1_h6
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off13 i arg10_r0) a + S128x128.size a ≤ S1024x128.size a := fun i k1_t1 arg6_r0 arg7_r0 arg8_r0 arg9_r0 arg10_r0 k1_hw1 k1_h1 k1_h6 => k1_hw1.2.2.2.2.2.2.2.1 k1_h1 k1_h6
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off14 arg8_r0) a + S1.size a ≤ S2.size a := fun i k1_t1 arg6_r0 arg7_r0 arg8_r0 arg9_r0 arg10_r0 k1_hw1 k1_h1 k1_h6 => k1_hw1.2.2.2.2.2.2.2.2.1 k1_h1 k1_h6
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h8 => k1_hw1.2.2.2.2.2.2.2.2.2.1 k1_h1 k1_h8
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off16 i arg10_r0) a + S128x128.size a ≤ S1024x128.size a := fun i k1_t1 arg6_r0 arg7_r0 arg8_r0 arg9_r0 arg10_r0 k1_hw1 k1_h1 k1_h8 => k1_hw1.2.2.2.2.2.2.2.2.2.2.1 k1_h1 k1_h8
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off17 arg9_r0) a + S1.size a ≤ S2.size a := fun i k1_t1 arg6_r0 arg7_r0 arg8_r0 arg9_r0 arg10_r0 k1_hw1 k1_h1 k1_h8 => k1_hw1.2.2.2.2.2.2.2.2.2.2.2 k1_h1 k1_h8

@[reducible] def k1_t2_loop (i : grid1.Coords) : Scf.Loop 32 :=
  let c0_i32_32_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let v47_r0 : BitVec 32 := Scalar.addi c0_i32_32_r0 v46_r0
  let c1_i32_39_r0 : BitVec 32 := 1#32
  ⟨v50_r0, v47_r0, c1_i32_39_r0⟩
def k1_off18 (arg6_r0 : BitVec 32) : Fin 3 → Nat :=
  let c2_i32_106_r0 : BitVec 32 := 2#32
  let v172_r0 : BitVec 32 := Scalar.remui arg6_r0 c2_i32_106_r0
  let c0_i32_108_r0 : BitVec 32 := 0#32
  let c0_i32_109_r0 : BitVec 32 := 0#32
  ![v172_r0.toNat, 0, 0]
def k1_cond9 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let v97_r0 : BitVec 1 := Scalar.cmpi .eq v96_r0 v5
  let c0_i32_69_r0 : BitVec 32 := 0#32
  let v98_r0 : BitVec 32 := Scalar.select v97_r0 c0_i32_69_r0 v96_r0
  let v99_r0 : BitVec 32 := Scalar.addi v98_r0 v10
  let v105_r0 : BitVec 1 := Scalar.cmpi .ne v88_r0 v99_r0
  let c0_i32_32_r0 : BitVec 32 := 0#32
  let c1_i32_5 : BitVec 32 := 1#32
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let c1_i32_39_r0 : BitVec 32 := 1#32
  let arg5_r0 : BitVec 32 := Scf.iv v50_r0 c1_i32_39_r0 k1_t2
  let c1_i32_60_r0 : BitVec 32 := 1#32
  let v84_r0 : BitVec 32 := Scalar.muli c1_i32_60_r0 v5
  let c2_i32_73_r0 : BitVec 32 := 2#32
  let v106_r0 : BitVec 32 := Scalar.subi v84_r0 c2_i32_73_r0
  let c1_i32_74_r0 : BitVec 32 := 1#32
  let v107_r0 : BitVec 32 := Scalar.addi v106_r0 c1_i32_74_r0
  let v108_r0 : BitVec 1 := Scalar.cmpi .sge arg5_r0 v107_r0
  let true_75_r0 : BitVec 1 := 1#1
  let v109_r0 : BitVec 1 := Scalar.xori v108_r0 true_75_r0
  let v110_r0 : BitVec 1 := Scalar.andi v105_r0 v109_r0
  let v111_r0 : BitVec 32 := Scalar.extui v110_r0
  let c0_i32_76_r0 : BitVec 32 := 0#32
  let v112_r0 : BitVec 1 := Scalar.cmpi .ne v111_r0 c0_i32_76_r0
  v112_r0

def k1_off19 (i : grid1.Coords) (arg10_r0 : BitVec 32) : Fin 2 → Nat :=
  let c0_i32_110_r0 : BitVec 32 := 0#32
  let c128_i32_107_r0 : BitVec 32 := 128#32
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v97_r0 : BitVec 1 := Scalar.cmpi .eq v96_r0 v5
  let c0_i32_69_r0 : BitVec 32 := 0#32
  let v98_r0 : BitVec 32 := Scalar.select v97_r0 c0_i32_69_r0 v96_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v99_r0 : BitVec 32 := Scalar.addi v98_r0 v10
  let v173_r0 : BitVec 32 := Scalar.muli c128_i32_107_r0 v99_r0
  ![0, v173_r0.toNat]
def k1_off20 (arg6_r0 : BitVec 32) : Fin 1 → Nat :=
  let c2_i32_106_r0 : BitVec 32 := 2#32
  let v172_r0 : BitVec 32 := Scalar.remui arg6_r0 c2_i32_106_r0
  ![v172_r0.toNat]
def k1_off21 (arg7_r0 : BitVec 32) : Fin 3 → Nat :=
  let c2_i32_107_r0 : BitVec 32 := 2#32
  let v173_r0 : BitVec 32 := Scalar.remui arg7_r0 c2_i32_107_r0
  let c0_i32_108_r0 : BitVec 32 := 0#32
  let c0_i32_109_r0 : BitVec 32 := 0#32
  ![v173_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c1_i32_66_r0 : BitVec 32 := 1#32
  let v92_r0 : BitVec 32 := Scalar.subi v5 c1_i32_66_r0
  let v93_r0 : BitVec 32 := Scalar.select v91_r0 v92_r0 v90_r0
  let v94_r0 : BitVec 32 := Scalar.addi v93_r0 v10
  let v122_r0 : BitVec 1 := Scalar.cmpi .ne v88_r0 v94_r0
  let c0_i32_32_r0 : BitVec 32 := 0#32
  let c1_i32_5 : BitVec 32 := 1#32
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let c1_i32_39_r0 : BitVec 32 := 1#32
  let arg5_r0 : BitVec 32 := Scf.iv v50_r0 c1_i32_39_r0 k1_t2
  let c0_i32_61_r0 : BitVec 32 := 0#32
  let v85_r0 : BitVec 1 := Scalar.cmpi .eq arg5_r0 c0_i32_61_r0
  let v123_r0 : BitVec 1 := Scalar.ori v122_r0 v85_r0
  let c0_i32_82_r0 : BitVec 32 := 0#32
  let v124_r0 : BitVec 1 := Scalar.cmpi .slt arg5_r0 c0_i32_82_r0
  let true_83_r0 : BitVec 1 := 1#1
  let v125_r0 : BitVec 1 := Scalar.xori v124_r0 true_83_r0
  let v126_r0 : BitVec 1 := Scalar.andi v123_r0 v125_r0
  let v127_r0 : BitVec 32 := Scalar.extui v126_r0
  let c0_i32_84_r0 : BitVec 32 := 0#32
  let v128_r0 : BitVec 1 := Scalar.cmpi .ne v127_r0 c0_i32_84_r0
  v128_r0

def k1_off22 (i : grid1.Coords) (arg10_r0 : BitVec 32) : Fin 2 → Nat :=
  let c0_i32_110_r0 : BitVec 32 := 0#32
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let v172_r0 : BitVec 32 := Scalar.muli c128_i32_106_r0 v88_r0
  ![0, v172_r0.toNat]
def k1_off23 (arg7_r0 : BitVec 32) : Fin 1 → Nat :=
  let c2_i32_107_r0 : BitVec 32 := 2#32
  let v173_r0 : BitVec 32 := Scalar.remui arg7_r0 c2_i32_107_r0
  ![v173_r0.toNat]
def k1_off24 (arg8_r0 : BitVec 32) : Fin 3 → Nat :=
  let c2_i32_89_r0 : BitVec 32 := 2#32
  let v137_r0 : BitVec 32 := Scalar.remui arg8_r0 c2_i32_89_r0
  let c0_i32_106_r2 : BitVec 32 := 0#32
  let c0_i32_107_r2 : BitVec 32 := 0#32
  ![v137_r0.toNat, 0, 0]

def k1_chk5 (i : grid1.Coords) (arg8_r0 : BitVec 32) : Prop :=
  (∀ (k1_h1 : k1_cond1 i = 1#1), ∀ a, (k1_off24 arg8_r0) a + S1x128x128.size a ≤ S2x128x128.size a)
instance k1_chk5.dec : ∀ (i : grid1.Coords) (arg8_r0 : BitVec 32), Decidable (k1_chk5 i arg8_r0) := fun i arg8_r0 => decidable_of_iff' _ (Iff.of_eq (k1_chk5.eq_1 i arg8_r0))
theorem k1_off24_inb : ∀ (i : grid1.Coords) (arg8_r0 : BitVec 32) (k1_hw5 : k1_chk5 i arg8_r0), ∀ (k1_h1 : k1_cond1 i = 1#1), ∀ a, (k1_off24 arg8_r0) a + S1x128x128.size a ≤ S2x128x128.size a := fun i arg8_r0 k1_hw5 k1_h1 => k1_hw5 k1_h1

def k1_off25 (arg7_r0 : BitVec 32) : Fin 3 → Nat :=
  let c2_i32_88_r0 : BitVec 32 := 2#32
  let v136_r0 : BitVec 32 := Scalar.remui arg7_r0 c2_i32_88_r0
  let c0_i32_108_r2 : BitVec 32 := 0#32
  let c0_i32_109_r2 : BitVec 32 := 0#32
  ![v136_r0.toNat, 0, 0]

def k1_chk6 (i : grid1.Coords) (arg7_r0 : BitVec 32) : Prop :=
  (∀ (k1_h1 : k1_cond1 i = 1#1), ∀ a, (k1_off25 arg7_r0) a + S1x1x128.size a ≤ S2x1x128.size a)
instance k1_chk6.dec : ∀ (i : grid1.Coords) (arg7_r0 : BitVec 32), Decidable (k1_chk6 i arg7_r0) := fun i arg7_r0 => decidable_of_iff' _ (Iff.of_eq (k1_chk6.eq_1 i arg7_r0))
theorem k1_off25_inb : ∀ (i : grid1.Coords) (arg7_r0 : BitVec 32) (k1_hw6 : k1_chk6 i arg7_r0), ∀ (k1_h1 : k1_cond1 i = 1#1), ∀ a, (k1_off25 arg7_r0) a + S1x1x128.size a ≤ S2x1x128.size a := fun i arg7_r0 k1_hw6 k1_h1 => k1_hw6 k1_h1

def k1_off26 (arg8_r0 : BitVec 32) : Fin 3 → Nat :=
  let c2_i32_106_r0 : BitVec 32 := 2#32
  let v172_r0 : BitVec 32 := Scalar.remui arg8_r0 c2_i32_106_r0
  let c0_i32_108_r0 : BitVec 32 := 0#32
  let c0_i32_109_r0 : BitVec 32 := 0#32
  ![v172_r0.toNat, 0, 0]
def k1_cond13 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_68_r0 : BitVec 1 := 1#1
  let c1_i32_67_r0 : BitVec 32 := 1#32
  let v95_r0 : BitVec 32 := Scalar.addi arg10_r0 c1_i32_67_r0
  let v96_r0 : BitVec 32 := Scalar.select true_68_r0 v95_r0 arg10_r0
  let v97_r0 : BitVec 1 := Scalar.cmpi .eq v96_r0 v5
  let c0_i32_69_r0 : BitVec 32 := 0#32
  let v98_r0 : BitVec 32 := Scalar.select v97_r0 c0_i32_69_r0 v96_r0
  let v99_r0 : BitVec 32 := Scalar.addi v98_r0 v10
  let v143_r0 : BitVec 1 := Scalar.cmpi .ne v88_r0 v99_r0
  let c0_i32_32_r0 : BitVec 32 := 0#32
  let c1_i32_5 : BitVec 32 := 1#32
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let c1_i32_39_r0 : BitVec 32 := 1#32
  let arg5_r0 : BitVec 32 := Scf.iv v50_r0 c1_i32_39_r0 k1_t2
  let c1_i32_60_r0 : BitVec 32 := 1#32
  let v84_r0 : BitVec 32 := Scalar.muli c1_i32_60_r0 v5
  let c1_i32_62_r0 : BitVec 32 := 1#32
  let v86_r0 : BitVec 32 := Scalar.subi v84_r0 c1_i32_62_r0
  let v87_r0 : BitVec 1 := Scalar.cmpi .eq arg5_r0 v86_r0
  let v144_r0 : BitVec 1 := Scalar.ori v143_r0 v87_r0
  let v145_r0 : BitVec 32 := Scalar.extui v144_r0
  let c0_i32_92_r0 : BitVec 32 := 0#32
  let v146_r0 : BitVec 1 := Scalar.cmpi .ne v145_r0 c0_i32_92_r0
  v146_r0

def k1_off27 (i : grid1.Coords) (arg10_r0 : BitVec 32) : Fin 2 → Nat :=
  let c128_i32_107_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let v173_r0 : BitVec 32 := Scalar.muli c128_i32_107_r0 v88_r0
  let c0_i32_110_r0 : BitVec 32 := 0#32
  ![v173_r0.toNat, 0]
def k1_off28 (arg8_r0 : BitVec 32) : Fin 1 → Nat :=
  let c2_i32_106_r0 : BitVec 32 := 2#32
  let v172_r0 : BitVec 32 := Scalar.remui arg8_r0 c2_i32_106_r0
  ![v172_r0.toNat]
def k1_off29 (arg9_r0 : BitVec 32) : Fin 3 → Nat :=
  let c2_i32_106_r0 : BitVec 32 := 2#32
  let v172_r0 : BitVec 32 := Scalar.remui arg9_r0 c2_i32_106_r0
  let c0_i32_108_r0 : BitVec 32 := 0#32
  let c0_i32_109_r0 : BitVec 32 := 0#32
  ![v172_r0.toNat, 0, 0]
def k1_cond15 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v88_r0 : BitVec 32 := Scalar.addi arg10_r0 v10
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c1_i32_66_r0 : BitVec 32 := 1#32
  let v92_r0 : BitVec 32 := Scalar.subi v5 c1_i32_66_r0
  let v93_r0 : BitVec 32 := Scalar.select v91_r0 v92_r0 v90_r0
  let v94_r0 : BitVec 32 := Scalar.addi v93_r0 v10
  let v156_r0 : BitVec 1 := Scalar.cmpi .ne v88_r0 v94_r0
  let c0_i32_32_r0 : BitVec 32 := 0#32
  let c1_i32_5 : BitVec 32 := 1#32
  let v11 : BitVec 32 := Scalar.muli c1_i32_5 v5
  let v46_r0 : BitVec 32 := Scalar.subi v11 c0_i32_32_r0
  let c1_i32_37_r0 : BitVec 32 := 1#32
  let v48_r0 : BitVec 32 := Scalar.divsi v46_r0 c1_i32_37_r0
  let v49_r0 : BitVec 32 := Scalar.muli v48_r0 c1_i32_37_r0
  let v50_r0 : BitVec 32 := Scalar.addi c0_i32_32_r0 v49_r0
  let c1_i32_39_r0 : BitVec 32 := 1#32
  let arg5_r0 : BitVec 32 := Scf.iv v50_r0 c1_i32_39_r0 k1_t2
  let c0_i32_61_r0 : BitVec 32 := 0#32
  let v85_r0 : BitVec 1 := Scalar.cmpi .eq arg5_r0 c0_i32_61_r0
  let true_98_r0 : BitVec 1 := 1#1
  let v157_r0 : BitVec 1 := Scalar.xori v85_r0 true_98_r0
  let v158_r0 : BitVec 1 := Scalar.andi v156_r0 v157_r0
  let v159_r0 : BitVec 32 := Scalar.extui v158_r0
  let c0_i32_99_r0 : BitVec 32 := 0#32
  let v160_r0 : BitVec 1 := Scalar.cmpi .ne v159_r0 c0_i32_99_r0
  v160_r0

def k1_off30 (i : grid1.Coords) (arg10_r0 : BitVec 32) : Fin 2 → Nat :=
  let c128_i32_107_r0 : BitVec 32 := 128#32
  let true_64_r0 : BitVec 1 := 1#1
  let c1_i32_63_r0 : BitVec 32 := 1#32
  let v89_r0 : BitVec 32 := Scalar.subi arg10_r0 c1_i32_63_r0
  let v90_r0 : BitVec 32 := Scalar.select true_64_r0 v89_r0 arg10_r0
  let c_m1_i32_65_r0 : BitVec 32 := 4294967295#32
  let v91_r0 : BitVec 1 := Scalar.cmpi .eq v90_r0 c_m1_i32_65_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_66_r0 : BitVec 32 := 1#32
  let v92_r0 : BitVec 32 := Scalar.subi v5 c1_i32_66_r0
  let v93_r0 : BitVec 32 := Scalar.select v91_r0 v92_r0 v90_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v94_r0 : BitVec 32 := Scalar.addi v93_r0 v10
  let v173_r0 : BitVec 32 := Scalar.muli c128_i32_107_r0 v94_r0
  let c0_i32_110_r0 : BitVec 32 := 0#32
  ![v173_r0.toNat, 0]
def k1_off31 (arg9_r0 : BitVec 32) : Fin 1 → Nat :=
  let c2_i32_106_r0 : BitVec 32 := 2#32
  let v172_r0 : BitVec 32 := Scalar.remui arg9_r0 c2_i32_106_r0
  ![v172_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h9 : k1_cond9 i k1_t2 arg10_r0 = 1#1), ∀ a, (k1_off18 arg6_r0) a + S1x1x128.size a ≤ S2x1x128.size a) ∧
  (∀ (k1_h1 : k1_cond1 i = 1#1), ∀ (k1_h9 : k1_cond9 i k1_t2 arg10_r0 = 1#1), ∀ a, (k1_off19 i arg10_r0) a + S1x128.size a ≤ S1x1024.size a) ∧
  (∀ (k1_h1 : k1_cond1 i = 1#1), ∀ (k1_h9 : k1_cond9 i k1_t2 arg10_r0 = 1#1), ∀ a, (k1_off20 arg6_r0) a + S1.size a ≤ S2.size a) ∧
  (∀ (k1_h1 : k1_cond1 i = 1#1), ∀ (k1_h10 : k1_cond10 i k1_t2 arg10_r0 = 1#1), ∀ a, (k1_off21 arg7_r0) a + S1x1x128.size a ≤ S2x1x128.size a) ∧
  (∀ (k1_h1 : k1_cond1 i = 1#1), ∀ (k1_h10 : k1_cond10 i k1_t2 arg10_r0 = 1#1), ∀ a, (k1_off22 i arg10_r0) a + S1x128.size a ≤ S1x1024.size a) ∧
  (∀ (k1_h1 : k1_cond1 i = 1#1), ∀ (k1_h10 : k1_cond10 i k1_t2 arg10_r0 = 1#1), ∀ a, (k1_off23 arg7_r0) a + S1.size a ≤ S2.size a) ∧
  (∀ (k1_h1 : k1_cond1 i = 1#1), ∀ (k1_h13 : k1_cond13 i k1_t2 arg10_r0 = 1#1), ∀ a, (k1_off26 arg8_r0) a + S1x128x128.size a ≤ S2x128x128.size a) ∧
  (∀ (k1_h1 : k1_cond1 i = 1#1), ∀ (k1_h13 : k1_cond13 i k1_t2 arg10_r0 = 1#1), ∀ a, (k1_off27 i arg10_r0) a + S128x128.size a ≤ S1024x128.size a) ∧
  (∀ (k1_h1 : k1_cond1 i = 1#1), ∀ (k1_h13 : k1_cond13 i k1_t2 arg10_r0 = 1#1), ∀ a, (k1_off28 arg8_r0) a + S1.size a ≤ S2.size a) ∧
  (∀ (k1_h1 : k1_cond1 i = 1#1), ∀ (k1_h15 : k1_cond15 i k1_t2 arg10_r0 = 1#1), ∀ a, (k1_off29 arg9_r0) a + S1x128x128.size a ≤ S2x128x128.size a) ∧
  (∀ (k1_h1 : k1_cond1 i = 1#1), ∀ (k1_h15 : k1_cond15 i k1_t2 arg10_r0 = 1#1), ∀ a, (k1_off30 i arg10_r0) a + S128x128.size a ≤ S1024x128.size a) ∧
  (∀ (k1_h1 : k1_cond1 i = 1#1), ∀ (k1_h15 : k1_cond15 i k1_t2 arg10_r0 = 1#1), ∀ a, (k1_off31 arg9_r0) a + S1.size a ≤ S2.size a)
instance k1_chk4.dec : ∀ (i : grid1.Coords) (k1_t2 : Fin (k1_t2_loop i).trips) (arg6_r0 : BitVec 32) (arg7_r0 : BitVec 32) (arg8_r0 : BitVec 32) (arg9_r0 : BitVec 32) (arg10_r0 : BitVec 32), Decidable (k1_chk4 i k1_t2 arg6_r0 arg7_r0 arg8_r0 arg9_r0 arg10_r0) := fun i k1_t2 arg6_r0 arg7_r0 arg8_r0 arg9_r0 arg10_r0 => decidable_of_iff' _ (Iff.of_eq (k1_chk4.eq_1 i k1_t2 arg6_r0 arg7_r0 arg8_r0 arg9_r0 arg10_r0))
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h9 => k1_hw4.1 k1_h1 k1_h9
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off19 i arg10_r0) a + S1x128.size a ≤ S1x1024.size a := fun i k1_t2 arg6_r0 arg7_r0 arg8_r0 arg9_r0 arg10_r0 k1_hw4 k1_h1 k1_h9 => k1_hw4.2.1 k1_h1 k1_h9
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off20 arg6_r0) a + S1.size a ≤ S2.size a := fun i k1_t2 arg6_r0 arg7_r0 arg8_r0 arg9_r0 arg10_r0 k1_hw4 k1_h1 k1_h9 => k1_hw4.2.2.1 k1_h1 k1_h9
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h10 => k1_hw4.2.2.2.1 k1_h1 k1_h10
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off22 i arg10_r0) a + S1x128.size a ≤ S1x1024.size a := fun i k1_t2 arg6_r0 arg7_r0 arg8_r0 arg9_r0 arg10_r0 k1_hw4 k1_h1 k1_h10 => k1_hw4.2.2.2.2.1 k1_h1 k1_h10
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off23 arg7_r0) a + S1.size a ≤ S2.size a := fun i k1_t2 arg6_r0 arg7_r0 arg8_r0 arg9_r0 arg10_r0 k1_hw4 k1_h1 k1_h10 => k1_hw4.2.2.2.2.2.1 k1_h1 k1_h10
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h13 => k1_hw4.2.2.2.2.2.2.1 k1_h1 k1_h13
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off27 i arg10_r0) a + S128x128.size a ≤ S1024x128.size a := fun i k1_t2 arg6_r0 arg7_r0 arg8_r0 arg9_r0 arg10_r0 k1_hw4 k1_h1 k1_h13 => k1_hw4.2.2.2.2.2.2.2.1 k1_h1 k1_h13
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off28 arg8_r0) a + S1.size a ≤ S2.size a := fun i k1_t2 arg6_r0 arg7_r0 arg8_r0 arg9_r0 arg10_r0 k1_hw4 k1_h1 k1_h13 => k1_hw4.2.2.2.2.2.2.2.2.1 k1_h1 k1_h13
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h15 => k1_hw4.2.2.2.2.2.2.2.2.2.1 k1_h1 k1_h15
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off30 i arg10_r0) a + S128x128.size a ≤ S1024x128.size a := fun i k1_t2 arg6_r0 arg7_r0 arg8_r0 arg9_r0 arg10_r0 k1_hw4 k1_h1 k1_h15 => k1_hw4.2.2.2.2.2.2.2.2.2.2.1 k1_h1 k1_h15
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off31 arg9_r0) a + S1.size a ≤ S2.size a := fun i k1_t2 arg6_r0 arg7_r0 arg8_r0 arg9_r0 arg10_r0 k1_hw4 k1_h1 k1_h15 => k1_hw4.2.2.2.2.2.2.2.2.2.2.2 k1_h1 k1_h15

def k1_cond17 (i : grid1.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_44_r0 : BitVec 32 := 1#32
  let v58_r0 : BitVec 32 := Scalar.subi v11 c1_i32_44_r0
  let c1_i32_45_r0 : BitVec 32 := 1#32
  let v59_r0 : BitVec 32 := Scalar.muli c1_i32_45_r0 v5
  let c1_i32_47_r0 : BitVec 32 := 1#32
  let v61_r0 : BitVec 32 := Scalar.subi v59_r0 c1_i32_47_r0
  let v62_r0 : BitVec 1 := Scalar.cmpi .eq v58_r0 v61_r0
  let v82_r0 : BitVec 32 := Scalar.extui v62_r0
  let c0_i32_59_r0 : BitVec 32 := 0#32
  let v83_r0 : BitVec 1 := Scalar.cmpi .ne v82_r0 c0_i32_59_r0
  v83_r0

def k1_off32 (v52_3_r0 : BitVec 32) : Fin 3 → Nat :=
  let c2_i32_60_r0 : BitVec 32 := 2#32
  let v84_r0 : BitVec 32 := Scalar.remui v52_3_r0 c2_i32_60_r0
  let c0_i32_62_r0 : BitVec 32 := 0#32
  let c0_i32_63_r0 : BitVec 32 := 0#32
  ![v84_r0.toNat, 0, 0]

def k1_off33 (i : grid1.Coords) (v52_4_r0 : BitVec 32) : Fin 2 → Nat :=
  let c128_i32_61_r0 : BitVec 32 := 128#32
  let true_41_r0 : BitVec 1 := 1#1
  let c1_i32_40_r0 : BitVec 32 := 1#32
  let v53_r0 : BitVec 32 := Scalar.subi v52_4_r0 c1_i32_40_r0
  let v54_r0 : BitVec 32 := Scalar.select true_41_r0 v53_r0 v52_4_r0
  let c_m1_i32_42_r0 : BitVec 32 := 4294967295#32
  let v55_r0 : BitVec 1 := Scalar.cmpi .eq v54_r0 c_m1_i32_42_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_43_r0 : BitVec 32 := 1#32
  let v56_r0 : BitVec 32 := Scalar.subi v5 c1_i32_43_r0
  let v57_r0 : BitVec 32 := Scalar.select v55_r0 v56_r0 v54_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v63_r0 : BitVec 32 := Scalar.addi v57_r0 v10
  let v85_r0 : BitVec 32 := Scalar.muli c128_i32_61_r0 v63_r0
  let c0_i32_64_r0 : BitVec 32 := 0#32
  ![v85_r0.toNat, 0]

def k1_chk8 (i : grid1.Coords) (v52_4_r0 : BitVec 32) : Prop :=
  (∀ (k1_h1 : k1_cond1 i = 1#1), ∀ (k1_h17 : k1_cond17 i = 1#1), ∀ a, (k1_off33 i v52_4_r0) a + S128x128.size a ≤ S1024x128.size a)
instance k1_chk8.dec : ∀ (i : grid1.Coords) (v52_4_r0 : BitVec 32), Decidable (k1_chk8 i v52_4_r0) := fun i v52_4_r0 => decidable_of_iff' _ (Iff.of_eq (k1_chk8.eq_1 i v52_4_r0))
theorem k1_off33_inb : ∀ (i : grid1.Coords) (v52_4_r0 : BitVec 32) (k1_hw8 : k1_chk8 i v52_4_r0), ∀ (k1_h1 : k1_cond1 i = 1#1), ∀ (k1_h17 : k1_cond17 i = 1#1), ∀ a, (k1_off33 i v52_4_r0) a + S128x128.size a ≤ S1024x128.size a := fun i v52_4_r0 k1_hw8 k1_h1 k1_h17 => k1_hw8 k1_h1 k1_h17

def k1_off34 (v52_3_r0 : BitVec 32) : Fin 1 → Nat :=
  let c2_i32_60_r0 : BitVec 32 := 2#32
  let v84_r0 : BitVec 32 := Scalar.remui v52_3_r0 c2_i32_60_r0
  ![v84_r0.toNat]
def k1_off35 (v52_3_r0 : BitVec 32) : Fin 3 → Nat :=
  let c2_i32_60_r0 : BitVec 32 := 2#32
  let v84_r0 : BitVec 32 := Scalar.remui v52_3_r0 c2_i32_60_r0
  let c0_i32_66_r0 : BitVec 32 := 0#32
  let c0_i32_67_r0 : BitVec 32 := 0#32
  ![v84_r0.toNat, 0, 0]

def k1_chk7 (i : grid1.Coords) (v52_3_r0 : BitVec 32) : Prop :=
  (∀ (k1_h1 : k1_cond1 i = 1#1), ∀ (k1_h17 : k1_cond17 i = 1#1), ∀ a, (k1_off32 v52_3_r0) a + S1x128x128.size a ≤ S2x128x128.size a) ∧
  (∀ (k1_h1 : k1_cond1 i = 1#1), ∀ (k1_h17 : k1_cond17 i = 1#1), ∀ a, (k1_off34 v52_3_r0) a + S1.size a ≤ S2.size a) ∧
  (∀ (k1_h1 : k1_cond1 i = 1#1), ∀ (k1_h17 : k1_cond17 i = 1#1), ∀ a, (k1_off35 v52_3_r0) a + S1x128x128.size a ≤ S2x128x128.size a)
instance k1_chk7.dec : ∀ (i : grid1.Coords) (v52_3_r0 : BitVec 32), Decidable (k1_chk7 i v52_3_r0) := fun i v52_3_r0 => decidable_of_iff' _ (Iff.of_eq (k1_chk7.eq_1 i v52_3_r0))
theorem k1_off32_inb : ∀ (i : grid1.Coords) (v52_3_r0 : BitVec 32) (k1_hw7 : k1_chk7 i v52_3_r0), ∀ (k1_h1 : k1_cond1 i = 1#1), ∀ (k1_h17 : k1_cond17 i = 1#1), ∀ a, (k1_off32 v52_3_r0) a + S1x128x128.size a ≤ S2x128x128.size a := fun i v52_3_r0 k1_hw7 k1_h1 k1_h17 => k1_hw7.1 k1_h1 k1_h17
theorem k1_off34_inb : ∀ (i : grid1.Coords) (v52_3_r0 : BitVec 32) (k1_hw7 : k1_chk7 i v52_3_r0), ∀ (k1_h1 : k1_cond1 i = 1#1), ∀ (k1_h17 : k1_cond17 i = 1#1), ∀ a, (k1_off34 v52_3_r0) a + S1.size a ≤ S2.size a := fun i v52_3_r0 k1_hw7 k1_h1 k1_h17 => k1_hw7.2.1 k1_h1 k1_h17
theorem k1_off35_inb : ∀ (i : grid1.Coords) (v52_3_r0 : BitVec 32) (k1_hw7 : k1_chk7 i v52_3_r0), ∀ (k1_h1 : k1_cond1 i = 1#1), ∀ (k1_h17 : k1_cond17 i = 1#1), ∀ a, (k1_off35 v52_3_r0) a + S1x128x128.size a ≤ S2x128x128.size a := fun i v52_3_r0 k1_hw7 k1_h1 k1_h17 => k1_hw7.2.2 k1_h1 k1_h17

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S100000x64_S64x100000_1_0 : S100000x64.Transposes [1, 0] S64x100000
  iota_S64x64_d0_w32 : S64x64.Iotas .tc 32 [0]
  iota_S64x64_d1_w32 : S64x64.Iotas .tc 32 [1]
  natLt_1_32 : 1 < 32
  bitsLt_bf16_f32 : FTy.bits .bf16 < FTy.bits .f32
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  concatenates_S16384x64_S16384x64_S16384x128_d1 : Shape.Concatenates [S16384x64, S16384x64] S16384x128 1
  inb_S16384x128_S16384x128_0_0 : ∀ a, (![0, 0] : Fin 2 → Nat) a + S16384x128.size a ≤ S16384x128.size a
  h_S16384x128 : 0 < S16384x128.numel
  bcast_S_S1024 : S_.BroadcastsInDim S1024 (![] : Fin 0 → Fin S1024.rank)
  shapeCasts_S1024_S1x1024 : S1024.ShapeCasts S1x1024
  squeezes_S1x1x128_S1x128 : S1x1x128.Squeezes S1x128
  squeezes_S1_S_ : S1.Squeezes S_
  squeezes_S1x128x128_S128x128 : S1x128x128.Squeezes S128x128
  inb_S1x128_S1x128_0_0 : ∀ a, (![0, 0] : Fin 2 → Nat) a + S1x128.size a ≤ S1x128.size a
  squeezes_S1x128_S128 : S1x128.Squeezes S128
  inb_S65536x128_S65536x128_0_0 : ∀ a, (![0, 0] : Fin 2 → Nat) a + S65536x128.size a ≤ S65536x128.size a
  gathers_S65536x128_S128x128 : S65536x128.Gathers 0 S128x128
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x64_0_64 : ∀ a, (![0, 64] : Fin 2 → Nat) a + S1024x64.size a ≤ S1024x128.size a
  h_S1024x64 : 0 < S1024x64.numel
  shapeCasts_S1024x64_S1024x64 : S1024x64.ShapeCasts S1024x64
  inb_S1024x128_S1024x64_0_0 : ∀ a, (![0, 0] : Fin 2 → Nat) a + S1024x64.size a ≤ S1024x128.size a
  broadcasts_S1024x1_S1024x64 : S1024x1.Broadcasts S1024x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S64x16384_S64x64_S16384x64_0_0_1_1_n_n_wf : DotDims.WF S64x16384 S64x64 S16384x64 [0] [0] [1] [1] [] []
  dot_S64x4096_S1024x64_S4096x1024_0_1_1_0_n_n_wf : DotDims.WF S64x4096 S1024x64 S4096x1024 [0] [1] [1] [0] [] []
  hcc1_scoped1 : 6 + S2.numel ≤ 18
  hcc1_scoped3 : 8 + S2.numel ≤ 18
  hcc1_scoped4 : 10 + S_.numel ≤ 18
  hcc1_scoped5 : 11 + S_.numel ≤ 18
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16384.size a < S64x100000.size a
  hwx0_0 : ∀ i : grid0.Coords, EltTy.bits .f32 = 32 ∨ (Rect.unit (s := S64x100000) (fun a => cc0_transform_0 i a * S64x16384.size a) (fun a => (Pipeline.Clip.of (cc0_transform_0 i a) (S64x16384.size a) (S64x100000.size a)).extent (S64x16384.size a)) fun a => Pipeline.Clip.inb (Pipeline.Clip.ok_of (hstart0_0 i a))).WholeWords (EltTy.packing .f32)
  hwxs0_0 : ∀ i : grid0.Coords, EltTy.bits .f32 = 32 ∨ (Rect.unit (s := S64x16384) (fun _ => 0) (fun a => (Pipeline.Clip.of (cc0_transform_0 i a) (S64x16384.size a) (S64x100000.size a)).extent (S64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x16384.size a < S64x100000.size a
  hwx0_1 : ∀ i : grid0.Coords, EltTy.bits .f32 = 32 ∨ (Rect.unit (s := S64x100000) (fun a => cc0_transform_1 i a * S64x16384.size a) (fun a => (Pipeline.Clip.of (cc0_transform_1 i a) (S64x16384.size a) (S64x100000.size a)).extent (S64x16384.size a)) fun a => Pipeline.Clip.inb (Pipeline.Clip.ok_of (hstart0_1 i a))).WholeWords (EltTy.packing .f32)
  hwxs0_1 : ∀ i : grid0.Coords, EltTy.bits .f32 = 32 ∨ (Rect.unit (s := S64x16384) (fun _ => 0) (fun a => (Pipeline.Clip.of (cc0_transform_1 i a) (S64x16384.size a) (S64x100000.size a)).extent (S64x16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S65536x128.size a
  hwx0_2 : ∀ i : grid0.Coords, EltTy.bits .f32 = 32 ∨ (Rect.block (s := S65536x128) S16384x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, k1_off1 a + S1x1x128.size a ≤ S2x1x128.size a
  k1_off2_inb : ∀ i : grid1.Coords, ∀ (k1_h1 : k1_cond1 i = 1#1), ∀ a, (k1_off2 i) a + S1x128.size a ≤ S1x1024.size a
  k1_off3_inb : ∀ i : grid1.Coords, ∀ (k1_h1 : k1_cond1 i = 1#1), ∀ a, k1_off3 a + S1.size a ≤ S2.size a
  k1_t1_ok : ∀ i : grid1.Coords, ∀ (k1_h1 : k1_cond1 i = 1#1), (k1_t1_loop i).OK
  k1_t2_ok : ∀ i : grid1.Coords, ∀ (k1_h1 : k1_cond1 i = 1#1), (k1_t2_loop i).OK
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S64x4096.size a < S64x100000.size a
  hwx2_0 : ∀ i : grid2.Coords, EltTy.bits .f32 = 32 ∨ (Rect.unit (s := S64x100000) (fun a => cc2_transform_0 i a * S64x4096.size a) (fun a => (Pipeline.Clip.of (cc2_transform_0 i a) (S64x4096.size a) (S64x100000.size a)).extent (S64x4096.size a)) fun a => Pipeline.Clip.inb (Pipeline.Clip.ok_of (hstart2_0 i a))).WholeWords (EltTy.packing .f32)
  hwxs2_0 : ∀ i : grid2.Coords, EltTy.bits .f32 = 32 ∨ (Rect.unit (s := S64x4096) (fun _ => 0) (fun a => (Pipeline.Clip.of (cc2_transform_0 i a) (S64x4096.size a) (S64x100000.size a)).extent (S64x4096.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .i32 = 32 ∨ (Rect.block (s := S1024x1) S1024x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S4096x1024.size a < S100000x1024.size a
  hwx2_3 : ∀ i : grid2.Coords, EltTy.bits .f32 = 32 ∨ (Rect.unit (s := S100000x1024) (fun a => cc2_transform_3 i a * S4096x1024.size a) (fun a => (Pipeline.Clip.of (cc2_transform_3 i a) (S4096x1024.size a) (S100000x1024.size a)).extent (S4096x1024.size a)) fun a => Pipeline.Clip.inb (Pipeline.Clip.ok_of (hstart2_3 i a))).WholeWords (EltTy.packing .f32)
  hwxs2_3 : ∀ i : grid2.Coords, EltTy.bits .f32 = 32 ∨ (Rect.unit (s := S4096x1024) (fun _ => 0) (fun a => (Pipeline.Clip.of (cc2_transform_3 i a) (S4096x1024.size a) (S100000x1024.size a)).extent (S4096x1024.size a)) fun a => (Nat.zero_add _).trans_le (Pipeline.Clip.extent_le (Pipeline.Clip.ok_of (hstart2_3 i a)))).WholeWords (EltTy.packing .f32)

variable [Facts₀]

abbrev cc1_scoped1 : DmaSems sig S2 := SemArray.consecutive 6 S2 hcc1_scoped1
abbrev cc1_scoped3 : DmaSems sig S2 := SemArray.consecutive 8 S2 hcc1_scoped3
abbrev cc1_scoped4 : DmaSems sig S_ := SemArray.consecutive 10 S_ hcc1_scoped4
abbrev cc1_scoped5 : DmaSems sig S_ := SemArray.consecutive 11 S_ hcc1_scoped5
def dot_S64x16384_S64x64_S16384x64_0_0_1_1_n_n : DotDims S64x16384 S64x64 S16384x64 where
  lhsContracting := [0]
  rhsContracting := [0]
  lhsNonContracting := [1]
  rhsNonContracting := [1]
  lhsBatch := []
  rhsBatch := []
  wf := dot_S64x16384_S64x64_S16384x64_0_0_1_1_n_n_wf
def dot_S64x4096_S1024x64_S4096x1024_0_1_1_0_n_n : DotDims S64x4096 S1024x64 S4096x1024 where
  lhsContracting := [0]
  rhsContracting := [1]
  lhsNonContracting := [1]
  rhsNonContracting := [0]
  lhsBatch := []
  rhsBatch := []
  wf := dot_S64x4096_S1024x64_S4096x1024_0_1_1_0_n_n_wf

abbrev win0_0 : Pipeline.Window sig grid0 :=
  Pipeline.Window.ofSpecClip (Memref.whole main_v0) S64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpecClip (Memref.whole main_v13) S64x4096.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v8) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpecClip (Memref.whole main_v14) S4096x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩

abbrev nBuf : Space → Nat
  | .hbm => 28
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S1024x64, .f32⟩
  | .hbm, ⟨22, _⟩ => ⟨S1024x64, .i1⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S64x100000, .f32⟩
  | .hbm, ⟨27, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  transposes_S100000x64_S64x100000_1_0 : S100000x64.Transposes [1, 0] S64x100000
  gather_S100000x64_S1024x1_S1024x64_1_0_n_n_0_1_164_wf : GatherDims.WF S100000x64 S1024x1 S1024x64 [1] [0] [] [0] [] 1 ![1, 64]
  dot_S1024x64_S64x100000_S1024x100000_1_0_0_1_n_n_wf : DotDims.WF S1024x64 S64x100000 S1024x100000 [1] [0] [0] [1] [] []

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Setup.lean ====
/-
  The idealized kernel's program as the SparseCore launch theorem and the TensorCore region rules see it:
  the label signature, the body table, the variants, the resource algebra (the handshakes' rounds, the two
  TensorCore pipelines' rounds, the transfer counters) and its embeddings, and the launch's side facts.
  Everything here is generic in the float instance.
-/
import proofs.«218855_g90357521973776_cont_sun_m_356_26_alg».proof.Defs
import proofs.«218855_g90357521973776_cont_sun_m_356_26_alg».proof.Proof.Gen.KernelIdeal
import proofs.«218855_g90357521973776_cont_sun_m_356_26_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program: the kernels' and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipelines' rounds. -/
abbrev UP : Type := URounds (GSem nD τ sig) Unit
/-- The certificate's algebra: both, and the transfers' counters. -/
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KernelIdeal.Setup

end
-- ==== Proof.TileBody.lean ====
/-
  One tile's task of the gather kernel: the tile whose flat number (subcore + 16 * core) is below 8 copies its
  128 indices into slot 0 of its index scratch, gathers the rows they name out of the table into slot 0 of its row
  scratch, and copies that slot to its 128 rows of the result; every other tile returns at once.
-/
import proofs.«218855_g90357521973776_cont_sun_m_356_26_alg».proof.Proof.Setup
import proofs.«218855_g90357521973776_cont_sun_m_356_26_alg».proof.Proof.Gen.KernelIdeal.Skeleton
import Idealize.ShloMosaic.Lib.ValueIdx
import Idealize.ShloMosaic.Lib.Pipeline.TableIdle

noncomputable section

namespace Cert.KernelIdeal.TileBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ Setup.UU ℕ

/-! ## The arrays, the tile's step, its columns of the index array and its rows of the result -/

abbrev tabLoc (d : Dev nD) : Loc nD τ sig := (SparseCore.T d).loc main_v1
abbrev idxLoc (d : Dev nD) : Loc nD τ sig := (SparseCore.T d).loc main_v7
abbrev outLoc (d : Dev nD) : Loc nD τ sig := (SparseCore.T d).loc main_v8

/-- The tile's flat number: the grid step it serves when below 8. -/
abbrev step (L : grid1.Coords) : ℕ := (L 1).val + 16 * (L 0).val

abbrev cV (L : grid1.Coords) : Fin τ.nSC := (L 0).castLE hcore1
abbrev jV (L : grid1.Coords) : Fin τ.nSub := (L 1).castLE hsub1

local notation "tV" => (Memref.whole Cert.KernelIdeal.main_v1_scv : Memref Cert.KernelIdeal.sig Kind.scVector Space.hbm Cert.KernelIdeal.S65536x128 EltTy.f32)
local notation "iV" => (Memref.whole Cert.KernelIdeal.main_v7_scv : Memref Cert.KernelIdeal.sig Kind.scVector Space.hbm Cert.KernelIdeal.S1x1024 EltTy.i32)
local notation "oV" => (Memref.whole Cert.KernelIdeal.main_v8_scv : Memref Cert.KernelIdeal.sig Kind.scVector Space.hbm Cert.KernelIdeal.S1024x128 EltTy.f32)
local notation "aV" => (Memref.whole Cert.KernelIdeal.cc1_scoped0 : Memref Cert.KernelIdeal.sig Kind.scVector Space.vmem Cert.KernelIdeal.S2x1x128 EltTy.i32)
local notation "rV" => (Memref.whole Cert.KernelIdeal.cc1_scoped2 : Memref Cert.KernelIdeal.sig Kind.scVector Space.vmem Cert.KernelIdeal.S2x128x128 EltTy.f32)

theorem idiv : 8 ∣ S1x1024.size 1 := ⟨128, rfl⟩
theorem odiv : 8 ∣ S1024x128.size 0 := ⟨128, rfl⟩
abbrev icol (s : Fin 8) : Rect S1x1024 := Rect.part (s := S1x1024) (a₀ := 1) idiv s
abbrev orow (s : Fin 8) : Rect S1024x128 := Rect.part (s := S1024x128) (a₀ := 0) odiv s
/-- The 128 columns of the index array that step s reads, and the 128 rows of the result it writes. -/
abbrev iColSet (s : Fin 8) : Finset S1x1024.Idx := ((iV).view.slice (icol s)).set
abbrev oRowSet (s : Fin 8) : Finset S1024x128.Idx := ((oV).view.slice (orow s)).set

/-! ## The steps' columns and rows partition the two arrays -/

theorem iColSet_eq (s : Fin 8) : iColSet s = (icol s).set := by
  show ((View.whole (main_v7_scv : Ref sig .scVector)).slice (icol s)).set = _
  rw [View.set_slice]; exact Finset.map_refl
theorem oRowSet_eq (s : Fin 8) : oRowSet s = (orow s).set := by
  show ((View.whole (main_v8_scv : Ref sig .scVector)).slice (orow s)).set = _
  rw [View.set_slice]; exact Finset.map_refl
theorem icols_disjoint : ∀ i ∈ (Finset.univ : Finset (Fin 8)), ∀ j ∈ (Finset.univ : Finset (Fin 8)), i ≠ j → Disjoint (iColSet i) (iColSet j) :=
  fun i _ j _ h => by rw [iColSet_eq, iColSet_eq]; exact Rect.part_disjoint idiv h
theorem orows_disjoint : ∀ i ∈ (Finset.univ : Finset (Fin 8)), ∀ j ∈ (Finset.univ : Finset (Fin 8)), i ≠ j → Disjoint (oRowSet i) (oRowSet j) :=
  fun i _ j _ h => by rw [oRowSet_eq, oRowSet_eq]; exact Rect.part_disjoint odiv h
theorem icols_cover : (Finset.univ : Finset (Fin 8)).biUnion iColSet = Finset.univ :=
  (Finset.biUnion_congr rfl fun i _ => iColSet_eq i).trans (Rect.biUnion_part idiv)
theorem orows_cover : (Finset.univ : Finset (Fin 8)).biUnion oRowSet = Finset.univ :=
  (Finset.biUnion_congr rfl fun i _ => oRowSet_eq i).trans (Rect.biUnion_part odiv)

/-- A row of the result belongs to the step that its number divided by 128 names. -/
theorem mem_oRowSet (s : Fin 8) (r : Fin 1024) (b : Fin 128) :
    (ValueIdx.ix2 (n0 := 1024) (n1 := 128) r b : S1024x128.Idx) ∈ oRowSet s ↔ r.val / 128 = s.val := by
  rw [oRowSet_eq, show orow s = Rect.unit (s := S1024x128) (fun a => S1024x128.partIx 0 s.val a * S1024x128.partSize 0 8 a)
    (S1024x128.partSize 0 8) (fun a => (Nat.succ_mul _ _).symm.trans_le (Rect.part_inb odiv s a) |> fun h => by omega) from rfl, Rect.mem_set_unit]
  have e0 : (((ValueIdx.ix2 (n0 := 1024) (n1 := 128) r b : S1024x128.Idx) 0 : Fin 1024) : ℕ) = r.val := rfl
  have e1 : (((ValueIdx.ix2 (n0 := 1024) (n1 := 128) r b : S1024x128.Idx) 1 : Fin 128) : ℕ) = b.val := rfl
  have p0 : S1024x128.partIx 0 s.val 0 * S1024x128.partSize 0 8 0 = s.val * 128 := rfl
  have q0 : S1024x128.partSize 0 8 0 = 128 := rfl
  have p1 : S1024x128.partIx 0 s.val 1 * S1024x128.partSize 0 8 1 = 0 := rfl
  have q1 : S1024x128.partSize 0 8 1 = 128 := rfl
  have hb := b.isLt
  constructor
  · intro h
    have h0 := h 0
    rw [p0, q0] at h0
    have := h0.1; have := h0.2
    omega
  · intro h a
    match a with
    | 0 => rw [p0, q0]; constructor <;> omega
    | 1 => rw [p1, q1]; constructor <;> omega

variable [FloatOps F]

/-! ## What the tile's coordinates decide

The grid has 32 points, so each fact below is checked point by point. An active tile (flat number below 8) enters
the guarded region, runs the first loop once and the remainder loop not at all; in that one trip the carried words are
the literals they start at, so the prefetch of a next step and the wait for a previous write-out are skipped, the wait
for the index copy, the write-out and the final wait are taken, and every slot offset is slot 0. -/

theorem cond1_act : ∀ L : grid1.Coords, step L < 8 → k1_cond1 L = 1#1 := by decide +kernel
theorem cond1_idle : ∀ L : grid1.Coords, 8 ≤ step L → ¬ k1_cond1 L = 1#1 := by decide +kernel
theorem trips1_act : ∀ L : grid1.Coords, step L < 8 → (k1_t1_loop L).trips = 1 := by decide +kernel
theorem trips2_all (L : grid1.Coords) : (k1_t2_loop L).trips = 0 := Nat.le_zero.mp (k1_t2_abs L).2.1
theorem conds_act : ∀ L : grid1.Coords, step L < 8 → ∀ t : Fin (k1_t1_loop L).trips,
    ¬ k1_cond2 L t 0#32 = 1#1 ∧ k1_cond3 L t 0#32 = 1#1 ∧ k1_cond6 L t 0#32 = 1#1 ∧ ¬ k1_cond8 L t 0#32 = 1#1 := by decide +kernel
theorem cond17_act : ∀ L : grid1.Coords, step L < 8 → k1_cond17 L = 1#1 := by decide +kernel
theorem chk1_act : ∀ L : grid1.Coords, step L < 8 → ∀ t : Fin (k1_t1_loop L).trips, k1_chk1 L t 1#32 0#32 0#32 0#32 0#32 := by decide +kernel
theorem chk23_all : ∀ L : grid1.Coords, k1_chk3 L 0#32 ∧ k1_chk2 L 0#32 := by decide +kernel
theorem chk78_act : ∀ L : grid1.Coords, step L < 8 → k1_chk8 L 0#32 ∧ k1_chk7 L 0#32 := by decide +kernel
theorem off2_act : ∀ L : grid1.Coords, step L < 8 → k1_off2 L = ![0, 128 * step L] := by decide +kernel
theorem off13_act : ∀ L : grid1.Coords, step L < 8 → k1_off13 L 0#32 = ![128 * step L, 0] := by decide +kernel

theorem off2_part : ∀ L : grid1.Coords, step L < 8 → ∀ a, k1_off2 L a = S1x1024.partIx 1 (step L) a * S1x1024.partSize 1 8 a := by decide +kernel
theorem size2_part : ∀ a, S1x128.size a = S1x1024.partSize 1 8 a := by decide
theorem off13_part : ∀ L : grid1.Coords, step L < 8 → ∀ a, k1_off13 L 0#32 a = S1024x128.partIx 0 (step L) a * S1024x128.partSize 0 8 a := by decide +kernel
theorem size13_part : ∀ a, S128x128.size a = S1024x128.partSize 0 8 a := by decide

/-! ## The tile's slices in the kernel's own spelling -/

section Tile

variable (d : Dev nD) (L : grid1.Coords)

abbrev icolK (h : ∀ a, k1_off2 L a + S1x128.size a ≤ S1x1024.size a) : Rect S1x1024 := Rect.unit (s := S1x1024) (k1_off2 L) S1x128.size h
abbrev orowK (h : ∀ a, k1_off13 L 0#32 a + S128x128.size a ≤ S1024x128.size a) : Rect S1024x128 :=
  Rect.unit (s := S1024x128) (k1_off13 L 0#32) S128x128.size h
/-- The step's 128 indices and its 128 result rows, as the task addresses them. -/
abbrev iColK (h : ∀ a, k1_off2 L a + S1x128.size a ≤ S1x1024.size a) : Memref sig .scVector .hbm S1x128 .i32 := (iV).slice (icolK L h) (fun _ => rfl)
abbrev oRowK (h : ∀ a, k1_off13 L 0#32 a + S128x128.size a ≤ S1024x128.size a) : Memref sig .scVector .hbm S128x128 .f32 :=
  (oV).slice (orowK L h) (fun _ => rfl)

omit [FloatOps F] in
theorem icolK_eq (hact : step L < 8) (h : ∀ a, k1_off2 L a + S1x128.size a ≤ S1x1024.size a) : icolK L h = icol ⟨step L, hact⟩ := by
  unfold icolK icol Rect.part Rect.block
  congr 1 <;> funext a
  · exact off2_part L hact a
  · exact size2_part a
omit [FloatOps F] in
theorem orowK_eq (hact : step L < 8) (h : ∀ a, k1_off13 L 0#32 a + S128x128.size a ≤ S1024x128.size a) : orowK L h = orow ⟨step L, hact⟩ := by
  unfold orowK orow Rect.part Rect.block
  congr 1 <;> funext a
  · exact off13_part L hact a
  · exact size13_part a

omit [FloatOps F] in
theorem set_iColK (hact : step L < 8) (h : ∀ a, k1_off2 L a + S1x128.size a ≤ S1x1024.size a) : (iColK L h).view.set = iColSet ⟨step L, hact⟩ := by
  show ((iV).view.slice (icolK L h)).set = ((iV).view.slice (icol ⟨step L, hact⟩)).set
  rw [icolK_eq L hact h]
omit [FloatOps F] in
theorem set_oRowK (hact : step L < 8) (h : ∀ a, k1_off13 L 0#32 a + S128x128.size a ≤ S1024x128.size a) : (oRowK L h).view.set = oRowSet ⟨step L, hact⟩ := by
  show ((oV).view.slice (orowK L h)).set = ((oV).view.slice (orow ⟨step L, hact⟩)).set
  rw [orowK_eq L hact h]

omit [FloatOps F] in
theorem pts_iColK (hact : step L < 8) (h : ∀ a, k1_off2 L a + S1x128.size a ≤ S1x1024.size a) (f : Buf (Elt F) (idxLoc d)) :
    ((iColK L h).view.loc (V d (cV L) (jV L)) ↦[(iColK L h).view.set]{fullShare} f : sProp 𝕄) = idxLoc d ↦[iColSet ⟨step L, hact⟩]{fullShare} f := by
  rw [set_iColK L hact h]
omit [FloatOps F] in
theorem pts_oRowK (hact : step L < 8) (h : ∀ a, k1_off13 L 0#32 a + S128x128.size a ≤ S1024x128.size a) (f : Buf (Elt F) (outLoc d)) :
    ((oRowK L h).view.loc (V d (cV L) (jV L)) ↦[(oRowK L h).view.set]{fullShare} f : sProp 𝕄) = outLoc d ↦[oRowSet ⟨step L, hact⟩]{fullShare} f := by
  rw [set_oRowK L hact h]
omit [FloatOps F] in
theorem pts_tV (q : PosShare TreeShare) (f : Buf (Elt F) (tabLoc d)) :
    ((tV).view.loc (V d (cV L) (jV L)) ↦{q} f : sProp 𝕄) = tabLoc d ↦{q} f := rfl
omit [FloatOps F] in
theorem pts_aV (f : Buf (Elt F) ((V d (cV L) (jV L)).loc cc1_scoped0)) :
    ((aV).view.loc (V d (cV L) (jV L)) ↦{fullShare} f : sProp 𝕄) = (V d (cV L) (jV L)).loc cc1_scoped0 ↦{fullShare} f := rfl
omit [FloatOps F] in
theorem pts_rV (f : Buf (Elt F) ((V d (cV L) (jV L)).loc cc1_scoped2)) :
    ((rV).view.loc (V d (cV L) (jV L)) ↦{fullShare} f : sProp 𝕄) = (V d (cV L) (jV L)).loc cc1_scoped2 ↦{fullShare} f := rfl

/-- The three cells the task uses: the index copy's, the gather's, the write-out's. -/
abbrev cIcell (d : Dev nD) (c : Fin τ.nSC) (i : Fin τ.nSub) : GSem nD τ sig := (V d c i, .dma (6 : DmaSem sig))
abbrev cGcell (d : Dev nD) (c : Fin τ.nSC) (i : Fin τ.nSub) : GSem nD τ sig := (V d c i, .dma cc1_scoped4.sem)
abbrev cOcell (d : Dev nD) (c : Fin τ.nSC) (i : Fin τ.nSub) : GSem nD τ sig := (V d c i, .dma (8 : DmaSem sig))

omit [FloatOps F] in
theorem ownSems0_V :
    (ownSems0 (V d (cV L) (jV L)) : sProp 𝕄)
      = iprop(semVal (cIcell d (cV L) (jV L)) 0 ∗ semVal (cGcell d (cV L) (jV L)) 0 ∗ semVal (cOcell d (cV L) (jV L)) 0
          ∗ bigSep ((((ownCells (V d (cV L) (jV L))).erase (cIcell d (cV L) (jV L))).erase (cGcell d (cV L) (jV L))).erase (cOcell d (cV L) (jV L))) fun g => semVal g 0) := by
  unfold SparseCore.Cfg.ownSems0
  rw [SparseCore.bigSep_erase' ((mem_ownCells (g := cIcell d (cV L) (jV L))).mpr ⟨rfl, by
      show (SemLoc.dma (6 : DmaSem sig) : SemLoc sig).isScoped .scVector = true; decide⟩),
    SparseCore.bigSep_erase' (Finset.mem_erase.mpr ⟨by simp [cIcell, cGcell] <;> decide, (mem_ownCells (g := cGcell d (cV L) (jV L))).mpr ⟨rfl, by
      show (SemLoc.dma cc1_scoped4.sem : SemLoc sig).isScoped .scVector = true; decide⟩⟩),
    SparseCore.bigSep_erase' (Finset.mem_erase.mpr ⟨by simp [cGcell, cOcell] <;> decide, Finset.mem_erase.mpr ⟨by simp [cIcell, cOcell] <;> decide,
      (mem_ownCells (g := cOcell d (cV L) (jV L))).mpr ⟨rfl, by show (SemLoc.dma (8 : DmaSem sig) : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

end Tile

/-! ## What the gather reads: the index scratch after the index copy -/

theorem hA0 : ∀ a, (![0, 0, 0] : Fin 3 → ℕ) a + (![1, 1, 128] : Fin 3 → ℕ) a ≤ S2x1x128.size a := by decide
theorem hB0 : ∀ a, (![0, 0] : Fin 2 → ℕ) a + (![1, 128] : Fin 2 → ℕ) a ≤ S1x128.size a := by decide
theorem hW0 : ∀ a, k1_off1 a + S1x1x128.size a ≤ S2x1x128.size a := by decide +kernel

/-- Slot 0 of the index scratch as the index copy writes it, and as the gather reads its 128 words. -/
abbrev aSlotW : Memref sig .scVector .vmem S1x128 .i32 :=
  ((aV).slice (Rect.unit (s := S2x1x128) k1_off1 S1x1x128.size hW0) (fun _ => rfl)).squeeze S1x128 squeezes_S1x1x128_S1x128
abbrev aOffs : Memref sig .scVector .vmem S128 .i32 :=
  ((((aV).slice (Rect.unit (s := S2x1x128) ![0, 0, 0] ![1, 1, 128] hA0) (fun _ => rfl)).squeeze S1x128 squeezes_S1x1x128_S1x128).slice
    (Rect.unit (s := S1x128) ![0, 0] ![1, 128] hB0) (fun _ => rfl)).squeeze S128 squeezes_S1x128_S128

theorem aOffs_emb : ∀ x : S128.Idx, ((aOffs).view.emb x : S2x1x128.Idx) = (aSlotW).view.emb (ValueIdx.ix2 (n0 := 1) (n1 := 128) 0 (x 0)) := by decide +kernel

/-- A word of the list is the word of slot 0 that the index copy wrote. -/
theorem read_aOffs (f : (aSlotW).view.ty.Contents (Elt F)) (x : S128.Idx) :
    (aOffs).view.read (Elt F) f x = (aSlotW).view.read (Elt F) f (ValueIdx.ix2 (n0 := 1) (n1 := 128) 0 (x 0)) := by
  rw [View.read_apply, View.read_apply, aOffs_emb x]

/-- The gather's offsets are in range: after the index copy, word x of the list is the step's x-th index, which is
    below 65536. Stated for any prior contents of the scratch and any evidence of the slices' bounds. -/
theorem hin_of_pre (d : Dev nD) (L : grid1.Coords) (h2 : ∀ a, k1_off2 L a + S1x128.size a ≤ S1x1024.size a)
    (ph : Buf (Elt F) (idxLoc d)) (hph : ∀ j, (ph j).toNat < 65536)
    (fa : Buf (Elt F) ((V d (cV L) (jV L)).loc cc1_scoped0)) (pay : S1x128.Idx → Elt F .i32)
    (hpay : pay = (iColK L h2).view.read (Elt F) ph)
    (hA : ∀ a, (![0, 0, 0] : Fin 3 → ℕ) a + (![1, 1, 128] : Fin 3 → ℕ) a ≤ S2x1x128.size a)
    (hB : ∀ a, (![0, 0] : Fin 2 → ℕ) a + (![1, 128] : Fin 2 → ℕ) a ≤ S1x128.size a)
    (hW : ∀ a, k1_off1 a + S1x1x128.size a ≤ S2x1x128.size a) :
    ∀ x : S128.Idx, (View.read (Elt F)
        (((((aV).slice (Rect.unit (s := S2x1x128) ![0, 0, 0] ![1, 1, 128] hA) (fun _ => rfl)).squeeze S1x128 squeezes_S1x1x128_S1x128).slice
          (Rect.unit (s := S1x128) ![0, 0] ![1, 128] hB) (fun _ => rfl)).squeeze S128 squeezes_S1x128_S128).view
        (View.write (Elt F) (((aV).slice (Rect.unit (s := S2x1x128) k1_off1 S1x1x128.size hW) (fun _ => rfl)).squeeze S1x128 squeezes_S1x1x128_S1x128).view
          fa pay Finset.univ) x).toNat < 65536 := by
  subst hpay; intro x
  have e1 := read_aOffs (F := F) (View.write (Elt F) (aSlotW).view fa ((iColK L h2).view.read (Elt F) ph) Finset.univ) x
  have e2 := View.read_write_of_mem (v := (aSlotW).view) fa ((iColK L h2).view.read (Elt F) ph)
    (Finset.mem_univ (ValueIdx.ix2 (n0 := 1) (n1 := 128) 0 (x 0)))
  have e3 : (iColK L h2).view.read (Elt F) ph (ValueIdx.ix2 (n0 := 1) (n1 := 128) 0 (x 0))
      = ph ((iColK L h2).view.emb (ValueIdx.ix2 (n0 := 1) (n1 := 128) 0 (x 0))) := (View.read_apply _ _).trans (cast_eq _ _)
  exact lt_of_eq_of_lt (congrArg BitVec.toNat (e1.trans (e2.trans e3))) (hph _)

/-! ## What the write-out leaves in the step's rows -/

theorem hR12 : ∀ a, k1_off12 0#32 a + S1x128x128.size a ≤ S2x128x128.size a := by decide +kernel
theorem hR0 : ∀ a, (![0, 0, 0] : Fin 3 → ℕ) a + (![1, 128, 128] : Fin 3 → ℕ) a ≤ S2x128x128.size a := by decide

/-- Slot 0 of the row scratch as the write-out reads it and as the gather writes it: one view, spelt twice. -/
abbrev rSlotR : Memref sig .scVector .vmem S128x128 .f32 :=
  ((rV).slice (Rect.unit (s := S2x128x128) (k1_off12 0#32) S1x128x128.size hR12) (fun _ => rfl)).squeeze S128x128 squeezes_S1x128x128_S128x128
abbrev rSlotW : Memref sig .scVector .vmem S128x128 .f32 :=
  ((rV).slice (Rect.unit (s := S2x128x128) ![0, 0, 0] ![1, 128, 128] hR0) (fun _ => rfl)).squeeze S128x128 squeezes_S1x128x128_S128x128

theorem read_rSlot (fr : (rSlotW).view.ty.Contents (Elt F)) (w : S128x128.Idx → Elt F .f32) :
    (rSlotR).view.read (Elt F) ((rSlotW).view.write (Elt F) fr w Finset.univ) = w :=
  View.read_write_univ (v := (rSlotW).view) fr w

/-- Index y of the step's slice of the index array is column 128 * step + y of the array. -/
theorem iCol_emb (L : grid1.Coords) (hact : step L < 8) (h2 : ∀ a, k1_off2 L a + S1x128.size a ≤ S1x1024.size a) (y : Fin 128) :
    ((iColK L h2).view.emb (ValueIdx.ix2 (n0 := 1) (n1 := 128) 0 y) : S1x1024.Idx)
      = ValueIdx.ix2 (n0 := 1) (n1 := 1024) 0 ⟨128 * step L + y.val, by omega⟩ := by
  funext c; apply Fin.ext
  show k1_off2 L c + 1 * ((ValueIdx.ix2 (n0 := 1) (n1 := 128) 0 y) c).val = _
  rw [off2_act L hact]
  fin_cases c <;> simp

/-- Row a, column b of the step's slice of the result is row 128 * step + a, column b of the array. -/
theorem oRow_emb (L : grid1.Coords) (hact : step L < 8) (h13 : ∀ a, k1_off13 L 0#32 a + S128x128.size a ≤ S1024x128.size a) (a b : Fin 128) :
    (((oRowK L h13).view.slice (Rect.whole S128x128)).emb (ValueIdx.ix2 (n0 := 128) (n1 := 128) a b) : S1024x128.Idx)
      = ValueIdx.ix2 (n0 := 1024) (n1 := 128) ⟨128 * step L + a.val, by omega⟩ b := by
  funext c; apply Fin.ext
  show k1_off13 L 0#32 c + 1 * (0 + 1 * ((ValueIdx.ix2 (n0 := 128) (n1 := 128) a b) c).val) = _
  rw [off13_act L hact]
  fin_cases c <;> simp

/-- Word x of the list, after the index copy, is the step's x-th index. -/
theorem read_list (d : Dev nD) (L : grid1.Coords) (hact : step L < 8) (h2 : ∀ a, k1_off2 L a + S1x128.size a ≤ S1x1024.size a)
    (ph : Buf (Elt F) (idxLoc d)) (fa : Buf (Elt F) ((V d (cV L) (jV L)).loc cc1_scoped0)) (x : S128.Idx) (hx : (x 0).val < 128) :
    (aOffs).view.read (Elt F) ((aSlotW).view.write (Elt F) fa ((iColK L h2).view.read (Elt F) ph) Finset.univ) x
      = ph (ValueIdx.ix2 (n0 := 1) (n1 := 1024) 0 ⟨128 * step L + (x 0).val, by omega⟩) := by
  have e1 := read_aOffs (F := F) (View.write (Elt F) (aSlotW).view fa ((iColK L h2).view.read (Elt F) ph) Finset.univ) x
  have e2 := View.read_write_of_mem (v := (aSlotW).view) fa ((iColK L h2).view.read (Elt F) ph)
    (Finset.mem_univ (ValueIdx.ix2 (n0 := 1) (n1 := 128) 0 (x 0)))
  have e3 : (iColK L h2).view.read (Elt F) ph (ValueIdx.ix2 (n0 := 1) (n1 := 128) 0 (x 0))
      = ph ((iColK L h2).view.emb (ValueIdx.ix2 (n0 := 1) (n1 := 128) 0 (x 0))) := (View.read_apply _ _).trans (cast_eq _ _)
  exact (e1.trans (e2.trans e3)).trans (congrArg ph (iCol_emb L hact h2 (x 0)))

/-- Entry k of a list of 128 words, in row-major order, is word k. -/
theorem rowMajor_symm_S128 : ∀ k : Fin S128.numel, ((S128.rowMajor.symm k) 0 : ℕ) = k.val := by decide +kernel

/-- The gathered block: row a of it is the table's row that the step's a-th index names. -/
theorem gather_value (d : Dev nD) (L : grid1.Coords) (hact : step L < 8) (h2 : ∀ a, k1_off2 L a + S1x128.size a ≤ S1x1024.size a)
    (T1 : Buf (Elt F) (tabLoc d)) (ph : Buf (Elt F) (idxLoc d)) (hph : ∀ j, (ph j).toNat < 65536)
    (fa : Buf (Elt F) ((V d (cV L) (jV L)).loc cc1_scoped0))
    (hT : ∀ a, (![0, 0] : Fin 2 → ℕ) a + (![65536, 128] : Fin 2 → ℕ) a ≤ S65536x128.size a)
    (hn : S128.numel = S128x128.size (gathers_S65536x128_S128x128).axis')
    (hin : ∀ x, ((aOffs).view.read (Elt F) ((aSlotW).view.write (Elt F) fa ((iColK L h2).view.read (Elt F) ph) Finset.univ) x).toNat
        < S65536x128.size (gathers_S65536x128_S128x128).axis)
    (a b : Fin 128) :
    SparseCore.gatherPayload gathers_S65536x128_S128x128
        (View.read (Elt F) ((tV).slice (Rect.unit (s := S65536x128) ![0, 0] ![65536, 128] hT) (fun _ => rfl)).view T1)
        (SparseCore.rows ((aOffs).view.read (Elt F) ((aSlotW).view.write (Elt F) fa ((iColK L h2).view.read (Elt F) ph) Finset.univ)) hn hin)
        (ValueIdx.ix2 (n0 := 128) (n1 := 128) a b)
      = T1 (ValueIdx.ix2 (n0 := 65536) (n1 := 128) ⟨(ph (ValueIdx.ix2 (n0 := 1) (n1 := 1024) 0 ⟨128 * step L + a.val, by omega⟩)).toNat, hph _⟩ b) := by
  refine ((View.read_apply _ _).trans (cast_eq _ _)).trans (congrArg T1 ?_)
  funext c; apply Fin.ext
  show (![0, 0] : Fin 2 → ℕ) c + 1 * ((gathers_S65536x128_S128x128).idx
    (SparseCore.rows ((aOffs).view.read (Elt F) ((aSlotW).view.write (Elt F) fa ((iColK L h2).view.read (Elt F) ph) Finset.univ)) hn hin)
    (ValueIdx.ix2 (n0 := 128) (n1 := 128) a b) c).val = _
  fin_cases c
  · -- the indexed axis: the row the list's entry a names
    have h0 := congrArg Fin.val (Shape.Gathers.idx_axis gathers_S65536x128_S128x128
      (SparseCore.rows ((aOffs).view.read (Elt F) ((aSlotW).view.write (Elt F) fa ((iColK L h2).view.read (Elt F) ph) Finset.univ)) hn hin)
      (ValueIdx.ix2 (n0 := 128) (n1 := 128) a b))
    let k : Fin S128.numel := ((ValueIdx.ix2 (n0 := 128) (n1 := 128) a b) (gathers_S65536x128_S128x128).axis').cast hn.symm
    have ek : ((S128.rowMajor.symm k) 0 : ℕ) = a.val := rowMajor_symm_S128 k
    have e := read_list (F := F) d L hact h2 ph fa (S128.rowMajor.symm k) (by rw [ek]; exact a.isLt)
    have e' : ((aOffs).view.read (Elt F) ((aSlotW).view.write (Elt F) fa ((iColK L h2).view.read (Elt F) ph) Finset.univ) (S128.rowMajor.symm k)).toNat
        = (ph (ValueIdx.ix2 (n0 := 1) (n1 := 1024) 0 ⟨128 * step L + a.val, by omega⟩)).toNat := by
      rw [e]
      exact congrArg (fun n : Fin 1024 => (ph (ValueIdx.ix2 (n0 := 1) (n1 := 1024) 0 n)).toNat) (Fin.ext (by show 128 * step L + _ = 128 * step L + a.val; rw [ek]))
    show 0 + 1 * _ = _
    rw [Nat.zero_add, Nat.one_mul]
    exact h0.trans e'
  · -- the other axis: the element's own column
    have h1 := Shape.Gathers.idx_of_ne gathers_S65536x128_S128x128
      (SparseCore.rows ((aOffs).view.read (Elt F) ((aSlotW).view.write (Elt F) fa ((iColK L h2).view.read (Elt F) ph) Finset.univ)) hn hin)
      (ValueIdx.ix2 (n0 := 128) (n1 := 128) a b) (1 : Fin 2) (by decide)
    show 0 + 1 * _ = _
    rw [Nat.zero_add, Nat.one_mul]
    exact h1

set_option maxHeartbeats 4000000 in
set_option maxRecDepth 16384 in
/-- The task of an active tile (flat number below 8): holding a share of the table, the step's columns of the index
    array and its rows of the result, the tile copies its 128 indices into slot 0 of its index scratch, gathers the
    rows they name into slot 0 of its row scratch and copies that slot to its rows of the result; at the end row
    128 * step + a of the result is the table's row that index 128 * step + a names. -/
theorem tile_body (hF : (Setup.K (F := F)).Facts) (d : Dev nD) (L : grid1.Coords) (hact : step L < 8) (q : PosShare TreeShare)
    (T1 : Buf (Elt F) (tabLoc d)) (ph : Buf (Elt F) (idxLoc d)) (hph : ∀ j, (ph j).toNat < 65536)
    (O : CellTallies nD τ sig (HIx 1)) (W : Waits sig (HIx 1)) (hO : ∀ g, O g none = 0) :
    (iprop(levAts (Setup.K (F := F)).L (Setup.K (F := F)).lev
        ∗ ((tabLoc d ↦{q} T1) ∗ (idxLoc d ↦[iColSet ⟨step L, hact⟩]{fullShare} ph) ∗ ∃ f0, (outLoc d ↦[oRowSet ⟨step L, hact⟩]{fullShare} f0))
        ∗ scopedBufs (V d (cV L) (jV L)) ∗ scopedSems0 (V d (cV L) (jV L)) ∗ owes (V d (cV L) (jV L)) O W) : sProp 𝕄)
      ⊢ wp frame (wpE (defs₀ (F := F)) Setup.𝒱₀ (V d (cV L) (jV L)) none) Set.univ
          (cc1_gather_kernel L tV (Memref.isWhole_whole _) iV (Memref.isWhole_whole _) oV (Memref.isWhole_whole _)
            aV (Memref.isWhole_whole _) cc1_scoped1 rV (Memref.isWhole_whole _) cc1_scoped3 cc1_scoped4 cc1_scoped5)
          fun _ => iprop(((tabLoc d ↦{q} T1) ∗ (idxLoc d ↦[iColSet ⟨step L, hact⟩]{fullShare} ph)
              ∗ ∃ f, ⌜∀ (a b : Fin 128), f (ValueIdx.ix2 (n0 := 1024) (n1 := 128) ⟨128 * step L + a.val, by omega⟩ b)
                    = T1 (ValueIdx.ix2 (n0 := 65536) (n1 := 128) ⟨(ph (ValueIdx.ix2 (n0 := 1) (n1 := 1024) 0 ⟨128 * step L + a.val, by omega⟩)).toNat, hph _⟩ b)⌝
                ∗ (outLoc d ↦[oRowSet ⟨step L, hact⟩]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 : k1_cond1 L = 1#1 := cond1_act L hact
  have htr1 : (k1_t1_loop L).trips = 1 := trips1_act L hact
  have htr2 : (k1_t2_loop L).trips = 0 := trips2_all L
  obtain ⟨hc2, hc3, hc6, hc8⟩ := conds_act L hact ⟨0, by omega⟩
  have hc17 : k1_cond17 L = 1#1 := cond17_act L hact
  have hk1 := chk1_act L hact ⟨0, by omega⟩
  obtain ⟨hk3, hk2⟩ := chk23_all L
  obtain ⟨hk8, hk7⟩ := chk78_act L hact
  have hi2 : ∀ a, k1_off2 L a + S1x128.size a ≤ S1x1024.size a := k1_off2_inb L h1
  have hi13 : ∀ a, k1_off13 L 0#32 a + S128x128.size a ≤ S1024x128.size a := k1_off13_inb L _ _ _ _ _ _ hk1 h1 hc6
  simp only [cc1_gather_kernel_eq_skeleton]; unfold cc1_gather_kernel_skel
  rw [k1_part6_eq_skeleton]; unfold k1_part6_skel
  simp (config := { iota := false, proj := false, eta := false }) only [Scf.for_trips1_bind _ _ htr1, Scf.for_trips0_bind _ _ htr2]
  unfold k1_t1_body
  rw [(Setup.K (F := F)).scopedBufs_V hF d (cV L) (jV L), SparseCore.Cfg.scopedSems0_V (Val := Elt F) d (cV L) (jV L), ownSems0_V, ownBufs_V]
  iintro ⟨#Hlv, ⟨Ht, Hi, %f0, Ho⟩, ⟨⟨%fa, Ha⟩, ⟨%fr, Hr⟩, Hbufs⟩, ⟨HsemI, HsemG, HsemO, Hsems⟩, HO⟩
  ihave Hmw := (show levAts (Setup.K (F := F)).L (Setup.K (F := F)).lev ⊢ Transfers.MayWaits (V d (cV L) (jV L)) (default : HIx 1) O from
    (Setup.K (F := F)).mayWaits_none (thr := V d (cV L) (jV L)) hO) $$ Hlv
  ihave Hi' := (Entails.of_eq (pts_iColK (F := F) d L hact hi2 _).symm) $$ Hi
  ihave Ho' := (Entails.of_eq (pts_oRowK (F := F) d L hact hi13 _).symm) $$ Ho
  ihave Ht' := (Entails.of_eq (pts_tV (F := F) d L _ _).symm) $$ Ht
  ihave Ha' := (Entails.of_eq (pts_aV (F := F) d L _).symm) $$ Ha
  ihave Hr' := (Entails.of_eq (pts_rV (F := F) d L _).symm) $$ Hr
  sl_exec (disch := first | sl_exact h1 | sl_exact hc2 | sl_exact hc3 | sl_exact hc6 | sl_exact hc8 | sl_exact hc17 | sl_exact hk1 | sl_exact hk2 | sl_exact hk3 | sl_exact hk7 | sl_exact hk8)
  have hin := fun fa' => hin_of_pre (F := F) d L hi2 ph hph fa' (tile_body.sl.dma0 d L ph h1) rfl hA0 hB0 hW0
  sl_exec (disch := first | sl_exact h1 | sl_exact hc2 | sl_exact hc3 | sl_exact hc6 | sl_exact hc8 | sl_exact hc17 | sl_exact hk1 | sl_exact hk2 | sl_exact hk3 | sl_exact hk7 | sl_exact hk8)
  have hv171 : ∀ L : grid1.Coords, step L < 8 → tile_body.sl.v171_r0 L = 0#32 := by decide +kernel
  have hv163 : ∀ L : grid1.Coords, step L < 8 → tile_body.sl.v163_r0 L = 0#32 := by decide +kernel
  rw [hv171 L hact, hv163 L hact]
  sl_exec (disch := first | sl_exact h1 | sl_exact hc2 | sl_exact hc3 | sl_exact hc6 | sl_exact hc8 | sl_exact hc17 | sl_exact hk1 | sl_exact hk2 | sl_exact hk3 | sl_exact hk7 | sl_exact hk8)
  sl_step
  isplitl [Ht' Hi' Ho']
  · isplitl [Ht']; · iexact Ht'
    isplitl [Hi']; · iapply (Entails.of_eq (pts_iColK (F := F) d L hact hi2 _)); iexact Hi'
    iexists _; isplitr
    swap
    · iapply (Entails.of_eq (pts_oRowK (F := F) d L hact hi13 _)); iexact Ho'
    · -- the value: row a of the step's rows holds what slot 0 of the row scratch held, which is the gathered block
      ipureintro; intro a b
      have hw := View.write_emb_of_mem (v := ((oRowK L hi13).view.slice (Rect.whole S128x128))) f0
        (tile_body.sl.dma0_1 d L T1 ph h1 htr1 hc6 hk1 hk3 hk2 fa fr hin) (Finset.mem_univ (ValueIdx.ix2 (n0 := 128) (n1 := 128) a b))
      rw [oRow_emb L hact hi13 a b] at hw
      have eP : tile_body.sl.dma0_1 d L T1 ph h1 htr1 hc6 hk1 hk3 hk2 fa fr hin = tile_body.sl.gather0 d L T1 ph h1 hk3 fa hin :=
        read_rSlot (F := F) fr _
      refine (hw.trans (cast_eq _ _)).trans ?_
      rw [eP]
      exact gather_value (F := F) d L hact hi2 T1 ph hph fa _ _ _ a b
  isplitl [Ha' Hr' Hbufs]
  · isplitl [Ha']; · iexists _; iexact Ha'
    isplitl [Hr']; · iexists _; iexact Hr'
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The task of an idle tile (flat number 8 or above): the guard is false and the task returns at once. -/
theorem idle_body (hF : (Setup.K (F := F)).Facts) (d : Dev nD) (L : grid1.Coords) (hidle : 8 ≤ step L)
    (O : CellTallies nD τ sig (HIx 1)) (W : Waits sig (HIx 1)) (hO : ∀ g, O g none = 0) :
    (iprop(levAts (Setup.K (F := F)).L (Setup.K (F := F)).lev
        ∗ scopedBufs (V d (cV L) (jV L)) ∗ scopedSems0 (V d (cV L) (jV L)) ∗ owes (V d (cV L) (jV L)) O W) : sProp 𝕄)
      ⊢ wp frame (wpE (defs₀ (F := F)) Setup.𝒱₀ (V d (cV L) (jV L)) none) Set.univ
          (cc1_gather_kernel L tV (Memref.isWhole_whole _) iV (Memref.isWhole_whole _) oV (Memref.isWhole_whole _)
            aV (Memref.isWhole_whole _) cc1_scoped1 rV (Memref.isWhole_whole _) cc1_scoped3 cc1_scoped4 cc1_scoped5)
          fun _ => iprop(scopedBufs (V d (cV L) (jV L)) ∗ scopedSems0 (V d (cV L) (jV L))
            ∗ ∃ W', ⌜∀ p ∈ W', p ∈ W ∨ p.2 = none⌝ ∗ owes (V d (cV L) (jV L)) O W') := by
  have h1 : ¬ k1_cond1 L = 1#1 := cond1_idle L hidle
  simp only [cc1_gather_kernel_eq_skeleton]; unfold cc1_gather_kernel_skel
  iintro ⟨-, Hb, Hs, HO⟩
  sl_exec
  sl_step
  isplitl [Hb]; · iexact Hb
  isplitl [Hs]; · iexact Hs
  iexists W; isplitr
  · ipureintro; exact fun p hp => .inl hp
  · iexact HO

end Cert.KernelIdeal.TileBody

end
-- ==== Proof.ScPay.lean ====
/-
  What the SparseCore call's handshakes carry. The call gathers rows of the pair table (65536 rows of 128 words)
  at the 1024 physical indices into the gathered array (1024 rows of 128 words). Eight tiles of SparseCore 0 each do
  one step of 128 indices; the other tiles do nothing. The table is read by the eight tiles at once, each holding an
  eighth share of it; the index array splits by columns, the gathered array by rows, 128 to a step.
  The table's contents are whatever the first TensorCore region left, known only through a predicate `Tab`;
  the index array's contents are `ph`, a function of the integer input, every word below 65536.
-/
import proofs.«218855_g90357521973776_cont_sun_m_356_26_alg».proof.Proof.Setup
import proofs.«218855_g90357521973776_cont_sun_m_356_26_alg».proof.Proof.TileBody

noncomputable section

namespace Cert.KernelIdeal.ScPay

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.TileBody

variable [FloatOps F]

/-! ## Shares of the table: the full share halved three times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Step `s`'s share of the table. -/
abbrev xq (s : Fin 8) : PosShare TreeShare := leaf 3 fullShare s

/-! ## The handshakes' payloads -/

variable (ph : (d : Dev nD) → Buf (Elt F) (idxLoc d)) (Tab : (d : Dev nD) → Buf (Elt F) (tabLoc d) → Prop)

/-- Row `r` of the gathered array is row `ph r` of a table the predicate admits. -/
def Gath (d : Dev nD) (f : Buf (Elt F) (outLoc d)) (r : Fin 1024) : Prop :=
  ∃ T1, Tab d T1 ∧ ∀ b : Fin 128, f (ValueIdx.ix2 r b) = T1 (ValueIdx.ix2 ⟨(ph d (ValueIdx.ix2 (0 : Fin 1) r)).toNat % 65536, Nat.mod_lt _ (by decide)⟩ b)

abbrev stRes (d : Dev nD) : sProp 𝕄 :=
  iprop((∃ T1, ⌜Tab d T1⌝ ∗ tabLoc d ↦{fullShare} T1) ∗ (idxLoc d ↦{fullShare} ph d) ∗ ∃ f, outLoc d ↦{fullShare} f)
abbrev dnRes (d : Dev nD) : sProp 𝕄 :=
  iprop((idxLoc d ↦{fullShare} ph d) ∗ ∃ f, ⌜∀ r, Gath ph Tab d f r⌝ ∗ outLoc d ↦{fullShare} f)
abbrev goRes (d : Dev nD) (s : Fin 8) : sProp 𝕄 :=
  iprop((∃ T1, ⌜Tab d T1⌝ ∗ tabLoc d ↦{xq s} T1) ∗ (idxLoc d ↦[iColSet s]{fullShare} ph d) ∗ ∃ f, outLoc d ↦[oRowSet s]{fullShare} f)
abbrev tdRes (d : Dev nD) (s : Fin 8) : sProp 𝕄 :=
  iprop((idxLoc d ↦[iColSet s]{fullShare} ph d) ∗ ∃ f, ⌜∀ a : Fin 128, Gath ph Tab d f ⟨128 * s.val + a.val, by omega⟩⌝ ∗ outLoc d ↦[oRowSet s]{fullShare} f)

/-- The one call: SparseCore 0 takes the table, the indices and the gathered array whole; SparseCore 1 nothing. Tile
    `s < 8` of SparseCore 0 takes its share, its columns and its rows, and brings back its rows gathered. -/
def P : (K (F := F)).Pay (nD := nD) (Val := Elt F) (Name := ℕ) (U := UU) where
  st := fun _ d c => if c.val = 0 then stRes ph Tab d else iprop(emp)
  dn := fun _ d c => if c.val = 0 then dnRes ph Tab d else iprop(emp)
  go := fun _ d c i => if h : c.val = 0 ∧ i.val < 8 then goRes ph Tab d ⟨i.val, h.2⟩ else iprop(emp)
  td := fun _ d c i => if h : c.val = 0 ∧ i.val < 8 then tdRes ph Tab d ⟨i.val, h.2⟩ else iprop(emp)
  x := fun _ _ => iprop(emp)

instance P_storable : (P (F := F) ph Tab).IsStorable where
  st _ d c := by unfold P; dsimp only; split <;> infer_instance
  dn _ d c := by unfold P; dsimp only; split <;> infer_instance
  go _ d c i := by unfold P; dsimp only; split <;> infer_instance
  td _ d c i := by unfold P; dsimp only; split <;> infer_instance

end Cert.KernelIdeal.ScPay

end
-- ==== Proof.ScObl.lean ====
/-
  The SparseCore launch theorem's obligation for the gather call: one tile's task, from the tile body's triple,
  through the body table's row for a vector subcore. A working tile (flat number below 8) takes its share of the
  table, its columns of the index array and its rows of the gathered array and brings its rows back gathered; the
  others return at once.
-/
import proofs.«218855_g90357521973776_cont_sun_m_356_26_alg».proof.Proof.Setup
import proofs.«218855_g90357521973776_cont_sun_m_356_26_alg».proof.Proof.ScPay

noncomputable section

namespace Cert.KernelIdeal.ScObl

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.TileBody Cert.KernelIdeal.ScPay

variable [FloatOps F]
variable (ph : (d : Dev nD) → Buf (Elt F) (idxLoc d)) (Tab : (d : Dev nD) → Buf (Elt F) (tabLoc d) → Prop)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          (Memref.whole main_v1_scv) (Memref.isWhole_whole _) (Memref.whole main_v7_scv) (Memref.isWhole_whole _) (Memref.whole main_v8_scv) (Memref.isWhole_whole _)
          (Memref.whole cc1_scoped0) (Memref.isWhole_whole _) cc1_scoped1 (Memref.whole cc1_scoped2) (Memref.isWhole_whole _) cc1_scoped3 cc1_scoped4 cc1_scoped5) ⟨⟩ c s := rfl

set_option maxHeartbeats 1000000 in
/-- A working tile's task, with the table's contents behind the predicate and the launch theorem's post. -/
theorem tile_task (hF : (K (F := F)).Facts) (hph : ∀ d j, (ph d j).toNat < 65536) (d : Dev nD) (L : grid1.Coords) (hact : step L < 8)
    (O : CellTallies nD τ sig (HIx 1)) (W : Waits sig (HIx 1)) (hO : ∀ g, O g none = 0) :
    (iprop(levAts (K (F := F)).L (K (F := F)).lev ∗ emp ∗ goRes ph Tab d ⟨step L, hact⟩
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(tdRes ph Tab d ⟨step L, hact⟩ ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have key : ∀ (T1 : Buf (Elt F) (tabLoc d)), Tab d T1 →
      (iprop(levAts (K (F := F)).L (K (F := F)).lev ∗ ((tabLoc d ↦{xq ⟨step L, hact⟩} T1) ∗ (idxLoc d ↦[iColSet ⟨step L, hact⟩]{fullShare} ph d) ∗ ∃ f0, outLoc d ↦[oRowSet ⟨step L, hact⟩]{fullShare} f0)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(tdRes ph Tab d ⟨step L, hact⟩ ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := fun T1 hT1 =>
    (tile_body (F := F) hF d L hact (xq ⟨step L, hact⟩) T1 (ph d) (hph d) O W hO).trans (wp_mono frame _ _ fun _ => by
      iintro ⟨⟨-, Hi, %f, %hf, Ho⟩, Hb, Hs, %W', %hW', HO⟩
      isplitl [Hi Ho]
      · isplitl [Hi]; · iexact Hi
        iexists f; isplitr
        · ipureintro; intro a
          refine ⟨T1, hT1, fun b => ?_⟩
          rw [hf a b]
          congr 2
          exact Fin.ext (Nat.mod_eq_of_lt (hph d _)).symm
        · iexact Ho
      isplitl [Hb]; · iexact Hb
      isplitl [Hs]; · iexact Hs
      iexists W'; isplitr
      · ipureintro; exact fun p hp => (hW' p hp).imp_right Or.inl
      · iexact HO)
  iintro ⟨Hlv, -, ⟨⟨%T1, %hT1, Ht⟩, Hi, Ho⟩, Hb, Hs, HO⟩
  iapply (key T1 hT1)
  isplitl [Hlv]; · iexact Hlv
  isplitl [Ht Hi Ho]
  · isplitl [Ht]; · iexact Ht
    isplitl [Hi]; · iexact Hi
    iexact Ho
  isplitl [Hb]; · iexact Hb
  isplitl [Hs]; · iexact Hs
  iexact HO

set_option maxHeartbeats 1000000 in
/-- An idle tile's task. -/
theorem idle_task (hF : (K (F := F)).Facts) (d : Dev nD) (L : grid1.Coords) (hidle : 8 ≤ step L)
    (O : CellTallies nD τ sig (HIx 1)) (W : Waits sig (HIx 1)) (hO : ∀ g, O g none = 0) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(emp ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have key : (iprop(levAts (K (F := F)).L (K (F := F)).lev
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(emp ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') :=
    (idle_body (F := F) hF d L hidle O W hO).trans (wp_mono frame _ _ fun _ => by
      iintro ⟨Hb, Hs, %W', %hW', HO⟩
      isplitr; · iempintro
      isplitl [Hb]; · iexact Hb
      isplitl [Hs]; · iexact Hs
      iexists W'; isplitr
      · ipureintro; exact fun p hp => (hW' p hp).imp_right Or.inl
      · iexact HO)
  iintro ⟨Hlv, -, -, Hb, Hs, HO⟩
  iapply key
  isplitl [Hlv]; · iexact Hlv
  isplitl [Hb]; · iexact Hb
  isplitl [Hs]; · iexact Hs
  iexact HO

attribute [local irreducible] cc1_gather_kernel in
set_option maxHeartbeats 400000 in
set_option maxRecDepth 16384 in
theorem tileObl (hF : (K (F := F)).Facts) (hph : ∀ d j, (ph d j).toNat < 65536) :
    (K (F := F)).TileObl (D (F := F)) 𝒱 (P ph Tab) v₀ 0 := by
  intro d c i O W hO _ _
  obtain ⟨cn, hcn⟩ := c
  obtain ⟨inn, hinn⟩ := i
  simp only [show (P (F := F) ph Tab).ox = fun _ _ => 0 from rfl, add_zero]
  have hci : ((K (F := F)).core 0 ⟨cn, hcn⟩).val < grid1.bound 0 ∧ ((K (F := F)).sub 0 ⟨inn, hinn⟩).val < grid1.bound 1 := ⟨hcn, hinn⟩
  change _ ⊢ wp _ _ _ (Pipeline.liftProg (defs₀ (F := F) (.scVector ((K (F := F)).core 0 ⟨cn, hcn⟩) ((K (F := F)).sub 0 ⟨inn, hinn⟩)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases hact : step (coordsV ⟨_, hci.1⟩ ⟨_, hci.2⟩) < 8
  · have hc0 : cn = 0 ∧ inn < 8 := by
      have : inn + 16 * cn < 8 := hact
      omega
    have hs : (⟨inn, hc0.2⟩ : Fin 8) = ⟨step (coordsV ⟨_, hci.1⟩ ⟨_, hci.2⟩), hact⟩ := Fin.ext (by
      show inn = inn + 16 * cn; omega)
    simp only [P, dif_pos hc0, hs]
    exact tile_task ph Tab hF hph d (coordsV ⟨_, hci.1⟩ ⟨_, hci.2⟩) hact O W hO
  · have hc0 : ¬(cn = 0 ∧ inn < 8) := by
      have : ¬ inn + 16 * cn < 8 := hact
      omega
    simp only [P, dif_neg hc0]
    exact idle_task hF d (coordsV ⟨_, hci.1⟩ ⟨_, hci.2⟩) (Nat.le_of_not_lt hact) O W hO

end Cert.KernelIdeal.ScObl

end
-- ==== Proof.ScSplit.lean ====
/-
  The split of SparseCore 0's operands among its eight working tiles and their rejoining: the table into eighth
  shares, the index array by 128-column stretches, the gathered array by 128-row stretches; SparseCore 1 and the idle
  tiles carry nothing. Coming back, the column stretches rejoin to the whole index array, the row stretches, each
  held at contents of its own, to one array that agrees with each on its rows; a row r of it is gathered because it
  is row r of the contents that step r / 128 brought back, which was.
-/
import proofs.«218855_g90357521973776_cont_sun_m_356_26_alg».proof.Proof.Setup
import proofs.«218855_g90357521973776_cont_sun_m_356_26_alg».proof.Proof.ScPay

noncomputable section

namespace Cert.KernelIdeal.ScSplit

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.TileBody Cert.KernelIdeal.ScPay

variable [FloatOps F]
variable (ph : (d : Dev nD) → Buf (Elt F) (idxLoc d)) (Tab : (d : Dev nD) → Buf (Elt F) (tabLoc d) → Prop)

/-! ## Sixteen tiles, eight of them working -/

/-- The sixteen tiles are the eight working ones and eight more. -/
def halves : Fin 8 ⊕ Fin 8 ≃ Fin 16 := finSumFinEquiv

theorem halves_inl (i : Fin 8) : (halves (Sum.inl i)).val = i.val := rfl
theorem halves_inr (i : Fin 8) : (halves (Sum.inr i)).val = 8 + i.val := rfl

/-- A family over the sixteen tiles that is `Φ` on the first eight and nothing on the others is `Φ` over the eight. -/
theorem bigSep_working (Φ : Fin 8 → sProp 𝕄) :
    (bigSep Finset.univ fun i : Fin 16 => if h : i.val < 8 then Φ ⟨i.val, h⟩ else iprop(emp)) = bigSep Finset.univ Φ := by
  rw [bigSep_univ_equiv halves (fun i : Fin 16 => if h : i.val < 8 then Φ ⟨i.val, h⟩ else iprop(emp)), bigSep_univ_sum]
  have e1 : (bigSep Finset.univ fun i : Fin 8 => if h : (halves (Sum.inl i)).val < 8 then Φ ⟨(halves (Sum.inl i)).val, h⟩ else iprop(emp)) = bigSep Finset.univ Φ :=
    bigSep_congr fun i _ => by
      have h : (halves (Sum.inl i)).val < 8 := by rw [halves_inl]; exact i.isLt
      rw [dif_pos h]; exact congrArg Φ (Fin.ext (halves_inl i))
  have e2 : (bigSep Finset.univ fun i : Fin 8 => if h : (halves (Sum.inr i)).val < 8 then Φ ⟨(halves (Sum.inr i)).val, h⟩ else iprop(emp)) = (iprop(emp) : sProp 𝕄) := by
    rw [show (fun i : Fin 8 => if h : (halves (Sum.inr i)).val < 8 then Φ ⟨(halves (Sum.inr i)).val, h⟩ else iprop(emp)) = fun _ => (iprop(emp) : sProp 𝕄) from
      funext fun i => dif_neg (by rw [halves_inr]; omega)]
    exact bigSep_emp_const _
  rw [e1, e2]
  exact equiv_iff.mp sep_emp

/-- On SparseCore 0 the tiles' family is the eight working tiles'. -/
theorem bigSep_tiles {n : ℕ} (c : Fin n) (hc : c.val = 0) (Φ : Fin 8 → sProp 𝕄) :
    (bigSep Finset.univ fun i : Fin 16 => if h : c.val = 0 ∧ i.val < 8 then Φ ⟨i.val, h.2⟩ else iprop(emp)) = bigSep Finset.univ Φ := by
  rw [← bigSep_working Φ]
  exact bigSep_congr fun i _ => by
    by_cases hi : i.val < 8
    · rw [dif_pos ⟨hc, hi⟩, dif_pos hi]
    · rw [dif_neg (fun h => hi h.2), dif_neg hi]

/-- On the other SparseCore it is nothing. -/
theorem bigSep_tiles_idle {n : ℕ} (c : Fin n) (hc : ¬ c.val = 0) (Φ : Fin 8 → sProp 𝕄) :
    (bigSep Finset.univ fun i : Fin 16 => if h : c.val = 0 ∧ i.val < 8 then Φ ⟨i.val, h.2⟩ else iprop(emp)) = (iprop(emp) : sProp 𝕄) := by
  rw [show (fun i : Fin 16 => if h : c.val = 0 ∧ i.val < 8 then Φ ⟨i.val, h.2⟩ else iprop(emp)) = fun _ => (iprop(emp) : sProp 𝕄) from
    funext fun i => dif_neg (fun h => hc h.1)]
  exact bigSep_emp_const _

/-! ## The three arrays among the eight steps -/

/-- The index array is its eight column stretches. -/
theorem iPts_cols (d : Dev nD) (f : Buf (Elt F) (idxLoc d)) :
    (idxLoc d ↦{fullShare} f : sProp 𝕄) = bigSep Finset.univ fun s : Fin 8 => idxLoc d ↦[iColSet s]{fullShare} f := by
  rw [← pointsTo_biUnion Finset.univ (ℓ := idxLoc d) iColSet icols_disjoint, icols_cover]; try rfl
/-- The gathered array is its eight row stretches. -/
theorem oPts_rows (d : Dev nD) (f : Buf (Elt F) (outLoc d)) :
    (outLoc d ↦{fullShare} f : sProp 𝕄) = bigSep Finset.univ fun s : Fin 8 => outLoc d ↦[oRowSet s]{fullShare} f := by
  rw [← pointsTo_biUnion Finset.univ (ℓ := outLoc d) oRowSet orows_disjoint, orows_cover]; try rfl
/-- The table at the full share is the table at the eight eighth shares. -/
theorem tPts_shares (d : Dev nD) (f : Buf (Elt F) (tabLoc d)) :
    (tabLoc d ↦{fullShare} f : sProp 𝕄) = bigSep Finset.univ fun s : Fin 8 => tabLoc d ↦{xq s} f :=
  pointsTo_leaves Finset.univ f 3 fullShare

/-- The table, with what is known of its contents, to each step at its share. -/
theorem tab_split (d : Dev nD) :
    (iprop(∃ T1, ⌜Tab d T1⌝ ∗ tabLoc d ↦{fullShare} T1) : sProp 𝕄)
      ⊢ bigSep Finset.univ fun s : Fin 8 => iprop(∃ T1, ⌜Tab d T1⌝ ∗ tabLoc d ↦{xq s} T1) := by
  iintro ⟨%T1, %hT, Ht⟩
  have key : (tabLoc d ↦{fullShare} T1 : sProp 𝕄)
      ⊢ bigSep Finset.univ fun s : Fin 8 => iprop(∃ T1, ⌜Tab d T1⌝ ∗ tabLoc d ↦{xq s} T1) := by
    rw [tPts_shares d T1]
    exact bigSep_mono fun s _ =>
      (show (tabLoc d ↦{xq s} T1 : sProp 𝕄) ⊢ iprop(∃ T1, ⌜Tab d T1⌝ ∗ tabLoc d ↦{xq s} T1) from by
        iintro H
        iexists T1
        isplitr
        · ipureintro; exact hT
        · iexact H)
  iapply key; iexact Ht

/-- The gathered array, whatever it holds, to each step by rows. -/
theorem out_split (d : Dev nD) :
    (iprop(∃ f, outLoc d ↦{fullShare} f) : sProp 𝕄)
      ⊢ bigSep Finset.univ fun s : Fin 8 => iprop(∃ f, outLoc d ↦[oRowSet s]{fullShare} f) := by
  iintro ⟨%f, Ho⟩
  have key : (outLoc d ↦{fullShare} f : sProp 𝕄)
      ⊢ bigSep Finset.univ fun s : Fin 8 => iprop(∃ f, outLoc d ↦[oRowSet s]{fullShare} f) := by
    rw [oPts_rows d f]
    exact bigSep_mono fun s _ =>
      (show (outLoc d ↦[oRowSet s]{fullShare} f : sProp 𝕄) ⊢ iprop(∃ f, outLoc d ↦[oRowSet s]{fullShare} f) from by
        iintro H
        iexists f
        iexact H)
  iapply key; iexact Ho

/-- The rows come back: the eight stretches, each at contents whose 128 rows are gathered, are one array every row
    of which is gathered. -/
theorem out_join (d : Dev nD) :
    (bigSep Finset.univ fun s : Fin 8 =>
        iprop(∃ f, ⌜∀ a : Fin 128, Gath ph Tab d f ⟨128 * s.val + a.val, by omega⟩⌝ ∗ outLoc d ↦[oRowSet s]{fullShare} f))
      ⊢ (iprop(∃ f, ⌜∀ r, Gath ph Tab d f r⌝ ∗ outLoc d ↦{fullShare} f) : sProp 𝕄) := by
  refine (bigSep_exists_pi Finset.univ (fun (s : Fin 8) (f : Buf (Elt F) (outLoc d)) =>
    iprop(⌜∀ a : Fin 128, Gath ph Tab d f ⟨128 * s.val + a.val, by omega⟩⌝ ∗ outLoc d ↦[oRowSet s]{fullShare} f))).trans ?_
  iintro ⟨%fs, H⟩
  have h1 := bigSep_pure_sep (M := 𝕄) Finset.univ (fun s : Fin 8 => ∀ a : Fin 128, Gath ph Tab d (fs s) ⟨128 * s.val + a.val, by omega⟩)
    (fun s : Fin 8 => (outLoc d ↦[oRowSet s]{fullShare} fs s : sProp 𝕄))
  beta_reduce at h1
  ihave H1 := h1 $$ H
  icases H1 with ⟨%hG, H2⟩
  ihave H3 := (pointsTo_biUnion_join (ℓ := outLoc d) (q := fullShare) (Val := Elt F) Finset.univ oRowSet fs (fs 0) orows_disjoint) $$ H2
  icases H3 with ⟨%g, %hg, Hg⟩
  rw [orows_cover]
  iexists g
  isplitr
  · ipureintro
    intro r
    have hs : r.val / 128 < 8 := by have := r.isLt; omega
    have hGr : Gath ph Tab d (fs ⟨r.val / 128, hs⟩) r := by
      have h := hG ⟨r.val / 128, hs⟩ (Finset.mem_univ _) ⟨r.val % 128, Nat.mod_lt _ (by decide)⟩
      have er : (⟨128 * (r.val / 128) + r.val % 128, by have := r.isLt; omega⟩ : Fin 1024) = r := Fin.ext (Nat.div_add_mod r.val 128)
      exact (congrArg (Gath ph Tab d (fs ⟨r.val / 128, hs⟩)) er).mp h
    unfold Gath at hGr ⊢
    obtain ⟨T1, hT, hrow⟩ := hGr
    refine ⟨T1, hT, fun b => ?_⟩
    rw [hg ⟨r.val / 128, hs⟩ (Finset.mem_univ _) _ ((mem_oRowSet ⟨r.val / 128, hs⟩ r b).mpr rfl)]
    exact hrow b
  · iexact Hg

/-! ## The split -/

/-- SparseCore 0: the three operands to the eight steps, and back. -/
theorem split8 (d : Dev nD) :
    stRes ph Tab d ⊢ |={Set.univ}=> iprop((bigSep Finset.univ fun s : Fin 8 => goRes ph Tab d s)
      ∗ ((bigSep Finset.univ fun s : Fin 8 => tdRes ph Tab d s) -∗ dnRes ph Tab d)) := by
  show iprop((∃ T1, ⌜Tab d T1⌝ ∗ tabLoc d ↦{fullShare} T1) ∗ (idxLoc d ↦{fullShare} ph d) ∗ ∃ f, outLoc d ↦{fullShare} f)
    ⊢ |={Set.univ}=> iprop(
      (bigSep Finset.univ fun s : Fin 8 =>
        iprop((∃ T1, ⌜Tab d T1⌝ ∗ tabLoc d ↦{xq s} T1) ∗ (idxLoc d ↦[iColSet s]{fullShare} ph d) ∗ ∃ f, outLoc d ↦[oRowSet s]{fullShare} f))
      ∗ ((bigSep Finset.univ fun s : Fin 8 =>
          iprop((idxLoc d ↦[iColSet s]{fullShare} ph d)
            ∗ ∃ f, ⌜∀ a : Fin 128, Gath ph Tab d f ⟨128 * s.val + a.val, by omega⟩⌝ ∗ outLoc d ↦[oRowSet s]{fullShare} f))
        -∗ iprop((idxLoc d ↦{fullShare} ph d) ∗ ∃ f, ⌜∀ r, Gath ph Tab d f r⌝ ∗ outLoc d ↦{fullShare} f)))
  rw [bigSep_sep', bigSep_sep', bigSep_sep', iPts_cols d (ph d)]
  iintro ⟨Ht, Hi, Ho⟩
  imodintro
  isplitl [Ht Hi Ho]
  · isplitl [Ht]; · iapply (tab_split Tab d); iexact Ht
    isplitl [Hi]; · iexact Hi
    iapply (out_split d); iexact Ho
  · iintro ⟨Hi, Ho⟩
    isplitl [Hi]; · iexact Hi
    iapply (out_join ph Tab d); iexact Ho

/-- THE SPLIT of the one call's operands: SparseCore 0's among its eight working tiles, nothing elsewhere. -/
theorem vecSplit : (K (F := F)).VecSplit' (P ph Tab) 0 := by
  intro d c
  show (if c.val = 0 then stRes ph Tab d else iprop(emp)) ⊢ |={Set.univ}=> iprop(
      (bigSep Finset.univ fun i : Fin 16 => if h : c.val = 0 ∧ i.val < 8 then goRes ph Tab d ⟨i.val, h.2⟩ else iprop(emp))
      ∗ ((bigSep Finset.univ fun i : Fin 16 => if h : c.val = 0 ∧ i.val < 8 then tdRes ph Tab d ⟨i.val, h.2⟩ else iprop(emp))
          -∗ (if c.val = 0 then dnRes ph Tab d else iprop(emp))))
  by_cases hc : c.val = 0
  · rw [if_pos hc, if_pos hc, bigSep_tiles c hc (goRes ph Tab d), bigSep_tiles c hc (tdRes ph Tab d)]
    exact split8 ph Tab d
  · rw [if_neg hc, if_neg hc, bigSep_tiles_idle c hc (goRes ph Tab d), bigSep_tiles_idle c hc (tdRes ph Tab d)]
    iintro H
    imodintro
    isplitl [H]; · iexact H
    iintro H'
    iexact H'

end Cert.KernelIdeal.ScSplit

end
-- ==== Proof.MainOps.lean ====
/-
  @main of the idealized kernel as a chain of seven items: four stretches of host operations (the transposes, the
  physical index and its high bit), the two TensorCore regions and the SparseCore call between them.
-/
import proofs.«218855_g90357521973776_cont_sun_m_356_26_alg».proof.Proof.Setup
import Idealize.ShloMosaic.Lib.StableHlo.Run

noncomputable section

namespace Cert.KernelIdeal.MainOps

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (seq after)

variable [FloatOps F]

/-! ## The host operations, as @main spells them -/

abbrev opV0 : HloOp τ sig (Elt F) := StableHlo.unary main_arg1 main_v0 ((transpose S64x100000 [1, 0] · transposes_S100000x64_S64x100000_1_0) : (⟨S100000x64, .f32⟩ : BufTy).Contents (Elt F) → (⟨S64x100000, .f32⟩ : BufTy).Contents (Elt F))
abbrev opC : HloOp τ sig (Elt F) := StableHlo.nullary main_c (constantI S_ 32 65536#32)
abbrev opV2 : HloOp τ sig (Elt F) := StableHlo.unary main_c main_v2 (broadcastInDim S1024 ![] bcast_S_S1024 : (⟨S_, .i32⟩ : BufTy).Contents (Elt F) → (⟨S1024, .i32⟩ : BufTy).Contents (Elt F))
abbrev opV3 : HloOp τ sig (Elt F) := StableHlo.binary main_arg0 main_v2 main_v3 (cmpi .sge : (⟨S1024, .i32⟩ : BufTy).Contents (Elt F) → (⟨S1024, .i32⟩ : BufTy).Contents (Elt F) → (⟨S1024, .i1⟩ : BufTy).Contents (Elt F))
abbrev opC0 : HloOp τ sig (Elt F) := StableHlo.nullary main_c_0 (constantI S_ 32 65536#32)
abbrev opV4 : HloOp τ sig (Elt F) := StableHlo.unary main_c_0 main_v4 (broadcastInDim S1024 ![] bcast_S_S1024 : (⟨S_, .i32⟩ : BufTy).Contents (Elt F) → (⟨S1024, .i32⟩ : BufTy).Contents (Elt F))
abbrev opV5 : HloOp τ sig (Elt F) := StableHlo.binary main_arg0 main_v4 main_v5 (subi : (⟨S1024, .i32⟩ : BufTy).Contents (Elt F) → (⟨S1024, .i32⟩ : BufTy).Contents (Elt F) → (⟨S1024, .i32⟩ : BufTy).Contents (Elt F))
abbrev opV7 : HloOp τ sig (Elt F) := StableHlo.reshape main_v6 main_v7 rfl shapeCasts_S1024_S1x1024
abbrev opC1 : HloOp τ sig (Elt F) := StableHlo.nullary main_c_1 (constantI S_ 32 65536#32)
abbrev opV9 : HloOp τ sig (Elt F) := StableHlo.unary main_c_1 main_v9 (broadcastInDim S1024 ![] bcast_S_S1024 : (⟨S_, .i32⟩ : BufTy).Contents (Elt F) → (⟨S1024, .i32⟩ : BufTy).Contents (Elt F))
abbrev opV10 : HloOp τ sig (Elt F) := StableHlo.binary main_arg0 main_v9 main_v10 (cmpi .sge : (⟨S1024, .i32⟩ : BufTy).Contents (Elt F) → (⟨S1024, .i32⟩ : BufTy).Contents (Elt F) → (⟨S1024, .i1⟩ : BufTy).Contents (Elt F))
abbrev opV11 : HloOp τ sig (Elt F) := StableHlo.unary main_v10 main_v11 ((extui 32 · natLt_1_32) : (⟨S1024, .i1⟩ : BufTy).Contents (Elt F) → (⟨S1024, .i32⟩ : BufTy).Contents (Elt F))
abbrev opV12 : HloOp τ sig (Elt F) := StableHlo.reshape main_v11 main_v12 rfl shapeCasts_S1024_S1024x1
abbrev opV13 : HloOp τ sig (Elt F) := StableHlo.unary main_arg2 main_v13 ((transpose S64x100000 [1, 0] · transposes_S100000x64_S64x100000_1_0) : (⟨S100000x64, .f32⟩ : BufTy).Contents (Elt F) → (⟨S64x100000, .f32⟩ : BufTy).Contents (Elt F))
abbrev opV15 : HloOp τ sig (Elt F) := StableHlo.unary main_v14 main_v15 ((transpose S1024x100000 [1, 0] · transposes_S100000x1024_S1024x100000_1_0) : (⟨S100000x1024, .f32⟩ : BufTy).Contents (Elt F) → (⟨S1024x100000, .f32⟩ : BufTy).Contents (Elt F))
abbrev opV6 : HloOp τ sig (Elt F) := StableHlo.TRef.ternary (.of main_v3) (.of main_v5) (.of main_arg0) main_call0.v0 select

/-- Before the first region: the table's source, transposed. -/
abbrev opsA : List (HloOp τ sig (Elt F)) := [opV0]
/-- Between the first region and the SparseCore call: the physical index `x - 65536` where `x ≥ 65536`, else `x`, as a row. -/
abbrev opsB : List (HloOp τ sig (Elt F)) := [opC, opV2, opV3, opC0, opV4, opV5, opV6, opV7]
/-- Between the SparseCore call and the second region: the high bit as a column, the weight transposed. -/
abbrev opsC : List (HloOp τ sig (Elt F)) := [opC1, opV9, opV10, opV11, opV12, opV13]
/-- After the second region: the result transposed. -/
abbrev opsD : List (HloOp τ sig (Elt F)) := [opV15]

abbrev region (p : Fin 2) : Prog (TpuEff nD τ sig (Elt F) (SparseCore.Sig (ΛP (F := F)) 1) .tc) PUnit :=
  Prog.lift (.customCall (SparseCore.inner (Pipeline.entry p)) ())

/-- @main is the chain of its items. -/
theorem main_chain (d : Dev nD) :
    main (F := F) d = Pipeline.chain [seq opsA, region 0, seq opsB, (sc (F := F)).run d 0, seq opsC, region 1, seq opsD] := by
  unfold main fn_where.body
  chain_rfl

end Cert.KernelIdeal.MainOps

end
-- ==== Proof.MainRegion.lean ====
/-
  @main of the idealized kernel on the TensorCore, under the SparseCore launch: how a TensorCore region of @main is
  entered from the SparseCore program's body table, and the launch element of the ghost state (the handshakes'
  rounds and the two pipelines' staging cells).
-/
import proofs.«218855_g90357521973776_cont_sun_m_356_26_alg».proof.Proof.Setup
import proofs.«218855_g90357521973776_cont_sun_m_356_26_alg».proof.Proof.MainOps

noncomputable section

namespace Cert.KernelIdeal.MainRegion

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainOps
open Idealize.ShloMosaic.StableHlo (seq after held wp_seq)
open Idealize.ShloMosaic.Pipeline (pin)

variable [FloatOps F]

/-- No pipeline has prefetched tables. -/
abbrev adm : (p : Fin 2) → (pcfgs (F := F) p).Adm := fun p => (cfgs p).toPCfg_adm

theorem pin_eq : pin (pcfgs (F := F)) adm = cfgs := rfl

theorem cellOf_inj' : Function.Injective (Pipeline.cellOf (nD := nD) (τ := τ) (pin (pcfgs (F := F)) adm)) := by
  rw [pin_eq]; exact Gen.cellOf_inj

/-- A region's call in the SparseCore program is the pipeline library's call, lifted. -/
theorem region_eq (p : Fin 2) : region (F := F) p = SparseCore.liftProg (Q := 1) (Prog.lift (.customCall (Pipeline.entry p) ())) := rfl

variable (rdats : (p : Fin 2) → (c : Dev nD) → Pipeline.RDat τ (Elt F) (HIx 1) ℕ UU ℕ (pin (pcfgs (F := F)) adm p) c)

set_option maxHeartbeats 400000 in
/-- The region by itself, under the pipeline library's table. -/
theorem wp_region₀ [∀ e, Nonempty (Elt F e)] {p : Fin 2}
    (R : Pipeline.RDat.RegionSeg (pcfgs (F := F)) adm rdats none (defs₀ (F := F)) 𝒱₀ (K (F := F)).L (K (F := F)).lev p) (d : Dev nD) (Q : PUnit → sProp 𝕄) :
    iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE (D (F := F)) 𝒱 (d.tc : Thread nD τ) none) Set.univ (.op (.customCall (Pipeline.entry p) ()) fun _ => .ret ⟨⟩) Q :=
  Pipeline.RDat.RegionSeg.wp (pcfgs (F := F)) adm rdats none cellOf_inj' EP (defs₀ (F := F)) 𝒱₀ (K (F := F)).L (K (F := F)).lev R d none (fun u hu => nomatch hu) (fun _ => .ret ⟨⟩) Q

/-- The region at the head of the rest of @main, under the SparseCore program's table. -/
theorem wp_region [∀ e, Nonempty (Elt F e)] {p : Fin 2}
    (R : Pipeline.RDat.RegionSeg (pcfgs (F := F)) adm rdats none (defs₀ (F := F)) 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (d.tc : Thread nD τ) none) Set.univ (region (F := F) p >>= k) Q := by
  have hinner : iprop(boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (d.tc : Thread nD τ) none) Set.univ (region (F := F) p) (fun _ => iprop(boundary (d.tc : Thread nD τ) ∗ R.post d)) := by
    have h1 : (iprop(boundary (d.tc : Thread nD τ) ∗ R.pre d ∗ levAts (K (F := F)).L (K (F := F)).lev
          ∗ Pipeline.cellsGhost (pin (pcfgs (F := F)) adm) EP p d ∗ Pipeline.toksInit (pin (pcfgs (F := F)) adm) EP p d) : sProp 𝕄)
        ⊢ iprop((iprop(boundary (d.tc : Thread nD τ) ∗ R.post d) -∗ wp frame (wpE (D (F := F)) 𝒱 (d.tc : Thread nD τ) none) Set.univ (Prog.ret PUnit.unit)
              (fun _ : PUnit => iprop(boundary (d.tc : Thread nD τ) ∗ R.post d)))
          ∗ boundary (d.tc : Thread nD τ) ∗ R.pre d ∗ levAts (K (F := F)).L (K (F := F)).lev
          ∗ Pipeline.cellsGhost (pin (pcfgs (F := F)) adm) EP p d ∗ Pipeline.toksInit (pin (pcfgs (F := F)) adm) EP p d) := by
      iintro ⟨Hb, Hpre, Hlv, Hg, Ht⟩
      isplitr
      · iintro H; rw [wp_ret]; imodintro; iexact H
      isplitl [Hb]; · iexact Hb
      isplitl [Hpre]; · iexact Hpre
      isplitl [Hlv]; · iexact Hlv
      isplitl [Hg]; · iexact Hg
      iexact Ht
    rw [region_eq]
    exact h1.trans ((wp_region₀ rdats R d _).trans ((K (F := F)).wp_liftProg (D (F := F)) 𝒱 (d.tc : Thread nD τ) Set.univ none _ _))
  rw [wp_bind]
  iintro ⟨Hk, Hrest⟩
  iapply (wp_wand_r frame _ Set.univ)
  isplitl [Hrest]
  · iapply hinner; iexact Hrest
  · iintro %_ H
    iapply Hk; iexact H

end Cert.KernelIdeal.MainRegion

end
-- ==== Proof.MainLaunch.lean ====
/-
  The launch element of the certificate's ghost state: the handshakes' rounds go to the launch theorem, the two
  pipelines' staging cells' rounds are funded into each TensorCore's share, the transfer counters are not needed
  at the launch.
-/
import proofs.«218855_g90357521973776_cont_sun_m_356_26_alg».proof.Proof.Setup
import proofs.«218855_g90357521973776_cont_sun_m_356_26_alg».proof.Proof.MainRegion
import proofs.«218855_g90357521973776_cont_sun_m_356_26_alg».proof.Proof.ScPay

noncomputable section

namespace Cert.KernelIdeal.MainLaunch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainRegion
open Idealize.ShloMosaic.Pipeline (pin)

variable [FloatOps F]

/-- What the launch deals each TensorCore for its two regions: their staging cells' ghost state and duty tokens. -/
def G (d : Dev nD) : sProp 𝕄 :=
  bigSep Finset.univ fun p : Fin 2 => iprop(Pipeline.cellsGhost (pin (pcfgs (F := F)) adm) EP p d ∗ Pipeline.toksInit (pin (pcfgs (F := F)) adm) EP p d)

def u₀ : UU :=
  (initOf (K (F := F)).hsCells (K (F := F)).hsToks,
    (initOf (Pipeline.cells (nD := nD) (τ := τ) (pin (pcfgs (F := F)) adm) cellOf_inj') (Pipeline.launchToks (nD := nD) (τ := τ) (pin (pcfgs (F := F)) adm) cellOf_inj'), (1 : Counters)))

theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HH, Hr⟩
  ihave H2 := h2 $$ Hr
  icases H2 with ⟨HP, -⟩
  isplitl [HH]; · iexact HH
  iexact HP

theorem bigSep_emp' {I : Type} (s : Finset I) : (bigSep s fun _ => iprop(emp)) = (iprop(emp) : sProp 𝕄) := bigSep_emp_const s

variable (ph : (d : Dev nD) → Buf (Elt F) (TileBody.idxLoc d)) (Tab : (d : Dev nD) → Buf (Elt F) (TileBody.tabLoc d) → Prop)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (ScPay.P ph Tab).x q thr) := by
  unfold u₀
  iintro Hu
  ihave H := (ownU_split _ _ _) $$ Hu
  icases H with ⟨HH, HP⟩
  imod (Pipeline.fund_ghost (pin (pcfgs (F := F)) adm) EP cellOf_inj') $$ HP with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 1 => (ScPay.P (F := F) ph Tab).x q thr) = bigSep Finset.univ fun _ => iprop(emp) from
    bigSep_congr fun _ _ => bigSep_univ_of_subsingleton (0 : Fin 1), bigSep_emp']
  iempintro

end Cert.KernelIdeal.MainLaunch

end
-- ==== Proof.MainHeld.lean ====
/-
  The TensorCore's arrays held whole as one family, so that the stretches of host operations run over it and a
  region or the SparseCore call takes its own arrays out and puts them back; and what the run leaves for the claim:
  the three argument arrays at their launch contents.
-/
import proofs.«218855_g90357521973776_cont_sun_m_356_26_alg».proof.Proof.Setup
import proofs.«218855_g90357521973776_cont_sun_m_356_26_alg».proof.Proof.MainOps

noncomputable section

namespace Cert.KernelIdeal.MainHeld

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainOps
open Idealize.ShloMosaic.StableHlo (seq after held wp_seq)

variable [FloatOps F]
variable (m : (ℓ : Loc nD τ sig) → Buf (Elt F) ℓ)

/-- The TensorCore's unscoped arrays: @main's arguments and values. -/
def Sall : Finset (DevRef τ sig) :=
  (Finset.univ.filter fun b : Ref sig .tc => ¬ b.isScoped).map ⟨Proc.devRef .tc, Proc.devRef_injective _⟩

/-- The launch contents. -/
def V₀ (d : Dev nD) : Valuation τ sig (Elt F) := fun b => m (d, b)

theorem unscoped_held (d : Dev nD) :
    (unscopedBufs d (fun b => m ((SparseCore.T d).loc b)) : sProp 𝕄) = held (T d) Sall (V₀ m d) := by
  unfold unscopedBufs held Sall
  rw [bigSep_map]
  rfl

/-- One array out of the family, -/
theorem held_take (d : Dev nD) (V : Valuation τ sig (Elt F)) {b : DevRef τ sig} {S : Finset (DevRef τ sig)} (hb : b ∈ S) :
    (held (T d) S V : sProp 𝕄) = iprop(((d, b) ↦{fullShare} V b) ∗ held (T d) (S.erase b) V) := by
  unfold held; exact bigSep_erase hb

/-- and back at new contents. -/
theorem held_put (d : Dev nD) (V : Valuation τ sig (Elt F)) {b : DevRef τ sig} {S : Finset (DevRef τ sig)} (hb : b ∈ S) (f : Buf (Elt F) (d, b)) :
    (iprop(((d, b) ↦{fullShare} f) ∗ held (T d) (S.erase b) V) : sProp 𝕄) = held (T d) S (Function.update V b f) := by
  rw [held_take d (Function.update V b f) hb, Function.update_self]
  congr 1
  unfold held
  exact bigSep_congr fun b' hb' => by rw [Function.update_of_ne (Finset.ne_of_mem_erase hb')]

end Cert.KernelIdeal.MainHeld

end
-- ==== Proof.MainFin.lean ====
/-
  What @main leaves for the claim: the three argument arrays at their launch contents, and how the final memory
  reads it.
-/
import proofs.«218855_g90357521973776_cont_sun_m_356_26_alg».proof.Proof.Setup
import proofs.«218855_g90357521973776_cont_sun_m_356_26_alg».proof.Proof.MainHeld

noncomputable section

namespace Cert.KernelIdeal.MainFin

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

/-- The arguments, unchanged. -/
abbrev FIN (d : Dev nD) : sProp 𝕄 :=
  iprop((a0Loc d ↦{fullShare} m (a0Loc d)) ∗ (a1Loc d ↦{fullShare} m (a1Loc d)) ∗ (a2Loc d ↦{fullShare} m (a2Loc d)))

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := a2Loc d) (I := Finset.univ) (q := fullShare) (f := m (a2Loc d))) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- The frame's post: on every device the three arguments are as launched. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)

end Cert.KernelIdeal.MainFin

end
-- ==== Proof.HostVals.lean ====
/-
  What the host operations between the kernels compute, as equations over an arbitrary valuation of the arrays:
  the transposes, the physical index (x - 65536 where x ≥ 65536, else x) as a row, the high bit as a column;
  which arrays each stretch leaves alone; and which arrays each stretch touches.
-/
import proofs.«218855_g90357521973776_cont_sun_m_356_26_alg».proof.Proof.MainOps
import proofs.«218855_g90357521973776_cont_sun_m_356_26_alg».proof.Proof.MainHeld
import Idealize.ShloMosaic.Lib.StableHlo.Run
import Idealize.ShloMosaic.Lib.ValueIdx
import Idealize.ShloMosaic.Lib.Pipeline.Value

noncomputable section

namespace Cert.KernelIdeal.HostVals

open Cert.KernelIdeal Cert.KernelIdeal.Gen Cert.KernelIdeal.Setup Cert.KernelIdeal.MainOps

open Idealize.ShloMosaic
open Idealize.ShloMosaic.StableHlo (seq after)

variable {F : FTy → Type} [FloatOps F]

local notation:max r "′" => Proc.devRef (τ := τ) Proc.tc r

variable (V : Valuation τ sig (Elt F))

/-! ## The transposes -/

theorem after_opsA_v0 :
    after (opsA (F := F)) V (main_v0′)
      = transpose (s := S100000x64) S64x100000 [1, 0] (V (main_arg1′)) transposes_S100000x64_S64x100000_1_0 := by
  after_results
theorem after_opsC_v13 :
    after (opsC (F := F)) V (main_v13′)
      = transpose (s := S100000x64) S64x100000 [1, 0] (V (main_arg2′)) transposes_S100000x64_S64x100000_1_0 := by
  after_results
theorem after_opsD_v15 :
    after (opsD (F := F)) V (main_v15′)
      = transpose (s := S100000x1024) S1024x100000 [1, 0] (V (main_v14′)) transposes_S100000x1024_S1024x100000_1_0 := by
  after_results

/-! ## The physical index and the high bit -/

/-- The physical index of each word: x - 65536 where x ≥ 65536 (signed), else x; laid out as one row. -/
def phOf (x : IVec S1024 32) : IVec S1x1024 32 :=
  shapeCast S1x1024
    (select (cmpi .sge x (broadcastInDim S1024 ![] bcast_S_S1024 (constantI S_ 32 65536#32)))
      (subi x (broadcastInDim S1024 ![] bcast_S_S1024 (constantI S_ 32 65536#32))) x)
    shapeCasts_S1024_S1x1024

/-- The high bit of each word: 1 where x ≥ 65536 (signed), else 0, as a 32-bit word; laid out as one column. -/
def hiOf (x : IVec S1024 32) : IVec S1024x1 32 :=
  shapeCast S1024x1
    (extui 32 (cmpi .sge x (broadcastInDim S1024 ![] bcast_S_S1024 (constantI S_ 32 65536#32))) natLt_1_32)
    shapeCasts_S1024_S1024x1

theorem after_opsB_v7 : after (opsB (F := F)) V (main_v7′) = phOf (V (main_arg0′)) := by
  after_results
  rfl
theorem after_opsC_v12 : after (opsC (F := F)) V (main_v12′) = hiOf (V (main_arg0′)) := by
  after_results
  rfl

theorem phOf_apply (x : IVec S1024 32) (r : Fin 1024) :
    phOf x (ValueIdx.ix2 (n0 := 1) (n1 := 1024) 0 r)
      = Scalar.select (IntOp.cmpi .sge (x (ValueIdx.ix1 r)) 65536#32) (x (ValueIdx.ix1 r) - 65536#32) (x (ValueIdx.ix1 r)) := by
  unfold phOf
  rw [shapeCast_apply _ _ _ (ValueIdx.ix1 r) (by rw [Shape.rowMajor_val_one, Shape.rowMajor_val_two]; show r.val = 0 * 1024 + r.val; omega)]
  rfl

theorem hiOf_apply (x : IVec S1024 32) (b : Fin 1024) :
    hiOf x (ValueIdx.ix2 (n0 := 1024) (n1 := 1) b 0) = (IntOp.cmpi .sge (x (ValueIdx.ix1 b)) 65536#32).setWidth 32 := by
  unfold hiOf
  rw [shapeCast_apply _ _ _ (ValueIdx.ix1 b) (by rw [Shape.rowMajor_val_one, Shape.rowMajor_val_two]; show b.val = b.val * 1 + 0; omega)]
  rfl

/-- Words between 0 and 99999 have a physical index below 65536. -/
theorem phOf_lt (x : IVec S1024 32) (hx : ∀ b : Fin 1024, 0 ≤ (x (ValueIdx.ix1 b)).toInt ∧ (x (ValueIdx.ix1 b)).toInt ≤ 99999) :
    ∀ j, (phOf x j).toNat < 65536 := by
  intro j
  obtain ⟨a, r, rfl⟩ : ∃ (a : Fin 1) (r : Fin 1024), j = ValueIdx.ix2 a r := ⟨j 0, j 1, ValueIdx.eq_ix2 j⟩
  obtain rfl : a = 0 := Subsingleton.elim _ _
  rw [phOf_apply]
  obtain ⟨h0, h1⟩ := hx r
  generalize x (ValueIdx.ix1 r) = w at h0 h1 ⊢
  have hlt : w.toNat < 2 ^ 32 := w.isLt
  have e := BitVec.toInt_eq_toNat_cond w
  have hN : w.toInt = (w.toNat : ℤ) := by
    rw [e]; split
    · rfl
    · rename_i hc; rw [e, if_neg hc] at h0; omega
  have hw : w.toNat ≤ 99999 := by omega
  have h65 : (65536#32 : BitVec 32).toInt = 65536 := by decide
  unfold Scalar.select IntOp.cmpi
  by_cases hc : (65536 : ℤ) ≤ w.toInt
  · have hs : (65536#32 : BitVec 32).sle w = true := by simp [BitVec.sle, h65, hc]
    simp only [hs]
    rw [if_pos (by decide : BitVec.ofBool true = 1), BitVec.toNat_sub]
    have h6 : (65536#32 : BitVec 32).toNat = 65536 := by decide
    rw [h6]
    omega
  · have hs : (65536#32 : BitVec 32).sle w = false := by simp [BitVec.sle, h65, hc]
    simp only [hs]
    rw [if_neg (by decide : ¬ BitVec.ofBool false = 1)]
    omega

/-! ## What each stretch leaves alone -/

theorem opsA_keeps_arg0 : after (opsA (F := F)) V (main_arg0′) = V (main_arg0′) := by after_results
theorem opsA_keeps_arg1 : after (opsA (F := F)) V (main_arg1′) = V (main_arg1′) := by after_results
theorem opsA_keeps_arg2 : after (opsA (F := F)) V (main_arg2′) = V (main_arg2′) := by after_results
theorem opsB_keeps_arg0 : after (opsB (F := F)) V (main_arg0′) = V (main_arg0′) := by after_results
theorem opsB_keeps_arg1 : after (opsB (F := F)) V (main_arg1′) = V (main_arg1′) := by after_results
theorem opsB_keeps_arg2 : after (opsB (F := F)) V (main_arg2′) = V (main_arg2′) := by after_results
theorem opsB_keeps_v0 : after (opsB (F := F)) V (main_v0′) = V (main_v0′) := by after_results
theorem opsB_keeps_v1 : after (opsB (F := F)) V (main_v1′) = V (main_v1′) := by after_results
theorem opsC_keeps_arg0 : after (opsC (F := F)) V (main_arg0′) = V (main_arg0′) := by after_results
theorem opsC_keeps_arg1 : after (opsC (F := F)) V (main_arg1′) = V (main_arg1′) := by after_results
theorem opsC_keeps_arg2 : after (opsC (F := F)) V (main_arg2′) = V (main_arg2′) := by after_results
theorem opsC_keeps_v7 : after (opsC (F := F)) V (main_v7′) = V (main_v7′) := by after_results
theorem opsC_keeps_v8 : after (opsC (F := F)) V (main_v8′) = V (main_v8′) := by after_results
theorem opsD_keeps_arg0 : after (opsD (F := F)) V (main_arg0′) = V (main_arg0′) := by after_results
theorem opsD_keeps_arg1 : after (opsD (F := F)) V (main_arg1′) = V (main_arg1′) := by after_results
theorem opsD_keeps_arg2 : after (opsD (F := F)) V (main_arg2′) = V (main_arg2′) := by after_results
theorem opsD_keeps_v13 : after (opsD (F := F)) V (main_v13′) = V (main_v13′) := by after_results
theorem opsD_keeps_v8 : after (opsD (F := F)) V (main_v8′) = V (main_v8′) := by after_results
theorem opsD_keeps_v12 : after (opsD (F := F)) V (main_v12′) = V (main_v12′) := by after_results

/-! ## The arrays each stretch touches

Every operation of a stretch reads and writes unscoped arrays of the TensorCore only and allocates none; the two
later stretches touch nothing of the gathered table's array. -/

theorem opsA_bufs : ∀ op ∈ (opsA (F := F)), op.bufs ⊆ MainHeld.Sall := by
  intro op hop
  simp only [List.mem_cons, List.not_mem_nil, or_false] at hop
  rcases hop with rfl
  · exact (by decide : ({main_arg1′, main_v0′} : Finset (DevRef τ sig)) ⊆ MainHeld.Sall)
theorem opsA_fresh : ∀ op ∈ (opsA (F := F)), op.fresh = ∅ := by
  intro op hop
  simp only [List.mem_cons, List.not_mem_nil, or_false] at hop
  rcases hop with rfl <;> rfl
theorem opsB_bufs : ∀ op ∈ (opsB (F := F)), op.bufs ⊆ MainHeld.Sall := by
  intro op hop
  simp only [List.mem_cons, List.not_mem_nil, or_false] at hop
  rcases hop with rfl | rfl | rfl | rfl | rfl | rfl | rfl | rfl
  · exact (by decide : ({main_c′} : Finset (DevRef τ sig)) ⊆ MainHeld.Sall)
  · exact (by decide : ({main_c′, main_v2′} : Finset (DevRef τ sig)) ⊆ MainHeld.Sall)
  · exact (by decide : ({main_arg0′, main_v2′, main_v3′} : Finset (DevRef τ sig)) ⊆ MainHeld.Sall)
  · exact (by decide : ({main_c_0′} : Finset (DevRef τ sig)) ⊆ MainHeld.Sall)
  · exact (by decide : ({main_c_0′, main_v4′} : Finset (DevRef τ sig)) ⊆ MainHeld.Sall)
  · exact (by decide : ({main_arg0′, main_v4′, main_v5′} : Finset (DevRef τ sig)) ⊆ MainHeld.Sall)
  · exact (by decide : ({main_v3′, main_v5′, main_arg0′, main_v6′} : Finset (DevRef τ sig)) ⊆ MainHeld.Sall)
  · exact (by decide : ({main_v6′, main_v7′} : Finset (DevRef τ sig)) ⊆ MainHeld.Sall)
theorem opsB_fresh : ∀ op ∈ (opsB (F := F)), op.fresh = ∅ := by
  intro op hop
  simp only [List.mem_cons, List.not_mem_nil, or_false] at hop
  rcases hop with rfl | rfl | rfl | rfl | rfl | rfl | rfl | rfl <;> rfl
theorem opsC_bufs : ∀ op ∈ (opsC (F := F)), op.bufs ⊆ MainHeld.Sall := by
  intro op hop
  simp only [List.mem_cons, List.not_mem_nil, or_false] at hop
  rcases hop with rfl | rfl | rfl | rfl | rfl | rfl
  · exact (by decide : ({main_c_1′} : Finset (DevRef τ sig)) ⊆ MainHeld.Sall)
  · exact (by decide : ({main_c_1′, main_v9′} : Finset (DevRef τ sig)) ⊆ MainHeld.Sall)
  · exact (by decide : ({main_arg0′, main_v9′, main_v10′} : Finset (DevRef τ sig)) ⊆ MainHeld.Sall)
  · exact (by decide : ({main_v10′, main_v11′} : Finset (DevRef τ sig)) ⊆ MainHeld.Sall)
  · exact (by decide : ({main_v11′, main_v12′} : Finset (DevRef τ sig)) ⊆ MainHeld.Sall)
  · exact (by decide : ({main_arg2′, main_v13′} : Finset (DevRef τ sig)) ⊆ MainHeld.Sall)
theorem opsC_fresh : ∀ op ∈ (opsC (F := F)), op.fresh = ∅ := by
  intro op hop
  simp only [List.mem_cons, List.not_mem_nil, or_false] at hop
  rcases hop with rfl | rfl | rfl | rfl | rfl | rfl <;> rfl
theorem opsD_bufs : ∀ op ∈ (opsD (F := F)), op.bufs ⊆ MainHeld.Sall := by
  intro op hop
  simp only [List.mem_cons, List.not_mem_nil, or_false] at hop
  rcases hop with rfl
  · exact (by decide : ({main_v14′, main_v15′} : Finset (DevRef τ sig)) ⊆ MainHeld.Sall)
theorem opsD_fresh : ∀ op ∈ (opsD (F := F)), op.fresh = ∅ := by
  intro op hop
  simp only [List.mem_cons, List.not_mem_nil, or_false] at hop
  rcases hop with rfl <;> rfl
theorem opsC_bufs_less_v1 : ∀ op ∈ (opsC (F := F)), op.bufs ⊆ MainHeld.Sall.erase (main_v1′) := by
  intro op hop
  simp only [List.mem_cons, List.not_mem_nil, or_false] at hop
  rcases hop with rfl | rfl | rfl | rfl | rfl | rfl
  · exact (by decide : ({main_c_1′} : Finset (DevRef τ sig)) ⊆ MainHeld.Sall.erase (main_v1′))
  · exact (by decide : ({main_c_1′, main_v9′} : Finset (DevRef τ sig)) ⊆ MainHeld.Sall.erase (main_v1′))
  · exact (by decide : ({main_arg0′, main_v9′, main_v10′} : Finset (DevRef τ sig)) ⊆ MainHeld.Sall.erase (main_v1′))
  · exact (by decide : ({main_v10′, main_v11′} : Finset (DevRef τ sig)) ⊆ MainHeld.Sall.erase (main_v1′))
  · exact (by decide : ({main_v11′, main_v12′} : Finset (DevRef τ sig)) ⊆ MainHeld.Sall.erase (main_v1′))
  · exact (by decide : ({main_arg2′, main_v13′} : Finset (DevRef τ sig)) ⊆ MainHeld.Sall.erase (main_v1′))
theorem opsD_bufs_less_v1 : ∀ op ∈ (opsD (F := F)), op.bufs ⊆ MainHeld.Sall.erase (main_v1′) := by
  intro op hop
  simp only [List.mem_cons, List.not_mem_nil, or_false] at hop
  rcases hop with rfl
  · exact (by decide : ({main_v14′, main_v15′} : Finset (DevRef τ sig)) ⊆ MainHeld.Sall.erase (main_v1′))

/-! ## The transposes read at an index -/

/-- The transposed table at (k, p) is the table at (p, k). -/
theorem transpose_100000x64_apply {α : Type} (x : S100000x64.Idx → α) (k : Fin 64) (p : Fin 100000) :
    transpose (s := S100000x64) S64x100000 [1, 0] x transposes_S100000x64_S64x100000_1_0 (ValueIdx.ix2 (n0 := 64) (n1 := 100000) k p)
      = x (ValueIdx.ix2 (n0 := 100000) (n1 := 64) p k) :=
  transpose_apply _ _ _ _ _ (by intro b; fin_cases b <;> rfl)

/-- The transposed result at (b, v) is the result at (v, b). -/
theorem transpose_100000x1024_apply {α : Type} (x : S100000x1024.Idx → α) (b : Fin 1024) (v : Fin 100000) :
    transpose (s := S100000x1024) S1024x100000 [1, 0] x transposes_S100000x1024_S1024x100000_1_0 (ValueIdx.ix2 (n0 := 1024) (n1 := 100000) b v)
      = x (ValueIdx.ix2 (n0 := 100000) (n1 := 1024) v b) :=
  transpose_apply _ _ _ _ _ (by intro c; fin_cases c <;> rfl)

end Cert.KernelIdeal.HostVals
end
-- ==== Proof.Region2.lean ====
/-
  The second TensorCore region: the product of the (transposed) output weights, one block of 4096 vocabulary
  columns per grid point, with the gathered pair rows selected by the high bit. Here: the region's proof data over
  the entry contents of its four arrays, the body's obligation at a symbolic grid point, and what the arrays hold
  at entry and at exit. The last vocabulary block overhangs the weights (columns 98304..102399 of 100000) and the
  result (rows likewise): the fetch leaves the staging columns past the array at words nothing names, the body
  multiplies them too, and the write-back drops the rows they reach. Everything here is generic in the float
  instance; the result's contents are left unnamed here (the window is forgotten) and named in the value module.
-/
import proofs.«218855_g90357521973776_cont_sun_m_356_26_alg».proof.Proof.Setup
import proofs.«218855_g90357521973776_cont_sun_m_356_26_alg».proof.Proof.Gen.KernelIdeal.Points
import proofs.«218855_g90357521973776_cont_sun_m_356_26_alg».proof.Proof.Gen.KernelIdeal.Skeleton
import Idealize.ShloMosaic.Lib.Pipeline.Kit
import Idealize.ShloMosaic.Lib.Pipeline.FrameBody
import Idealize.ShloMosaic.Lib.Tactic

noncomputable section

namespace Cert.KernelIdeal.Region2

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F]

local notation "𝕄" => MT nD τ sig (HIx 1) (Elt F) ℕ Setup.UU ℕ

/-! ## The body's result as a function of what its staging buffers hold -/

/-- Columns 64..127 of the pair rows: the second table row of each pair. -/
abbrev rdHi (X1 : S1024x128.Idx → Elt F .f32) : Vec F S1024x64 .f32 :=
  (Memref.whole cc2_stg1_0 : Memref sig .tc _ _ _).view.readAt (Elt F)
    (Rect.unit (s := S1024x128) ![0, 64] S1024x64.size inb_S1024x128_S1024x64_0_64).toLoadRect X1
/-- Columns 0..63: the first. -/
abbrev rdLo (X1 : S1024x128.Idx → Elt F .f32) : Vec F S1024x64 .f32 :=
  (Memref.whole cc2_stg1_0 : Memref sig .tc _ _ _).view.readAt (Elt F)
    (Rect.unit (s := S1024x128) ![0, 0] S1024x64.size inb_S1024x128_S1024x64_0_0).toLoadRect X1

/-- What the body stores: the product of the weight block (rounded to bf16, contracted along its 64 rows) with the
    selected halves of the pair rows, from the contents of the flag, pair and weight staging buffers. -/
abbrev pay (X2 : S1024x1.Idx → Elt F .i32) (X1 : S1024x128.Idx → Elt F .f32) (X0 : S64x4096.Idx → Elt F .f32) :
    S4096x1024.Idx → Elt F .f32 :=
  k2_pay1 X2 (rdHi X1) (rdLo X1) X0

/-! ## The body, run once on any staging buffers the pipeline may hand it -/

set_option maxHeartbeats 4000000 in
/-- The kernel body on staging buffers `s0` of the weights' window, the one buffer each of the pair rows' and the
    flags' windows, and `s3` of the result's: four loads, the dead load of the result's buffer, the whole store —
    the result's buffer ends holding `pay` of what the other three hold, those unchanged. -/
theorem sound_body (c : Dev nD) (E : Set ℕ) (i : grid2.Coords) (s0 : Fin 2) (s1 : Fin 1) (s2 : Fin 1) (s3 : Fin 2)
    (X0 : S64x4096.Idx → Elt F .f32) (X1 : S1024x128.Idx → Elt F .f32) (X2 : S1024x1.Idx → Elt F .i32)
    (X3 : S4096x1024.Idx → Elt F .f32) (K : PUnit → sProp 𝕄) :
    iprop((owns (c.tc : Thread nD τ) (stage2_0 s0) fullShare X0 ∗ owns (c.tc : Thread nD τ) (stage2_1 s1) fullShare X1
            ∗ owns (c.tc : Thread nD τ) (stage2_2 s2) fullShare X2 ∗ owns (c.tc : Thread nD τ) (stage2_3 s3) fullShare X3)
          ∗ (iprop(owns (c.tc : Thread nD τ) (stage2_0 s0) fullShare X0 ∗ owns (c.tc : Thread nD τ) (stage2_1 s1) fullShare X1
                  ∗ owns (c.tc : Thread nD τ) (stage2_2 s2) fullShare X2
                  ∗ owns (c.tc : Thread nD τ) (stage2_3 s3) fullShare (pay X2 X1 X0)) -∗ K ⟨⟩))
      ⊢ wp frame (wpE (defs₀ (F := F)) Setup.𝒱₀ (c.tc : Thread nD τ) none) E
          (cc2_mm_kernel i (stage2_0 s0) (hstage2_0 s0) (stage2_1 s1) (hstage2_1 s1) (stage2_2 s2) (hstage2_2 s2)
            (stage2_3 s3) (hstage2_3 s3)) K := by
  have hz : (![0, 0] : Fin 2 → Nat) = fun _ => 0 := funext fun a => by fin_cases a <;> rfl
  fin_cases s0 <;> fin_cases s1 <;> fin_cases s2 <;> fin_cases s3
  · -- the vocabulary block staged in `cc2_stg0_0`, the result's in `cc2_stg3_0`
    have hr0 : (Memref.whole cc2_stg0_0 : Memref sig .tc _ _ _).view.readAt (Elt F) (Rect.unit (s := S64x4096) ![0, 0] S64x4096.size
        inb_S64x4096_S64x4096_0_0).toLoadRect = id := funext (Memref.readAt_unit_zero (Elt F) cc2_stg0_0 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_0).access (Rect.unit (s := S4096x1024) ![0, 0] S4096x1024.size inb_S4096x1024_S4096x1024_0_0)) :
        View sig .tc _ _ _).write (Elt F) f w Finset.univ = w := Memref.write_access_unit_zero_univ (Elt F) cc2_stg3_0 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_0`, the result's in `cc2_stg3_1`
    have hr0 : (Memref.whole cc2_stg0_0 : Memref sig .tc _ _ _).view.readAt (Elt F) (Rect.unit (s := S64x4096) ![0, 0] S64x4096.size
        inb_S64x4096_S64x4096_0_0).toLoadRect = id := funext (Memref.readAt_unit_zero (Elt F) cc2_stg0_0 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_1).access (Rect.unit (s := S4096x1024) ![0, 0] S4096x1024.size inb_S4096x1024_S4096x1024_0_0)) :
        View sig .tc _ _ _).write (Elt F) f w Finset.univ = w := Memref.write_access_unit_zero_univ (Elt F) cc2_stg3_1 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_1`, the result's in `cc2_stg3_0`
    have hr0 : (Memref.whole cc2_stg0_1 : Memref sig .tc _ _ _).view.readAt (Elt F) (Rect.unit (s := S64x4096) ![0, 0] S64x4096.size
        inb_S64x4096_S64x4096_0_0).toLoadRect = id := funext (Memref.readAt_unit_zero (Elt F) cc2_stg0_1 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_0).access (Rect.unit (s := S4096x1024) ![0, 0] S4096x1024.size inb_S4096x1024_S4096x1024_0_0)) :
        View sig .tc _ _ _).write (Elt F) f w Finset.univ = w := Memref.write_access_unit_zero_univ (Elt F) cc2_stg3_0 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_1`, the result's in `cc2_stg3_1`
    have hr0 : (Memref.whole cc2_stg0_1 : Memref sig .tc _ _ _).view.readAt (Elt F) (Rect.unit (s := S64x4096) ![0, 0] S64x4096.size
        inb_S64x4096_S64x4096_0_0).toLoadRect = id := funext (Memref.readAt_unit_zero (Elt F) cc2_stg0_1 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_1).access (Rect.unit (s := S4096x1024) ![0, 0] S4096x1024.size inb_S4096x1024_S4096x1024_0_0)) :
        View sig .tc _ _ _).write (Elt F) f w Finset.univ = w := Memref.write_access_unit_zero_univ (Elt F) cc2_stg3_1 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3

/-! ## The proof data -/

section Data

variable (c : Dev nD)
  (WT : Buf (Elt F) ((c.tc : Thread nD τ).loc main_v13)) (P8 : Buf (Elt F) ((c.tc : Thread nD τ).loc main_v8))
  (H : Buf (Elt F) ((c.tc : Thread nD τ).loc main_v12)) (OUT0 : Buf (Elt F) ((c.tc : Thread nD τ).loc main_v14))

/-- The four arrays at entry: the transposed weights, the gathered pair rows, the high-bit flags, the result. -/
def arrs : (w : Fin cfg2.W) → Buf (Elt F) ((cfg2.win w).arr.view.loc (c.tc : Thread nD τ))
  | ⟨0, _⟩ => WT
  | ⟨1, _⟩ => P8
  | ⟨2, _⟩ => H
  | ⟨3, _⟩ => OUT0

/-- The weights' block of vocabulary columns at point `t` as the fetch reads it: its part inside the array; -/
def wblk (t : Fin cfg2.N) : (win2_0.xblock (grid2.coords t)).Idx → Elt F .f32 := (win2_0.blk t).view.read (Elt F) WT
/-- the pair rows and the flags, whole, whatever the point. -/
def pblk (t : Fin cfg2.N) : (win2_1.xblock (grid2.coords t)).Idx → Elt F .f32 := (win2_1.blk t).view.read (Elt F) P8
def hblk (t : Fin cfg2.N) : (win2_2.xblock (grid2.coords t)).Idx → Elt F .i32 := (win2_2.blk t).view.read (Elt F) H

/-- The same as contents of a whole staging buffer, filled out past the array's end (where the weights' last
    block overhangs; nowhere for the other two) by a word nothing reads. -/
def w8 (t : Fin cfg2.N) : S64x4096.Idx → Elt F .f32 := win2_0.fill (grid2.coords t) (fun _ => (Elt.inhabited F _).default) (wblk c WT t)
def p8 (t : Fin cfg2.N) : S1024x128.Idx → Elt F .f32 := win2_1.fill (grid2.coords t) (fun _ => (Elt.inhabited F _).default) (pblk c P8 t)
def h8 (t : Fin cfg2.N) : S1024x1.Idx → Elt F .i32 := win2_2.fill (grid2.coords t) (fun _ => (Elt.inhabited F _).default) (hblk c H t)

/-- The proof data of the region on device `c`'s TensorCore, over the arrays' entry contents: after the body the
    three input buffers hold their blocks and the result's the body's product of them; the invariant is any `Rv`
    the body frames; the core owes `O` throughout, its recorded waits within `Rec` and the loop's own; full shares. -/
def dat (Rv : sProp 𝕄) (O : CellTallies nD τ sig (HIx 1)) (Rec : Set (SemLoc sig × HIx 1)) : Dat τ (Elt F) (HIx 1) ℕ Setup.UU ℕ cfg2 c where
  A := arrs c WT P8 H OUT0
  after w t := match w with
    | ⟨0, _⟩ => w8 c WT t
    | ⟨1, _⟩ => p8 c P8 t
    | ⟨2, _⟩ => h8 c H t
    | ⟨3, _⟩ => pay (h8 c H t) (p8 c P8 t) (w8 c WT t)
  Φ _ := Rv
  q _ := fullShare
  owed _ := O
  recorded _ := Rec

/-- The result's window, forgotten: where nothing is said of what the body leaves in its staging buffer. -/
abbrev fgtOut : Fin cfg2.W → Bool := fun | 0 => false | 1 => false | 2 => false | 3 => true | ⟨_ + 4, h⟩ => absurd h (Nat.not_lt.2 (Nat.le_add_left _ _))

/-! ### What the body finds -/

/-- The weights' buffer just fetched: the block on the columns inside the array, `d` elsewhere. -/
theorem before_0 (Rv : sProp 𝕄) (O : CellTallies nD τ sig (HIx 1)) (Rec : Set (SemLoc sig × HIx 1)) (t : Fin cfg2.N) (d) :
    (dat c WT P8 H OUT0 Rv O Rec).before (0 : Fin 4) t d = win2_0.fill (grid2.coords t) d (wblk c WT t) := by
  unfold Dat.before; rw [if_pos (fetch2_0 t)]; rfl
/-- The pair rows' and the flags' one buffer each: fetched at the first point and left in place by the body, so at
    every point what a fetch there would put in it. -/
theorem before_1 (Rv : sProp 𝕄) (O : CellTallies nD τ sig (HIx 1)) (Rec : Set (SemLoc sig × HIx 1)) (t : Fin cfg2.N) (d) :
    (dat c WT P8 H OUT0 Rv O Rec).before (1 : Fin 4) t d = win2_1.fill (grid2.coords t) d (pblk c P8 t) :=
  (dat c WT P8 H OUT0 Rv O Rec).before_in_eq_fetched (1 : Fin 4) rfl (fun _ => rfl) (fun _ _ _ => rfl)
    (fun t => by
      show win2_1.cut (grid2.coords t) (win2_1.fill (grid2.coords t) (fun _ => (Elt.inhabited F _).default) (pblk c P8 t)) = pblk c P8 t
      exact win2_1.cut_fill _ _ _) t d
theorem before_2 (Rv : sProp 𝕄) (O : CellTallies nD τ sig (HIx 1)) (Rec : Set (SemLoc sig × HIx 1)) (t : Fin cfg2.N) (d) :
    (dat c WT P8 H OUT0 Rv O Rec).before (2 : Fin 4) t d = win2_2.fill (grid2.coords t) d (hblk c H t) :=
  (dat c WT P8 H OUT0 Rv O Rec).before_in_eq_fetched (2 : Fin 4) rfl (fun _ => rfl) (fun _ _ _ => rfl)
    (fun t => by
      show win2_2.cut (grid2.coords t) (win2_2.fill (grid2.coords t) (fun _ => (Elt.inhabited F _).default) (hblk c H t)) = hblk c H t
      exact win2_2.cut_fill _ _ _) t d

/-- The result's buffer: never fetched and written back at every point, so at every point at contents nothing names. -/
theorem before_3 (Rv : sProp 𝕄) (O : CellTallies nD τ sig (HIx 1)) (Rec : Set (SemLoc sig × HIx 1)) (t : Fin cfg2.N) (d) : (dat c WT P8 H OUT0 Rv O Rec).before (3 : Fin 4) t d = d :=
  (dat c WT P8 H OUT0 Rv O Rec).before_out_reset (3 : Fin 4) rfl t (by
    by_cases ht : t.val = 0
    · exact .inl ht
    · exact .inr ⟨ht, flush2_3 _⟩) d

/-- An uncut window's fill takes nothing from the prior contents: the pair rows' and the flags' buffers hold their
    blocks whatever they held before the fetch. -/
theorem p8_eq (t : Fin cfg2.N) (d) : win2_1.fill (grid2.coords t) d (pblk c P8 t) = p8 c P8 t :=
  Pipeline.fill_of_clip_none (cfg := cfg2) (1 : Fin 4) (grid2.coords t) (fun _ => rfl) d (fun _ => (Elt.inhabited F _).default) (pblk c P8 t)
theorem h8_eq (t : Fin cfg2.N) (d) : win2_2.fill (grid2.coords t) d (hblk c H t) = h8 c H t :=
  Pipeline.fill_of_clip_none (cfg := cfg2) (2 : Fin 4) (grid2.coords t) (fun _ => rfl) d (fun _ => (Elt.inhabited F _).default) (hblk c H t)

/-! ### The body obligation, the result's window forgotten -/

/-- The library's body obligation with the result's window forgotten, from `sound_body` at the point's staging
    buffers: the weights' buffer arrives holding its block filled out with `d` past the array's end and leaves
    holding that (all a loose window's obligation asks is the block on the columns inside the array); the pair
    rows' and the flags' arrive and leave holding their blocks; the result's arrives and leaves at contents nothing
    names; the invariant is framed. -/
theorem body_forget (Rv : sProp 𝕄) (O : CellTallies nD τ sig (HIx 1)) (Rec : Set (SemLoc sig × HIx 1)) : BodyObligationLoose (dat c WT P8 H OUT0 Rv O Rec) (defs₀ (F := F)) Setup.𝒱₀ none Set.univ fgtOut := fun t => by
  rw [bigSep_W2, bigSep_W2]
  simp only
  rw [show (dat c WT P8 H OUT0 Rv O Rec).Φ t.succ = (dat c WT P8 H OUT0 Rv O Rec).Φ t.castSucc from rfl,
    show (dat c WT P8 H OUT0 Rv O Rec).owesAt none t.succ = (dat c WT P8 H OUT0 Rv O Rec).owesAt none t.castSucc from rfl]
  iintro ⟨HΦ, Ho, ⟨%d0, H0⟩, ⟨%d1, H1⟩, ⟨%d2, H2⟩, ⟨%X3, H3⟩⟩
  rw [before_0 c WT P8 H OUT0 Rv O Rec t d0, before_1 c WT P8 H OUT0 Rv O Rec t d1, before_2 c WT P8 H OUT0 Rv O Rec t d2]
  iapply (sound_body (F := F) c Set.univ (grid2.coords t) (cfg2.slots t 0) (cfg2.slots t 1) (cfg2.slots t 2) (cfg2.slots t 3)
    (win2_0.fill (grid2.coords t) d0 (wblk c WT t)) (win2_1.fill (grid2.coords t) d1 (pblk c P8 t))
    (win2_2.fill (grid2.coords t) d2 (hblk c H t)) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win2_0.cut (grid2.coords t) (w8 c WT t) = wblk c WT t := win2_0.cut_fill _ _ _
  isplitl [H0]
  · iexists d0
    change _ ⊢ owns (c.tc : Thread nD τ) (stage2_0 (cfg2.slots t 0)) fullShare (win2_0.fill (grid2.coords t) d0 (win2_0.cut (grid2.coords t) (w8 c WT t)))
    rw [hx]; try iexact H0
  isplitl [H1]
  · change _ ⊢ owns (c.tc : Thread nD τ) (stage2_1 (cfg2.slots t 1)) fullShare (p8 c P8 t)
    rw [← p8_eq c P8 t d1]; try iexact H1
  isplitl [H2]
  · change _ ⊢ owns (c.tc : Thread nD τ) (stage2_2 (cfg2.slots t 2)) fullShare (h8 c H t)
    rw [← h8_eq c H t d2]; try iexact H2
  · iexists _; iexact H3

/-! ### The arrays at entry and at exit -/

theorem A_0 (Rv : sProp 𝕄) (O : CellTallies nD τ sig (HIx 1)) (Rec : Set (SemLoc sig × HIx 1)) : (dat c WT P8 H OUT0 Rv O Rec).A (0 : Fin 4) = WT := rfl
theorem A_1 (Rv : sProp 𝕄) (O : CellTallies nD τ sig (HIx 1)) (Rec : Set (SemLoc sig × HIx 1)) : (dat c WT P8 H OUT0 Rv O Rec).A (1 : Fin 4) = P8 := rfl
theorem A_2 (Rv : sProp 𝕄) (O : CellTallies nD τ sig (HIx 1)) (Rec : Set (SemLoc sig × HIx 1)) : (dat c WT P8 H OUT0 Rv O Rec).A (2 : Fin 4) = H := rfl
theorem A_3 (Rv : sProp 𝕄) (O : CellTallies nD τ sig (HIx 1)) (Rec : Set (SemLoc sig × HIx 1)) : (dat c WT P8 H OUT0 Rv O Rec).A (3 : Fin 4) = OUT0 := rfl

/-- The three input arrays are never written: after any number of points they hold what they held. -/
theorem arrAt_0 (Rv : sProp 𝕄) (O : CellTallies nD τ sig (HIx 1)) (Rec : Set (SemLoc sig × HIx 1)) (n : Nat) : (dat c WT P8 H OUT0 Rv O Rec).arrAt (0 : Fin 4) n = WT := (dat c WT P8 H OUT0 Rv O Rec).arrAt_in (0 : Fin 4) rfl n
theorem arrAt_1 (Rv : sProp 𝕄) (O : CellTallies nD τ sig (HIx 1)) (Rec : Set (SemLoc sig × HIx 1)) (n : Nat) : (dat c WT P8 H OUT0 Rv O Rec).arrAt (1 : Fin 4) n = P8 := (dat c WT P8 H OUT0 Rv O Rec).arrAt_in (1 : Fin 4) rfl n
theorem arrAt_2 (Rv : sProp 𝕄) (O : CellTallies nD τ sig (HIx 1)) (Rec : Set (SemLoc sig × HIx 1)) (n : Nat) : (dat c WT P8 H OUT0 Rv O Rec).arrAt (2 : Fin 4) n = H := (dat c WT P8 H OUT0 Rv O Rec).arrAt_in (2 : Fin 4) rfl n

/-- The same of the proof data read relationally with the result's window forgotten. -/
theorem ArrAt_forget_0 (Rv : sProp 𝕄) (O : CellTallies nD τ sig (HIx 1)) (Rec : Set (SemLoc sig × HIx 1)) (n : Nat) (G : Buf (Elt F) ((cfg2.win (0 : Fin 4)).arr.view.loc (c.tc : Thread nD τ))) : ((dat c WT P8 H OUT0 Rv O Rec).toRForget fgtOut).ArrAt (0 : Fin 4) n G ↔ G = WT := by
  rw [(dat c WT P8 H OUT0 Rv O Rec).toRForget_arrAt_iff (fgt := fgtOut) (w := (0 : Fin 4)) rfl n G, arrAt_0]
theorem ArrAt_forget_1 (Rv : sProp 𝕄) (O : CellTallies nD τ sig (HIx 1)) (Rec : Set (SemLoc sig × HIx 1)) (n : Nat) (G : Buf (Elt F) ((cfg2.win (1 : Fin 4)).arr.view.loc (c.tc : Thread nD τ))) : ((dat c WT P8 H OUT0 Rv O Rec).toRForget fgtOut).ArrAt (1 : Fin 4) n G ↔ G = P8 := by
  rw [(dat c WT P8 H OUT0 Rv O Rec).toRForget_arrAt_iff (fgt := fgtOut) (w := (1 : Fin 4)) rfl n G, arrAt_1]
theorem ArrAt_forget_2 (Rv : sProp 𝕄) (O : CellTallies nD τ sig (HIx 1)) (Rec : Set (SemLoc sig × HIx 1)) (n : Nat) (G : Buf (Elt F) ((cfg2.win (2 : Fin 4)).arr.view.loc (c.tc : Thread nD τ))) : ((dat c WT P8 H OUT0 Rv O Rec).toRForget fgtOut).ArrAt (2 : Fin 4) n G ↔ G = H := by
  rw [(dat c WT P8 H OUT0 Rv O Rec).toRForget_arrAt_iff (fgt := fgtOut) (w := (2 : Fin 4)) rfl n G, arrAt_2]

end Data

end Cert.KernelIdeal.Region2
-- ==== Proof.RegionRec2.lean ====
/-
  The second TensorCore region as the launch sees it: the library's record of a kernel region for pipeline 1 — the
  decided layout, no semaphore of the kernel's own, the body obligation with the result's window forgotten, the waits'
  evidence (the staging cells wait at the index nothing is owed at), and the four entailments around the thread
  states: entered holding the four arrays at their entry contents and the core's dues, left holding the three input
  arrays unchanged, the result at some contents, and the same dues, the waits recorded meanwhile being the loop's
  own. The other scoped buffers ride through the region inside the body's invariant. Generic in the float instance.
-/
import proofs.«218855_g90357521973776_cont_sun_m_356_26_alg».proof.Proof.Region2

noncomputable section

namespace Cert.KernelIdeal.RegionRec2

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig (HIx 1) (Elt F) ℕ Setup.UU ℕ

/-- The pipelines' one admissible contents: neither has a prefetched table. -/
abbrev adm : (p : Fin 2) → (pcfgs (F := F) p).Adm := fun p => (cfgs p).toPCfg_adm

/-- A buffer of core `c` held whole at the full share. -/
abbrev pl (c : Dev nD) (b : Ref sig .tc) (f : b.ty.Contents (Elt F)) : sProp 𝕄 := ((c.tc : Thread nD τ).loc b) ↦{fullShare} f

/-- The region's invariant is the one its proof data was given. -/
theorem dat_Φ (c : Dev nD) (WT : Buf (Elt F) ((c.tc : Thread nD τ).loc main_v13)) (P8 : Buf (Elt F) ((c.tc : Thread nD τ).loc main_v8))
    (H : Buf (Elt F) ((c.tc : Thread nD τ).loc main_v12)) (OUT0 : Buf (Elt F) ((c.tc : Thread nD τ).loc main_v14))
    (Rv : sProp 𝕄) (O : CellTallies nD τ sig (HIx 1)) (Rec : Set (SemLoc sig × HIx 1)) (t) : (Region2.dat c WT P8 H OUT0 Rv O Rec).Φ t = Rv := rfl

section Rec

variable (rdats : (p : Fin 2) → (c : Dev nD) → Pipeline.RDat τ (Elt F) (HIx 1) ℕ Setup.UU ℕ (Pipeline.pin (pcfgs (F := F)) adm p) c)
  (WT : (c : Dev nD) → Buf (Elt F) ((c.tc : Thread nD τ).loc main_v13)) (P8 : (c : Dev nD) → Buf (Elt F) ((c.tc : Thread nD τ).loc main_v8))
  (H : (c : Dev nD) → Buf (Elt F) ((c.tc : Thread nD τ).loc main_v12)) (OUT0 : (c : Dev nD) → Buf (Elt F) ((c.tc : Thread nD τ).loc main_v14))
  (O : Dev nD → CellTallies nD τ sig (HIx 1)) (Rec : Dev nD → Set (SemLoc sig × HIx 1)) (hO : ∀ c g, O c g none = 0)
  (h1 : ∀ c, rdats 1 c = (Region2.dat c (WT c) (P8 c) (H c) (OUT0 c) (Pipeline.scopedRest (Pipeline.pin (pcfgs (F := F)) adm 1).spec c) (O c) (Rec c)).toRForget Region2.fgtOut)

include h1 in
/-- Every array of the region is held at the full share. -/
theorem share2 (c : Dev nD) (w : Fin (Pipeline.pin (pcfgs (F := F)) adm 1).W) : (rdats 1 c).share w = fullShare := by
  rw [h1 c]; exact (Region2.dat c (WT c) (P8 c) (H c) (OUT0 c) (Pipeline.scopedRest (Pipeline.pin (pcfgs (F := F)) adm 1).spec c) (O c) (Rec c)).share_full (fun _ => rfl) w

include h1 in
/-- The region's arrays at contents `Fa` are the four buffers held. -/
theorem arrays2_eq (c : Dev nD) (Fa) :
    ((rdats 1 c).arrays Fa : sProp 𝕄) = iprop(pl c main_v13 (Fa 0) ∗ pl c main_v8 (Fa 1) ∗ pl c main_v12 (Fa 2) ∗ pl c main_v14 (Fa 3)) := by
  rw [Pipeline.RDat.arrays_eq (pcfgs (F := F)) adm rdats 1 c launch2.arr_whole (share2 rdats WT P8 H OUT0 O Rec h1 c) Fa, bigSep_W2]
  rfl

include h1 in
/-- After the write-backs below any point the three input arrays hold what they held and the result something. -/
theorem arraysAt2_elim (c : Dev nD) (n : Nat) :
    ((rdats 1 c).arraysAt n : sProp 𝕄)
      ⊢ iprop(pl c main_v13 (WT c) ∗ pl c main_v8 (P8 c) ∗ pl c main_v12 (H c) ∗ ∃ G, pl c main_v14 G) := by
  classical
  unfold Pipeline.RDat.arraysAt
  iintro Ha
  ihave Ha' := (BI.bigSep_exists_pi Finset.univ (fun w G => iprop(⌜(rdats 1 c).ArrAt w n G⌝
      ∗ ((Pipeline.pin (pcfgs (F := F)) adm 1).win w).arr.view.loc (c.tc : Thread nD τ) ↦[((Pipeline.pin (pcfgs (F := F)) adm 1).win w).arr.view.set]{(rdats 1 c).share w} G))) $$ Ha
  icases Ha' with ⟨%Fs, Ha⟩
  ihave Ha2 := (BI.bigSep_pure_sep Finset.univ (fun w => (rdats 1 c).ArrAt w n (Fs w))
      (fun w => ((Pipeline.pin (pcfgs (F := F)) adm 1).win w).arr.view.loc (c.tc : Thread nD τ) ↦[((Pipeline.pin (pcfgs (F := F)) adm 1).win w).arr.view.set]{(rdats 1 c).share w} Fs w)) $$ Ha
  icases Ha2 with ⟨%hFs, Ha⟩
  have e := arrays2_eq rdats WT P8 H OUT0 O Rec h1 c Fs
  unfold Pipeline.RDat.arrays at e
  rw [e]
  rw [h1 c] at hFs
  have h0 : Fs 0 = WT c := (Region2.ArrAt_forget_0 c (WT c) (P8 c) (H c) (OUT0 c) _ (O c) (Rec c) n (Fs 0)).mp (hFs 0 (Finset.mem_univ _))
  have h1' : Fs 1 = P8 c := (Region2.ArrAt_forget_1 c (WT c) (P8 c) (H c) (OUT0 c) _ (O c) (Rec c) n (Fs 1)).mp (hFs 1 (Finset.mem_univ _))
  have h2 : Fs 2 = H c := (Region2.ArrAt_forget_2 c (WT c) (P8 c) (H c) (OUT0 c) _ (O c) (Rec c) n (Fs 2)).mp (hFs 2 (Finset.mem_univ _))
  rw [h0, h1', h2]
  show iprop(pl c main_v13 (WT c) ∗ pl c main_v8 (P8 c) ∗ pl c main_v12 (H c) ∗ pl c main_v14 (Fs 3))
    ⊢ iprop(pl c main_v13 (WT c) ∗ pl c main_v8 (P8 c) ∗ pl c main_v12 (H c) ∗ ∃ G, pl c main_v14 G)
  iintro ⟨H0, H1, H2, H3⟩
  isplitl [H0]; · iexact H0
  isplitl [H1]; · iexact H1
  isplitl [H2]; · iexact H2
  iexists Fs 3; iexact H3

set_option maxHeartbeats 1600000 in
/-- THE REGION of pipeline 1: entered from the core's dues `O c`, its recorded waits within `Rec c`, and the four
    arrays held at their entry contents; left at the same dues, the waits recorded since being the loop's own (at
    the index nothing is owed at), the three input arrays unchanged and the result at some contents. -/
def seg2 : Pipeline.RDat.RegionSeg (pcfgs (F := F)) adm rdats none (defs₀ (F := F)) Setup.𝒱₀
    (Setup.K (F := F)).L (Setup.K (F := F)).lev 1 where
  win := launch2.win.to₀
  block_pos := launch2.block_pos
  stage_whole := launch2.stage_whole
  K := PEmpty
  osem k := k.elim
  ho := Pipeline.OwnSemFacts.none _
  hbody c := by
    rw [h1 c]
    exact (Region2.body_forget c (WT c) (P8 c) (H c) (OUT0 c) _ (O c) (Rec c)).toRForget
  hwaits c := Pipeline.RDat.cellsWaits_intro (Pipeline.pin (pcfgs (F := F)) adm) rdats none 1 c fun w s t => by
    rw [h1 c]
    exact (Setup.K (F := F)).mayWait_none _ (hO c)
  pre c := iprop((∃ W : Waits sig (HIx 1), ⌜(↑W : Set (SemLoc sig × HIx 1)) ⊆ Rec c⌝ ∗ owes (c.tc : Thread nD τ) (O c) W) ∗ pl c main_v13 (WT c) ∗ pl c main_v8 (P8 c)
    ∗ pl c main_v12 (H c) ∗ pl c main_v14 (OUT0 c))
  post c := iprop((∃ W : Waits sig (HIx 1), ⌜∀ p ∈ W, p ∈ Rec c ∨ p.2 = none⌝ ∗ owes (c.tc : Thread nD τ) (O c) W) ∗ pl c main_v13 (WT c) ∗ pl c main_v8 (P8 c)
    ∗ pl c main_v12 (H c) ∗ ∃ G, pl c main_v14 G)
  X _ := iprop(emp)
  Y _ := iprop(emp)
  Z _ := iprop(emp)
  hentry c := by
    rw [Pipeline.ownSems0_none, arrays2_eq rdats WT P8 H OUT0 O Rec h1 c, h1 c]
    iintro ⟨⟨⟨%W, %hW, HO⟩, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact hW.trans Set.subset_union_left
      iexact HO
    isplitr <;> iempintro
  hin c := by
    rw [h1 c, Pipeline.Dat.toRForget_Φ, dat_Φ]
    iintro ⟨-, -, Hs⟩; iexact Hs
  hout c := by
    rw [h1 c, Pipeline.ownSems0_none, Pipeline.Dat.toRForget_Φ, dat_Φ]
    iintro Hs
    isplitr; · iempintro
    isplitr; · iempintro
    iexact Hs
  hexit c := by
    iintro ⟨Ha, HO, -, -⟩
    ihave Ha' := (arraysAt2_elim rdats WT P8 H OUT0 O Rec h1 c _) $$ Ha
    imodintro
    isplitl [HO]
    · unfold Pipeline.RDat.owesAt Pipeline.owesWithin
      icases HO with ⟨%W, %hW, HO⟩
      rw [h1 c] at hW
      rw [h1 c]
      iexists W; isplitr
      · ipureintro
        intro p hp
        have hp' : p ∈ Rec c ∪ cfg2.waitPairs none := hW (Finset.mem_coe.mpr hp)
        rcases hp' with h | ⟨w, s, rfl⟩
        · exact .inl h
        · exact .inr rfl
      iexact HO
    iexact Ha'

end Rec

end Cert.KernelIdeal.RegionRec2
-- ==== Proof.MainFront.lean ====
/-
  The front of @main on the TensorCore: the host operation before the first region (the table's source transposed),
  the first region, and the host operations before the SparseCore call (the physical index as a row), run from the
  TensorCore's arrays held as one family at a valuation, the core's dues with the bound on its recorded waits, the
  level facts and the first pipeline's ghost state — all given back, the family at the valuation the three
  stretches compute: the host operations' results over what the region left in its result array, the pair table.
-/
import proofs.«218855_g90357521973776_cont_sun_m_356_26_alg».proof.Proof.MainHeld
import proofs.«218855_g90357521973776_cont_sun_m_356_26_alg».proof.Proof.MainRegion
import proofs.«218855_g90357521973776_cont_sun_m_356_26_alg».proof.Proof.RegionRec2

noncomputable section

namespace Cert.KernelIdeal.MainFront

open Cert.KernelIdeal Cert.KernelIdeal.Gen Cert.KernelIdeal.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainOps
open Cert.KernelIdeal.RegionRec2 (pl)
open Idealize.ShloMosaic.StableHlo (seq after held wp_seq)
open Idealize.ShloMosaic.Pipeline (pin)

variable {F : FTy → Type} [FloatOps F]

local notation "𝕄" => MT nD τ sig (HIx 1) (Elt F) ℕ UU ℕ

/-- The region's two arrays as device buffers: the transposed table (both input windows') and the pair table. -/
abbrev v0 : DevRef τ sig := Proc.devRef .tc main_v0
abbrev v1 : DevRef τ sig := Proc.devRef .tc main_v1
/-- The two together. -/
def T2 : Finset (DevRef τ sig) := [v0, v1].toFinset

theorem T2_sub {S : Finset (DevRef τ sig)} (h0 : v0 ∈ S) (h1 : v1 ∈ S) : T2 ⊆ S := fun b hb => by
  unfold T2 at hb
  simp only [List.toFinset_cons, List.toFinset_nil, Finset.mem_insert, Finset.mem_singleton, Finset.notMem_empty, or_false,
    insert_empty_eq] at hb
  rcases hb with rfl | rfl <;> assumption

/-- The two held at a valuation, one by one. -/
theorem held2_eq (d : Dev nD) (V : Valuation τ sig (Elt F)) :
    (held (d.tc : Thread nD τ) T2 V : sProp 𝕄) = iprop(pl d main_v0 (V v0) ∗ pl d main_v1 (V v1)) := by
  unfold held T2
  rw [bigSep_eq_bigSepL_of_eq [v0, v1] rfl (by decide)]
  rfl

/-- The region's arrays out of the family, -/
theorem take2 (d : Dev nD) {S : Finset (DevRef τ sig)} (h0 : v0 ∈ S) (h1 : v1 ∈ S) (V : Valuation τ sig (Elt F)) :
    (held (d.tc : Thread nD τ) S V : sProp 𝕄)
      = iprop((pl d main_v0 (V v0) ∗ pl d main_v1 (V v1)) ∗ held (d.tc : Thread nD τ) (S \ T2) V) := by
  rw [StableHlo.held_sub_split (d.tc : Thread nD τ) (T2_sub h0 h1) V, held2_eq]

/-- and back with the pair table at new contents. -/
theorem put2 (d : Dev nD) {S : Finset (DevRef τ sig)} (h0 : v0 ∈ S) (h1 : v1 ∈ S)
    (V : Valuation τ sig (Elt F)) (T1 : Buf (Elt F) ((d.tc : Thread nD τ).loc main_v1)) :
    (iprop((pl d main_v0 (V v0) ∗ pl d main_v1 T1) ∗ held (d.tc : Thread nD τ) (S \ T2) V) : sProp 𝕄)
      = held (d.tc : Thread nD τ) S (Function.update V v1 T1) := by
  have e0 : Function.update V v1 T1 v0 = V v0 := Function.update_of_ne (by decide) ..
  have e1 : Function.update V v1 T1 v1 = T1 := Function.update_self ..
  rw [take2 d h0 h1 (Function.update V v1 T1), e0, e1]
  congr 1
  refine (StableHlo.held_congr (d.tc : Thread nD τ) fun b hb => ?_).symm
  refine Function.update_of_ne (fun e => ?_) ..
  subst e
  exact (Finset.mem_sdiff.mp hb).2 (by unfold T2; decide)

theorem fresh_A : ∀ op ∈ (opsA : List (HloOp τ sig (Elt F))), op.fresh = ∅ := fun op h => by
  obtain rfl := List.mem_singleton.mp h; rfl
theorem fresh_B : ∀ op ∈ (opsB : List (HloOp τ sig (Elt F))), op.fresh = ∅ := fun op h => by
  simp only [opsB, List.mem_cons, List.not_mem_nil, or_false] at h
  rcases h with rfl | rfl | rfl | rfl | rfl | rfl | rfl | rfl <;> rfl

/-- The valuation the front ends at, over what the region left in the pair table. -/
abbrev Vmid (V : Valuation τ sig (Elt F)) (T1 : (Proc.devRef (τ := τ) .tc main_v1).ty.Contents (Elt F)) : Valuation τ sig (Elt F) :=
  after opsB (Function.update (after opsA V) v1 T1)

variable (rdats : (p : Fin 2) → (c : Dev nD) → Pipeline.RDat τ (Elt F) (HIx 1) ℕ UU ℕ (pin (pcfgs (F := F)) MainRegion.adm p) c)

-- as the library's stretch rule: the rules stated for any thread are applied at the TensorCore's
set_option backward.isDefEq.respectTransparency.types false in
set_option maxHeartbeats 1600000 in
/-- THE FRONT: the host operation before the first region, the region, the host operations after it. `Ptab` is
    what the region's record says of the contents it leaves in the pair table (`hpost`). -/
theorem front [∀ e, Nonempty (Elt F e)]
    (R0 : Pipeline.RDat.RegionSeg (pcfgs (F := F)) MainRegion.adm rdats none (defs₀ (F := F)) 𝒱₀ (K (F := F)).L (K (F := F)).lev 0)
    (d : Dev nD) (S : Finset (DevRef τ sig)) (V : Valuation τ sig (Elt F))
    (hA : ∀ op ∈ (opsA : List (HloOp τ sig (Elt F))), op.bufs ⊆ S) (hB : ∀ op ∈ (opsB : List (HloOp τ sig (Elt F))), op.bufs ⊆ S)
    (h0 : v0 ∈ S) (h1 : v1 ∈ S)
    (Rec : Set (SemLoc sig × HIx 1)) (O : CellTallies nD τ sig (HIx 1))
    (Ptab : (Proc.devRef (τ := τ) .tc main_v1).ty.Contents (Elt F) → Prop)
    (hpre : iprop((∃ W : Waits sig (HIx 1), ⌜(↑W : Set (SemLoc sig × HIx 1)) ⊆ Rec⌝ ∗ owes (d.tc : Thread nD τ) O W)
        ∗ pl d main_v0 (after opsA V v0) ∗ pl d main_v1 (after opsA V v1))
      ⊢ R0.pre d)
    (hpost : R0.post d
      ⊢ iprop((∃ W : Waits sig (HIx 1), ⌜∀ p ∈ W, p ∈ Rec ∨ p.2 = none⌝ ∗ owes (d.tc : Thread nD τ) O W)
        ∗ pl d main_v0 (after opsA V v0) ∗ ∃ T1, ⌜Ptab T1⌝ ∗ pl d main_v1 T1))
    {α : Type} (k : PUnit → Prog (TpuEff nD τ sig (Elt F) (SparseCore.Sig (ΛP (F := F)) 1) .tc) α) (Q : α → sProp 𝕄) :
    iprop(boundary (d.tc : Thread nD τ) ∗ held (d.tc : Thread nD τ) S V
        ∗ (∃ W : Waits sig (HIx 1), ⌜(↑W : Set (SemLoc sig × HIx 1)) ⊆ Rec⌝ ∗ owes (d.tc : Thread nD τ) O W)
        ∗ levAts (K (F := F)).L (K (F := F)).lev
        ∗ Pipeline.cellsGhost (pin (pcfgs (F := F)) MainRegion.adm) EP 0 d ∗ Pipeline.toksInit (pin (pcfgs (F := F)) MainRegion.adm) EP 0 d
        ∗ (∀ T1, iprop(⌜Ptab T1⌝ ∗ boundary (d.tc : Thread nD τ) ∗ held (d.tc : Thread nD τ) S (Vmid V T1)
              ∗ ∃ W : Waits sig (HIx 1), ⌜∀ p ∈ W, p ∈ Rec ∨ p.2 = none⌝ ∗ owes (d.tc : Thread nD τ) O W)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (seq opsA >>= fun _ => region 0 >>= fun _ => seq opsB >>= k) Q := by
  iintro ⟨Hb, Hh, HO, Hlv, Hg, Ht, Hk⟩
  iapply (wp_seq 𝒱 none Set.univ d S _ opsA hA fresh_A V) $$ [Hb Hh]
  · isplitl [Hb]; · iexact Hb
    iexact Hh
  iintro ⟨Hb, Hh⟩
  ihave Hh' := (Entails.of_eq (take2 d h0 h1 (after opsA V))) $$ Hh
  icases Hh' with ⟨H2, Hrest⟩
  iapply (MainRegion.wp_region rdats R0 d (fun _ => seq opsB >>= k) Q)
  isplitl [Hk Hrest]
  · iintro ⟨Hb, Hpost⟩
    ihave Hp := hpost $$ Hpost
    icases Hp with ⟨HO, H0, ⟨%T1, %hT1, H1⟩⟩
    ihave Hh := (Entails.of_eq (put2 d h0 h1 (after opsA V) T1)) $$ [H0 H1 Hrest]
    · isplitl [H0 H1]
      · isplitl [H0]; · iexact H0
        iexact H1
      iexact Hrest
    iapply (wp_seq 𝒱 none Set.univ d S _ opsB hB fresh_B (Function.update (after opsA V) v1 T1)) $$ [Hb Hh]
    · isplitl [Hb]; · iexact Hb
      iexact Hh
    iintro ⟨Hb, Hh⟩
    iapply Hk
    isplitr; · ipureintro; exact hT1
    isplitl [Hb]; · iexact Hb
    isplitl [Hh]; · iexact Hh
    iexact HO
  isplitl [Hb]; · iexact Hb
  isplitl [HO H2]
  · iapply hpre
    isplitl [HO]; · iexact HO
    iexact H2
  isplitl [Hlv]; · iexact Hlv
  isplitl [Hg]; · iexact Hg
  iexact Ht

/-! ## What the front's valuation holds -/

/-- The three arguments are as before the front. -/
theorem Vmid_arg0 (V : Valuation τ sig (Elt F)) (T1) : Vmid V T1 (Proc.devRef .tc main_arg0) = V (Proc.devRef .tc main_arg0) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]
theorem Vmid_arg1 (V : Valuation τ sig (Elt F)) (T1) : Vmid V T1 (Proc.devRef .tc main_arg1) = V (Proc.devRef .tc main_arg1) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]
theorem Vmid_arg2 (V : Valuation τ sig (Elt F)) (T1) : Vmid V T1 (Proc.devRef .tc main_arg2) = V (Proc.devRef .tc main_arg2) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]

/-- The pair table is what the region left. -/
theorem Vmid_v1 (V : Valuation τ sig (Elt F)) (T1) : Vmid V T1 v1 = T1 := by
  unfold Vmid
  rw [StableHlo.after_of_writes_sub (W := [main_c, main_v2, main_v3, main_c_0, main_v4, main_v5, main_v6, main_v7]) opsB _ (by simp [opsB]) (by decide),
    Function.update_self]

/-- What the region finds in its two arrays: the table's source transposed, the pair table as the stretch found it. -/
theorem afterA_v0 (V : Valuation τ sig (Elt F)) :
    after opsA V v0 = transpose S64x100000 [1, 0] (V (Proc.devRef .tc main_arg1)) transposes_S100000x64_S64x100000_1_0 := by
  after_results
theorem afterA_v1 (V : Valuation τ sig (Elt F)) : after opsA V v1 = V v1 :=
  StableHlo.after_of_writes_sub (W := [main_v0]) opsA _ (by simp [opsA]) (by decide)

end Cert.KernelIdeal.MainFront

end
-- ==== Proof.MainTail.lean ====
/-
  The tail of @main on the TensorCore: the host operations after the SparseCore call (the high bit as a column,
  the weights transposed), the second region, and the last host operation (the result transposed), run from the
  TensorCore's arrays held as one family at a valuation, the core's dues with the bound on its recorded waits, the
  level facts and the second pipeline's ghost state — all given back, the family at the valuation the three
  stretches compute: the host operations' results over what the region left in its result array.
-/
import proofs.«218855_g90357521973776_cont_sun_m_356_26_alg».proof.Proof.MainHeld
import proofs.«218855_g90357521973776_cont_sun_m_356_26_alg».proof.Proof.MainRegion
import proofs.«218855_g90357521973776_cont_sun_m_356_26_alg».proof.Proof.RegionRec2

noncomputable section

namespace Cert.KernelIdeal.MainTail

open Cert.KernelIdeal Cert.KernelIdeal.Gen Cert.KernelIdeal.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainOps
open Cert.KernelIdeal.RegionRec2 (pl)
open Idealize.ShloMosaic.StableHlo (seq after held wp_seq)
open Idealize.ShloMosaic.Pipeline (pin)

variable {F : FTy → Type} [FloatOps F]

local notation "𝕄" => MT nD τ sig (HIx 1) (Elt F) ℕ UU ℕ

/-- The region's four arrays as device buffers. -/
abbrev v13 : DevRef τ sig := Proc.devRef .tc main_v13
abbrev v8 : DevRef τ sig := Proc.devRef .tc main_v8
abbrev v12 : DevRef τ sig := Proc.devRef .tc main_v12
abbrev v14 : DevRef τ sig := Proc.devRef .tc main_v14
/-- The four together. -/
def T4 : Finset (DevRef τ sig) := [v13, v8, v12, v14].toFinset

theorem T4_sub {S : Finset (DevRef τ sig)} (h13 : v13 ∈ S) (h8 : v8 ∈ S) (h12 : v12 ∈ S) (h14 : v14 ∈ S) : T4 ⊆ S := fun b hb => by
  unfold T4 at hb
  simp only [List.toFinset_cons, List.toFinset_nil, Finset.mem_insert, Finset.mem_singleton, Finset.notMem_empty, or_false,
    insert_empty_eq] at hb
  rcases hb with rfl | rfl | rfl | rfl <;> assumption

/-- The four held at a valuation, one by one. -/
theorem held4_eq (d : Dev nD) (V : Valuation τ sig (Elt F)) :
    (held (d.tc : Thread nD τ) T4 V : sProp 𝕄)
      = iprop(pl d main_v13 (V v13) ∗ pl d main_v8 (V v8) ∗ pl d main_v12 (V v12) ∗ pl d main_v14 (V v14)) := by
  unfold held T4
  rw [bigSep_eq_bigSepL_of_eq [v13, v8, v12, v14] rfl (by decide)]
  rfl

/-- The region's arrays out of the family, -/
theorem take4 (d : Dev nD) {S : Finset (DevRef τ sig)} (h13 : v13 ∈ S) (h8 : v8 ∈ S) (h12 : v12 ∈ S) (h14 : v14 ∈ S)
    (V : Valuation τ sig (Elt F)) :
    (held (d.tc : Thread nD τ) S V : sProp 𝕄)
      = iprop((pl d main_v13 (V v13) ∗ pl d main_v8 (V v8) ∗ pl d main_v12 (V v12) ∗ pl d main_v14 (V v14))
          ∗ held (d.tc : Thread nD τ) (S \ T4) V) := by
  rw [StableHlo.held_sub_split (d.tc : Thread nD τ) (T4_sub h13 h8 h12 h14) V, held4_eq]

/-- and back with the result array at new contents. -/
theorem put4 (d : Dev nD) {S : Finset (DevRef τ sig)} (h13 : v13 ∈ S) (h8 : v8 ∈ S) (h12 : v12 ∈ S) (h14 : v14 ∈ S)
    (V : Valuation τ sig (Elt F)) (G : Buf (Elt F) ((d.tc : Thread nD τ).loc main_v14)) :
    (iprop((pl d main_v13 (V v13) ∗ pl d main_v8 (V v8) ∗ pl d main_v12 (V v12) ∗ pl d main_v14 G)
        ∗ held (d.tc : Thread nD τ) (S \ T4) V) : sProp 𝕄)
      = held (d.tc : Thread nD τ) S (Function.update V v14 G) := by
  have e13 : Function.update V v14 G v13 = V v13 := Function.update_of_ne (by decide) ..
  have e8 : Function.update V v14 G v8 = V v8 := Function.update_of_ne (by decide) ..
  have e12 : Function.update V v14 G v12 = V v12 := Function.update_of_ne (by decide) ..
  have e14 : Function.update V v14 G v14 = G := Function.update_self ..
  rw [take4 d h13 h8 h12 h14 (Function.update V v14 G), e13, e8, e12, e14]
  congr 1
  refine (StableHlo.held_congr (d.tc : Thread nD τ) fun b hb => ?_).symm
  refine Function.update_of_ne (fun e => ?_) ..
  subst e
  exact (Finset.mem_sdiff.mp hb).2 (by unfold T4; decide)

theorem fresh_C : ∀ op ∈ (opsC : List (HloOp τ sig (Elt F))), op.fresh = ∅ := fun op h => by
  simp only [opsC, List.mem_cons, List.not_mem_nil, or_false] at h
  rcases h with rfl | rfl | rfl | rfl | rfl | rfl <;> rfl
theorem fresh_D : ∀ op ∈ (opsD : List (HloOp τ sig (Elt F))), op.fresh = ∅ := fun op h => by
  obtain rfl := List.mem_singleton.mp h; rfl

/-- The valuation the tail ends at, over what the region left in its result array. -/
abbrev Vend (V : Valuation τ sig (Elt F)) (G : (Proc.devRef (τ := τ) .tc main_v14).ty.Contents (Elt F)) : Valuation τ sig (Elt F) :=
  after opsD (Function.update (after opsC V) v14 G)

variable (rdats : (p : Fin 2) → (c : Dev nD) → Pipeline.RDat τ (Elt F) (HIx 1) ℕ UU ℕ (pin (pcfgs (F := F)) MainRegion.adm p) c)

-- as the library's stretch rule: the rules stated for any thread are applied at the TensorCore's
set_option backward.isDefEq.respectTransparency.types false in
set_option maxHeartbeats 1600000 in
/-- THE TAIL: the host operations after the SparseCore call, the second region, the last host operation. `Pout` is
    what the region's record says of the contents it leaves in its result array (`hpost`). -/
theorem tail [∀ e, Nonempty (Elt F e)]
    (R2 : Pipeline.RDat.RegionSeg (pcfgs (F := F)) MainRegion.adm rdats none (defs₀ (F := F)) 𝒱₀ (K (F := F)).L (K (F := F)).lev 1)
    (d : Dev nD) (S : Finset (DevRef τ sig)) (V : Valuation τ sig (Elt F))
    (hC : ∀ op ∈ (opsC : List (HloOp τ sig (Elt F))), op.bufs ⊆ S) (hD : ∀ op ∈ (opsD : List (HloOp τ sig (Elt F))), op.bufs ⊆ S)
    (h13 : v13 ∈ S) (h8 : v8 ∈ S) (h12 : v12 ∈ S) (h14 : v14 ∈ S)
    (Rec : Set (SemLoc sig × HIx 1)) (O : CellTallies nD τ sig (HIx 1))
    (Pout : (Proc.devRef (τ := τ) .tc main_v14).ty.Contents (Elt F) → Prop)
    (hpre : iprop((∃ W : Waits sig (HIx 1), ⌜(↑W : Set (SemLoc sig × HIx 1)) ⊆ Rec⌝ ∗ owes (d.tc : Thread nD τ) O W)
        ∗ pl d main_v13 (after opsC V v13) ∗ pl d main_v8 (after opsC V v8) ∗ pl d main_v12 (after opsC V v12) ∗ pl d main_v14 (after opsC V v14))
      ⊢ R2.pre d)
    (hpost : R2.post d
      ⊢ iprop((∃ W : Waits sig (HIx 1), ⌜∀ p ∈ W, p ∈ Rec ∨ p.2 = none⌝ ∗ owes (d.tc : Thread nD τ) O W)
        ∗ pl d main_v13 (after opsC V v13) ∗ pl d main_v8 (after opsC V v8) ∗ pl d main_v12 (after opsC V v12)
        ∗ ∃ G, ⌜Pout G⌝ ∗ pl d main_v14 G))
    {α : Type} (k : PUnit → Prog (TpuEff nD τ sig (Elt F) (SparseCore.Sig (ΛP (F := F)) 1) .tc) α) (Q : α → sProp 𝕄) :
    iprop(boundary (d.tc : Thread nD τ) ∗ held (d.tc : Thread nD τ) S V
        ∗ (∃ W : Waits sig (HIx 1), ⌜(↑W : Set (SemLoc sig × HIx 1)) ⊆ Rec⌝ ∗ owes (d.tc : Thread nD τ) O W)
        ∗ levAts (K (F := F)).L (K (F := F)).lev
        ∗ Pipeline.cellsGhost (pin (pcfgs (F := F)) MainRegion.adm) EP 1 d ∗ Pipeline.toksInit (pin (pcfgs (F := F)) MainRegion.adm) EP 1 d
        ∗ (∀ G, iprop(⌜Pout G⌝ ∗ boundary (d.tc : Thread nD τ) ∗ held (d.tc : Thread nD τ) S (Vend V G)
              ∗ ∃ W : Waits sig (HIx 1), ⌜∀ p ∈ W, p ∈ Rec ∨ p.2 = none⌝ ∗ owes (d.tc : Thread nD τ) O W)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (seq opsC >>= fun _ => region 1 >>= fun _ => seq opsD >>= k) Q := by
  iintro ⟨Hb, Hh, HO, Hlv, Hg, Ht, Hk⟩
  iapply (wp_seq 𝒱 none Set.univ d S _ opsC hC fresh_C V) $$ [Hb Hh]
  · isplitl [Hb]; · iexact Hb
    iexact Hh
  iintro ⟨Hb, Hh⟩
  ihave Hh' := (Entails.of_eq (take4 d h13 h8 h12 h14 (after opsC V))) $$ Hh
  icases Hh' with ⟨H4, Hrest⟩
  iapply (MainRegion.wp_region rdats R2 d (fun _ => seq opsD >>= k) Q)
  isplitl [Hk Hrest]
  · iintro ⟨Hb, Hpost⟩
    ihave Hp := hpost $$ Hpost
    icases Hp with ⟨HO, H13, H8, H12, ⟨%G, %hG, H14⟩⟩
    ihave Hh := (Entails.of_eq (put4 d h13 h8 h12 h14 (after opsC V) G)) $$ [H13 H8 H12 H14 Hrest]
    · isplitl [H13 H8 H12 H14]
      · isplitl [H13]; · iexact H13
        isplitl [H8]; · iexact H8
        isplitl [H12]; · iexact H12
        iexact H14
      iexact Hrest
    iapply (wp_seq 𝒱 none Set.univ d S _ opsD hD fresh_D (Function.update (after opsC V) v14 G)) $$ [Hb Hh]
    · isplitl [Hb]; · iexact Hb
      iexact Hh
    iintro ⟨Hb, Hh⟩
    iapply Hk
    isplitr; · ipureintro; exact hG
    isplitl [Hb]; · iexact Hb
    isplitl [Hh]; · iexact Hh
    iexact HO
  isplitl [Hb]; · iexact Hb
  isplitl [HO H4]
  · iapply hpre
    isplitl [HO]; · iexact HO
    iexact H4
  isplitl [Hlv]; · iexact Hlv
  isplitl [Hg]; · iexact Hg
  iexact Ht

/-! ## What the tail's valuation holds -/

/-- The three arguments are as before the tail. -/
theorem Vend_arg0 (V : Valuation τ sig (Elt F)) (G) : Vend V G (Proc.devRef .tc main_arg0) = V (Proc.devRef .tc main_arg0) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

theorem Vend_arg1 (V : Valuation τ sig (Elt F)) (G) : Vend V G (Proc.devRef .tc main_arg1) = V (Proc.devRef .tc main_arg1) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

theorem Vend_arg2 (V : Valuation τ sig (Elt F)) (G) : Vend V G (Proc.devRef .tc main_arg2) = V (Proc.devRef .tc main_arg2) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

/-- The program's result is the transpose of what the region left in its result array. -/
theorem Vend_v15 (V : Valuation τ sig (Elt F)) (G) :
    Vend V G (Proc.devRef .tc main_v15) = transpose S1024x100000 [1, 0] G transposes_S100000x1024_S1024x100000_1_0 := by
  unfold Vend
  after_results
  rw [Function.update_self]

/-- What the region finds in its four arrays: the weights transposed, the gathered pair rows and the result array
    as the stretch found them, the high bit of each index as a column. -/
theorem afterC_v13 (V : Valuation τ sig (Elt F)) :
    after opsC V v13 = transpose S64x100000 [1, 0] (V (Proc.devRef .tc main_arg2)) transposes_S100000x64_S64x100000_1_0 := by
  after_results
theorem afterC_v8 (V : Valuation τ sig (Elt F)) : after opsC V v8 = V v8 :=
  StableHlo.after_of_writes_sub (W := [main_c_1, main_v9, main_v10, main_v11, main_v12, main_v13]) opsC _ (by simp [opsC]) (by decide)
theorem afterC_v14 (V : Valuation τ sig (Elt F)) : after opsC V v14 = V v14 :=
  StableHlo.after_of_writes_sub (W := [main_c_1, main_v9, main_v10, main_v11, main_v12, main_v13]) opsC _ (by simp [opsC]) (by decide)

end Cert.KernelIdeal.MainTail

end
-- ==== Proof.MainCall.lean ====
/-
  The SparseCore call's step of @main: the table, the physical indices and the gathered array go to SparseCore 0's
  sequencer and the indices and the gathered rows come back; the table is not needed again.
-/
import proofs.«218855_g90357521973776_cont_sun_m_356_26_alg».proof.Proof.Setup
import proofs.«218855_g90357521973776_cont_sun_m_356_26_alg».proof.Proof.MainLaunch
import proofs.«218855_g90357521973776_cont_sun_m_356_26_alg».proof.Proof.MainHeld

noncomputable section

namespace Cert.KernelIdeal.MainCall

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainOps Cert.KernelIdeal.MainHeld Cert.KernelIdeal.MainRegion Cert.KernelIdeal.MainLaunch
open Cert.KernelIdeal.TileBody Cert.KernelIdeal.ScPay
open Idealize.ShloMosaic.StableHlo (seq after held wp_seq)

variable [FloatOps F]
variable (ph : (d : Dev nD) → Buf (Elt F) (idxLoc d)) (Tab : (d : Dev nD) → Buf (Elt F) (tabLoc d) → Prop)

abbrev v1' : DevRef τ sig := Proc.devRef .tc main_v1
abbrev v7' : DevRef τ sig := Proc.devRef .tc main_v7
abbrev v8' : DevRef τ sig := Proc.devRef .tc main_v8

/-- Over the call's two SparseCores the operands are SparseCore 0's, -/
theorem st0_eq (d : Dev nD) :
    (bigSep Finset.univ fun c : Fin ((K (F := F)).nCore 0) => (P ph Tab).st 0 d c) = stRes ph Tab d := by
  refine (bigSep_univ_eq_bigSepL [(0 : Fin 2), (1 : Fin 2)] (by decide) (by decide) _).trans ?_
  show (iprop((if ((0 : Fin 2)).val = 0 then stRes ph Tab d else iprop(emp)) ∗ (if ((1 : Fin 2)).val = 0 then stRes ph Tab d else iprop(emp))) : sProp 𝕄) = _
  rw [if_pos (show ((0 : Fin 2)).val = 0 from rfl), if_neg (show ¬ ((1 : Fin 2)).val = 0 by decide)]
  exact BI.equiv_iff.mp sep_emp

/-- and so are the results. -/
theorem dn0_eq (d : Dev nD) :
    (bigSep Finset.univ fun c : Fin ((K (F := F)).nCore 0) => (P ph Tab).dn 0 d c) = dnRes ph Tab d := by
  refine (bigSep_univ_eq_bigSepL [(0 : Fin 2), (1 : Fin 2)] (by decide) (by decide) _).trans ?_
  show (iprop((if ((0 : Fin 2)).val = 0 then dnRes ph Tab d else iprop(emp)) ∗ (if ((1 : Fin 2)).val = 0 then dnRes ph Tab d else iprop(emp))) : sProp 𝕄) = _
  rw [if_pos (show ((0 : Fin 2)).val = 0 from rfl), if_neg (show ¬ ((1 : Fin 2)).val = 0 by decide)]
  exact BI.equiv_iff.mp sep_emp

/-- The call, at the head of the rest of @main. -/
theorem call_step (κ : GSem nD τ sig → ℕ) (d : Dev nD) (S : Finset (DevRef τ sig)) (V : Valuation τ sig (Elt F))
    (h1 : v1' ∈ S) (h7 : v7' ∈ S.erase v1') (h8 : v8' ∈ (S.erase v1').erase v7')
    (hph : V v7' = ph d) (hTab : Tab d (V v1'))
    {α : Type} (k : PUnit → Prog (TpuEff nD τ sig (Elt F) (SparseCore.Sig (ΛP (F := F)) 1) .tc) α) (Q : α → sProp 𝕄) :
    (iprop((K (F := F)).ctx EH (P ph Tab) κ ∗ (K (F := F)).tcSt EH d 0 ∗ held (T d) S V
        ∗ (∀ f, iprop(⌜∀ r, Gath ph Tab d f r⌝ ∗ (K (F := F)).tcSt EH d 1 ∗ held (T d) (S.erase v1') (Function.update V v8' f))
            -∗ wp frame (wpE ((K (F := F)).defs (D (F := F))) 𝒱 (T d) none) Set.univ (k ⟨⟩) Q)) : sProp 𝕄)
      ⊢ wp frame (wpE ((K (F := F)).defs (D (F := F))) 𝒱 (T d) none) Set.univ ((K (F := F)).run d 0 >>= k) Q := by
  rw [wp_bind, held_take d V h1, held_take d V h7, held_take d V h8]
  iintro ⟨#Hctx, Hst, ⟨Ht, Hi, Ho, Hrest⟩, Hk⟩
  iapply ((K (F := F)).wp_run (D (F := F)) 𝒱 (EH := EH) (P := P ph Tab) κ d 0)
  isplitr; · iexact Hctx
  isplitl [Hst]; · iexact Hst
  isplitl [Ht Hi Ho]
  · rw [st0_eq]
    isplitl [Ht]
    · iexists (V v1'); isplitr
      · ipureintro; exact hTab
      · iexact Ht
    isplitl [Hi]
    · rw [← hph]; iexact Hi
    iexists (V v8'); iexact Ho
  iintro ⟨Hst, Hdn⟩
  ihave Hdn' := (Entails.of_eq (dn0_eq ph Tab d)) $$ Hdn
  icases Hdn' with ⟨Hi, %f, %hf, Ho⟩
  iapply Hk
  isplitr; · ipureintro; exact hf
  isplitl [Hst]; · iexact Hst
  ihave H8 := (Entails.of_eq (held_put d V h8 f)) $$ [Ho Hrest]
  · isplitl [Ho]; · iexact Ho
    iexact Hrest
  iapply (Entails.of_eq (held_take d (Function.update V v8' f) h7).symm)
  isplitl [Hi]
  · rw [Function.update_of_ne (show v7' ≠ v8' by decide), hph]; iexact Hi
  iexact H8

end Cert.KernelIdeal.MainCall

end
-- ==== Proof.Region0.lean ====
/-
  The first TensorCore region (the transposing pallas_call, pipeline 0): its proof data over relational
  staging contents, its body obligation, and what its arrays hold at entry and at exit.
  Everything here is generic in the float instance.
-/
import proofs.«218855_g90357521973776_cont_sun_m_356_26_alg».proof.Proof.Setup
import proofs.«218855_g90357521973776_cont_sun_m_356_26_alg».proof.Proof.Gen.KernelIdeal.Points
import proofs.«218855_g90357521973776_cont_sun_m_356_26_alg».proof.Proof.Gen.KernelIdeal.Skeleton
import Idealize.ShloMosaic.Lib.Pipeline.FrameBody
import Idealize.ShloMosaic.Lib.Pipeline.Value
import Idealize.ShloMosaic.Lib.ValueIdx

noncomputable section

namespace Cert.KernelIdeal.Region0

open Cert.KernelIdeal Cert.KernelIdeal.Gen Cert.KernelIdeal.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

/-- The one admissible (empty) prefetch contents of each pipeline. -/
abbrev adm : (p : Fin 2) → (pcfgs (F := F) p).Adm := fun p => (cfgs p).toPCfg_adm

/-! ## The proof data -/

section Data

variable (c : Dev nD) (V : (b : Ref sig .tc) → Buf (Elt F) ((c : Thread nD τ).loc b))

/-- The a block (column block t of the transposed table) as the fetch at point t leaves it in a staging
    buffer that held d: the block's columns inside the array, d elsewhere. -/
def ablk (t : Fin cfg0.N) (d : S64x16384.Idx → Elt F .f32) : S64x16384.Idx → Elt F .f32 :=
  win0_0.fill (grid0.coords t) d ((win0_0.blk t).view.read (Elt F) (V main_v0))

/-- The b block (column block min (t + 4) 6) likewise: at the last block only the first 1696 columns are
    the array's, the rest is d. -/
def bblk (t : Fin cfg0.N) (d : S64x16384.Idx → Elt F .f32) : S64x16384.Idx → Elt F .f32 :=
  win0_1.fill (grid0.coords t) d ((win0_1.blk t).view.read (Elt F) (V main_v0))

/-- The proof data of pipeline 0 on device c: both input windows read the transposed table and are left
    as found; the output's staging buffer is left at the concatenated transposes of some a block and
    some b block as fetched at that point (the filler words past the table's end are not named);
    the invariant Rinv carried unchanged; the tallies O owed throughout, the recorded pairs within Rec
    (the body records none). -/
def rdat0 (q : Fin 3 → PosShare TreeShare) (O : CellTallies nD τ sig (HIx 1)) (Rinv : sProp 𝕄)
    (Rec : Set (SemLoc sig × HIx 1)) :
    RDat τ (Elt F) (HIx 1) ℕ UU ℕ cfg0 c where
  A w := V (Pipeline.arrRef spec0 w)
  after w t := match w with
    | ⟨0, _⟩ => fun Y X => X = Y
    | ⟨1, _⟩ => fun Y X => X = Y
    | ⟨2, _⟩ => fun _ X => ∃ da db, X = k0_pay1 (ablk c V t da) (bblk c V t db)
  Φ _ := Rinv
  q := q
  owed _ := O
  recorded _ := Rec

end Data

/-! ## The kernel body's run -/

set_option maxHeartbeats 1600000 in
/-- The kernel body on staging buffers s0 of the a window, s1 of the b window and s2 of the output's: the whole
    loads of the two input buffers, the dead load of the output's, the whole store — the output's buffer ends
    holding the payload of what the other two hold, those unchanged. -/
theorem sound_body (c : Dev nD) (E : Set ℕ) (i : grid0.Coords) (s0 s1 s2 : Fin 2)
    (X0 X1 : S64x16384.Idx → Elt F .f32) (X2 : S16384x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0_tp_kernel i (stage0_0 s0) (hstage0_0 s0) (stage0_1 s1) (hstage0_1 s1) (stage0_2 s2) (hstage0_2 s2)) K := by
  -- the accesses are at offsets zero and the buffers' own sizes, the whole buffers: a load reads the contents, an
  -- unmasked store writes the payload, at whichever of its window's two buffers each memref is
  have hz : (![0, 0] : Fin 2 → Nat) = fun _ => 0 := funext fun a => by fin_cases a <;> rfl
  fin_cases s0 <;> fin_cases s1 <;> fin_cases s2
  · -- the a window's buffer cc0_stg0_0, the b window's cc0_stg1_0, the output's cc0_stg2_0
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_0, the output's cc0_stg2_1
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_1, the output's cc0_stg2_0
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_1, the output's cc0_stg2_1
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_0, the output's cc0_stg2_0
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_0, the output's cc0_stg2_1
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_1, the output's cc0_stg2_0
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_1, the output's cc0_stg2_1
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-! ## What the body finds in the input buffers -/

section Obligation

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

theorem fetched_0 (t : Fin cfg0.N) (d) : (rdat0 c V q O Rinv Rec).fetched (0 : Fin 3) t d = ablk c V t d := rfl
theorem fetched_1 (t : Fin cfg0.N) (d) : (rdat0 c V q O Rinv Rec).fetched (1 : Fin 3) t d = bblk c V t d := rfl

/-- The a window's relation leaves the buffer as found and its cuts are a function of the block index: wherever
    the body is handed the buffer it holds the block of that point as a fetch leaves it. -/
theorem finds_0 (t : Fin cfg0.N) (Y : S64x16384.Idx → Elt F .f32) (h : (rdat0 c V q O Rinv Rec).Finds (0 : Fin 3) t Y) :
    ∃ d, Y = ablk c V t d :=
  (rdat0 c V q O Rinv Rec).finds_in_eq_fetched (0 : Fin 3) rfl
    (fun t t' h => funext fun a => by
      show Pipeline.Clip.of (cc0_transform_0 (grid0.coords t) a) _ _ = Pipeline.Clip.of (cc0_transform_0 (grid0.coords t') a) _ _
      rw [show cc0_transform_0 (grid0.coords t) a = cc0_transform_0 (grid0.coords t') a from congrFun h a])
    (fun _ _ _ h => h) t Y h

/-- The b window likewise: at the last point, which does not fetch it, it still holds the last block. -/
theorem finds_1 (t : Fin cfg0.N) (Y : S64x16384.Idx → Elt F .f32) (h : (rdat0 c V q O Rinv Rec).Finds (1 : Fin 3) t Y) :
    ∃ d, Y = bblk c V t d :=
  (rdat0 c V q O Rinv Rec).finds_in_eq_fetched (1 : Fin 3) rfl
    (fun t t' h => funext fun a => by
      show Pipeline.Clip.of (cc0_transform_1 (grid0.coords t) a) _ _ = Pipeline.Clip.of (cc0_transform_1 (grid0.coords t') a) _ _
      rw [show cc0_transform_1 (grid0.coords t) a = cc0_transform_1 (grid0.coords t') a from congrFun h a])
    (fun _ _ _ h => h) t Y h

/-! ## The body obligation -/

/-- At every point: the two input buffers come back as handed over, the output's at the payload of the two. -/
theorem body_obligation : (rdat0 c V q O Rinv Rec).BodyObligation (defs₀ (F := F)) 𝒱₀ none Set.univ := fun t Y hY => by
  obtain ⟨da, hda⟩ := finds_0 c V q O Rinv Rec t (Y 0) (hY 0)
  obtain ⟨db, hdb⟩ := finds_1 c V q O Rinv Rec t (Y 1) (hY 1)
  rw [bigSep_W0, bigSep_W0]
  simp only
  rw [show (rdat0 c V q O Rinv Rec).Φ t.succ = (rdat0 c V q O Rinv Rec).Φ t.castSucc from rfl,
    show (rdat0 c V q O Rinv Rec).owesAt none t.succ = (rdat0 c V q O Rinv Rec).owesAt none t.castSucc from rfl]
  iintro ⟨HΦ, Ho, H0, H1, H2⟩
  iapply (sound_body (F := F) c Set.univ (grid0.coords t) (cfg0.slots t 0) (cfg0.slots t 1) (cfg0.slots t 2) (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr
    · ipureintro; exact (rfl : Y 0 = Y 0)
    iexact H0
  isplitl [H1]
  · iexists Y 1; isplitr
    · ipureintro; exact (rfl : Y 1 = Y 1)
    iexact H1
  · iexists k0_pay1 (Y 0) (Y 1); isplitr
    · ipureintro
      exact (show ∃ da db, k0_pay1 (Y 0) (Y 1) = k0_pay1 (ablk c V t da) (bblk c V t db) from
        ⟨da, db, congr (congrArg (k0_pay1 (F := F)) hda) hdb⟩)
    iexact H2

end Obligation

/-! ## The wait evidence: the pipeline's cells sit at index none, below everything the TensorCore owes -/

/-- For any family of proof data whose pipeline 0 on device c owes O throughout, nothing of it at index none: the
    TensorCore may wait on each of the pipeline's cells at index none. -/
theorem hwaits0 (rdats : (p : Fin 2) → (c : Dev nD) → RDat τ (Elt F) (HIx 1) ℕ UU ℕ (Pipeline.pin (pcfgs (F := F)) adm p) c)
    (c : Dev nD) (O : CellTallies nD τ sig (HIx 1)) (hO : ∀ g, O g none = 0) (howed : ∀ t, (rdats 0 c).owed t = O)
    (lv : GSem nD τ sig → HIx 1 → ℕ) (hlv : (K (F := F)).Refines lv) :
    (levAts (K (F := F)).L lv : sProp 𝕄) ⊢ Pipeline.RDat.cellsWaits (Pipeline.pin (pcfgs (F := F)) adm) rdats none 0 c :=
  Pipeline.RDat.cellsWaits_intro (Pipeline.pin (pcfgs (F := F)) adm) rdats none 0 c fun w s t => by
    rw [howed t]; exact (K (F := F)).mayWait_none _ hO lv hlv

/-! ## The arrays at entry and at exit -/

section Arrays

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

theorem A_0 : (rdat0 c V q O Rinv Rec).A (0 : Fin 3) = V main_v0 := rfl
theorem A_1 : (rdat0 c V q O Rinv Rec).A (1 : Fin 3) = V main_v0 := rfl
theorem A_2 : (rdat0 c V q O Rinv Rec).A (2 : Fin 3) = V main_v1 := rfl
theorem owed_eq (t) : (rdat0 c V q O Rinv Rec).owed t = O := rfl
theorem recorded_eq (t) : (rdat0 c V q O Rinv Rec).recorded t = Rec := rfl
theorem Φ_eq (t) : (rdat0 c V q O Rinv Rec).Φ t = Rinv := rfl
theorem share_0 : (rdat0 c V q O Rinv Rec).share (0 : Fin 3) = q 0 := rfl
theorem share_1 : (rdat0 c V q O Rinv Rec).share (1 : Fin 3) = q 1 := rfl
theorem share_2 : (rdat0 c V q O Rinv Rec).share (2 : Fin 3) = fullShare := rfl

/-- The windows' arrays at entry: the transposed table twice, at the two input windows' shares, and the
    output array outright. -/
theorem arrays_entry :
    (rdat0 c V q O Rinv Rec).arrays (rdat0 c V q O Rinv Rec).A
      = (iprop((((c : Thread nD τ).loc main_v0) ↦{q 0} V main_v0) ∗ (((c : Thread nD τ).loc main_v0) ↦{q 1} V main_v0)
          ∗ (((c : Thread nD τ).loc main_v1) ↦{fullShare} V main_v1)) : sProp 𝕄) := by
  unfold RDat.arrays; rw [bigSep_W0]
  show (iprop((((c : Thread nD τ).loc main_v0) ↦[(View.whole main_v0).set]{q 0} V main_v0)
      ∗ (((c : Thread nD τ).loc main_v0) ↦[(View.whole main_v0).set]{q 1} V main_v0)
      ∗ (((c : Thread nD τ).loc main_v1) ↦[(View.whole main_v1).set]{fullShare} V main_v1)) : sProp 𝕄) = _
  rw [View.set_whole, View.set_whole]

/-- The input windows' array is never written: -/
theorem ArrAt_0 (n : Nat) : (rdat0 c V q O Rinv Rec).ArrAt (0 : Fin 3) n = fun G => G = V main_v0 :=
  (rdat0 c V q O Rinv Rec).ArrAt_in (0 : Fin 3) rfl n
theorem ArrAt_1 (n : Nat) : (rdat0 c V q O Rinv Rec).ArrAt (1 : Fin 3) n = fun G => G = V main_v0 :=
  (rdat0 c V q O Rinv Rec).ArrAt_in (1 : Fin 3) rfl n

/-- The arrays at exit: the transposed table as at entry, the output array at SOME contents the four
    write-backs may have left. -/
theorem arraysAt_exit :
    (rdat0 c V q O Rinv Rec).arraysAt cfg0.N
      ⊢ (iprop((((c : Thread nD τ).loc main_v0) ↦{q 0} V main_v0) ∗ (((c : Thread nD τ).loc main_v0) ↦{q 1} V main_v0)
          ∗ ∃ T1, ⌜(rdat0 c V q O Rinv Rec).ArrAt (2 : Fin 3) cfg0.N T1⌝ ∗ (((c : Thread nD τ).loc main_v1) ↦{fullShare} T1)) : sProp 𝕄) := by
  unfold RDat.arraysAt; rw [bigSep_W0, ArrAt_0, ArrAt_1]
  show (iprop((∃ G, ⌜G = V main_v0⌝ ∗ (((c : Thread nD τ).loc main_v0) ↦[(View.whole main_v0).set]{q 0} G))
      ∗ (∃ G, ⌜G = V main_v0⌝ ∗ (((c : Thread nD τ).loc main_v0) ↦[(View.whole main_v0).set]{q 1} G))
      ∗ (∃ T1, ⌜(rdat0 c V q O Rinv Rec).ArrAt (2 : Fin 3) cfg0.N T1⌝ ∗ (((c : Thread nD τ).loc main_v1) ↦[(View.whole main_v1).set]{fullShare} T1))) : sProp 𝕄) ⊢ _
  rw [View.set_whole, View.set_whole]
  iintro ⟨⟨%G0, %h0, H0⟩, ⟨%G1, %h1, H1⟩, ⟨%T1, %h2, H2⟩⟩
  subst h0; subst h1
  isplitl [H0]; · iexact H0
  isplitl [H1]; · iexact H1
  iexists T1; isplitr; · ipureintro; exact h2
  iexact H2

end Arrays

/-! ## The output array at exit, in closed form over the filler words -/

section Value

open Idealize.ShloMosaic.ValueIdx

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

/-- The output block the body stores at point t, for given filler words of the two input buffers. -/
def outBlk (t : Fin cfg0.N) (da db : S64x16384.Idx → Elt F .f32) : S16384x128.Idx → Elt F .f32 :=
  k0_pay1 (ablk c V t da) (bblk c V t db)

/-- What the body may leave in the output's buffer at point t is such a block. -/
theorem leaves_2 (t : Fin cfg0.N) (X : S16384x128.Idx → Elt F .f32) (h : (rdat0 c V q O Rinv Rec).Leaves (2 : Fin 3) t X) :
    ∃ da db, X = outBlk c V t da db := by
  obtain ⟨Y, -, hR⟩ := h; exact hR

/-- The point whose block holds row p of the output array, and the row's place in that block. -/
def ptOf (i : S65536x128.Idx) : Fin cfg0.N := ⟨(i 0).val / 16384, by
  have h : (i 0).val < 65536 := idx2_lt0 i
  show (i 0).val / 16384 < grid0.N
  rw [N_0]; omega⟩
def rowOf (i : S65536x128.Idx) : Fin 16384 := ⟨(i 0).val % 16384, Nat.mod_lt _ (by decide)⟩
def colOf (i : S65536x128.Idx) : Fin 128 := ⟨(i 1).val, idx2_lt1 i⟩

/-- The output array once the four blocks are written back: row p is row p % 16384 of the block stored at
    point p / 16384. -/
def outArr (da db : Fin cfg0.N → S64x16384.Idx → Elt F .f32) : S65536x128.Idx → Elt F .f32 := fun i =>
  outBlk c V (ptOf i) (da (ptOf i)) (db (ptOf i)) (ix2 (rowOf i) (colOf i))

theorem outArr_at (da db : Fin cfg0.N → S64x16384.Idx → Elt F .f32) (t : Fin cfg0.N) (r : Fin 16384) (k : Fin 128)
    (i : S65536x128.Idx) (h0 : (i 0).val = t.val * 16384 + r.val) (h1 : (i 1).val = k.val) :
    outArr c V da db i = outBlk c V t (da t) (db t) (ix2 r k) := by
  have hp : ptOf i = t := Fin.ext (by show (i 0).val / 16384 = t.val; rw [h0]; have := r.isLt; omega)
  have hr : rowOf i = r := Fin.ext (by show (i 0).val % 16384 = r.val; rw [h0]; have := r.isLt; omega)
  have hk : colOf i = k := Fin.ext h1
  unfold outArr; rw [hp, hr, hk]

end Value

section Exit

open Idealize.ShloMosaic.ValueIdx

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

/-- The output window's block index at point t: row block t. -/
theorem index_2 (t : Fin cfg0.N) : win0_2.index t 0 = t.val ∧ win0_2.index t 1 = 0 := by
  rcases fin_N0 t with rfl | rfl | rfl | rfl <;> decide +kernel

/-- An index of the output array lies in point t's block iff its row is among the block's rows. -/
theorem mem_blk (t : Fin cfg0.N) (i : S65536x128.Idx) :
    i ∈ (win0_2.blk t).view.setOn Finset.univ ↔ t.val * 16384 ≤ (i 0 : Nat) ∧ (i 0 : Nat) < t.val * 16384 + 16384 := by
  rw [View.setOn_univ]
  show i ∈ ((View.whole main_v1).slice (win0_2.rect t)).set ↔ _
  rw [View.set_slice_whole, Rect.mem_set_unit]
  have h1 : (i 1 : Nat) < 128 := idx2_lt1 i
  obtain ⟨e0, e1⟩ := index_2 t
  constructor
  · intro h
    have h' := h 0
    change win0_2.index t 0 * 16384 ≤ (i 0 : Nat) ∧ (i 0 : Nat) < win0_2.index t 0 * 16384 + 16384 at h'
    rw [e0] at h'; exact h'
  · intro h a
    match a with
    | ⟨0, _⟩ =>
      change win0_2.index t 0 * 16384 ≤ (i 0 : Nat) ∧ (i 0 : Nat) < win0_2.index t 0 * 16384 + 16384
      rw [e0]; exact h
    | ⟨1, _⟩ =>
      change win0_2.index t 1 * 128 ≤ (i 1 : Nat) ∧ (i 1 : Nat) < win0_2.index t 1 * 128 + 128
      rw [e1]; omega

/-- The block stored at point t is the closed form's rows read through the block. -/
theorem cut_outBlk (da db : Fin cfg0.N → S64x16384.Idx → Elt F .f32) (t : Fin cfg0.N) :
    win0_2.cut (grid0.coords t) (outBlk c V t (da t) (db t)) = (win0_2.blk t).view.read (Elt F) (outArr c V da db) := by
  funext y
  obtain ⟨e0, e1⟩ := index_2 t
  have h0 : (((win0_2.blk t).view.emb y) 0 : Nat) = win0_2.index t 0 * 16384 + (y 0 : Nat) := win0_2.rect_emb_val t y 0
  have h1 : (((win0_2.blk t).view.emb y) 1 : Nat) = win0_2.index t 1 * 128 + (y 1 : Nat) := win0_2.rect_emb_val t y 1
  rw [e0] at h0; rw [e1, Nat.zero_mul, Nat.zero_add] at h1
  symm
  refine (outArr_at c V da db t ⟨(y 0).val, (y 0).isLt⟩ ⟨(y 1).val, (y 1).isLt⟩ ((win0_2.blk t).view.emb y) h0 h1).trans ?_
  exact congrArg (outBlk c V t (da t) (db t)) (funext fun a => match a with | ⟨0, _⟩ => rfl | ⟨1, _⟩ => rfl)

/-- Four contents, one per point. -/
def pick4 {α : Type} (x0 x1 x2 x3 : α) (t : Fin cfg0.N) : α := match t.val with | 0 => x0 | 1 => x1 | 2 => x2 | _ => x3
theorem pick4_0 {α : Type} (x0 x1 x2 x3 : α) : pick4 x0 x1 x2 x3 t0_0 = x0 := rfl
theorem pick4_1 {α : Type} (x0 x1 x2 x3 : α) : pick4 x0 x1 x2 x3 t0_1 = x1 := rfl
theorem pick4_2 {α : Type} (x0 x1 x2 x3 : α) : pick4 x0 x1 x2 x3 t0_2 = x2 := rfl
theorem pick4_3 {α : Type} (x0 x1 x2 x3 : α) : pick4 x0 x1 x2 x3 t0_3 = x3 := rfl

/-- Four write-backs of blocks that are one whole-array function's rows leave that function: the four row blocks
    cover the array. -/
theorem writes_eq (G0 G : S65536x128.Idx → Elt F .f32) (Z0 Z1 Z2 Z3 : S16384x128.Idx → Elt F .f32)
    (c0 : win0_2.cut (grid0.coords t0_0) Z0 = (win0_2.blk t0_0).view.read (Elt F) G)
    (c1 : win0_2.cut (grid0.coords t0_1) Z1 = (win0_2.blk t0_1).view.read (Elt F) G)
    (c2 : win0_2.cut (grid0.coords t0_2) Z2 = (win0_2.blk t0_2).view.read (Elt F) G)
    (c3 : win0_2.cut (grid0.coords t0_3) Z3 = (win0_2.blk t0_3).view.read (Elt F) G) :
    (win0_2.blk t0_3).view.write (Elt F) ((win0_2.blk t0_2).view.write (Elt F) ((win0_2.blk t0_1).view.write (Elt F)
      ((win0_2.blk t0_0).view.write (Elt F) G0 (win0_2.cut (grid0.coords t0_0) Z0) Finset.univ)
      (win0_2.cut (grid0.coords t0_1) Z1) Finset.univ) (win0_2.cut (grid0.coords t0_2) Z2) Finset.univ)
      (win0_2.cut (grid0.coords t0_3) Z3) Finset.univ = G := by
  rw [c0, c1, c2, c3, View.write_read_eq_piecewise, View.write_read_eq_piecewise, View.write_read_eq_piecewise,
    View.write_read_eq_piecewise]
  funext i
  have h65 : (i 0 : Nat) < 65536 := idx2_lt0 i
  have m0 : i ∈ (win0_2.blk t0_0).view.setOn Finset.univ ↔ 0 ≤ (i 0 : Nat) ∧ (i 0 : Nat) < 16384 := mem_blk t0_0 i
  have m1 : i ∈ (win0_2.blk t0_1).view.setOn Finset.univ ↔ 16384 ≤ (i 0 : Nat) ∧ (i 0 : Nat) < 32768 := mem_blk t0_1 i
  have m2 : i ∈ (win0_2.blk t0_2).view.setOn Finset.univ ↔ 32768 ≤ (i 0 : Nat) ∧ (i 0 : Nat) < 49152 := mem_blk t0_2 i
  have m3 : i ∈ (win0_2.blk t0_3).view.setOn Finset.univ ↔ 49152 ≤ (i 0 : Nat) ∧ (i 0 : Nat) < 65536 := mem_blk t0_3 i
  unfold Finset.piecewise
  split
  · rfl
  split
  · rfl
  split
  · rfl
  split
  · rfl
  rename_i h3' h2' h1' h0'
  exfalso; rw [m3] at h3'; rw [m2] at h2'; rw [m1] at h1'; rw [m0] at h0'
  omega

/-- THE OUTPUT ARRAY AT EXIT: whatever the four write-backs may have left is the closed form at some filler words. -/
theorem exit_out (T1 : S65536x128.Idx → Elt F .f32) (h : (rdat0 c V q O Rinv Rec).ArrAt (2 : Fin 3) cfg0.N T1) :
    ∃ da db : Fin cfg0.N → S64x16384.Idx → Elt F .f32, T1 = outArr c V da db := by
  rw [show cfg0.N = t0_3.val + 1 from rfl, (rdat0 c V q O Rinv Rec).ArrAt_succ (2 : Fin 3) t0_3, if_pos (flush0_2 _)] at h
  obtain ⟨G3, X3, h3, hL3, rfl⟩ := h
  rw [show t0_3.val = t0_2.val + 1 from rfl, (rdat0 c V q O Rinv Rec).ArrAt_succ (2 : Fin 3) t0_2, if_pos (flush0_2 _)] at h3
  obtain ⟨G2, X2, h2, hL2, rfl⟩ := h3
  rw [show t0_2.val = t0_1.val + 1 from rfl, (rdat0 c V q O Rinv Rec).ArrAt_succ (2 : Fin 3) t0_1, if_pos (flush0_2 _)] at h2
  obtain ⟨G1, X1, h1, hL1, rfl⟩ := h2
  rw [show t0_1.val = t0_0.val + 1 from rfl, (rdat0 c V q O Rinv Rec).ArrAt_succ (2 : Fin 3) t0_0, if_pos (flush0_2 _)] at h1
  obtain ⟨G0, X0, -, hL0, rfl⟩ := h1
  obtain ⟨a0, b0, rfl⟩ := leaves_2 c V q O Rinv Rec _ _ hL0
  obtain ⟨a1, b1, rfl⟩ := leaves_2 c V q O Rinv Rec _ _ hL1
  obtain ⟨a2, b2, rfl⟩ := leaves_2 c V q O Rinv Rec _ _ hL2
  obtain ⟨a3, b3, rfl⟩ := leaves_2 c V q O Rinv Rec _ _ hL3
  refine ⟨pick4 a0 a1 a2 a3, pick4 b0 b1 b2 b3, ?_⟩
  have c0 := cut_outBlk c V (pick4 a0 a1 a2 a3) (pick4 b0 b1 b2 b3) t0_0
  have c1 := cut_outBlk c V (pick4 a0 a1 a2 a3) (pick4 b0 b1 b2 b3) t0_1
  have c2 := cut_outBlk c V (pick4 a0 a1 a2 a3) (pick4 b0 b1 b2 b3) t0_2
  have c3 := cut_outBlk c V (pick4 a0 a1 a2 a3) (pick4 b0 b1 b2 b3) t0_3
  rw [pick4_0, pick4_0] at c0; rw [pick4_1, pick4_1] at c1; rw [pick4_2, pick4_2] at c2; rw [pick4_3, pick4_3] at c3
  exact writes_eq G0 _ _ _ _ _ c0 c1 c2 c3

end Exit

end Cert.KernelIdeal.Region0
end
-- ==== Proof.RegionRec0.lean ====
/-
  The first TensorCore region as the region rule's record: the layout facts, the body obligation, the wait
  evidence, and the four entailments around the thread states the region is entered from and leaves.
  Everything here is generic in the float instance.
-/
import proofs.«218855_g90357521973776_cont_sun_m_356_26_alg».proof.Proof.Region0

noncomputable section

namespace Cert.KernelIdeal.RegionRec0

open Cert.KernelIdeal Cert.KernelIdeal.Gen Cert.KernelIdeal.Setup Cert.KernelIdeal.Region0

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- The shares the windows hold their arrays at: the two input windows read one array, each at a half; the
    output array is held outright. -/
def q0 : Fin 3 → PosShare TreeShare := fun w =>
  if w.val = 0 then fullShare.left else if w.val = 1 then fullShare.right else fullShare

theorem q0_0 : q0 (0 : Fin 3) = fullShare.left := rfl
theorem q0_1 : q0 (1 : Fin 3) = fullShare.right := rfl
theorem q0_2 : q0 (2 : Fin 3) = fullShare := rfl

/-- The region has no prefetched table. -/
theorem bigSep_none {M : Type} [URA M] (Φ : Fin 0 → sProp M) : bigSep Finset.univ Φ = (BI.emp : sProp M) :=
  bigSep_univ_eq_bigSepL [] (by decide) (by decide) Φ
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The core's owes as the region's points hold it — the tallies O, the recorded pairs within Rec and the loop's
    own — from the thread state's form, and back: the loop's own waits are at index none. -/
theorem owesAt_intro (c : Dev nD) (V : (b : Ref sig .tc) → Buf (Elt F) ((c : Thread nD τ).loc b))
    (q : Fin 3 → PosShare TreeShare) (O : CellTallies nD τ sig (HIx 1)) (Rinv : sProp 𝕄) (Rec : Set (SemLoc sig × HIx 1))
    (t : Fin (cfg0.N + 1)) :
    iprop(∃ W : Waits sig (HIx 1), ⌜(↑W : Set (SemLoc sig × HIx 1)) ⊆ Rec⌝ ∗ owes (c : Thread nD τ) O W)
      ⊢ ((rdat0 c V q O Rinv Rec).owesAt none t : sProp 𝕄) := by
  unfold Pipeline.RDat.owesAt Pipeline.owesWithin Pipeline.RDat.bound
  iintro ⟨%W, %hW, HO⟩; iexists W; isplitr; · ipureintro; exact fun x hx => Or.inl (hW hx)
  iexact HO
theorem owesAt_elim (c : Dev nD) (V : (b : Ref sig .tc) → Buf (Elt F) ((c : Thread nD τ).loc b))
    (q : Fin 3 → PosShare TreeShare) (O : CellTallies nD τ sig (HIx 1)) (Rinv : sProp 𝕄) (Rec : Set (SemLoc sig × HIx 1))
    (t : Fin (cfg0.N + 1)) :
    ((rdat0 c V q O Rinv Rec).owesAt none t : sProp 𝕄)
      ⊢ iprop(∃ W : Waits sig (HIx 1), ⌜∀ p ∈ W, p ∈ Rec ∨ p.2 = none⌝ ∗ owes (c : Thread nD τ) O W) := by
  unfold Pipeline.RDat.owesAt Pipeline.owesWithin Pipeline.RDat.bound
  iintro ⟨%W, %hW, HO⟩; iexists W; isplitr
  · ipureintro; intro p hp
    rcases hW (Finset.mem_coe.mpr hp) with h | ⟨w, s, rfl⟩
    · exact Or.inl h
    · exact Or.inr rfl
  iexact HO

/-- What the region's invariant carries: the core's scoped buffers that are no staging buffer of this region. -/
abbrev rest0 (c : Dev nD) : sProp 𝕄 := Pipeline.scopedRest (Pipeline.pin (pcfgs (F := F)) adm 0).spec c

/-- The region rule's record for pipeline 0, for any family of proof data that is this region's at pipeline 0:
    entered with the transposed table and the output array held outright and the core owing O with its recorded
    pairs within Rec, it leaves with the recorded pairs within Rec or at index none, with the
    table as it was and the output array at some contents the four write-backs may have left. -/
def seg0 (rdats : (p : Fin 2) → (c : Dev nD) → RDat τ (Elt F) (HIx 1) ℕ UU ℕ (Pipeline.pin (pcfgs (F := F)) adm p) c)
    (V : (c : Dev nD) → (b : Ref sig .tc) → Buf (Elt F) ((c : Thread nD τ).loc b))
    (O : Dev nD → CellTallies nD τ sig (HIx 1)) (hO : ∀ c g, O c g none = 0)
    (Rec : Dev nD → Set (SemLoc sig × HIx 1))
    (h0 : ∀ c, rdats 0 c = rdat0 c (V c) q0 (O c) (rest0 c) (Rec c)) :
    Pipeline.RDat.RegionSeg (pcfgs (F := F)) adm rdats none (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := by rw [h0 c]; exact body_obligation c (V c) q0 (O c) (rest0 c) (Rec c)
  hwaits c := hwaits0 rdats c (O c) (hO c) (fun t => by rw [h0 c]; rfl) (K (F := F)).lev (SparseCore.Cfg.refines_self _)
  pre c := iprop((∃ W : Waits sig (HIx 1), ⌜(↑W : Set (SemLoc sig × HIx 1)) ⊆ Rec c⌝ ∗ owes (c : Thread nD τ) (O c) W) ∗ (((c : Thread nD τ).loc main_v0) ↦{fullShare} V c main_v0)
    ∗ (((c : Thread nD τ).loc main_v1) ↦{fullShare} V c main_v1))
  post c := iprop((∃ W : Waits sig (HIx 1), ⌜∀ p ∈ W, p ∈ Rec c ∨ p.2 = none⌝ ∗ owes (c : Thread nD τ) (O c) W) ∗ (((c : Thread nD τ).loc main_v0) ↦{fullShare} V c main_v0)
    ∗ ∃ T1, ⌜(rdats 0 c).ArrAt (2 : Fin 3) cfg0.N T1⌝ ∗ (((c : Thread nD τ).loc main_v1) ↦{fullShare} T1))
  X _ := iprop(emp)
  Y _ := iprop(emp)
  Z _ := iprop(emp)
  hentry c := by
    rw [Pipeline.ownSems0_none, h0 c, arrays_entry, prefHeld0, q0_0, q0_1]
    iintro ⟨⟨HO, H0, H1⟩, -, -⟩
    imodintro
    ihave H0 := (pointsTo_share (PosShare.mem_left_op_right fullShare)).1 $$ H0
    icases H0 with ⟨Ha, Hb⟩
    isplitl [Ha Hb H1]
    · isplitl [Ha]; · iexact Ha
      isplitl [Hb]; · iexact Hb
      iexact H1
    isplitr; · iempintro
    isplitl [HO]; · iapply (owesAt_intro c (V c) q0 (O c) (rest0 c) (Rec c) 0); iexact HO
    isplitr <;> iempintro
  hin c := by
    rw [h0 c, Φ_eq]
    iintro ⟨-, -, H⟩; iexact H
  hout c := by
    rw [h0 c, Φ_eq, Pipeline.ownSems0_none]
    iintro H
    isplitr; · iempintro
    isplitr; · iempintro
    iexact H
  hexit c := by
    rw [h0 c]
    iintro ⟨HA, HO, -, -⟩
    ihave HA := (arraysAt_exit c (V c) q0 (O c) (rest0 c) (Rec c)) $$ HA
    rw [q0_0, q0_1]
    icases HA with ⟨Ha, Hb, ⟨%T1, %hT, H2⟩⟩
    imodintro
    isplitl [HO]; · iapply (owesAt_elim c (V c) q0 (O c) (rest0 c) (Rec c) _); iexact HO
    isplitl [Ha Hb]
    · ihave H := (pointsTo_share (PosShare.mem_left_op_right fullShare)).2 $$ [Ha Hb]
      · isplitl [Ha] <;> iassumption
      iexact H
    iexists T1; isplitr; · ipureintro; exact hT
    iexact H2

end Cert.KernelIdeal.RegionRec0

end
-- ==== Proof.MainRun.lean ====
/-
  @main on the TensorCore, under the SparseCore launch, at the frame level: from the launch's context, the
  TensorCore's state before the one SparseCore call, what the launch deals the TensorCore and the two pipelines'
  ghost state, @main runs — the front (a host stretch, the first region, a host stretch), the SparseCore call, the
  tail (a host stretch, the second region, the last host operation) — to the TensorCore's state after the call and
  the three argument arrays at their launch contents. Generic in the float instance.
-/
import proofs.«218855_g90357521973776_cont_sun_m_356_26_alg».proof.Proof.MainFront
import proofs.«218855_g90357521973776_cont_sun_m_356_26_alg».proof.Proof.MainTail
import proofs.«218855_g90357521973776_cont_sun_m_356_26_alg».proof.Proof.MainCall
import proofs.«218855_g90357521973776_cont_sun_m_356_26_alg».proof.Proof.RegionRec0

noncomputable section

namespace Cert.KernelIdeal.MainRun

open Cert.KernelIdeal Cert.KernelIdeal.Gen Cert.KernelIdeal.Setup

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainOps Cert.KernelIdeal.MainHeld
open Cert.KernelIdeal.MainCall (v1' v7' v8')
open Idealize.ShloMosaic.StableHlo (seq after held)
open Idealize.ShloMosaic.Pipeline (pin)

variable {F : FTy → Type} [FloatOps F]

local notation "𝕄" => MT nD τ sig (HIx 1) (Elt F) ℕ UU ℕ

/-! ## The TensorCore's dues between calls -/

/-- The pairs the TensorCore may have recorded before call `n`. -/
def RecAt (d : Dev nD) (n : ℕ) : Set (SemLoc sig × HIx 1) := {p | (K (F := F)).lev (T d, p.1) p.2 ≤ 8 * n}

/-- The TensorCore's state between calls lends its dues, with the bound on the recorded pairs, and takes them back
    with more pairs at the index nothing is owed at. -/
theorem owes_lend (d : Dev nD) (n : ℕ) :
    (K (F := F)).tcSt EH d n ⊢ (iprop((∃ W : Waits sig (HIx 1), ⌜(↑W : Set (SemLoc sig × HIx 1)) ⊆ RecAt (F := F) d n⌝ ∗ owes (T d) ((K (F := F)).Otc d n) W)
      ∗ ((∃ W : Waits sig (HIx 1), ⌜∀ p ∈ W, p ∈ RecAt (F := F) d n ∨ p.2 = none⌝ ∗ owes (T d) ((K (F := F)).Otc d n) W) -∗ (K (F := F)).tcSt EH d n)) : sProp 𝕄) := by
  unfold SparseCore.Cfg.tcSt
  iintro ⟨⟨%W, %hW, HO⟩, Hrest⟩
  isplitl [HO]
  · iexists W; isplitr
    · ipureintro; intro p hp; exact hW p (Finset.mem_coe.mp hp)
    · iexact HO
  · iintro ⟨%W', %hW', HO'⟩
    isplitl [HO']
    · iexists W'; isplitr
      · ipureintro; intro p hp
        rcases hW' p hp with h | h
        · exact h
        · show (K (F := F)).lev (T d, p.1) p.2 ≤ 8 * n
          rw [h]; exact Nat.zero_le _
      · iexact HO'
    · iexact Hrest

theorem Otc_none (d : Dev nD) (n : ℕ) (g : GSem nD τ sig) : (K (F := F)).Otc d n g none = 0 := by
  by_contra h
  have := SparseCore.Cfg.lev_of_Otc_pos (K := K (F := F)) (d := d) (n := n) (g := g) (ι := none) (Nat.pos_of_ne_zero h)
  rw [SparseCore.Cfg.lev_none] at this
  omega

/-- The two pipelines, one by one. -/
theorem bigSep_P2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-! ## The held family's members -/

theorem devRef_mem_Sall (b : Ref sig .tc) (h : b.isScoped = false) : (Proc.devRef (τ := τ) .tc b) ∈ Sall := by
  unfold Sall
  exact Finset.mem_map_of_mem _ (Finset.mem_filter.mpr ⟨Finset.mem_univ _, by simp [h]⟩)

abbrev a0 : DevRef τ sig := Proc.devRef .tc main_arg0
abbrev a1 : DevRef τ sig := Proc.devRef .tc main_arg1
abbrev a2 : DevRef τ sig := Proc.devRef .tc main_arg2

/-! ## The two regions' proof data along the run -/

variable (m : (ℓ : Loc nD τ sig) → Buf (Elt F) ℓ)

/-- The first region's arrays as it finds them: the valuation after the first host stretch, seen from any core. -/
abbrev VA (d c : Dev nD) : (b : Ref sig .tc) → Buf (Elt F) ((c.tc : Thread nD τ).loc b) :=
  fun b => after opsA (V₀ m d) (Proc.devRef .tc b)

/-- The proof data while the first region runs: the first pipeline's over what the first stretch left; the second's
    is not entered (any data). -/
def rdatsA (d : Dev nD) : (p : Fin 2) → (c : Dev nD) → Pipeline.RDat τ (Elt F) (HIx 1) ℕ UU ℕ (pin (pcfgs (F := F)) MainRegion.adm p) c
  | ⟨0, _⟩ => fun c => Region0.rdat0 c (VA m d c) RegionRec0.q0 ((K (F := F)).Otc c 0) (RegionRec0.rest0 c) (RecAt (F := F) c 0)
  | ⟨1, _⟩ => fun c => (Region2.dat c (V₀ m d MainTail.v13) (V₀ m d MainTail.v8) (V₀ m d MainTail.v12) (V₀ m d MainTail.v14)
      (Pipeline.scopedRest (pin (pcfgs (F := F)) RegionRec2.adm 1).spec c) ((K (F := F)).Otc c 0) (RecAt (F := F) c 0)).toRForget Region2.fgtOut

/-- The proof data while the second region runs, over the valuation `V2` the SparseCore call left: the second
    pipeline's over what the host stretch after the call makes of it; the first's is not entered. -/
def rdatsB (V2 : Valuation τ sig (Elt F)) : (p : Fin 2) → (c : Dev nD) → Pipeline.RDat τ (Elt F) (HIx 1) ℕ UU ℕ (pin (pcfgs (F := F)) MainRegion.adm p) c
  | ⟨0, _⟩ => fun c => Region0.rdat0 c (fun b => V2 (Proc.devRef .tc b)) RegionRec0.q0 ((K (F := F)).Otc c 1) (RegionRec0.rest0 c) (RecAt (F := F) c 1)
  | ⟨1, _⟩ => fun c => (Region2.dat c (after opsC V2 MainTail.v13) (after opsC V2 MainTail.v8) (after opsC V2 MainTail.v12) (after opsC V2 MainTail.v14)
      (Pipeline.scopedRest (pin (pcfgs (F := F)) RegionRec2.adm 1).spec c) ((K (F := F)).Otc c 1) (RecAt (F := F) c 1)).toRForget Region2.fgtOut

/-- The first region's record along the run. -/
def R0 (d : Dev nD) :=
  RegionRec0.seg0 (rdatsA m d) (VA m d) (fun c => (K (F := F)).Otc c 0) (fun c g => Otc_none c 0 g) (fun c => RecAt (F := F) c 0) (fun _ => rfl)

/-- The second region's record along the run. -/
def R2 (V2 : Valuation τ sig (Elt F)) :=
  RegionRec2.seg2 (rdatsB V2) (fun _ => after opsC V2 MainTail.v13) (fun _ => after opsC V2 MainTail.v8) (fun _ => after opsC V2 MainTail.v12)
    (fun _ => after opsC V2 MainTail.v14) (fun c => (K (F := F)).Otc c 1) (fun c => RecAt (F := F) c 1) (fun c g => Otc_none c 1 g) (fun _ => rfl)

/-! ## The run -/

variable (g : Dev nD → PrngReg)
variable (ph : (d : Dev nD) → Buf (Elt F) (TileBody.idxLoc d)) (Tab : (d : Dev nD) → Buf (Elt F) (TileBody.tabLoc d) → Prop)

/-- What the claim reads at the end: the three argument arrays at their launch contents. -/
def FIN (d : Dev nD) : sProp 𝕄 :=
  iprop(((d, a0) ↦{fullShare} m (d, a0)) ∗ ((d, a1) ↦{fullShare} m (d, a1)) ∗ ((d, a2) ↦{fullShare} m (d, a2)))

-- as the library's stretch rule: rules stated at the TensorCore's thread are applied at its two spellings
set_option backward.isDefEq.respectTransparency.types false in
set_option maxHeartbeats 3200000 in
/-- @MAIN ON THE TENSORCORE, at the frame level. The side facts it takes: every host operation's buffers are among
    the TensorCore's unscoped arrays (the pair table apart, after the call), the physical indices the second host
    stretch computes are the launch's (`hph`), and the launch's fact of the pair table holds of whatever the first
    region leaves (`hTab`). -/
theorem hmain [∀ e, Nonempty (Elt F e)]
    (hA : ∀ op ∈ (opsA : List (HloOp τ sig (Elt F))), op.bufs ⊆ Sall) (hB : ∀ op ∈ (opsB : List (HloOp τ sig (Elt F))), op.bufs ⊆ Sall)
    (hC : ∀ op ∈ (opsC : List (HloOp τ sig (Elt F))), op.bufs ⊆ Sall.erase v1')
    (hD : ∀ op ∈ (opsD : List (HloOp τ sig (Elt F))), op.bufs ⊆ Sall.erase v1')
    (hph : ∀ d T1, MainFront.Vmid (V₀ m d) T1 v7' = ph d) (hTab : ∀ d T1, Tab d T1)
    (κ : GSem nD τ sig → ℕ) (d : Dev nD) :
    iprop((K (F := F)).ctx EH (ScPay.P ph Tab) κ ∗ (K (F := F)).tcSt EH d 0 ∗ (K (F := F)).tcRes m g d ∗ MainLaunch.G (F := F) d)
      ⊢ wp frame (wpE ((K (F := F)).defs (D (F := F))) 𝒱 (T d) none) Set.univ (main (F := F) d)
          fun _ => iprop((K (F := F)).tcSt EH d 1 ∗ FIN m d) := by
  -- the held family's members
  have h0 : MainFront.v0 ∈ Sall := devRef_mem_Sall main_v0 (by decide)
  have h1 : MainFront.v1 ∈ Sall := devRef_mem_Sall main_v1 (by decide)
  have h7 : v7' ∈ Sall.erase v1' := Finset.mem_erase.mpr ⟨by decide, devRef_mem_Sall main_v7 (by decide)⟩
  have h8 : v8' ∈ (Sall.erase v1').erase v7' :=
    Finset.mem_erase.mpr ⟨by decide, Finset.mem_erase.mpr ⟨by decide, devRef_mem_Sall main_v8 (by decide)⟩⟩
  have h13 : MainTail.v13 ∈ Sall.erase v1' := Finset.mem_erase.mpr ⟨by decide, devRef_mem_Sall main_v13 (by decide)⟩
  have h8t : MainTail.v8 ∈ Sall.erase v1' := Finset.mem_erase.mpr ⟨by decide, devRef_mem_Sall main_v8 (by decide)⟩
  have h12 : MainTail.v12 ∈ Sall.erase v1' := Finset.mem_erase.mpr ⟨by decide, devRef_mem_Sall main_v12 (by decide)⟩
  have h14 : MainTail.v14 ∈ Sall.erase v1' := Finset.mem_erase.mpr ⟨by decide, devRef_mem_Sall main_v14 (by decide)⟩
  have ha0 : a0 ∈ Sall.erase v1' := Finset.mem_erase.mpr ⟨by decide, devRef_mem_Sall main_arg0 (by decide)⟩
  have ha1 : a1 ∈ (Sall.erase v1').erase a0 :=
    Finset.mem_erase.mpr ⟨by decide, Finset.mem_erase.mpr ⟨by decide, devRef_mem_Sall main_arg1 (by decide)⟩⟩
  have ha2 : a2 ∈ ((Sall.erase v1').erase a0).erase a1 :=
    Finset.mem_erase.mpr ⟨by decide, Finset.mem_erase.mpr ⟨by decide, Finset.mem_erase.mpr ⟨by decide, devRef_mem_Sall main_arg2 (by decide)⟩⟩⟩
  rw [main_chain d]
  show _ ⊢ wp frame (wpE ((K (F := F)).defs (D (F := F))) 𝒱 (T d) none) Set.univ
    (seq opsA >>= fun _ => region 0 >>= fun _ => seq opsB >>= fun _ => (K (F := F)).run d 0 >>= fun _ =>
      seq opsC >>= fun _ => region 1 >>= fun _ => seq opsD >>= fun _ => Prog.ret PUnit.unit) _
  unfold SparseCore.Cfg.tcRes MainLaunch.G
  rw [unscoped_held m d, bigSep_P2]
  iintro ⟨#Hctx, Hst, ⟨Hb, Hh, -, -⟩, ⟨Hg0, Ht0⟩, ⟨Hg1, Ht1⟩⟩
  ihave Hlv := (SparseCore.Cfg.ctx_levAts (K := K (F := F)) κ) $$ Hctx
  ihave Ho := (owes_lend (F := F) d 0) $$ Hst
  icases Ho with ⟨HO, Hback⟩
  -- the front
  iapply (MainFront.front (rdatsA m d) (R0 m d) d Sall (V₀ m d) hA hB h0 h1 (RecAt (F := F) d 0) ((K (F := F)).Otc d 0) (fun _ => True)
    .rfl (by
      dsimp only [R0, RegionRec0.seg0]
      iintro ⟨HO, H0, ⟨%T1, -, H1⟩⟩
      isplitl [HO]; · iexact HO
      isplitl [H0]; · iexact H0
      iexists T1; isplitr; · ipureintro; trivial
      iexact H1) _ _)
  isplitl [Hb]; · iexact Hb
  isplitl [Hh]; · iexact Hh
  isplitl [HO]; · iexact HO
  isplitl [Hlv]; · iexact Hlv
  isplitl [Hg0]; · iexact Hg0
  isplitl [Ht0]; · iexact Ht0
  iintro %T1 ⟨-, Hb, Hh, HO⟩
  ihave Hst := Hback $$ HO
  -- the SparseCore call
  iapply (MainCall.call_step ph Tab κ d Sall (MainFront.Vmid (V₀ m d) T1) h1 h7 h8 (hph d T1) (hTab d _) _ _)
  isplitr; · iexact Hctx
  isplitl [Hst]; · iexact Hst
  isplitl [Hh]; · iexact Hh
  iintro %f ⟨-, Hst, Hh⟩
  ihave Hlv := (SparseCore.Cfg.ctx_levAts (K := K (F := F)) κ) $$ Hctx
  ihave Ho := (owes_lend (F := F) d 1) $$ Hst
  icases Ho with ⟨HO, Hback⟩
  -- the tail
  iapply (MainTail.tail (rdatsB (Function.update (MainFront.Vmid (V₀ m d) T1) v8' f)) (R2 (Function.update (MainFront.Vmid (V₀ m d) T1) v8' f)) d
    (Sall.erase v1') (Function.update (MainFront.Vmid (V₀ m d) T1) v8' f) hC hD h13 h8t h12 h14 (RecAt (F := F) d 1) ((K (F := F)).Otc d 1) (fun _ => True)
    .rfl (by
      dsimp only [R2, RegionRec2.seg2]
      iintro ⟨HO, H13, H8, H12, ⟨%G, H14⟩⟩
      isplitl [HO]; · iexact HO
      isplitl [H13]; · iexact H13
      isplitl [H8]; · iexact H8
      isplitl [H12]; · iexact H12
      iexists G; isplitr; · ipureintro; trivial
      iexact H14) _ _)
  isplitl [Hb]; · iexact Hb
  isplitl [Hh]; · iexact Hh
  isplitl [HO]; · iexact HO
  isplitl [Hlv]; · iexact Hlv
  isplitl [Hg1]; · iexact Hg1
  isplitl [Ht1]; · iexact Ht1
  iintro %G ⟨-, -, Hh, HO⟩
  ihave Hst := Hback $$ HO
  -- the three arguments, as at the launch
  have e0 : MainTail.Vend (Function.update (MainFront.Vmid (V₀ m d) T1) v8' f) G a0 = m (d, a0) := by
    rw [MainTail.Vend_arg0, Function.update_of_ne (show a0 ≠ v8' by decide), MainFront.Vmid_arg0]; rfl
  have e1 : MainTail.Vend (Function.update (MainFront.Vmid (V₀ m d) T1) v8' f) G a1 = m (d, a1) := by
    rw [MainTail.Vend_arg1, Function.update_of_ne (show a1 ≠ v8' by decide), MainFront.Vmid_arg1]; rfl
  have e2 : MainTail.Vend (Function.update (MainFront.Vmid (V₀ m d) T1) v8' f) G a2 = m (d, a2) := by
    rw [MainTail.Vend_arg2, Function.update_of_ne (show a2 ≠ v8' by decide), MainFront.Vmid_arg2]; rfl
  ihave Hh' := (Entails.of_eq (held_take d (MainTail.Vend (Function.update (MainFront.Vmid (V₀ m d) T1) v8' f) G) ha0)) $$ Hh
  icases Hh' with ⟨Ha0, Hh⟩
  ihave Hh' := (Entails.of_eq (held_take d (MainTail.Vend (Function.update (MainFront.Vmid (V₀ m d) T1) v8' f) G) ha1)) $$ Hh
  icases Hh' with ⟨Ha1, Hh⟩
  ihave Hh' := (Entails.of_eq (held_take d (MainTail.Vend (Function.update (MainFront.Vmid (V₀ m d) T1) v8' f) G) ha2)) $$ Hh
  icases Hh' with ⟨Ha2, -⟩
  rw [wp_ret]
  imodintro
  isplitl [Hst]; · iexact Hst
  unfold FIN
  rw [← e0, ← e1, ← e2]
  isplitl [Ha0]; · iexact Ha0
  isplitl [Ha1]; · iexact Ha1
  iexact Ha2

end Cert.KernelIdeal.MainRun

end
-- ==== Proof.MainTop.lean ====
/-
  The top of the frame: the SparseCore launch theorem applied to the program — the tile obligation, the split of
  the call's operands, the launch element and @main on the TensorCore — and the frame claims read off it.
-/
import proofs.«218855_g90357521973776_cont_sun_m_356_26_alg».proof.Proof.Setup
import proofs.«218855_g90357521973776_cont_sun_m_356_26_alg».proof.Proof.ScPay
import proofs.«218855_g90357521973776_cont_sun_m_356_26_alg».proof.Proof.ScObl
import proofs.«218855_g90357521973776_cont_sun_m_356_26_alg».proof.Proof.ScSplit
import proofs.«218855_g90357521973776_cont_sun_m_356_26_alg».proof.Proof.MainLaunch
import proofs.«218855_g90357521973776_cont_sun_m_356_26_alg».proof.Proof.MainFin
import proofs.«218855_g90357521973776_cont_sun_m_356_26_alg».proof.Proof.HostVals
import proofs.«218855_g90357521973776_cont_sun_m_356_26_alg».proof.Proof.MainRun

noncomputable section

namespace Cert.KernelIdeal.MainTop

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The physical indices the SparseCore call reads: computed by the host from the launch contents of the index
    argument. -/
def ph (d : Dev nD) : Buf (Elt F) (TileBody.idxLoc d) := HostVals.phOf (m (MainFin.a0Loc d))

/-- Nothing is asked of the table the tiles gather from. -/
def Tab : (d : Dev nD) → Buf (Elt F) (TileBody.tabLoc d) → Prop := fun _ _ => True

/-- Index words between 0 and 99999 have physical indices below the table's 65536 rows. -/
theorem hph (hx : ∀ (d : Dev nD) (b : Fin 1024), 0 ≤ (m (MainFin.a0Loc d) (ValueIdx.ix1 b)).toInt
      ∧ (m (MainFin.a0Loc d) (ValueIdx.ix1 b)).toInt ≤ 99999) :
    ∀ d j, (ph m d j).toNat < 65536 := fun d j => HostVals.phOf_lt _ (hx d) j

/-- What the second host stretch computes into the index buffer is the launch's physical indices, whatever the
    first region left in the pair table: the stretch reads the index argument, which nothing before it writes. -/
theorem hph_front (d : Dev nD) (T1) : MainFront.Vmid (MainHeld.V₀ m d) T1 MainCall.v7' = ph m d := by
  show StableHlo.after MainOps.opsB (Function.update (StableHlo.after MainOps.opsA (MainHeld.V₀ m d)) MainFront.v1 T1)
    (Proc.devRef .tc main_v7) = _
  rw [HostVals.after_opsB_v7, Function.update_of_ne (StableHlo.devRef_ne_of_ne (by decide)), HostVals.opsA_keeps_arg0]
  rfl

/-- THE RUN: for any float instance, from any memory with zero counters whose index words lie in [0, 99999], every
    weakly fair execution of the program's threads terminates and leaves the three arguments as launched. -/
theorem run_main [∀ e, Nonempty (Elt F e)]
    (hx : ∀ (d : Dev nD) (b : Fin 1024), 0 ≤ (m (MainFin.a0Loc d) (ValueIdx.ix1 b)).toInt
      ∧ (m (MainFin.a0Loc d) (ValueIdx.ix1 b)).toInt ≤ 99999) :
    θ_run (Cert.KernelIdeal.defs (F := F)) (Cert.KernelIdeal.threads (F := F)) ⟨m, fun _ => 0, ρ⟩ (MainFin.QC m) :=
  SparseCore.Cfg.θ_run_sc (K := K (F := F)) (D := D (F := F)) (𝒱 := 𝒱) (EH := EH) (P := ScPay.P (ph m) Tab) facts v₀
    (fun q hq => match q with | 0 => nomatch hq)
    (fun q _ => match q with | 0 => ScObl.tileObl (ph m) Tab facts (hph m hx))
    (fun q _ => match q with | 0 => SparseCore.Cfg.VecSplit.of_plain (ScSplit.vecSplit (ph m) Tab))
    m ρ main MainLaunch.G (MainRun.FIN m) MainLaunch.u₀ (sep_elim_left.trans (MainLaunch.hu₀ (ph m) Tab))
    (MainRun.hmain m ρ (ph m) Tab HostVals.opsA_bufs HostVals.opsB_bufs HostVals.opsC_bufs_less_v1 HostVals.opsD_bufs_less_v1
      (hph_front m) (fun _ _ => trivial))
    (MainFin.fq m) (fun d s' => MainFin.hfin m d s') (MainFin.QC m) (fun _ h => h)

end Cert.KernelIdeal.MainTop

end
-- ==== Proof.Bits.Setup.lean ====
/-
  The idealized kernel's program as the SparseCore launch theorem and the TensorCore region rules see it:
  the label signature, the body table, the variants, the resource algebra (the handshakes' rounds, the two
  TensorCore pipelines' rounds, the transfer counters) and its embeddings, and the launch's side facts.
  Everything here is generic in the float instance.
-/
import proofs.«218855_g90357521973776_cont_sun_m_356_26_alg».proof.Defs
import proofs.«218855_g90357521973776_cont_sun_m_356_26_alg».proof.Proof.Gen.Kernel
import proofs.«218855_g90357521973776_cont_sun_m_356_26_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program: the kernels' and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipelines' rounds. -/
abbrev UP : Type := URounds (GSem nD τ sig) Unit
/-- The certificate's algebra: both, and the transfers' counters. -/
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Kernel.Setup

end
-- ==== Proof.Bits.TileBody.lean ====
/-
  One tile's task of the gather kernel: the tile whose flat number (subcore + 16 * core) is below 8 copies its
  128 indices into slot 0 of its index scratch, gathers the rows they name out of the table into slot 0 of its row
  scratch, and copies that slot to its 128 rows of the result; every other tile returns at once.
-/
import proofs.«218855_g90357521973776_cont_sun_m_356_26_alg».proof.Proof.Bits.Setup
import proofs.«218855_g90357521973776_cont_sun_m_356_26_alg».proof.Proof.Gen.Kernel.Skeleton
import Idealize.ShloMosaic.Lib.ValueIdx
import Idealize.ShloMosaic.Lib.Pipeline.TableIdle

noncomputable section

namespace Cert.Kernel.TileBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ Setup.UU ℕ

/-! ## The arrays, the tile's step, its columns of the index array and its rows of the result -/

abbrev tabLoc (d : Dev nD) : Loc nD τ sig := (SparseCore.T d).loc main_v1
abbrev idxLoc (d : Dev nD) : Loc nD τ sig := (SparseCore.T d).loc main_v7
abbrev outLoc (d : Dev nD) : Loc nD τ sig := (SparseCore.T d).loc main_v8

/-- The tile's flat number: the grid step it serves when below 8. -/
abbrev step (L : grid1.Coords) : ℕ := (L 1).val + 16 * (L 0).val

abbrev cV (L : grid1.Coords) : Fin τ.nSC := (L 0).castLE hcore1
abbrev jV (L : grid1.Coords) : Fin τ.nSub := (L 1).castLE hsub1

local notation "tV" => (Memref.whole Cert.Kernel.main_v1_scv : Memref Cert.Kernel.sig Kind.scVector Space.hbm Cert.Kernel.S65536x128 EltTy.f32)
local notation "iV" => (Memref.whole Cert.Kernel.main_v7_scv : Memref Cert.Kernel.sig Kind.scVector Space.hbm Cert.Kernel.S1x1024 EltTy.i32)
local notation "oV" => (Memref.whole Cert.Kernel.main_v8_scv : Memref Cert.Kernel.sig Kind.scVector Space.hbm Cert.Kernel.S1024x128 EltTy.f32)
local notation "aV" => (Memref.whole Cert.Kernel.cc1_scoped0 : Memref Cert.Kernel.sig Kind.scVector Space.vmem Cert.Kernel.S2x1x128 EltTy.i32)
local notation "rV" => (Memref.whole Cert.Kernel.cc1_scoped2 : Memref Cert.Kernel.sig Kind.scVector Space.vmem Cert.Kernel.S2x128x128 EltTy.f32)

theorem idiv : 8 ∣ S1x1024.size 1 := ⟨128, rfl⟩
theorem odiv : 8 ∣ S1024x128.size 0 := ⟨128, rfl⟩
abbrev icol (s : Fin 8) : Rect S1x1024 := Rect.part (s := S1x1024) (a₀ := 1) idiv s
abbrev orow (s : Fin 8) : Rect S1024x128 := Rect.part (s := S1024x128) (a₀ := 0) odiv s
/-- The 128 columns of the index array that step s reads, and the 128 rows of the result it writes. -/
abbrev iColSet (s : Fin 8) : Finset S1x1024.Idx := ((iV).view.slice (icol s)).set
abbrev oRowSet (s : Fin 8) : Finset S1024x128.Idx := ((oV).view.slice (orow s)).set

/-! ## The steps' columns and rows partition the two arrays -/

theorem iColSet_eq (s : Fin 8) : iColSet s = (icol s).set := by
  show ((View.whole (main_v7_scv : Ref sig .scVector)).slice (icol s)).set = _
  rw [View.set_slice]; exact Finset.map_refl
theorem oRowSet_eq (s : Fin 8) : oRowSet s = (orow s).set := by
  show ((View.whole (main_v8_scv : Ref sig .scVector)).slice (orow s)).set = _
  rw [View.set_slice]; exact Finset.map_refl
theorem icols_disjoint : ∀ i ∈ (Finset.univ : Finset (Fin 8)), ∀ j ∈ (Finset.univ : Finset (Fin 8)), i ≠ j → Disjoint (iColSet i) (iColSet j) :=
  fun i _ j _ h => by rw [iColSet_eq, iColSet_eq]; exact Rect.part_disjoint idiv h
theorem orows_disjoint : ∀ i ∈ (Finset.univ : Finset (Fin 8)), ∀ j ∈ (Finset.univ : Finset (Fin 8)), i ≠ j → Disjoint (oRowSet i) (oRowSet j) :=
  fun i _ j _ h => by rw [oRowSet_eq, oRowSet_eq]; exact Rect.part_disjoint odiv h
theorem icols_cover : (Finset.univ : Finset (Fin 8)).biUnion iColSet = Finset.univ :=
  (Finset.biUnion_congr rfl fun i _ => iColSet_eq i).trans (Rect.biUnion_part idiv)
theorem orows_cover : (Finset.univ : Finset (Fin 8)).biUnion oRowSet = Finset.univ :=
  (Finset.biUnion_congr rfl fun i _ => oRowSet_eq i).trans (Rect.biUnion_part odiv)

/-- A row of the result belongs to the step that its number divided by 128 names. -/
theorem mem_oRowSet (s : Fin 8) (r : Fin 1024) (b : Fin 128) :
    (ValueIdx.ix2 (n0 := 1024) (n1 := 128) r b : S1024x128.Idx) ∈ oRowSet s ↔ r.val / 128 = s.val := by
  rw [oRowSet_eq, show orow s = Rect.unit (s := S1024x128) (fun a => S1024x128.partIx 0 s.val a * S1024x128.partSize 0 8 a)
    (S1024x128.partSize 0 8) (fun a => (Nat.succ_mul _ _).symm.trans_le (Rect.part_inb odiv s a) |> fun h => by omega) from rfl, Rect.mem_set_unit]
  have e0 : (((ValueIdx.ix2 (n0 := 1024) (n1 := 128) r b : S1024x128.Idx) 0 : Fin 1024) : ℕ) = r.val := rfl
  have e1 : (((ValueIdx.ix2 (n0 := 1024) (n1 := 128) r b : S1024x128.Idx) 1 : Fin 128) : ℕ) = b.val := rfl
  have p0 : S1024x128.partIx 0 s.val 0 * S1024x128.partSize 0 8 0 = s.val * 128 := rfl
  have q0 : S1024x128.partSize 0 8 0 = 128 := rfl
  have p1 : S1024x128.partIx 0 s.val 1 * S1024x128.partSize 0 8 1 = 0 := rfl
  have q1 : S1024x128.partSize 0 8 1 = 128 := rfl
  have hb := b.isLt
  constructor
  · intro h
    have h0 := h 0
    rw [p0, q0] at h0
    have := h0.1; have := h0.2
    omega
  · intro h a
    match a with
    | 0 => rw [p0, q0]; constructor <;> omega
    | 1 => rw [p1, q1]; constructor <;> omega

variable [FloatOps F]

/-! ## What the tile's coordinates decide

The grid has 32 points, so each fact below is checked point by point. An active tile (flat number below 8) enters
the guarded region, runs the first loop once and the remainder loop not at all; in that one trip the carried words are
the literals they start at, so the prefetch of a next step and the wait for a previous write-out are skipped, the wait
for the index copy, the write-out and the final wait are taken, and every slot offset is slot 0. -/

theorem cond1_act : ∀ L : grid1.Coords, step L < 8 → k1_cond1 L = 1#1 := by decide +kernel
theorem cond1_idle : ∀ L : grid1.Coords, 8 ≤ step L → ¬ k1_cond1 L = 1#1 := by decide +kernel
theorem trips1_act : ∀ L : grid1.Coords, step L < 8 → (k1_t1_loop L).trips = 1 := by decide +kernel
theorem trips2_all (L : grid1.Coords) : (k1_t2_loop L).trips = 0 := Nat.le_zero.mp (k1_t2_abs L).2.1
theorem conds_act : ∀ L : grid1.Coords, step L < 8 → ∀ t : Fin (k1_t1_loop L).trips,
    ¬ k1_cond2 L t 0#32 = 1#1 ∧ k1_cond3 L t 0#32 = 1#1 ∧ k1_cond6 L t 0#32 = 1#1 ∧ ¬ k1_cond8 L t 0#32 = 1#1 := by decide +kernel
theorem cond17_act : ∀ L : grid1.Coords, step L < 8 → k1_cond17 L = 1#1 := by decide +kernel
theorem chk1_act : ∀ L : grid1.Coords, step L < 8 → ∀ t : Fin (k1_t1_loop L).trips, k1_chk1 L t 1#32 0#32 0#32 0#32 0#32 := by decide +kernel
theorem chk23_all : ∀ L : grid1.Coords, k1_chk3 L 0#32 ∧ k1_chk2 L 0#32 := by decide +kernel
theorem chk78_act : ∀ L : grid1.Coords, step L < 8 → k1_chk8 L 0#32 ∧ k1_chk7 L 0#32 := by decide +kernel
theorem off2_act : ∀ L : grid1.Coords, step L < 8 → k1_off2 L = ![0, 128 * step L] := by decide +kernel
theorem off13_act : ∀ L : grid1.Coords, step L < 8 → k1_off13 L 0#32 = ![128 * step L, 0] := by decide +kernel

theorem off2_part : ∀ L : grid1.Coords, step L < 8 → ∀ a, k1_off2 L a = S1x1024.partIx 1 (step L) a * S1x1024.partSize 1 8 a := by decide +kernel
theorem size2_part : ∀ a, S1x128.size a = S1x1024.partSize 1 8 a := by decide
theorem off13_part : ∀ L : grid1.Coords, step L < 8 → ∀ a, k1_off13 L 0#32 a = S1024x128.partIx 0 (step L) a * S1024x128.partSize 0 8 a := by decide +kernel
theorem size13_part : ∀ a, S128x128.size a = S1024x128.partSize 0 8 a := by decide

/-! ## The tile's slices in the kernel's own spelling -/

section Tile

variable (d : Dev nD) (L : grid1.Coords)

abbrev icolK (h : ∀ a, k1_off2 L a + S1x128.size a ≤ S1x1024.size a) : Rect S1x1024 := Rect.unit (s := S1x1024) (k1_off2 L) S1x128.size h
abbrev orowK (h : ∀ a, k1_off13 L 0#32 a + S128x128.size a ≤ S1024x128.size a) : Rect S1024x128 :=
  Rect.unit (s := S1024x128) (k1_off13 L 0#32) S128x128.size h
/-- The step's 128 indices and its 128 result rows, as the task addresses them. -/
abbrev iColK (h : ∀ a, k1_off2 L a + S1x128.size a ≤ S1x1024.size a) : Memref sig .scVector .hbm S1x128 .i32 := (iV).slice (icolK L h) (fun _ => rfl)
abbrev oRowK (h : ∀ a, k1_off13 L 0#32 a + S128x128.size a ≤ S1024x128.size a) : Memref sig .scVector .hbm S128x128 .f32 :=
  (oV).slice (orowK L h) (fun _ => rfl)

omit [FloatOps F] in
theorem icolK_eq (hact : step L < 8) (h : ∀ a, k1_off2 L a + S1x128.size a ≤ S1x1024.size a) : icolK L h = icol ⟨step L, hact⟩ := by
  unfold icolK icol Rect.part Rect.block
  congr 1 <;> funext a
  · exact off2_part L hact a
  · exact size2_part a
omit [FloatOps F] in
theorem orowK_eq (hact : step L < 8) (h : ∀ a, k1_off13 L 0#32 a + S128x128.size a ≤ S1024x128.size a) : orowK L h = orow ⟨step L, hact⟩ := by
  unfold orowK orow Rect.part Rect.block
  congr 1 <;> funext a
  · exact off13_part L hact a
  · exact size13_part a

omit [FloatOps F] in
theorem set_iColK (hact : step L < 8) (h : ∀ a, k1_off2 L a + S1x128.size a ≤ S1x1024.size a) : (iColK L h).view.set = iColSet ⟨step L, hact⟩ := by
  show ((iV).view.slice (icolK L h)).set = ((iV).view.slice (icol ⟨step L, hact⟩)).set
  rw [icolK_eq L hact h]
omit [FloatOps F] in
theorem set_oRowK (hact : step L < 8) (h : ∀ a, k1_off13 L 0#32 a + S128x128.size a ≤ S1024x128.size a) : (oRowK L h).view.set = oRowSet ⟨step L, hact⟩ := by
  show ((oV).view.slice (orowK L h)).set = ((oV).view.slice (orow ⟨step L, hact⟩)).set
  rw [orowK_eq L hact h]

omit [FloatOps F] in
theorem pts_iColK (hact : step L < 8) (h : ∀ a, k1_off2 L a + S1x128.size a ≤ S1x1024.size a) (f : Buf (Elt F) (idxLoc d)) :
    ((iColK L h).view.loc (V d (cV L) (jV L)) ↦[(iColK L h).view.set]{fullShare} f : sProp 𝕄) = idxLoc d ↦[iColSet ⟨step L, hact⟩]{fullShare} f := by
  rw [set_iColK L hact h]
omit [FloatOps F] in
theorem pts_oRowK (hact : step L < 8) (h : ∀ a, k1_off13 L 0#32 a + S128x128.size a ≤ S1024x128.size a) (f : Buf (Elt F) (outLoc d)) :
    ((oRowK L h).view.loc (V d (cV L) (jV L)) ↦[(oRowK L h).view.set]{fullShare} f : sProp 𝕄) = outLoc d ↦[oRowSet ⟨step L, hact⟩]{fullShare} f := by
  rw [set_oRowK L hact h]
omit [FloatOps F] in
theorem pts_tV (q : PosShare TreeShare) (f : Buf (Elt F) (tabLoc d)) :
    ((tV).view.loc (V d (cV L) (jV L)) ↦{q} f : sProp 𝕄) = tabLoc d ↦{q} f := rfl
omit [FloatOps F] in
theorem pts_aV (f : Buf (Elt F) ((V d (cV L) (jV L)).loc cc1_scoped0)) :
    ((aV).view.loc (V d (cV L) (jV L)) ↦{fullShare} f : sProp 𝕄) = (V d (cV L) (jV L)).loc cc1_scoped0 ↦{fullShare} f := rfl
omit [FloatOps F] in
theorem pts_rV (f : Buf (Elt F) ((V d (cV L) (jV L)).loc cc1_scoped2)) :
    ((rV).view.loc (V d (cV L) (jV L)) ↦{fullShare} f : sProp 𝕄) = (V d (cV L) (jV L)).loc cc1_scoped2 ↦{fullShare} f := rfl

/-- The three cells the task uses: the index copy's, the gather's, the write-out's. -/
abbrev cIcell (d : Dev nD) (c : Fin τ.nSC) (i : Fin τ.nSub) : GSem nD τ sig := (V d c i, .dma (6 : DmaSem sig))
abbrev cGcell (d : Dev nD) (c : Fin τ.nSC) (i : Fin τ.nSub) : GSem nD τ sig := (V d c i, .dma cc1_scoped4.sem)
abbrev cOcell (d : Dev nD) (c : Fin τ.nSC) (i : Fin τ.nSub) : GSem nD τ sig := (V d c i, .dma (8 : DmaSem sig))

omit [FloatOps F] in
theorem ownSems0_V :
    (ownSems0 (V d (cV L) (jV L)) : sProp 𝕄)
      = iprop(semVal (cIcell d (cV L) (jV L)) 0 ∗ semVal (cGcell d (cV L) (jV L)) 0 ∗ semVal (cOcell d (cV L) (jV L)) 0
          ∗ bigSep ((((ownCells (V d (cV L) (jV L))).erase (cIcell d (cV L) (jV L))).erase (cGcell d (cV L) (jV L))).erase (cOcell d (cV L) (jV L))) fun g => semVal g 0) := by
  unfold SparseCore.Cfg.ownSems0
  rw [SparseCore.bigSep_erase' ((mem_ownCells (g := cIcell d (cV L) (jV L))).mpr ⟨rfl, by
      show (SemLoc.dma (6 : DmaSem sig) : SemLoc sig).isScoped .scVector = true; decide⟩),
    SparseCore.bigSep_erase' (Finset.mem_erase.mpr ⟨by simp [cIcell, cGcell] <;> decide, (mem_ownCells (g := cGcell d (cV L) (jV L))).mpr ⟨rfl, by
      show (SemLoc.dma cc1_scoped4.sem : SemLoc sig).isScoped .scVector = true; decide⟩⟩),
    SparseCore.bigSep_erase' (Finset.mem_erase.mpr ⟨by simp [cGcell, cOcell] <;> decide, Finset.mem_erase.mpr ⟨by simp [cIcell, cOcell] <;> decide,
      (mem_ownCells (g := cOcell d (cV L) (jV L))).mpr ⟨rfl, by show (SemLoc.dma (8 : DmaSem sig) : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

end Tile

/-! ## What the gather reads: the index scratch after the index copy -/

theorem hA0 : ∀ a, (![0, 0, 0] : Fin 3 → ℕ) a + (![1, 1, 128] : Fin 3 → ℕ) a ≤ S2x1x128.size a := by decide
theorem hB0 : ∀ a, (![0, 0] : Fin 2 → ℕ) a + (![1, 128] : Fin 2 → ℕ) a ≤ S1x128.size a := by decide
theorem hW0 : ∀ a, k1_off1 a + S1x1x128.size a ≤ S2x1x128.size a := by decide +kernel

/-- Slot 0 of the index scratch as the index copy writes it, and as the gather reads its 128 words. -/
abbrev aSlotW : Memref sig .scVector .vmem S1x128 .i32 :=
  ((aV).slice (Rect.unit (s := S2x1x128) k1_off1 S1x1x128.size hW0) (fun _ => rfl)).squeeze S1x128 squeezes_S1x1x128_S1x128
abbrev aOffs : Memref sig .scVector .vmem S128 .i32 :=
  ((((aV).slice (Rect.unit (s := S2x1x128) ![0, 0, 0] ![1, 1, 128] hA0) (fun _ => rfl)).squeeze S1x128 squeezes_S1x1x128_S1x128).slice
    (Rect.unit (s := S1x128) ![0, 0] ![1, 128] hB0) (fun _ => rfl)).squeeze S128 squeezes_S1x128_S128

theorem aOffs_emb : ∀ x : S128.Idx, ((aOffs).view.emb x : S2x1x128.Idx) = (aSlotW).view.emb (ValueIdx.ix2 (n0 := 1) (n1 := 128) 0 (x 0)) := by decide +kernel

/-- A word of the list is the word of slot 0 that the index copy wrote. -/
theorem read_aOffs (f : (aSlotW).view.ty.Contents (Elt F)) (x : S128.Idx) :
    (aOffs).view.read (Elt F) f x = (aSlotW).view.read (Elt F) f (ValueIdx.ix2 (n0 := 1) (n1 := 128) 0 (x 0)) := by
  rw [View.read_apply, View.read_apply, aOffs_emb x]

/-- The gather's offsets are in range: after the index copy, word x of the list is the step's x-th index, which is
    below 65536. Stated for any prior contents of the scratch and any evidence of the slices' bounds. -/
theorem hin_of_pre (d : Dev nD) (L : grid1.Coords) (h2 : ∀ a, k1_off2 L a + S1x128.size a ≤ S1x1024.size a)
    (ph : Buf (Elt F) (idxLoc d)) (hph : ∀ j, (ph j).toNat < 65536)
    (fa : Buf (Elt F) ((V d (cV L) (jV L)).loc cc1_scoped0)) (pay : S1x128.Idx → Elt F .i32)
    (hpay : pay = (iColK L h2).view.read (Elt F) ph)
    (hA : ∀ a, (![0, 0, 0] : Fin 3 → ℕ) a + (![1, 1, 128] : Fin 3 → ℕ) a ≤ S2x1x128.size a)
    (hB : ∀ a, (![0, 0] : Fin 2 → ℕ) a + (![1, 128] : Fin 2 → ℕ) a ≤ S1x128.size a)
    (hW : ∀ a, k1_off1 a + S1x1x128.size a ≤ S2x1x128.size a) :
    ∀ x : S128.Idx, (View.read (Elt F)
        (((((aV).slice (Rect.unit (s := S2x1x128) ![0, 0, 0] ![1, 1, 128] hA) (fun _ => rfl)).squeeze S1x128 squeezes_S1x1x128_S1x128).slice
          (Rect.unit (s := S1x128) ![0, 0] ![1, 128] hB) (fun _ => rfl)).squeeze S128 squeezes_S1x128_S128).view
        (View.write (Elt F) (((aV).slice (Rect.unit (s := S2x1x128) k1_off1 S1x1x128.size hW) (fun _ => rfl)).squeeze S1x128 squeezes_S1x1x128_S1x128).view
          fa pay Finset.univ) x).toNat < 65536 := by
  subst hpay; intro x
  have e1 := read_aOffs (F := F) (View.write (Elt F) (aSlotW).view fa ((iColK L h2).view.read (Elt F) ph) Finset.univ) x
  have e2 := View.read_write_of_mem (v := (aSlotW).view) fa ((iColK L h2).view.read (Elt F) ph)
    (Finset.mem_univ (ValueIdx.ix2 (n0 := 1) (n1 := 128) 0 (x 0)))
  have e3 : (iColK L h2).view.read (Elt F) ph (ValueIdx.ix2 (n0 := 1) (n1 := 128) 0 (x 0))
      = ph ((iColK L h2).view.emb (ValueIdx.ix2 (n0 := 1) (n1 := 128) 0 (x 0))) := (View.read_apply _ _).trans (cast_eq _ _)
  exact lt_of_eq_of_lt (congrArg BitVec.toNat (e1.trans (e2.trans e3))) (hph _)

/-! ## What the write-out leaves in the step's rows -/

theorem hR12 : ∀ a, k1_off12 0#32 a + S1x128x128.size a ≤ S2x128x128.size a := by decide +kernel
theorem hR0 : ∀ a, (![0, 0, 0] : Fin 3 → ℕ) a + (![1, 128, 128] : Fin 3 → ℕ) a ≤ S2x128x128.size a := by decide

/-- Slot 0 of the row scratch as the write-out reads it and as the gather writes it: one view, spelt twice. -/
abbrev rSlotR : Memref sig .scVector .vmem S128x128 .f32 :=
  ((rV).slice (Rect.unit (s := S2x128x128) (k1_off12 0#32) S1x128x128.size hR12) (fun _ => rfl)).squeeze S128x128 squeezes_S1x128x128_S128x128
abbrev rSlotW : Memref sig .scVector .vmem S128x128 .f32 :=
  ((rV).slice (Rect.unit (s := S2x128x128) ![0, 0, 0] ![1, 128, 128] hR0) (fun _ => rfl)).squeeze S128x128 squeezes_S1x128x128_S128x128

theorem read_rSlot (fr : (rSlotW).view.ty.Contents (Elt F)) (w : S128x128.Idx → Elt F .f32) :
    (rSlotR).view.read (Elt F) ((rSlotW).view.write (Elt F) fr w Finset.univ) = w :=
  View.read_write_univ (v := (rSlotW).view) fr w

/-- Index y of the step's slice of the index array is column 128 * step + y of the array. -/
theorem iCol_emb (L : grid1.Coords) (hact : step L < 8) (h2 : ∀ a, k1_off2 L a + S1x128.size a ≤ S1x1024.size a) (y : Fin 128) :
    ((iColK L h2).view.emb (ValueIdx.ix2 (n0 := 1) (n1 := 128) 0 y) : S1x1024.Idx)
      = ValueIdx.ix2 (n0 := 1) (n1 := 1024) 0 ⟨128 * step L + y.val, by omega⟩ := by
  funext c; apply Fin.ext
  show k1_off2 L c + 1 * ((ValueIdx.ix2 (n0 := 1) (n1 := 128) 0 y) c).val = _
  rw [off2_act L hact]
  fin_cases c <;> simp

/-- Row a, column b of the step's slice of the result is row 128 * step + a, column b of the array. -/
theorem oRow_emb (L : grid1.Coords) (hact : step L < 8) (h13 : ∀ a, k1_off13 L 0#32 a + S128x128.size a ≤ S1024x128.size a) (a b : Fin 128) :
    (((oRowK L h13).view.slice (Rect.whole S128x128)).emb (ValueIdx.ix2 (n0 := 128) (n1 := 128) a b) : S1024x128.Idx)
      = ValueIdx.ix2 (n0 := 1024) (n1 := 128) ⟨128 * step L + a.val, by omega⟩ b := by
  funext c; apply Fin.ext
  show k1_off13 L 0#32 c + 1 * (0 + 1 * ((ValueIdx.ix2 (n0 := 128) (n1 := 128) a b) c).val) = _
  rw [off13_act L hact]
  fin_cases c <;> simp

/-- Word x of the list, after the index copy, is the step's x-th index. -/
theorem read_list (d : Dev nD) (L : grid1.Coords) (hact : step L < 8) (h2 : ∀ a, k1_off2 L a + S1x128.size a ≤ S1x1024.size a)
    (ph : Buf (Elt F) (idxLoc d)) (fa : Buf (Elt F) ((V d (cV L) (jV L)).loc cc1_scoped0)) (x : S128.Idx) (hx : (x 0).val < 128) :
    (aOffs).view.read (Elt F) ((aSlotW).view.write (Elt F) fa ((iColK L h2).view.read (Elt F) ph) Finset.univ) x
      = ph (ValueIdx.ix2 (n0 := 1) (n1 := 1024) 0 ⟨128 * step L + (x 0).val, by omega⟩) := by
  have e1 := read_aOffs (F := F) (View.write (Elt F) (aSlotW).view fa ((iColK L h2).view.read (Elt F) ph) Finset.univ) x
  have e2 := View.read_write_of_mem (v := (aSlotW).view) fa ((iColK L h2).view.read (Elt F) ph)
    (Finset.mem_univ (ValueIdx.ix2 (n0 := 1) (n1 := 128) 0 (x 0)))
  have e3 : (iColK L h2).view.read (Elt F) ph (ValueIdx.ix2 (n0 := 1) (n1 := 128) 0 (x 0))
      = ph ((iColK L h2).view.emb (ValueIdx.ix2 (n0 := 1) (n1 := 128) 0 (x 0))) := (View.read_apply _ _).trans (cast_eq _ _)
  exact (e1.trans (e2.trans e3)).trans (congrArg ph (iCol_emb L hact h2 (x 0)))

/-- Entry k of a list of 128 words, in row-major order, is word k. -/
theorem rowMajor_symm_S128 : ∀ k : Fin S128.numel, ((S128.rowMajor.symm k) 0 : ℕ) = k.val := by decide +kernel

/-- The gathered block: row a of it is the table's row that the step's a-th index names. -/
theorem gather_value (d : Dev nD) (L : grid1.Coords) (hact : step L < 8) (h2 : ∀ a, k1_off2 L a + S1x128.size a ≤ S1x1024.size a)
    (T1 : Buf (Elt F) (tabLoc d)) (ph : Buf (Elt F) (idxLoc d)) (hph : ∀ j, (ph j).toNat < 65536)
    (fa : Buf (Elt F) ((V d (cV L) (jV L)).loc cc1_scoped0))
    (hT : ∀ a, (![0, 0] : Fin 2 → ℕ) a + (![65536, 128] : Fin 2 → ℕ) a ≤ S65536x128.size a)
    (hn : S128.numel = S128x128.size (gathers_S65536x128_S128x128).axis')
    (hin : ∀ x, ((aOffs).view.read (Elt F) ((aSlotW).view.write (Elt F) fa ((iColK L h2).view.read (Elt F) ph) Finset.univ) x).toNat
        < S65536x128.size (gathers_S65536x128_S128x128).axis)
    (a b : Fin 128) :
    SparseCore.gatherPayload gathers_S65536x128_S128x128
        (View.read (Elt F) ((tV).slice (Rect.unit (s := S65536x128) ![0, 0] ![65536, 128] hT) (fun _ => rfl)).view T1)
        (SparseCore.rows ((aOffs).view.read (Elt F) ((aSlotW).view.write (Elt F) fa ((iColK L h2).view.read (Elt F) ph) Finset.univ)) hn hin)
        (ValueIdx.ix2 (n0 := 128) (n1 := 128) a b)
      = T1 (ValueIdx.ix2 (n0 := 65536) (n1 := 128) ⟨(ph (ValueIdx.ix2 (n0 := 1) (n1 := 1024) 0 ⟨128 * step L + a.val, by omega⟩)).toNat, hph _⟩ b) := by
  refine ((View.read_apply _ _).trans (cast_eq _ _)).trans (congrArg T1 ?_)
  funext c; apply Fin.ext
  show (![0, 0] : Fin 2 → ℕ) c + 1 * ((gathers_S65536x128_S128x128).idx
    (SparseCore.rows ((aOffs).view.read (Elt F) ((aSlotW).view.write (Elt F) fa ((iColK L h2).view.read (Elt F) ph) Finset.univ)) hn hin)
    (ValueIdx.ix2 (n0 := 128) (n1 := 128) a b) c).val = _
  fin_cases c
  · -- the indexed axis: the row the list's entry a names
    have h0 := congrArg Fin.val (Shape.Gathers.idx_axis gathers_S65536x128_S128x128
      (SparseCore.rows ((aOffs).view.read (Elt F) ((aSlotW).view.write (Elt F) fa ((iColK L h2).view.read (Elt F) ph) Finset.univ)) hn hin)
      (ValueIdx.ix2 (n0 := 128) (n1 := 128) a b))
    let k : Fin S128.numel := ((ValueIdx.ix2 (n0 := 128) (n1 := 128) a b) (gathers_S65536x128_S128x128).axis').cast hn.symm
    have ek : ((S128.rowMajor.symm k) 0 : ℕ) = a.val := rowMajor_symm_S128 k
    have e := read_list (F := F) d L hact h2 ph fa (S128.rowMajor.symm k) (by rw [ek]; exact a.isLt)
    have e' : ((aOffs).view.read (Elt F) ((aSlotW).view.write (Elt F) fa ((iColK L h2).view.read (Elt F) ph) Finset.univ) (S128.rowMajor.symm k)).toNat
        = (ph (ValueIdx.ix2 (n0 := 1) (n1 := 1024) 0 ⟨128 * step L + a.val, by omega⟩)).toNat := by
      rw [e]
      exact congrArg (fun n : Fin 1024 => (ph (ValueIdx.ix2 (n0 := 1) (n1 := 1024) 0 n)).toNat) (Fin.ext (by show 128 * step L + _ = 128 * step L + a.val; rw [ek]))
    show 0 + 1 * _ = _
    rw [Nat.zero_add, Nat.one_mul]
    exact h0.trans e'
  · -- the other axis: the element's own column
    have h1 := Shape.Gathers.idx_of_ne gathers_S65536x128_S128x128
      (SparseCore.rows ((aOffs).view.read (Elt F) ((aSlotW).view.write (Elt F) fa ((iColK L h2).view.read (Elt F) ph) Finset.univ)) hn hin)
      (ValueIdx.ix2 (n0 := 128) (n1 := 128) a b) (1 : Fin 2) (by decide)
    show 0 + 1 * _ = _
    rw [Nat.zero_add, Nat.one_mul]
    exact h1

set_option maxHeartbeats 4000000 in
set_option maxRecDepth 16384 in
/-- The task of an active tile (flat number below 8): holding a share of the table, the step's columns of the index
    array and its rows of the result, the tile copies its 128 indices into slot 0 of its index scratch, gathers the
    rows they name into slot 0 of its row scratch and copies that slot to its rows of the result; at the end row
    128 * step + a of the result is the table's row that index 128 * step + a names. -/
theorem tile_body (hF : (Setup.K (F := F)).Facts) (d : Dev nD) (L : grid1.Coords) (hact : step L < 8) (q : PosShare TreeShare)
    (T1 : Buf (Elt F) (tabLoc d)) (ph : Buf (Elt F) (idxLoc d)) (hph : ∀ j, (ph j).toNat < 65536)
    (O : CellTallies nD τ sig (HIx 1)) (W : Waits sig (HIx 1)) (hO : ∀ g, O g none = 0) :
    (iprop(levAts (Setup.K (F := F)).L (Setup.K (F := F)).lev
        ∗ ((tabLoc d ↦{q} T1) ∗ (idxLoc d ↦[iColSet ⟨step L, hact⟩]{fullShare} ph) ∗ ∃ f0, (outLoc d ↦[oRowSet ⟨step L, hact⟩]{fullShare} f0))
        ∗ scopedBufs (V d (cV L) (jV L)) ∗ scopedSems0 (V d (cV L) (jV L)) ∗ owes (V d (cV L) (jV L)) O W) : sProp 𝕄)
      ⊢ wp frame (wpE (defs₀ (F := F)) Setup.𝒱₀ (V d (cV L) (jV L)) none) Set.univ
          (cc1_gather_kernel L tV (Memref.isWhole_whole _) iV (Memref.isWhole_whole _) oV (Memref.isWhole_whole _)
            aV (Memref.isWhole_whole _) cc1_scoped1 rV (Memref.isWhole_whole _) cc1_scoped3 cc1_scoped4 cc1_scoped5)
          fun _ => iprop(((tabLoc d ↦{q} T1) ∗ (idxLoc d ↦[iColSet ⟨step L, hact⟩]{fullShare} ph)
              ∗ ∃ f, ⌜∀ (a b : Fin 128), f (ValueIdx.ix2 (n0 := 1024) (n1 := 128) ⟨128 * step L + a.val, by omega⟩ b)
                    = T1 (ValueIdx.ix2 (n0 := 65536) (n1 := 128) ⟨(ph (ValueIdx.ix2 (n0 := 1) (n1 := 1024) 0 ⟨128 * step L + a.val, by omega⟩)).toNat, hph _⟩ b)⌝
                ∗ (outLoc d ↦[oRowSet ⟨step L, hact⟩]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 : k1_cond1 L = 1#1 := cond1_act L hact
  have htr1 : (k1_t1_loop L).trips = 1 := trips1_act L hact
  have htr2 : (k1_t2_loop L).trips = 0 := trips2_all L
  obtain ⟨hc2, hc3, hc6, hc8⟩ := conds_act L hact ⟨0, by omega⟩
  have hc17 : k1_cond17 L = 1#1 := cond17_act L hact
  have hk1 := chk1_act L hact ⟨0, by omega⟩
  obtain ⟨hk3, hk2⟩ := chk23_all L
  obtain ⟨hk8, hk7⟩ := chk78_act L hact
  have hi2 : ∀ a, k1_off2 L a + S1x128.size a ≤ S1x1024.size a := k1_off2_inb L h1
  have hi13 : ∀ a, k1_off13 L 0#32 a + S128x128.size a ≤ S1024x128.size a := k1_off13_inb L _ _ _ _ _ _ hk1 h1 hc6
  simp only [cc1_gather_kernel_eq_skeleton]; unfold cc1_gather_kernel_skel
  rw [k1_part6_eq_skeleton]; unfold k1_part6_skel
  simp (config := { iota := false, proj := false, eta := false }) only [Scf.for_trips1_bind _ _ htr1, Scf.for_trips0_bind _ _ htr2]
  unfold k1_t1_body
  rw [(Setup.K (F := F)).scopedBufs_V hF d (cV L) (jV L), SparseCore.Cfg.scopedSems0_V (Val := Elt F) d (cV L) (jV L), ownSems0_V, ownBufs_V]
  iintro ⟨#Hlv, ⟨Ht, Hi, %f0, Ho⟩, ⟨⟨%fa, Ha⟩, ⟨%fr, Hr⟩, Hbufs⟩, ⟨HsemI, HsemG, HsemO, Hsems⟩, HO⟩
  ihave Hmw := (show levAts (Setup.K (F := F)).L (Setup.K (F := F)).lev ⊢ Transfers.MayWaits (V d (cV L) (jV L)) (default : HIx 1) O from
    (Setup.K (F := F)).mayWaits_none (thr := V d (cV L) (jV L)) hO) $$ Hlv
  ihave Hi' := (Entails.of_eq (pts_iColK (F := F) d L hact hi2 _).symm) $$ Hi
  ihave Ho' := (Entails.of_eq (pts_oRowK (F := F) d L hact hi13 _).symm) $$ Ho
  ihave Ht' := (Entails.of_eq (pts_tV (F := F) d L _ _).symm) $$ Ht
  ihave Ha' := (Entails.of_eq (pts_aV (F := F) d L _).symm) $$ Ha
  ihave Hr' := (Entails.of_eq (pts_rV (F := F) d L _).symm) $$ Hr
  sl_exec (disch := first | sl_exact h1 | sl_exact hc2 | sl_exact hc3 | sl_exact hc6 | sl_exact hc8 | sl_exact hc17 | sl_exact hk1 | sl_exact hk2 | sl_exact hk3 | sl_exact hk7 | sl_exact hk8)
  have hin := fun fa' => hin_of_pre (F := F) d L hi2 ph hph fa' (tile_body.sl.dma0 d L ph h1) rfl hA0 hB0 hW0
  sl_exec (disch := first | sl_exact h1 | sl_exact hc2 | sl_exact hc3 | sl_exact hc6 | sl_exact hc8 | sl_exact hc17 | sl_exact hk1 | sl_exact hk2 | sl_exact hk3 | sl_exact hk7 | sl_exact hk8)
  have hv171 : ∀ L : grid1.Coords, step L < 8 → tile_body.sl.v171_r0 L = 0#32 := by decide +kernel
  have hv163 : ∀ L : grid1.Coords, step L < 8 → tile_body.sl.v163_r0 L = 0#32 := by decide +kernel
  rw [hv171 L hact, hv163 L hact]
  sl_exec (disch := first | sl_exact h1 | sl_exact hc2 | sl_exact hc3 | sl_exact hc6 | sl_exact hc8 | sl_exact hc17 | sl_exact hk1 | sl_exact hk2 | sl_exact hk3 | sl_exact hk7 | sl_exact hk8)
  sl_step
  isplitl [Ht' Hi' Ho']
  · isplitl [Ht']; · iexact Ht'
    isplitl [Hi']; · iapply (Entails.of_eq (pts_iColK (F := F) d L hact hi2 _)); iexact Hi'
    iexists _; isplitr
    swap
    · iapply (Entails.of_eq (pts_oRowK (F := F) d L hact hi13 _)); iexact Ho'
    · -- the value: row a of the step's rows holds what slot 0 of the row scratch held, which is the gathered block
      ipureintro; intro a b
      have hw := View.write_emb_of_mem (v := ((oRowK L hi13).view.slice (Rect.whole S128x128))) f0
        (tile_body.sl.dma0_1 d L T1 ph h1 htr1 hc6 hk1 hk3 hk2 fa fr hin) (Finset.mem_univ (ValueIdx.ix2 (n0 := 128) (n1 := 128) a b))
      rw [oRow_emb L hact hi13 a b] at hw
      have eP : tile_body.sl.dma0_1 d L T1 ph h1 htr1 hc6 hk1 hk3 hk2 fa fr hin = tile_body.sl.gather0 d L T1 ph h1 hk3 fa hin :=
        read_rSlot (F := F) fr _
      refine (hw.trans (cast_eq _ _)).trans ?_
      rw [eP]
      exact gather_value (F := F) d L hact hi2 T1 ph hph fa _ _ _ a b
  isplitl [Ha' Hr' Hbufs]
  · isplitl [Ha']; · iexists _; iexact Ha'
    isplitl [Hr']; · iexists _; iexact Hr'
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The task of an idle tile (flat number 8 or above): the guard is false and the task returns at once. -/
theorem idle_body (hF : (Setup.K (F := F)).Facts) (d : Dev nD) (L : grid1.Coords) (hidle : 8 ≤ step L)
    (O : CellTallies nD τ sig (HIx 1)) (W : Waits sig (HIx 1)) (hO : ∀ g, O g none = 0) :
    (iprop(levAts (Setup.K (F := F)).L (Setup.K (F := F)).lev
        ∗ scopedBufs (V d (cV L) (jV L)) ∗ scopedSems0 (V d (cV L) (jV L)) ∗ owes (V d (cV L) (jV L)) O W) : sProp 𝕄)
      ⊢ wp frame (wpE (defs₀ (F := F)) Setup.𝒱₀ (V d (cV L) (jV L)) none) Set.univ
          (cc1_gather_kernel L tV (Memref.isWhole_whole _) iV (Memref.isWhole_whole _) oV (Memref.isWhole_whole _)
            aV (Memref.isWhole_whole _) cc1_scoped1 rV (Memref.isWhole_whole _) cc1_scoped3 cc1_scoped4 cc1_scoped5)
          fun _ => iprop(scopedBufs (V d (cV L) (jV L)) ∗ scopedSems0 (V d (cV L) (jV L))
            ∗ ∃ W', ⌜∀ p ∈ W', p ∈ W ∨ p.2 = none⌝ ∗ owes (V d (cV L) (jV L)) O W') := by
  have h1 : ¬ k1_cond1 L = 1#1 := cond1_idle L hidle
  simp only [cc1_gather_kernel_eq_skeleton]; unfold cc1_gather_kernel_skel
  iintro ⟨-, Hb, Hs, HO⟩
  sl_exec
  sl_step
  isplitl [Hb]; · iexact Hb
  isplitl [Hs]; · iexact Hs
  iexists W; isplitr
  · ipureintro; exact fun p hp => .inl hp
  · iexact HO

end Cert.Kernel.TileBody

end
-- ==== Proof.Bits.ScPay.lean ====
/-
  What the SparseCore call's handshakes carry. The call gathers rows of the pair table (65536 rows of 128 words)
  at the 1024 physical indices into the gathered array (1024 rows of 128 words). Eight tiles of SparseCore 0 each do
  one step of 128 indices; the other tiles do nothing. The table is read by the eight tiles at once, each holding an
  eighth share of it; the index array splits by columns, the gathered array by rows, 128 to a step.
  The table's contents are whatever the first TensorCore region left, known only through a predicate `Tab`;
  the index array's contents are `ph`, a function of the integer input, every word below 65536.
-/
import proofs.«218855_g90357521973776_cont_sun_m_356_26_alg».proof.Proof.Bits.Setup
import proofs.«218855_g90357521973776_cont_sun_m_356_26_alg».proof.Proof.Bits.TileBody

noncomputable section

namespace Cert.Kernel.ScPay

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.TileBody

variable [FloatOps F]

/-! ## Shares of the table: the full share halved three times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Step `s`'s share of the table. -/
abbrev xq (s : Fin 8) : PosShare TreeShare := leaf 3 fullShare s

/-! ## The handshakes' payloads -/

variable (ph : (d : Dev nD) → Buf (Elt F) (idxLoc d)) (Tab : (d : Dev nD) → Buf (Elt F) (tabLoc d) → Prop)

/-- Row `r` of the gathered array is row `ph r` of a table the predicate admits. -/
def Gath (d : Dev nD) (f : Buf (Elt F) (outLoc d)) (r : Fin 1024) : Prop :=
  ∃ T1, Tab d T1 ∧ ∀ b : Fin 128, f (ValueIdx.ix2 r b) = T1 (ValueIdx.ix2 ⟨(ph d (ValueIdx.ix2 (0 : Fin 1) r)).toNat % 65536, Nat.mod_lt _ (by decide)⟩ b)

abbrev stRes (d : Dev nD) : sProp 𝕄 :=
  iprop((∃ T1, ⌜Tab d T1⌝ ∗ tabLoc d ↦{fullShare} T1) ∗ (idxLoc d ↦{fullShare} ph d) ∗ ∃ f, outLoc d ↦{fullShare} f)
abbrev dnRes (d : Dev nD) : sProp 𝕄 :=
  iprop((idxLoc d ↦{fullShare} ph d) ∗ ∃ f, ⌜∀ r, Gath ph Tab d f r⌝ ∗ outLoc d ↦{fullShare} f)
abbrev goRes (d : Dev nD) (s : Fin 8) : sProp 𝕄 :=
  iprop((∃ T1, ⌜Tab d T1⌝ ∗ tabLoc d ↦{xq s} T1) ∗ (idxLoc d ↦[iColSet s]{fullShare} ph d) ∗ ∃ f, outLoc d ↦[oRowSet s]{fullShare} f)
abbrev tdRes (d : Dev nD) (s : Fin 8) : sProp 𝕄 :=
  iprop((idxLoc d ↦[iColSet s]{fullShare} ph d) ∗ ∃ f, ⌜∀ a : Fin 128, Gath ph Tab d f ⟨128 * s.val + a.val, by omega⟩⌝ ∗ outLoc d ↦[oRowSet s]{fullShare} f)

/-- The one call: SparseCore 0 takes the table, the indices and the gathered array whole; SparseCore 1 nothing. Tile
    `s < 8` of SparseCore 0 takes its share, its columns and its rows, and brings back its rows gathered. -/
def P : (K (F := F)).Pay (nD := nD) (Val := Elt F) (Name := ℕ) (U := UU) where
  st := fun _ d c => if c.val = 0 then stRes ph Tab d else iprop(emp)
  dn := fun _ d c => if c.val = 0 then dnRes ph Tab d else iprop(emp)
  go := fun _ d c i => if h : c.val = 0 ∧ i.val < 8 then goRes ph Tab d ⟨i.val, h.2⟩ else iprop(emp)
  td := fun _ d c i => if h : c.val = 0 ∧ i.val < 8 then tdRes ph Tab d ⟨i.val, h.2⟩ else iprop(emp)
  x := fun _ _ => iprop(emp)

instance P_storable : (P (F := F) ph Tab).IsStorable where
  st _ d c := by unfold P; dsimp only; split <;> infer_instance
  dn _ d c := by unfold P; dsimp only; split <;> infer_instance
  go _ d c i := by unfold P; dsimp only; split <;> infer_instance
  td _ d c i := by unfold P; dsimp only; split <;> infer_instance

end Cert.Kernel.ScPay

end
-- ==== Proof.Bits.ScObl.lean ====
/-
  The SparseCore launch theorem's obligation for the gather call: one tile's task, from the tile body's triple,
  through the body table's row for a vector subcore. A working tile (flat number below 8) takes its share of the
  table, its columns of the index array and its rows of the gathered array and brings its rows back gathered; the
  others return at once.
-/
import proofs.«218855_g90357521973776_cont_sun_m_356_26_alg».proof.Proof.Bits.Setup
import proofs.«218855_g90357521973776_cont_sun_m_356_26_alg».proof.Proof.Bits.ScPay

noncomputable section

namespace Cert.Kernel.ScObl

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.TileBody Cert.Kernel.ScPay

variable [FloatOps F]
variable (ph : (d : Dev nD) → Buf (Elt F) (idxLoc d)) (Tab : (d : Dev nD) → Buf (Elt F) (tabLoc d) → Prop)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          (Memref.whole main_v1_scv) (Memref.isWhole_whole _) (Memref.whole main_v7_scv) (Memref.isWhole_whole _) (Memref.whole main_v8_scv) (Memref.isWhole_whole _)
          (Memref.whole cc1_scoped0) (Memref.isWhole_whole _) cc1_scoped1 (Memref.whole cc1_scoped2) (Memref.isWhole_whole _) cc1_scoped3 cc1_scoped4 cc1_scoped5) ⟨⟩ c s := rfl

set_option maxHeartbeats 1000000 in
/-- A working tile's task, with the table's contents behind the predicate and the launch theorem's post. -/
theorem tile_task (hF : (K (F := F)).Facts) (hph : ∀ d j, (ph d j).toNat < 65536) (d : Dev nD) (L : grid1.Coords) (hact : step L < 8)
    (O : CellTallies nD τ sig (HIx 1)) (W : Waits sig (HIx 1)) (hO : ∀ g, O g none = 0) :
    (iprop(levAts (K (F := F)).L (K (F := F)).lev ∗ emp ∗ goRes ph Tab d ⟨step L, hact⟩
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(tdRes ph Tab d ⟨step L, hact⟩ ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have key : ∀ (T1 : Buf (Elt F) (tabLoc d)), Tab d T1 →
      (iprop(levAts (K (F := F)).L (K (F := F)).lev ∗ ((tabLoc d ↦{xq ⟨step L, hact⟩} T1) ∗ (idxLoc d ↦[iColSet ⟨step L, hact⟩]{fullShare} ph d) ∗ ∃ f0, outLoc d ↦[oRowSet ⟨step L, hact⟩]{fullShare} f0)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(tdRes ph Tab d ⟨step L, hact⟩ ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := fun T1 hT1 =>
    (tile_body (F := F) hF d L hact (xq ⟨step L, hact⟩) T1 (ph d) (hph d) O W hO).trans (wp_mono frame _ _ fun _ => by
      iintro ⟨⟨-, Hi, %f, %hf, Ho⟩, Hb, Hs, %W', %hW', HO⟩
      isplitl [Hi Ho]
      · isplitl [Hi]; · iexact Hi
        iexists f; isplitr
        · ipureintro; intro a
          refine ⟨T1, hT1, fun b => ?_⟩
          rw [hf a b]
          congr 2
          exact Fin.ext (Nat.mod_eq_of_lt (hph d _)).symm
        · iexact Ho
      isplitl [Hb]; · iexact Hb
      isplitl [Hs]; · iexact Hs
      iexists W'; isplitr
      · ipureintro; exact fun p hp => (hW' p hp).imp_right Or.inl
      · iexact HO)
  iintro ⟨Hlv, -, ⟨⟨%T1, %hT1, Ht⟩, Hi, Ho⟩, Hb, Hs, HO⟩
  iapply (key T1 hT1)
  isplitl [Hlv]; · iexact Hlv
  isplitl [Ht Hi Ho]
  · isplitl [Ht]; · iexact Ht
    isplitl [Hi]; · iexact Hi
    iexact Ho
  isplitl [Hb]; · iexact Hb
  isplitl [Hs]; · iexact Hs
  iexact HO

set_option maxHeartbeats 1000000 in
/-- An idle tile's task. -/
theorem idle_task (hF : (K (F := F)).Facts) (d : Dev nD) (L : grid1.Coords) (hidle : 8 ≤ step L)
    (O : CellTallies nD τ sig (HIx 1)) (W : Waits sig (HIx 1)) (hO : ∀ g, O g none = 0) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(emp ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have key : (iprop(levAts (K (F := F)).L (K (F := F)).lev
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L (Memref.whole main_v1_scv) (Memref.isWhole_whole _) (Memref.whole main_v7_scv) (Memref.isWhole_whole _) (Memref.whole main_v8_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(emp ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') :=
    (idle_body (F := F) hF d L hidle O W hO).trans (wp_mono frame _ _ fun _ => by
      iintro ⟨Hb, Hs, %W', %hW', HO⟩
      isplitr; · iempintro
      isplitl [Hb]; · iexact Hb
      isplitl [Hs]; · iexact Hs
      iexists W'; isplitr
      · ipureintro; exact fun p hp => (hW' p hp).imp_right Or.inl
      · iexact HO)
  iintro ⟨Hlv, -, -, Hb, Hs, HO⟩
  iapply key
  isplitl [Hlv]; · iexact Hlv
  isplitl [Hb]; · iexact Hb
  isplitl [Hs]; · iexact Hs
  iexact HO

attribute [local irreducible] cc1_gather_kernel in
set_option maxHeartbeats 400000 in
set_option maxRecDepth 16384 in
theorem tileObl (hF : (K (F := F)).Facts) (hph : ∀ d j, (ph d j).toNat < 65536) :
    (K (F := F)).TileObl (D (F := F)) 𝒱 (P ph Tab) v₀ 0 := by
  intro d c i O W hO _ _
  obtain ⟨cn, hcn⟩ := c
  obtain ⟨inn, hinn⟩ := i
  simp only [show (P (F := F) ph Tab).ox = fun _ _ => 0 from rfl, add_zero]
  have hci : ((K (F := F)).core 0 ⟨cn, hcn⟩).val < grid1.bound 0 ∧ ((K (F := F)).sub 0 ⟨inn, hinn⟩).val < grid1.bound 1 := ⟨hcn, hinn⟩
  change _ ⊢ wp _ _ _ (Pipeline.liftProg (defs₀ (F := F) (.scVector ((K (F := F)).core 0 ⟨cn, hcn⟩) ((K (F := F)).sub 0 ⟨inn, hinn⟩)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases hact : step (coordsV ⟨_, hci.1⟩ ⟨_, hci.2⟩) < 8
  · have hc0 : cn = 0 ∧ inn < 8 := by
      have : inn + 16 * cn < 8 := hact
      omega
    have hs : (⟨inn, hc0.2⟩ : Fin 8) = ⟨step (coordsV ⟨_, hci.1⟩ ⟨_, hci.2⟩), hact⟩ := Fin.ext (by
      show inn = inn + 16 * cn; omega)
    simp only [P, dif_pos hc0, hs]
    exact tile_task ph Tab hF hph d (coordsV ⟨_, hci.1⟩ ⟨_, hci.2⟩) hact O W hO
  · have hc0 : ¬(cn = 0 ∧ inn < 8) := by
      have : ¬ inn + 16 * cn < 8 := hact
      omega
    simp only [P, dif_neg hc0]
    exact idle_task hF d (coordsV ⟨_, hci.1⟩ ⟨_, hci.2⟩) (Nat.le_of_not_lt hact) O W hO

end Cert.Kernel.ScObl

end
-- ==== Proof.Bits.ScSplit.lean ====
/-
  The split of SparseCore 0's operands among its eight working tiles and their rejoining: the table into eighth
  shares, the index array by 128-column stretches, the gathered array by 128-row stretches; SparseCore 1 and the idle
  tiles carry nothing. Coming back, the column stretches rejoin to the whole index array, the row stretches, each
  held at contents of its own, to one array that agrees with each on its rows; a row r of it is gathered because it
  is row r of the contents that step r / 128 brought back, which was.
-/
import proofs.«218855_g90357521973776_cont_sun_m_356_26_alg».proof.Proof.Bits.Setup
import proofs.«218855_g90357521973776_cont_sun_m_356_26_alg».proof.Proof.Bits.ScPay

noncomputable section

namespace Cert.Kernel.ScSplit

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.TileBody Cert.Kernel.ScPay

variable [FloatOps F]
variable (ph : (d : Dev nD) → Buf (Elt F) (idxLoc d)) (Tab : (d : Dev nD) → Buf (Elt F) (tabLoc d) → Prop)

/-! ## Sixteen tiles, eight of them working -/

/-- The sixteen tiles are the eight working ones and eight more. -/
def halves : Fin 8 ⊕ Fin 8 ≃ Fin 16 := finSumFinEquiv

theorem halves_inl (i : Fin 8) : (halves (Sum.inl i)).val = i.val := rfl
theorem halves_inr (i : Fin 8) : (halves (Sum.inr i)).val = 8 + i.val := rfl

/-- A family over the sixteen tiles that is `Φ` on the first eight and nothing on the others is `Φ` over the eight. -/
theorem bigSep_working (Φ : Fin 8 → sProp 𝕄) :
    (bigSep Finset.univ fun i : Fin 16 => if h : i.val < 8 then Φ ⟨i.val, h⟩ else iprop(emp)) = bigSep Finset.univ Φ := by
  rw [bigSep_univ_equiv halves (fun i : Fin 16 => if h : i.val < 8 then Φ ⟨i.val, h⟩ else iprop(emp)), bigSep_univ_sum]
  have e1 : (bigSep Finset.univ fun i : Fin 8 => if h : (halves (Sum.inl i)).val < 8 then Φ ⟨(halves (Sum.inl i)).val, h⟩ else iprop(emp)) = bigSep Finset.univ Φ :=
    bigSep_congr fun i _ => by
      have h : (halves (Sum.inl i)).val < 8 := by rw [halves_inl]; exact i.isLt
      rw [dif_pos h]; exact congrArg Φ (Fin.ext (halves_inl i))
  have e2 : (bigSep Finset.univ fun i : Fin 8 => if h : (halves (Sum.inr i)).val < 8 then Φ ⟨(halves (Sum.inr i)).val, h⟩ else iprop(emp)) = (iprop(emp) : sProp 𝕄) := by
    rw [show (fun i : Fin 8 => if h : (halves (Sum.inr i)).val < 8 then Φ ⟨(halves (Sum.inr i)).val, h⟩ else iprop(emp)) = fun _ => (iprop(emp) : sProp 𝕄) from
      funext fun i => dif_neg (by rw [halves_inr]; omega)]
    exact bigSep_emp_const _
  rw [e1, e2]
  exact equiv_iff.mp sep_emp

/-- On SparseCore 0 the tiles' family is the eight working tiles'. -/
theorem bigSep_tiles {n : ℕ} (c : Fin n) (hc : c.val = 0) (Φ : Fin 8 → sProp 𝕄) :
    (bigSep Finset.univ fun i : Fin 16 => if h : c.val = 0 ∧ i.val < 8 then Φ ⟨i.val, h.2⟩ else iprop(emp)) = bigSep Finset.univ Φ := by
  rw [← bigSep_working Φ]
  exact bigSep_congr fun i _ => by
    by_cases hi : i.val < 8
    · rw [dif_pos ⟨hc, hi⟩, dif_pos hi]
    · rw [dif_neg (fun h => hi h.2), dif_neg hi]

/-- On the other SparseCore it is nothing. -/
theorem bigSep_tiles_idle {n : ℕ} (c : Fin n) (hc : ¬ c.val = 0) (Φ : Fin 8 → sProp 𝕄) :
    (bigSep Finset.univ fun i : Fin 16 => if h : c.val = 0 ∧ i.val < 8 then Φ ⟨i.val, h.2⟩ else iprop(emp)) = (iprop(emp) : sProp 𝕄) := by
  rw [show (fun i : Fin 16 => if h : c.val = 0 ∧ i.val < 8 then Φ ⟨i.val, h.2⟩ else iprop(emp)) = fun _ => (iprop(emp) : sProp 𝕄) from
    funext fun i => dif_neg (fun h => hc h.1)]
  exact bigSep_emp_const _

/-! ## The three arrays among the eight steps -/

/-- The index array is its eight column stretches. -/
theorem iPts_cols (d : Dev nD) (f : Buf (Elt F) (idxLoc d)) :
    (idxLoc d ↦{fullShare} f : sProp 𝕄) = bigSep Finset.univ fun s : Fin 8 => idxLoc d ↦[iColSet s]{fullShare} f := by
  rw [← pointsTo_biUnion Finset.univ (ℓ := idxLoc d) iColSet icols_disjoint, icols_cover]; try rfl
/-- The gathered array is its eight row stretches. -/
theorem oPts_rows (d : Dev nD) (f : Buf (Elt F) (outLoc d)) :
    (outLoc d ↦{fullShare} f : sProp 𝕄) = bigSep Finset.univ fun s : Fin 8 => outLoc d ↦[oRowSet s]{fullShare} f := by
  rw [← pointsTo_biUnion Finset.univ (ℓ := outLoc d) oRowSet orows_disjoint, orows_cover]; try rfl
/-- The table at the full share is the table at the eight eighth shares. -/
theorem tPts_shares (d : Dev nD) (f : Buf (Elt F) (tabLoc d)) :
    (tabLoc d ↦{fullShare} f : sProp 𝕄) = bigSep Finset.univ fun s : Fin 8 => tabLoc d ↦{xq s} f :=
  pointsTo_leaves Finset.univ f 3 fullShare

/-- The table, with what is known of its contents, to each step at its share. -/
theorem tab_split (d : Dev nD) :
    (iprop(∃ T1, ⌜Tab d T1⌝ ∗ tabLoc d ↦{fullShare} T1) : sProp 𝕄)
      ⊢ bigSep Finset.univ fun s : Fin 8 => iprop(∃ T1, ⌜Tab d T1⌝ ∗ tabLoc d ↦{xq s} T1) := by
  iintro ⟨%T1, %hT, Ht⟩
  have key : (tabLoc d ↦{fullShare} T1 : sProp 𝕄)
      ⊢ bigSep Finset.univ fun s : Fin 8 => iprop(∃ T1, ⌜Tab d T1⌝ ∗ tabLoc d ↦{xq s} T1) := by
    rw [tPts_shares d T1]
    exact bigSep_mono fun s _ =>
      (show (tabLoc d ↦{xq s} T1 : sProp 𝕄) ⊢ iprop(∃ T1, ⌜Tab d T1⌝ ∗ tabLoc d ↦{xq s} T1) from by
        iintro H
        iexists T1
        isplitr
        · ipureintro; exact hT
        · iexact H)
  iapply key; iexact Ht

/-- The gathered array, whatever it holds, to each step by rows. -/
theorem out_split (d : Dev nD) :
    (iprop(∃ f, outLoc d ↦{fullShare} f) : sProp 𝕄)
      ⊢ bigSep Finset.univ fun s : Fin 8 => iprop(∃ f, outLoc d ↦[oRowSet s]{fullShare} f) := by
  iintro ⟨%f, Ho⟩
  have key : (outLoc d ↦{fullShare} f : sProp 𝕄)
      ⊢ bigSep Finset.univ fun s : Fin 8 => iprop(∃ f, outLoc d ↦[oRowSet s]{fullShare} f) := by
    rw [oPts_rows d f]
    exact bigSep_mono fun s _ =>
      (show (outLoc d ↦[oRowSet s]{fullShare} f : sProp 𝕄) ⊢ iprop(∃ f, outLoc d ↦[oRowSet s]{fullShare} f) from by
        iintro H
        iexists f
        iexact H)
  iapply key; iexact Ho

/-- The rows come back: the eight stretches, each at contents whose 128 rows are gathered, are one array every row
    of which is gathered. -/
theorem out_join (d : Dev nD) :
    (bigSep Finset.univ fun s : Fin 8 =>
        iprop(∃ f, ⌜∀ a : Fin 128, Gath ph Tab d f ⟨128 * s.val + a.val, by omega⟩⌝ ∗ outLoc d ↦[oRowSet s]{fullShare} f))
      ⊢ (iprop(∃ f, ⌜∀ r, Gath ph Tab d f r⌝ ∗ outLoc d ↦{fullShare} f) : sProp 𝕄) := by
  refine (bigSep_exists_pi Finset.univ (fun (s : Fin 8) (f : Buf (Elt F) (outLoc d)) =>
    iprop(⌜∀ a : Fin 128, Gath ph Tab d f ⟨128 * s.val + a.val, by omega⟩⌝ ∗ outLoc d ↦[oRowSet s]{fullShare} f))).trans ?_
  iintro ⟨%fs, H⟩
  have h1 := bigSep_pure_sep (M := 𝕄) Finset.univ (fun s : Fin 8 => ∀ a : Fin 128, Gath ph Tab d (fs s) ⟨128 * s.val + a.val, by omega⟩)
    (fun s : Fin 8 => (outLoc d ↦[oRowSet s]{fullShare} fs s : sProp 𝕄))
  beta_reduce at h1
  ihave H1 := h1 $$ H
  icases H1 with ⟨%hG, H2⟩
  ihave H3 := (pointsTo_biUnion_join (ℓ := outLoc d) (q := fullShare) (Val := Elt F) Finset.univ oRowSet fs (fs 0) orows_disjoint) $$ H2
  icases H3 with ⟨%g, %hg, Hg⟩
  rw [orows_cover]
  iexists g
  isplitr
  · ipureintro
    intro r
    have hs : r.val / 128 < 8 := by have := r.isLt; omega
    have hGr : Gath ph Tab d (fs ⟨r.val / 128, hs⟩) r := by
      have h := hG ⟨r.val / 128, hs⟩ (Finset.mem_univ _) ⟨r.val % 128, Nat.mod_lt _ (by decide)⟩
      have er : (⟨128 * (r.val / 128) + r.val % 128, by have := r.isLt; omega⟩ : Fin 1024) = r := Fin.ext (Nat.div_add_mod r.val 128)
      exact (congrArg (Gath ph Tab d (fs ⟨r.val / 128, hs⟩)) er).mp h
    unfold Gath at hGr ⊢
    obtain ⟨T1, hT, hrow⟩ := hGr
    refine ⟨T1, hT, fun b => ?_⟩
    rw [hg ⟨r.val / 128, hs⟩ (Finset.mem_univ _) _ ((mem_oRowSet ⟨r.val / 128, hs⟩ r b).mpr rfl)]
    exact hrow b
  · iexact Hg

/-! ## The split -/

/-- SparseCore 0: the three operands to the eight steps, and back. -/
theorem split8 (d : Dev nD) :
    stRes ph Tab d ⊢ |={Set.univ}=> iprop((bigSep Finset.univ fun s : Fin 8 => goRes ph Tab d s)
      ∗ ((bigSep Finset.univ fun s : Fin 8 => tdRes ph Tab d s) -∗ dnRes ph Tab d)) := by
  show iprop((∃ T1, ⌜Tab d T1⌝ ∗ tabLoc d ↦{fullShare} T1) ∗ (idxLoc d ↦{fullShare} ph d) ∗ ∃ f, outLoc d ↦{fullShare} f)
    ⊢ |={Set.univ}=> iprop(
      (bigSep Finset.univ fun s : Fin 8 =>
        iprop((∃ T1, ⌜Tab d T1⌝ ∗ tabLoc d ↦{xq s} T1) ∗ (idxLoc d ↦[iColSet s]{fullShare} ph d) ∗ ∃ f, outLoc d ↦[oRowSet s]{fullShare} f))
      ∗ ((bigSep Finset.univ fun s : Fin 8 =>
          iprop((idxLoc d ↦[iColSet s]{fullShare} ph d)
            ∗ ∃ f, ⌜∀ a : Fin 128, Gath ph Tab d f ⟨128 * s.val + a.val, by omega⟩⌝ ∗ outLoc d ↦[oRowSet s]{fullShare} f))
        -∗ iprop((idxLoc d ↦{fullShare} ph d) ∗ ∃ f, ⌜∀ r, Gath ph Tab d f r⌝ ∗ outLoc d ↦{fullShare} f)))
  rw [bigSep_sep', bigSep_sep', bigSep_sep', iPts_cols d (ph d)]
  iintro ⟨Ht, Hi, Ho⟩
  imodintro
  isplitl [Ht Hi Ho]
  · isplitl [Ht]; · iapply (tab_split Tab d); iexact Ht
    isplitl [Hi]; · iexact Hi
    iapply (out_split d); iexact Ho
  · iintro ⟨Hi, Ho⟩
    isplitl [Hi]; · iexact Hi
    iapply (out_join ph Tab d); iexact Ho

/-- THE SPLIT of the one call's operands: SparseCore 0's among its eight working tiles, nothing elsewhere. -/
theorem vecSplit : (K (F := F)).VecSplit' (P ph Tab) 0 := by
  intro d c
  show (if c.val = 0 then stRes ph Tab d else iprop(emp)) ⊢ |={Set.univ}=> iprop(
      (bigSep Finset.univ fun i : Fin 16 => if h : c.val = 0 ∧ i.val < 8 then goRes ph Tab d ⟨i.val, h.2⟩ else iprop(emp))
      ∗ ((bigSep Finset.univ fun i : Fin 16 => if h : c.val = 0 ∧ i.val < 8 then tdRes ph Tab d ⟨i.val, h.2⟩ else iprop(emp))
          -∗ (if c.val = 0 then dnRes ph Tab d else iprop(emp))))
  by_cases hc : c.val = 0
  · rw [if_pos hc, if_pos hc, bigSep_tiles c hc (goRes ph Tab d), bigSep_tiles c hc (tdRes ph Tab d)]
    exact split8 ph Tab d
  · rw [if_neg hc, if_neg hc, bigSep_tiles_idle c hc (goRes ph Tab d), bigSep_tiles_idle c hc (tdRes ph Tab d)]
    iintro H
    imodintro
    isplitl [H]; · iexact H
    iintro H'
    iexact H'

end Cert.Kernel.ScSplit

end
-- ==== Proof.Bits.MainOps.lean ====
/-
  @main of the idealized kernel as a chain of seven items: four stretches of host operations (the transposes, the
  physical index and its high bit), the two TensorCore regions and the SparseCore call between them.
-/
import proofs.«218855_g90357521973776_cont_sun_m_356_26_alg».proof.Proof.Bits.Setup
import Idealize.ShloMosaic.Lib.StableHlo.Run

noncomputable section

namespace Cert.Kernel.MainOps

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (seq after)

variable [FloatOps F]

/-! ## The host operations, as @main spells them -/

abbrev opV0 : HloOp τ sig (Elt F) := StableHlo.unary main_arg1 main_v0 ((transpose S64x100000 [1, 0] · transposes_S100000x64_S64x100000_1_0) : (⟨S100000x64, .f32⟩ : BufTy).Contents (Elt F) → (⟨S64x100000, .f32⟩ : BufTy).Contents (Elt F))
abbrev opC : HloOp τ sig (Elt F) := StableHlo.nullary main_c (constantI S_ 32 65536#32)
abbrev opV2 : HloOp τ sig (Elt F) := StableHlo.unary main_c main_v2 (broadcastInDim S1024 ![] bcast_S_S1024 : (⟨S_, .i32⟩ : BufTy).Contents (Elt F) → (⟨S1024, .i32⟩ : BufTy).Contents (Elt F))
abbrev opV3 : HloOp τ sig (Elt F) := StableHlo.binary main_arg0 main_v2 main_v3 (cmpi .sge : (⟨S1024, .i32⟩ : BufTy).Contents (Elt F) → (⟨S1024, .i32⟩ : BufTy).Contents (Elt F) → (⟨S1024, .i1⟩ : BufTy).Contents (Elt F))
abbrev opC0 : HloOp τ sig (Elt F) := StableHlo.nullary main_c_0 (constantI S_ 32 65536#32)
abbrev opV4 : HloOp τ sig (Elt F) := StableHlo.unary main_c_0 main_v4 (broadcastInDim S1024 ![] bcast_S_S1024 : (⟨S_, .i32⟩ : BufTy).Contents (Elt F) → (⟨S1024, .i32⟩ : BufTy).Contents (Elt F))
abbrev opV5 : HloOp τ sig (Elt F) := StableHlo.binary main_arg0 main_v4 main_v5 (subi : (⟨S1024, .i32⟩ : BufTy).Contents (Elt F) → (⟨S1024, .i32⟩ : BufTy).Contents (Elt F) → (⟨S1024, .i32⟩ : BufTy).Contents (Elt F))
abbrev opV7 : HloOp τ sig (Elt F) := StableHlo.reshape main_v6 main_v7 rfl shapeCasts_S1024_S1x1024
abbrev opC1 : HloOp τ sig (Elt F) := StableHlo.nullary main_c_1 (constantI S_ 32 65536#32)
abbrev opV9 : HloOp τ sig (Elt F) := StableHlo.unary main_c_1 main_v9 (broadcastInDim S1024 ![] bcast_S_S1024 : (⟨S_, .i32⟩ : BufTy).Contents (Elt F) → (⟨S1024, .i32⟩ : BufTy).Contents (Elt F))
abbrev opV10 : HloOp τ sig (Elt F) := StableHlo.binary main_arg0 main_v9 main_v10 (cmpi .sge : (⟨S1024, .i32⟩ : BufTy).Contents (Elt F) → (⟨S1024, .i32⟩ : BufTy).Contents (Elt F) → (⟨S1024, .i1⟩ : BufTy).Contents (Elt F))
abbrev opV11 : HloOp τ sig (Elt F) := StableHlo.unary main_v10 main_v11 ((extui 32 · natLt_1_32) : (⟨S1024, .i1⟩ : BufTy).Contents (Elt F) → (⟨S1024, .i32⟩ : BufTy).Contents (Elt F))
abbrev opV12 : HloOp τ sig (Elt F) := StableHlo.reshape main_v11 main_v12 rfl shapeCasts_S1024_S1024x1
abbrev opV13 : HloOp τ sig (Elt F) := StableHlo.unary main_arg2 main_v13 ((transpose S64x100000 [1, 0] · transposes_S100000x64_S64x100000_1_0) : (⟨S100000x64, .f32⟩ : BufTy).Contents (Elt F) → (⟨S64x100000, .f32⟩ : BufTy).Contents (Elt F))
abbrev opV15 : HloOp τ sig (Elt F) := StableHlo.unary main_v14 main_v15 ((transpose S1024x100000 [1, 0] · transposes_S100000x1024_S1024x100000_1_0) : (⟨S100000x1024, .f32⟩ : BufTy).Contents (Elt F) → (⟨S1024x100000, .f32⟩ : BufTy).Contents (Elt F))
abbrev opV6 : HloOp τ sig (Elt F) := StableHlo.TRef.ternary (.of main_v3) (.of main_v5) (.of main_arg0) main_call0.v0 select

/-- Before the first region: the table's source, transposed. -/
abbrev opsA : List (HloOp τ sig (Elt F)) := [opV0]
/-- Between the first region and the SparseCore call: the physical index `x - 65536` where `x ≥ 65536`, else `x`, as a row. -/
abbrev opsB : List (HloOp τ sig (Elt F)) := [opC, opV2, opV3, opC0, opV4, opV5, opV6, opV7]
/-- Between the SparseCore call and the second region: the high bit as a column, the weight transposed. -/
abbrev opsC : List (HloOp τ sig (Elt F)) := [opC1, opV9, opV10, opV11, opV12, opV13]
/-- After the second region: the result transposed. -/
abbrev opsD : List (HloOp τ sig (Elt F)) := [opV15]

abbrev region (p : Fin 2) : Prog (TpuEff nD τ sig (Elt F) (SparseCore.Sig (ΛP (F := F)) 1) .tc) PUnit :=
  Prog.lift (.customCall (SparseCore.inner (Pipeline.entry p)) ())

/-- @main is the chain of its items. -/
theorem main_chain (d : Dev nD) :
    main (F := F) d = Pipeline.chain [seq opsA, region 0, seq opsB, (sc (F := F)).run d 0, seq opsC, region 1, seq opsD] := by
  unfold main fn_where.body
  chain_rfl

end Cert.Kernel.MainOps

end
-- ==== Proof.Bits.MainRegion.lean ====
/-
  @main of the idealized kernel on the TensorCore, under the SparseCore launch: how a TensorCore region of @main is
  entered from the SparseCore program's body table, and the launch element of the ghost state (the handshakes'
  rounds and the two pipelines' staging cells).
-/
import proofs.«218855_g90357521973776_cont_sun_m_356_26_alg».proof.Proof.Bits.Setup
import proofs.«218855_g90357521973776_cont_sun_m_356_26_alg».proof.Proof.Bits.MainOps

noncomputable section

namespace Cert.Kernel.MainRegion

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.MainOps
open Idealize.ShloMosaic.StableHlo (seq after held wp_seq)
open Idealize.ShloMosaic.Pipeline (pin)

variable [FloatOps F]

/-- No pipeline has prefetched tables. -/
abbrev adm : (p : Fin 2) → (pcfgs (F := F) p).Adm := fun p => (cfgs p).toPCfg_adm

theorem pin_eq : pin (pcfgs (F := F)) adm = cfgs := rfl

theorem cellOf_inj' : Function.Injective (Pipeline.cellOf (nD := nD) (τ := τ) (pin (pcfgs (F := F)) adm)) := by
  rw [pin_eq]; exact Gen.cellOf_inj

/-- A region's call in the SparseCore program is the pipeline library's call, lifted. -/
theorem region_eq (p : Fin 2) : region (F := F) p = SparseCore.liftProg (Q := 1) (Prog.lift (.customCall (Pipeline.entry p) ())) := rfl

variable (rdats : (p : Fin 2) → (c : Dev nD) → Pipeline.RDat τ (Elt F) (HIx 1) ℕ UU ℕ (pin (pcfgs (F := F)) adm p) c)

set_option maxHeartbeats 400000 in
/-- The region by itself, under the pipeline library's table. -/
theorem wp_region₀ [∀ e, Nonempty (Elt F e)] {p : Fin 2}
    (R : Pipeline.RDat.RegionSeg (pcfgs (F := F)) adm rdats none (defs₀ (F := F)) 𝒱₀ (K (F := F)).L (K (F := F)).lev p) (d : Dev nD) (Q : PUnit → sProp 𝕄) :
    iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE (D (F := F)) 𝒱 (d.tc : Thread nD τ) none) Set.univ (.op (.customCall (Pipeline.entry p) ()) fun _ => .ret ⟨⟩) Q :=
  Pipeline.RDat.RegionSeg.wp (pcfgs (F := F)) adm rdats none cellOf_inj' EP (defs₀ (F := F)) 𝒱₀ (K (F := F)).L (K (F := F)).lev R d none (fun u hu => nomatch hu) (fun _ => .ret ⟨⟩) Q

/-- The region at the head of the rest of @main, under the SparseCore program's table. -/
theorem wp_region [∀ e, Nonempty (Elt F e)] {p : Fin 2}
    (R : Pipeline.RDat.RegionSeg (pcfgs (F := F)) adm rdats none (defs₀ (F := F)) 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (d.tc : Thread nD τ) none) Set.univ (region (F := F) p >>= k) Q := by
  have hinner : iprop(boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (d.tc : Thread nD τ) none) Set.univ (region (F := F) p) (fun _ => iprop(boundary (d.tc : Thread nD τ) ∗ R.post d)) := by
    have h1 : (iprop(boundary (d.tc : Thread nD τ) ∗ R.pre d ∗ levAts (K (F := F)).L (K (F := F)).lev
          ∗ Pipeline.cellsGhost (pin (pcfgs (F := F)) adm) EP p d ∗ Pipeline.toksInit (pin (pcfgs (F := F)) adm) EP p d) : sProp 𝕄)
        ⊢ iprop((iprop(boundary (d.tc : Thread nD τ) ∗ R.post d) -∗ wp frame (wpE (D (F := F)) 𝒱 (d.tc : Thread nD τ) none) Set.univ (Prog.ret PUnit.unit)
              (fun _ : PUnit => iprop(boundary (d.tc : Thread nD τ) ∗ R.post d)))
          ∗ boundary (d.tc : Thread nD τ) ∗ R.pre d ∗ levAts (K (F := F)).L (K (F := F)).lev
          ∗ Pipeline.cellsGhost (pin (pcfgs (F := F)) adm) EP p d ∗ Pipeline.toksInit (pin (pcfgs (F := F)) adm) EP p d) := by
      iintro ⟨Hb, Hpre, Hlv, Hg, Ht⟩
      isplitr
      · iintro H; rw [wp_ret]; imodintro; iexact H
      isplitl [Hb]; · iexact Hb
      isplitl [Hpre]; · iexact Hpre
      isplitl [Hlv]; · iexact Hlv
      isplitl [Hg]; · iexact Hg
      iexact Ht
    rw [region_eq]
    exact h1.trans ((wp_region₀ rdats R d _).trans ((K (F := F)).wp_liftProg (D (F := F)) 𝒱 (d.tc : Thread nD τ) Set.univ none _ _))
  rw [wp_bind]
  iintro ⟨Hk, Hrest⟩
  iapply (wp_wand_r frame _ Set.univ)
  isplitl [Hrest]
  · iapply hinner; iexact Hrest
  · iintro %_ H
    iapply Hk; iexact H

end Cert.Kernel.MainRegion

end
-- ==== Proof.Bits.MainLaunch.lean ====
/-
  The launch element of the certificate's ghost state: the handshakes' rounds go to the launch theorem, the two
  pipelines' staging cells' rounds are funded into each TensorCore's share, the transfer counters are not needed
  at the launch.
-/
import proofs.«218855_g90357521973776_cont_sun_m_356_26_alg».proof.Proof.Bits.Setup
import proofs.«218855_g90357521973776_cont_sun_m_356_26_alg».proof.Proof.Bits.MainRegion
import proofs.«218855_g90357521973776_cont_sun_m_356_26_alg».proof.Proof.Bits.ScPay

noncomputable section

namespace Cert.Kernel.MainLaunch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.MainRegion
open Idealize.ShloMosaic.Pipeline (pin)

variable [FloatOps F]

/-- What the launch deals each TensorCore for its two regions: their staging cells' ghost state and duty tokens. -/
def G (d : Dev nD) : sProp 𝕄 :=
  bigSep Finset.univ fun p : Fin 2 => iprop(Pipeline.cellsGhost (pin (pcfgs (F := F)) adm) EP p d ∗ Pipeline.toksInit (pin (pcfgs (F := F)) adm) EP p d)

def u₀ : UU :=
  (initOf (K (F := F)).hsCells (K (F := F)).hsToks,
    (initOf (Pipeline.cells (nD := nD) (τ := τ) (pin (pcfgs (F := F)) adm) cellOf_inj') (Pipeline.launchToks (nD := nD) (τ := τ) (pin (pcfgs (F := F)) adm) cellOf_inj'), (1 : Counters)))

theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HH, Hr⟩
  ihave H2 := h2 $$ Hr
  icases H2 with ⟨HP, -⟩
  isplitl [HH]; · iexact HH
  iexact HP

theorem bigSep_emp' {I : Type} (s : Finset I) : (bigSep s fun _ => iprop(emp)) = (iprop(emp) : sProp 𝕄) := bigSep_emp_const s

variable (ph : (d : Dev nD) → Buf (Elt F) (TileBody.idxLoc d)) (Tab : (d : Dev nD) → Buf (Elt F) (TileBody.tabLoc d) → Prop)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (ScPay.P ph Tab).x q thr) := by
  unfold u₀
  iintro Hu
  ihave H := (ownU_split _ _ _) $$ Hu
  icases H with ⟨HH, HP⟩
  imod (Pipeline.fund_ghost (pin (pcfgs (F := F)) adm) EP cellOf_inj') $$ HP with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 1 => (ScPay.P (F := F) ph Tab).x q thr) = bigSep Finset.univ fun _ => iprop(emp) from
    bigSep_congr fun _ _ => bigSep_univ_of_subsingleton (0 : Fin 1), bigSep_emp']
  iempintro

end Cert.Kernel.MainLaunch

end
-- ==== Proof.Bits.MainHeld.lean ====
/-
  The TensorCore's arrays held whole as one family, so that the stretches of host operations run over it and a
  region or the SparseCore call takes its own arrays out and puts them back; and what the run leaves for the claim:
  the three argument arrays at their launch contents.
-/
import proofs.«218855_g90357521973776_cont_sun_m_356_26_alg».proof.Proof.Bits.Setup
import proofs.«218855_g90357521973776_cont_sun_m_356_26_alg».proof.Proof.Bits.MainOps

noncomputable section

namespace Cert.Kernel.MainHeld

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.MainOps
open Idealize.ShloMosaic.StableHlo (seq after held wp_seq)

variable [FloatOps F]
variable (m : (ℓ : Loc nD τ sig) → Buf (Elt F) ℓ)

/-- The TensorCore's unscoped arrays: @main's arguments and values. -/
def Sall : Finset (DevRef τ sig) :=
  (Finset.univ.filter fun b : Ref sig .tc => ¬ b.isScoped).map ⟨Proc.devRef .tc, Proc.devRef_injective _⟩

/-- The launch contents. -/
def V₀ (d : Dev nD) : Valuation τ sig (Elt F) := fun b => m (d, b)

theorem unscoped_held (d : Dev nD) :
    (unscopedBufs d (fun b => m ((SparseCore.T d).loc b)) : sProp 𝕄) = held (T d) Sall (V₀ m d) := by
  unfold unscopedBufs held Sall
  rw [bigSep_map]
  rfl

/-- One array out of the family, -/
theorem held_take (d : Dev nD) (V : Valuation τ sig (Elt F)) {b : DevRef τ sig} {S : Finset (DevRef τ sig)} (hb : b ∈ S) :
    (held (T d) S V : sProp 𝕄) = iprop(((d, b) ↦{fullShare} V b) ∗ held (T d) (S.erase b) V) := by
  unfold held; exact bigSep_erase hb

/-- and back at new contents. -/
theorem held_put (d : Dev nD) (V : Valuation τ sig (Elt F)) {b : DevRef τ sig} {S : Finset (DevRef τ sig)} (hb : b ∈ S) (f : Buf (Elt F) (d, b)) :
    (iprop(((d, b) ↦{fullShare} f) ∗ held (T d) (S.erase b) V) : sProp 𝕄) = held (T d) S (Function.update V b f) := by
  rw [held_take d (Function.update V b f) hb, Function.update_self]
  congr 1
  unfold held
  exact bigSep_congr fun b' hb' => by rw [Function.update_of_ne (Finset.ne_of_mem_erase hb')]

end Cert.Kernel.MainHeld

end
-- ==== Proof.Bits.MainFin.lean ====
/-
  What @main leaves for the claim: the three argument arrays at their launch contents, and how the final memory
  reads it.
-/
import proofs.«218855_g90357521973776_cont_sun_m_356_26_alg».proof.Proof.Bits.Setup
import proofs.«218855_g90357521973776_cont_sun_m_356_26_alg».proof.Proof.Bits.MainHeld

noncomputable section

namespace Cert.Kernel.MainFin

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

/-- The arguments, unchanged. -/
abbrev FIN (d : Dev nD) : sProp 𝕄 :=
  iprop((a0Loc d ↦{fullShare} m (a0Loc d)) ∗ (a1Loc d ↦{fullShare} m (a1Loc d)) ∗ (a2Loc d ↦{fullShare} m (a2Loc d)))

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := a2Loc d) (I := Finset.univ) (q := fullShare) (f := m (a2Loc d))) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- The frame's post: on every device the three arguments are as launched. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)

end Cert.Kernel.MainFin

end
-- ==== Proof.Bits.HostVals.lean ====
/-
  What the host operations between the kernels compute, as equations over an arbitrary valuation of the arrays:
  the transposes, the physical index (x - 65536 where x ≥ 65536, else x) as a row, the high bit as a column;
  which arrays each stretch leaves alone; and which arrays each stretch touches.
-/
import proofs.«218855_g90357521973776_cont_sun_m_356_26_alg».proof.Proof.Bits.MainOps
import proofs.«218855_g90357521973776_cont_sun_m_356_26_alg».proof.Proof.Bits.MainHeld
import Idealize.ShloMosaic.Lib.StableHlo.Run
import Idealize.ShloMosaic.Lib.ValueIdx
import Idealize.ShloMosaic.Lib.Pipeline.Value

noncomputable section

namespace Cert.Kernel.HostVals

open Cert.Kernel Cert.Kernel.Gen Cert.Kernel.Setup Cert.Kernel.MainOps

open Idealize.ShloMosaic
open Idealize.ShloMosaic.StableHlo (seq after)

variable {F : FTy → Type} [FloatOps F]

local notation:max r "′" => Proc.devRef (τ := τ) Proc.tc r

variable (V : Valuation τ sig (Elt F))

/-! ## The transposes -/

theorem after_opsA_v0 :
    after (opsA (F := F)) V (main_v0′)
      = transpose (s := S100000x64) S64x100000 [1, 0] (V (main_arg1′)) transposes_S100000x64_S64x100000_1_0 := by
  after_results
theorem after_opsC_v13 :
    after (opsC (F := F)) V (main_v13′)
      = transpose (s := S100000x64) S64x100000 [1, 0] (V (main_arg2′)) transposes_S100000x64_S64x100000_1_0 := by
  after_results
theorem after_opsD_v15 :
    after (opsD (F := F)) V (main_v15′)
      = transpose (s := S100000x1024) S1024x100000 [1, 0] (V (main_v14′)) transposes_S100000x1024_S1024x100000_1_0 := by
  after_results

/-! ## The physical index and the high bit -/

/-- The physical index of each word: x - 65536 where x ≥ 65536 (signed), else x; laid out as one row. -/
def phOf (x : IVec S1024 32) : IVec S1x1024 32 :=
  shapeCast S1x1024
    (select (cmpi .sge x (broadcastInDim S1024 ![] bcast_S_S1024 (constantI S_ 32 65536#32)))
      (subi x (broadcastInDim S1024 ![] bcast_S_S1024 (constantI S_ 32 65536#32))) x)
    shapeCasts_S1024_S1x1024

/-- The high bit of each word: 1 where x ≥ 65536 (signed), else 0, as a 32-bit word; laid out as one column. -/
def hiOf (x : IVec S1024 32) : IVec S1024x1 32 :=
  shapeCast S1024x1
    (extui 32 (cmpi .sge x (broadcastInDim S1024 ![] bcast_S_S1024 (constantI S_ 32 65536#32))) natLt_1_32)
    shapeCasts_S1024_S1024x1

theorem after_opsB_v7 : after (opsB (F := F)) V (main_v7′) = phOf (V (main_arg0′)) := by
  after_results
  rfl
theorem after_opsC_v12 : after (opsC (F := F)) V (main_v12′) = hiOf (V (main_arg0′)) := by
  after_results
  rfl

theorem phOf_apply (x : IVec S1024 32) (r : Fin 1024) :
    phOf x (ValueIdx.ix2 (n0 := 1) (n1 := 1024) 0 r)
      = Scalar.select (IntOp.cmpi .sge (x (ValueIdx.ix1 r)) 65536#32) (x (ValueIdx.ix1 r) - 65536#32) (x (ValueIdx.ix1 r)) := by
  unfold phOf
  rw [shapeCast_apply _ _ _ (ValueIdx.ix1 r) (by rw [Shape.rowMajor_val_one, Shape.rowMajor_val_two]; show r.val = 0 * 1024 + r.val; omega)]
  rfl

theorem hiOf_apply (x : IVec S1024 32) (b : Fin 1024) :
    hiOf x (ValueIdx.ix2 (n0 := 1024) (n1 := 1) b 0) = (IntOp.cmpi .sge (x (ValueIdx.ix1 b)) 65536#32).setWidth 32 := by
  unfold hiOf
  rw [shapeCast_apply _ _ _ (ValueIdx.ix1 b) (by rw [Shape.rowMajor_val_one, Shape.rowMajor_val_two]; show b.val = b.val * 1 + 0; omega)]
  rfl

/-- Words between 0 and 99999 have a physical index below 65536. -/
theorem phOf_lt (x : IVec S1024 32) (hx : ∀ b : Fin 1024, 0 ≤ (x (ValueIdx.ix1 b)).toInt ∧ (x (ValueIdx.ix1 b)).toInt ≤ 99999) :
    ∀ j, (phOf x j).toNat < 65536 := by
  intro j
  obtain ⟨a, r, rfl⟩ : ∃ (a : Fin 1) (r : Fin 1024), j = ValueIdx.ix2 a r := ⟨j 0, j 1, ValueIdx.eq_ix2 j⟩
  obtain rfl : a = 0 := Subsingleton.elim _ _
  rw [phOf_apply]
  obtain ⟨h0, h1⟩ := hx r
  generalize x (ValueIdx.ix1 r) = w at h0 h1 ⊢
  have hlt : w.toNat < 2 ^ 32 := w.isLt
  have e := BitVec.toInt_eq_toNat_cond w
  have hN : w.toInt = (w.toNat : ℤ) := by
    rw [e]; split
    · rfl
    · rename_i hc; rw [e, if_neg hc] at h0; omega
  have hw : w.toNat ≤ 99999 := by omega
  have h65 : (65536#32 : BitVec 32).toInt = 65536 := by decide
  unfold Scalar.select IntOp.cmpi
  by_cases hc : (65536 : ℤ) ≤ w.toInt
  · have hs : (65536#32 : BitVec 32).sle w = true := by simp [BitVec.sle, h65, hc]
    simp only [hs]
    rw [if_pos (by decide : BitVec.ofBool true = 1), BitVec.toNat_sub]
    have h6 : (65536#32 : BitVec 32).toNat = 65536 := by decide
    rw [h6]
    omega
  · have hs : (65536#32 : BitVec 32).sle w = false := by simp [BitVec.sle, h65, hc]
    simp only [hs]
    rw [if_neg (by decide : ¬ BitVec.ofBool false = 1)]
    omega

/-! ## What each stretch leaves alone -/

theorem opsA_keeps_arg0 : after (opsA (F := F)) V (main_arg0′) = V (main_arg0′) := by after_results
theorem opsA_keeps_arg1 : after (opsA (F := F)) V (main_arg1′) = V (main_arg1′) := by after_results
theorem opsA_keeps_arg2 : after (opsA (F := F)) V (main_arg2′) = V (main_arg2′) := by after_results
theorem opsB_keeps_arg0 : after (opsB (F := F)) V (main_arg0′) = V (main_arg0′) := by after_results
theorem opsB_keeps_arg1 : after (opsB (F := F)) V (main_arg1′) = V (main_arg1′) := by after_results
theorem opsB_keeps_arg2 : after (opsB (F := F)) V (main_arg2′) = V (main_arg2′) := by after_results
theorem opsB_keeps_v0 : after (opsB (F := F)) V (main_v0′) = V (main_v0′) := by after_results
theorem opsB_keeps_v1 : after (opsB (F := F)) V (main_v1′) = V (main_v1′) := by after_results
theorem opsC_keeps_arg0 : after (opsC (F := F)) V (main_arg0′) = V (main_arg0′) := by after_results
theorem opsC_keeps_arg1 : after (opsC (F := F)) V (main_arg1′) = V (main_arg1′) := by after_results
theorem opsC_keeps_arg2 : after (opsC (F := F)) V (main_arg2′) = V (main_arg2′) := by after_results
theorem opsC_keeps_v7 : after (opsC (F := F)) V (main_v7′) = V (main_v7′) := by after_results
theorem opsC_keeps_v8 : after (opsC (F := F)) V (main_v8′) = V (main_v8′) := by after_results
theorem opsD_keeps_arg0 : after (opsD (F := F)) V (main_arg0′) = V (main_arg0′) := by after_results
theorem opsD_keeps_arg1 : after (opsD (F := F)) V (main_arg1′) = V (main_arg1′) := by after_results
theorem opsD_keeps_arg2 : after (opsD (F := F)) V (main_arg2′) = V (main_arg2′) := by after_results
theorem opsD_keeps_v13 : after (opsD (F := F)) V (main_v13′) = V (main_v13′) := by after_results
theorem opsD_keeps_v8 : after (opsD (F := F)) V (main_v8′) = V (main_v8′) := by after_results
theorem opsD_keeps_v12 : after (opsD (F := F)) V (main_v12′) = V (main_v12′) := by after_results

/-! ## The arrays each stretch touches

Every operation of a stretch reads and writes unscoped arrays of the TensorCore only and allocates none; the two
later stretches touch nothing of the gathered table's array. -/

theorem opsA_bufs : ∀ op ∈ (opsA (F := F)), op.bufs ⊆ MainHeld.Sall := by
  intro op hop
  simp only [List.mem_cons, List.not_mem_nil, or_false] at hop
  rcases hop with rfl
  · exact (by decide : ({main_arg1′, main_v0′} : Finset (DevRef τ sig)) ⊆ MainHeld.Sall)
theorem opsA_fresh : ∀ op ∈ (opsA (F := F)), op.fresh = ∅ := by
  intro op hop
  simp only [List.mem_cons, List.not_mem_nil, or_false] at hop
  rcases hop with rfl <;> rfl
theorem opsB_bufs : ∀ op ∈ (opsB (F := F)), op.bufs ⊆ MainHeld.Sall := by
  intro op hop
  simp only [List.mem_cons, List.not_mem_nil, or_false] at hop
  rcases hop with rfl | rfl | rfl | rfl | rfl | rfl | rfl | rfl
  · exact (by decide : ({main_c′} : Finset (DevRef τ sig)) ⊆ MainHeld.Sall)
  · exact (by decide : ({main_c′, main_v2′} : Finset (DevRef τ sig)) ⊆ MainHeld.Sall)
  · exact (by decide : ({main_arg0′, main_v2′, main_v3′} : Finset (DevRef τ sig)) ⊆ MainHeld.Sall)
  · exact (by decide : ({main_c_0′} : Finset (DevRef τ sig)) ⊆ MainHeld.Sall)
  · exact (by decide : ({main_c_0′, main_v4′} : Finset (DevRef τ sig)) ⊆ MainHeld.Sall)
  · exact (by decide : ({main_arg0′, main_v4′, main_v5′} : Finset (DevRef τ sig)) ⊆ MainHeld.Sall)
  · exact (by decide : ({main_v3′, main_v5′, main_arg0′, main_v6′} : Finset (DevRef τ sig)) ⊆ MainHeld.Sall)
  · exact (by decide : ({main_v6′, main_v7′} : Finset (DevRef τ sig)) ⊆ MainHeld.Sall)
theorem opsB_fresh : ∀ op ∈ (opsB (F := F)), op.fresh = ∅ := by
  intro op hop
  simp only [List.mem_cons, List.not_mem_nil, or_false] at hop
  rcases hop with rfl | rfl | rfl | rfl | rfl | rfl | rfl | rfl <;> rfl
theorem opsC_bufs : ∀ op ∈ (opsC (F := F)), op.bufs ⊆ MainHeld.Sall := by
  intro op hop
  simp only [List.mem_cons, List.not_mem_nil, or_false] at hop
  rcases hop with rfl | rfl | rfl | rfl | rfl | rfl
  · exact (by decide : ({main_c_1′} : Finset (DevRef τ sig)) ⊆ MainHeld.Sall)
  · exact (by decide : ({main_c_1′, main_v9′} : Finset (DevRef τ sig)) ⊆ MainHeld.Sall)
  · exact (by decide : ({main_arg0′, main_v9′, main_v10′} : Finset (DevRef τ sig)) ⊆ MainHeld.Sall)
  · exact (by decide : ({main_v10′, main_v11′} : Finset (DevRef τ sig)) ⊆ MainHeld.Sall)
  · exact (by decide : ({main_v11′, main_v12′} : Finset (DevRef τ sig)) ⊆ MainHeld.Sall)
  · exact (by decide : ({main_arg2′, main_v13′} : Finset (DevRef τ sig)) ⊆ MainHeld.Sall)
theorem opsC_fresh : ∀ op ∈ (opsC (F := F)), op.fresh = ∅ := by
  intro op hop
  simp only [List.mem_cons, List.not_mem_nil, or_false] at hop
  rcases hop with rfl | rfl | rfl | rfl | rfl | rfl <;> rfl
theorem opsD_bufs : ∀ op ∈ (opsD (F := F)), op.bufs ⊆ MainHeld.Sall := by
  intro op hop
  simp only [List.mem_cons, List.not_mem_nil, or_false] at hop
  rcases hop with rfl
  · exact (by decide : ({main_v14′, main_v15′} : Finset (DevRef τ sig)) ⊆ MainHeld.Sall)
theorem opsD_fresh : ∀ op ∈ (opsD (F := F)), op.fresh = ∅ := by
  intro op hop
  simp only [List.mem_cons, List.not_mem_nil, or_false] at hop
  rcases hop with rfl <;> rfl
theorem opsC_bufs_less_v1 : ∀ op ∈ (opsC (F := F)), op.bufs ⊆ MainHeld.Sall.erase (main_v1′) := by
  intro op hop
  simp only [List.mem_cons, List.not_mem_nil, or_false] at hop
  rcases hop with rfl | rfl | rfl | rfl | rfl | rfl
  · exact (by decide : ({main_c_1′} : Finset (DevRef τ sig)) ⊆ MainHeld.Sall.erase (main_v1′))
  · exact (by decide : ({main_c_1′, main_v9′} : Finset (DevRef τ sig)) ⊆ MainHeld.Sall.erase (main_v1′))
  · exact (by decide : ({main_arg0′, main_v9′, main_v10′} : Finset (DevRef τ sig)) ⊆ MainHeld.Sall.erase (main_v1′))
  · exact (by decide : ({main_v10′, main_v11′} : Finset (DevRef τ sig)) ⊆ MainHeld.Sall.erase (main_v1′))
  · exact (by decide : ({main_v11′, main_v12′} : Finset (DevRef τ sig)) ⊆ MainHeld.Sall.erase (main_v1′))
  · exact (by decide : ({main_arg2′, main_v13′} : Finset (DevRef τ sig)) ⊆ MainHeld.Sall.erase (main_v1′))
theorem opsD_bufs_less_v1 : ∀ op ∈ (opsD (F := F)), op.bufs ⊆ MainHeld.Sall.erase (main_v1′) := by
  intro op hop
  simp only [List.mem_cons, List.not_mem_nil, or_false] at hop
  rcases hop with rfl
  · exact (by decide : ({main_v14′, main_v15′} : Finset (DevRef τ sig)) ⊆ MainHeld.Sall.erase (main_v1′))

/-! ## The transposes read at an index -/

/-- The transposed table at (k, p) is the table at (p, k). -/
theorem transpose_100000x64_apply {α : Type} (x : S100000x64.Idx → α) (k : Fin 64) (p : Fin 100000) :
    transpose (s := S100000x64) S64x100000 [1, 0] x transposes_S100000x64_S64x100000_1_0 (ValueIdx.ix2 (n0 := 64) (n1 := 100000) k p)
      = x (ValueIdx.ix2 (n0 := 100000) (n1 := 64) p k) :=
  transpose_apply _ _ _ _ _ (by intro b; fin_cases b <;> rfl)

/-- The transposed result at (b, v) is the result at (v, b). -/
theorem transpose_100000x1024_apply {α : Type} (x : S100000x1024.Idx → α) (b : Fin 1024) (v : Fin 100000) :
    transpose (s := S100000x1024) S1024x100000 [1, 0] x transposes_S100000x1024_S1024x100000_1_0 (ValueIdx.ix2 (n0 := 1024) (n1 := 100000) b v)
      = x (ValueIdx.ix2 (n0 := 100000) (n1 := 1024) v b) :=
  transpose_apply _ _ _ _ _ (by intro c; fin_cases c <;> rfl)

end Cert.Kernel.HostVals
end
-- ==== Proof.Bits.Region2.lean ====
/-
  The second TensorCore region: the product of the (transposed) output weights, one block of 4096 vocabulary
  columns per grid point, with the gathered pair rows selected by the high bit. Here: the region's proof data over
  the entry contents of its four arrays, the body's obligation at a symbolic grid point, and what the arrays hold
  at entry and at exit. The last vocabulary block overhangs the weights (columns 98304..102399 of 100000) and the
  result (rows likewise): the fetch leaves the staging columns past the array at words nothing names, the body
  multiplies them too, and the write-back drops the rows they reach. Everything here is generic in the float
  instance; the result's contents are left unnamed here (the window is forgotten) and named in the value module.
-/
import proofs.«218855_g90357521973776_cont_sun_m_356_26_alg».proof.Proof.Bits.Setup
import proofs.«218855_g90357521973776_cont_sun_m_356_26_alg».proof.Proof.Gen.Kernel.Points
import proofs.«218855_g90357521973776_cont_sun_m_356_26_alg».proof.Proof.Gen.Kernel.Skeleton
import Idealize.ShloMosaic.Lib.Pipeline.Kit
import Idealize.ShloMosaic.Lib.Pipeline.FrameBody
import Idealize.ShloMosaic.Lib.Tactic

noncomputable section

namespace Cert.Kernel.Region2

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F]

local notation "𝕄" => MT nD τ sig (HIx 1) (Elt F) ℕ Setup.UU ℕ

/-! ## The body's result as a function of what its staging buffers hold -/

/-- Columns 64..127 of the pair rows: the second table row of each pair. -/
abbrev rdHi (X1 : S1024x128.Idx → Elt F .f32) : Vec F S1024x64 .f32 :=
  (Memref.whole cc2_stg1_0 : Memref sig .tc _ _ _).view.readAt (Elt F)
    (Rect.unit (s := S1024x128) ![0, 64] S1024x64.size inb_S1024x128_S1024x64_0_64).toLoadRect X1
/-- Columns 0..63: the first. -/
abbrev rdLo (X1 : S1024x128.Idx → Elt F .f32) : Vec F S1024x64 .f32 :=
  (Memref.whole cc2_stg1_0 : Memref sig .tc _ _ _).view.readAt (Elt F)
    (Rect.unit (s := S1024x128) ![0, 0] S1024x64.size inb_S1024x128_S1024x64_0_0).toLoadRect X1

/-- What the body stores: the product of the weight block (rounded to bf16, contracted along its 64 rows) with the
    selected halves of the pair rows, from the contents of the flag, pair and weight staging buffers. -/
abbrev pay (X2 : S1024x1.Idx → Elt F .i32) (X1 : S1024x128.Idx → Elt F .f32) (X0 : S64x4096.Idx → Elt F .f32) :
    S4096x1024.Idx → Elt F .f32 :=
  k2_pay1 X2 (rdHi X1) (rdLo X1) X0

/-! ## The body, run once on any staging buffers the pipeline may hand it -/

set_option maxHeartbeats 4000000 in
/-- The kernel body on staging buffers `s0` of the weights' window, the one buffer each of the pair rows' and the
    flags' windows, and `s3` of the result's: four loads, the dead load of the result's buffer, the whole store —
    the result's buffer ends holding `pay` of what the other three hold, those unchanged. -/
theorem sound_body (c : Dev nD) (E : Set ℕ) (i : grid2.Coords) (s0 : Fin 2) (s1 : Fin 1) (s2 : Fin 1) (s3 : Fin 2)
    (X0 : S64x4096.Idx → Elt F .f32) (X1 : S1024x128.Idx → Elt F .f32) (X2 : S1024x1.Idx → Elt F .i32)
    (X3 : S4096x1024.Idx → Elt F .f32) (K : PUnit → sProp 𝕄) :
    iprop((owns (c.tc : Thread nD τ) (stage2_0 s0) fullShare X0 ∗ owns (c.tc : Thread nD τ) (stage2_1 s1) fullShare X1
            ∗ owns (c.tc : Thread nD τ) (stage2_2 s2) fullShare X2 ∗ owns (c.tc : Thread nD τ) (stage2_3 s3) fullShare X3)
          ∗ (iprop(owns (c.tc : Thread nD τ) (stage2_0 s0) fullShare X0 ∗ owns (c.tc : Thread nD τ) (stage2_1 s1) fullShare X1
                  ∗ owns (c.tc : Thread nD τ) (stage2_2 s2) fullShare X2
                  ∗ owns (c.tc : Thread nD τ) (stage2_3 s3) fullShare (pay X2 X1 X0)) -∗ K ⟨⟩))
      ⊢ wp frame (wpE (defs₀ (F := F)) Setup.𝒱₀ (c.tc : Thread nD τ) none) E
          (cc2_mm_kernel i (stage2_0 s0) (hstage2_0 s0) (stage2_1 s1) (hstage2_1 s1) (stage2_2 s2) (hstage2_2 s2)
            (stage2_3 s3) (hstage2_3 s3)) K := by
  have hz : (![0, 0] : Fin 2 → Nat) = fun _ => 0 := funext fun a => by fin_cases a <;> rfl
  fin_cases s0 <;> fin_cases s1 <;> fin_cases s2 <;> fin_cases s3
  · -- the vocabulary block staged in `cc2_stg0_0`, the result's in `cc2_stg3_0`
    have hr0 : (Memref.whole cc2_stg0_0 : Memref sig .tc _ _ _).view.readAt (Elt F) (Rect.unit (s := S64x4096) ![0, 0] S64x4096.size
        inb_S64x4096_S64x4096_0_0).toLoadRect = id := funext (Memref.readAt_unit_zero (Elt F) cc2_stg0_0 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_0).access (Rect.unit (s := S4096x1024) ![0, 0] S4096x1024.size inb_S4096x1024_S4096x1024_0_0)) :
        View sig .tc _ _ _).write (Elt F) f w Finset.univ = w := Memref.write_access_unit_zero_univ (Elt F) cc2_stg3_0 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_0`, the result's in `cc2_stg3_1`
    have hr0 : (Memref.whole cc2_stg0_0 : Memref sig .tc _ _ _).view.readAt (Elt F) (Rect.unit (s := S64x4096) ![0, 0] S64x4096.size
        inb_S64x4096_S64x4096_0_0).toLoadRect = id := funext (Memref.readAt_unit_zero (Elt F) cc2_stg0_0 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_1).access (Rect.unit (s := S4096x1024) ![0, 0] S4096x1024.size inb_S4096x1024_S4096x1024_0_0)) :
        View sig .tc _ _ _).write (Elt F) f w Finset.univ = w := Memref.write_access_unit_zero_univ (Elt F) cc2_stg3_1 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_1`, the result's in `cc2_stg3_0`
    have hr0 : (Memref.whole cc2_stg0_1 : Memref sig .tc _ _ _).view.readAt (Elt F) (Rect.unit (s := S64x4096) ![0, 0] S64x4096.size
        inb_S64x4096_S64x4096_0_0).toLoadRect = id := funext (Memref.readAt_unit_zero (Elt F) cc2_stg0_1 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_0).access (Rect.unit (s := S4096x1024) ![0, 0] S4096x1024.size inb_S4096x1024_S4096x1024_0_0)) :
        View sig .tc _ _ _).write (Elt F) f w Finset.univ = w := Memref.write_access_unit_zero_univ (Elt F) cc2_stg3_0 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3
  · -- the vocabulary block staged in `cc2_stg0_1`, the result's in `cc2_stg3_1`
    have hr0 : (Memref.whole cc2_stg0_1 : Memref sig .tc _ _ _).view.readAt (Elt F) (Rect.unit (s := S64x4096) ![0, 0] S64x4096.size
        inb_S64x4096_S64x4096_0_0).toLoadRect = id := funext (Memref.readAt_unit_zero (Elt F) cc2_stg0_1 hz _)
    have hr2 : (Memref.whole cc2_stg2_0 : Memref sig .tc _ _ _).view.readAt (Elt F) (Rect.unit (s := S1024x1) ![0, 0] S1024x1.size
        inb_S1024x1_S1024x1_0_0).toLoadRect = id := funext (Memref.readAt_unit_zero (Elt F) cc2_stg2_0 hz _)
    have hw3 : ∀ f w, (((Memref.whole cc2_stg3_1).access (Rect.unit (s := S4096x1024) ![0, 0] S4096x1024.size inb_S4096x1024_S4096x1024_0_0)) :
        View sig .tc _ _ _).write (Elt F) f w Finset.univ = w := Memref.write_access_unit_zero_univ (Elt F) cc2_stg3_1 hz _
    simp only [owns_whole_eq, cc2_mm_kernel_eq_skeleton]; unfold cc2_mm_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists pay f2 f1 f0; isplitr; · ipureintro; rw [hf0, hf1, hf2]
      iexact H3

/-! ## The proof data -/

section Data

variable (c : Dev nD)
  (WT : Buf (Elt F) ((c.tc : Thread nD τ).loc main_v13)) (P8 : Buf (Elt F) ((c.tc : Thread nD τ).loc main_v8))
  (H : Buf (Elt F) ((c.tc : Thread nD τ).loc main_v12)) (OUT0 : Buf (Elt F) ((c.tc : Thread nD τ).loc main_v14))

/-- The four arrays at entry: the transposed weights, the gathered pair rows, the high-bit flags, the result. -/
def arrs : (w : Fin cfg2.W) → Buf (Elt F) ((cfg2.win w).arr.view.loc (c.tc : Thread nD τ))
  | ⟨0, _⟩ => WT
  | ⟨1, _⟩ => P8
  | ⟨2, _⟩ => H
  | ⟨3, _⟩ => OUT0

/-- The weights' block of vocabulary columns at point `t` as the fetch reads it: its part inside the array; -/
def wblk (t : Fin cfg2.N) : (win2_0.xblock (grid2.coords t)).Idx → Elt F .f32 := (win2_0.blk t).view.read (Elt F) WT
/-- the pair rows and the flags, whole, whatever the point. -/
def pblk (t : Fin cfg2.N) : (win2_1.xblock (grid2.coords t)).Idx → Elt F .f32 := (win2_1.blk t).view.read (Elt F) P8
def hblk (t : Fin cfg2.N) : (win2_2.xblock (grid2.coords t)).Idx → Elt F .i32 := (win2_2.blk t).view.read (Elt F) H

/-- The same as contents of a whole staging buffer, filled out past the array's end (where the weights' last
    block overhangs; nowhere for the other two) by a word nothing reads. -/
def w8 (t : Fin cfg2.N) : S64x4096.Idx → Elt F .f32 := win2_0.fill (grid2.coords t) (fun _ => (Elt.inhabited F _).default) (wblk c WT t)
def p8 (t : Fin cfg2.N) : S1024x128.Idx → Elt F .f32 := win2_1.fill (grid2.coords t) (fun _ => (Elt.inhabited F _).default) (pblk c P8 t)
def h8 (t : Fin cfg2.N) : S1024x1.Idx → Elt F .i32 := win2_2.fill (grid2.coords t) (fun _ => (Elt.inhabited F _).default) (hblk c H t)

/-- The proof data of the region on device `c`'s TensorCore, over the arrays' entry contents: after the body the
    three input buffers hold their blocks and the result's the body's product of them; the invariant is any `Rv`
    the body frames; the core owes `O` throughout, its recorded waits within `Rec` and the loop's own; full shares. -/
def dat (Rv : sProp 𝕄) (O : CellTallies nD τ sig (HIx 1)) (Rec : Set (SemLoc sig × HIx 1)) : Dat τ (Elt F) (HIx 1) ℕ Setup.UU ℕ cfg2 c where
  A := arrs c WT P8 H OUT0
  after w t := match w with
    | ⟨0, _⟩ => w8 c WT t
    | ⟨1, _⟩ => p8 c P8 t
    | ⟨2, _⟩ => h8 c H t
    | ⟨3, _⟩ => pay (h8 c H t) (p8 c P8 t) (w8 c WT t)
  Φ _ := Rv
  q _ := fullShare
  owed _ := O
  recorded _ := Rec

/-- The result's window, forgotten: where nothing is said of what the body leaves in its staging buffer. -/
abbrev fgtOut : Fin cfg2.W → Bool := fun | 0 => false | 1 => false | 2 => false | 3 => true | ⟨_ + 4, h⟩ => absurd h (Nat.not_lt.2 (Nat.le_add_left _ _))

/-! ### What the body finds -/

/-- The weights' buffer just fetched: the block on the columns inside the array, `d` elsewhere. -/
theorem before_0 (Rv : sProp 𝕄) (O : CellTallies nD τ sig (HIx 1)) (Rec : Set (SemLoc sig × HIx 1)) (t : Fin cfg2.N) (d) :
    (dat c WT P8 H OUT0 Rv O Rec).before (0 : Fin 4) t d = win2_0.fill (grid2.coords t) d (wblk c WT t) := by
  unfold Dat.before; rw [if_pos (fetch2_0 t)]; rfl
/-- The pair rows' and the flags' one buffer each: fetched at the first point and left in place by the body, so at
    every point what a fetch there would put in it. -/
theorem before_1 (Rv : sProp 𝕄) (O : CellTallies nD τ sig (HIx 1)) (Rec : Set (SemLoc sig × HIx 1)) (t : Fin cfg2.N) (d) :
    (dat c WT P8 H OUT0 Rv O Rec).before (1 : Fin 4) t d = win2_1.fill (grid2.coords t) d (pblk c P8 t) :=
  (dat c WT P8 H OUT0 Rv O Rec).before_in_eq_fetched (1 : Fin 4) rfl (fun _ => rfl) (fun _ _ _ => rfl)
    (fun t => by
      show win2_1.cut (grid2.coords t) (win2_1.fill (grid2.coords t) (fun _ => (Elt.inhabited F _).default) (pblk c P8 t)) = pblk c P8 t
      exact win2_1.cut_fill _ _ _) t d
theorem before_2 (Rv : sProp 𝕄) (O : CellTallies nD τ sig (HIx 1)) (Rec : Set (SemLoc sig × HIx 1)) (t : Fin cfg2.N) (d) :
    (dat c WT P8 H OUT0 Rv O Rec).before (2 : Fin 4) t d = win2_2.fill (grid2.coords t) d (hblk c H t) :=
  (dat c WT P8 H OUT0 Rv O Rec).before_in_eq_fetched (2 : Fin 4) rfl (fun _ => rfl) (fun _ _ _ => rfl)
    (fun t => by
      show win2_2.cut (grid2.coords t) (win2_2.fill (grid2.coords t) (fun _ => (Elt.inhabited F _).default) (hblk c H t)) = hblk c H t
      exact win2_2.cut_fill _ _ _) t d

/-- The result's buffer: never fetched and written back at every point, so at every point at contents nothing names. -/
theorem before_3 (Rv : sProp 𝕄) (O : CellTallies nD τ sig (HIx 1)) (Rec : Set (SemLoc sig × HIx 1)) (t : Fin cfg2.N) (d) : (dat c WT P8 H OUT0 Rv O Rec).before (3 : Fin 4) t d = d :=
  (dat c WT P8 H OUT0 Rv O Rec).before_out_reset (3 : Fin 4) rfl t (by
    by_cases ht : t.val = 0
    · exact .inl ht
    · exact .inr ⟨ht, flush2_3 _⟩) d

/-- An uncut window's fill takes nothing from the prior contents: the pair rows' and the flags' buffers hold their
    blocks whatever they held before the fetch. -/
theorem p8_eq (t : Fin cfg2.N) (d) : win2_1.fill (grid2.coords t) d (pblk c P8 t) = p8 c P8 t :=
  Pipeline.fill_of_clip_none (cfg := cfg2) (1 : Fin 4) (grid2.coords t) (fun _ => rfl) d (fun _ => (Elt.inhabited F _).default) (pblk c P8 t)
theorem h8_eq (t : Fin cfg2.N) (d) : win2_2.fill (grid2.coords t) d (hblk c H t) = h8 c H t :=
  Pipeline.fill_of_clip_none (cfg := cfg2) (2 : Fin 4) (grid2.coords t) (fun _ => rfl) d (fun _ => (Elt.inhabited F _).default) (hblk c H t)

/-! ### The body obligation, the result's window forgotten -/

/-- The library's body obligation with the result's window forgotten, from `sound_body` at the point's staging
    buffers: the weights' buffer arrives holding its block filled out with `d` past the array's end and leaves
    holding that (all a loose window's obligation asks is the block on the columns inside the array); the pair
    rows' and the flags' arrive and leave holding their blocks; the result's arrives and leaves at contents nothing
    names; the invariant is framed. -/
theorem body_forget (Rv : sProp 𝕄) (O : CellTallies nD τ sig (HIx 1)) (Rec : Set (SemLoc sig × HIx 1)) : BodyObligationLoose (dat c WT P8 H OUT0 Rv O Rec) (defs₀ (F := F)) Setup.𝒱₀ none Set.univ fgtOut := fun t => by
  rw [bigSep_W2, bigSep_W2]
  simp only
  rw [show (dat c WT P8 H OUT0 Rv O Rec).Φ t.succ = (dat c WT P8 H OUT0 Rv O Rec).Φ t.castSucc from rfl,
    show (dat c WT P8 H OUT0 Rv O Rec).owesAt none t.succ = (dat c WT P8 H OUT0 Rv O Rec).owesAt none t.castSucc from rfl]
  iintro ⟨HΦ, Ho, ⟨%d0, H0⟩, ⟨%d1, H1⟩, ⟨%d2, H2⟩, ⟨%X3, H3⟩⟩
  rw [before_0 c WT P8 H OUT0 Rv O Rec t d0, before_1 c WT P8 H OUT0 Rv O Rec t d1, before_2 c WT P8 H OUT0 Rv O Rec t d2]
  iapply (sound_body (F := F) c Set.univ (grid2.coords t) (cfg2.slots t 0) (cfg2.slots t 1) (cfg2.slots t 2) (cfg2.slots t 3)
    (win2_0.fill (grid2.coords t) d0 (wblk c WT t)) (win2_1.fill (grid2.coords t) d1 (pblk c P8 t))
    (win2_2.fill (grid2.coords t) d2 (hblk c H t)) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win2_0.cut (grid2.coords t) (w8 c WT t) = wblk c WT t := win2_0.cut_fill _ _ _
  isplitl [H0]
  · iexists d0
    change _ ⊢ owns (c.tc : Thread nD τ) (stage2_0 (cfg2.slots t 0)) fullShare (win2_0.fill (grid2.coords t) d0 (win2_0.cut (grid2.coords t) (w8 c WT t)))
    rw [hx]; try iexact H0
  isplitl [H1]
  · change _ ⊢ owns (c.tc : Thread nD τ) (stage2_1 (cfg2.slots t 1)) fullShare (p8 c P8 t)
    rw [← p8_eq c P8 t d1]; try iexact H1
  isplitl [H2]
  · change _ ⊢ owns (c.tc : Thread nD τ) (stage2_2 (cfg2.slots t 2)) fullShare (h8 c H t)
    rw [← h8_eq c H t d2]; try iexact H2
  · iexists _; iexact H3

/-! ### The arrays at entry and at exit -/

theorem A_0 (Rv : sProp 𝕄) (O : CellTallies nD τ sig (HIx 1)) (Rec : Set (SemLoc sig × HIx 1)) : (dat c WT P8 H OUT0 Rv O Rec).A (0 : Fin 4) = WT := rfl
theorem A_1 (Rv : sProp 𝕄) (O : CellTallies nD τ sig (HIx 1)) (Rec : Set (SemLoc sig × HIx 1)) : (dat c WT P8 H OUT0 Rv O Rec).A (1 : Fin 4) = P8 := rfl
theorem A_2 (Rv : sProp 𝕄) (O : CellTallies nD τ sig (HIx 1)) (Rec : Set (SemLoc sig × HIx 1)) : (dat c WT P8 H OUT0 Rv O Rec).A (2 : Fin 4) = H := rfl
theorem A_3 (Rv : sProp 𝕄) (O : CellTallies nD τ sig (HIx 1)) (Rec : Set (SemLoc sig × HIx 1)) : (dat c WT P8 H OUT0 Rv O Rec).A (3 : Fin 4) = OUT0 := rfl

/-- The three input arrays are never written: after any number of points they hold what they held. -/
theorem arrAt_0 (Rv : sProp 𝕄) (O : CellTallies nD τ sig (HIx 1)) (Rec : Set (SemLoc sig × HIx 1)) (n : Nat) : (dat c WT P8 H OUT0 Rv O Rec).arrAt (0 : Fin 4) n = WT := (dat c WT P8 H OUT0 Rv O Rec).arrAt_in (0 : Fin 4) rfl n
theorem arrAt_1 (Rv : sProp 𝕄) (O : CellTallies nD τ sig (HIx 1)) (Rec : Set (SemLoc sig × HIx 1)) (n : Nat) : (dat c WT P8 H OUT0 Rv O Rec).arrAt (1 : Fin 4) n = P8 := (dat c WT P8 H OUT0 Rv O Rec).arrAt_in (1 : Fin 4) rfl n
theorem arrAt_2 (Rv : sProp 𝕄) (O : CellTallies nD τ sig (HIx 1)) (Rec : Set (SemLoc sig × HIx 1)) (n : Nat) : (dat c WT P8 H OUT0 Rv O Rec).arrAt (2 : Fin 4) n = H := (dat c WT P8 H OUT0 Rv O Rec).arrAt_in (2 : Fin 4) rfl n

/-- The same of the proof data read relationally with the result's window forgotten. -/
theorem ArrAt_forget_0 (Rv : sProp 𝕄) (O : CellTallies nD τ sig (HIx 1)) (Rec : Set (SemLoc sig × HIx 1)) (n : Nat) (G : Buf (Elt F) ((cfg2.win (0 : Fin 4)).arr.view.loc (c.tc : Thread nD τ))) : ((dat c WT P8 H OUT0 Rv O Rec).toRForget fgtOut).ArrAt (0 : Fin 4) n G ↔ G = WT := by
  rw [(dat c WT P8 H OUT0 Rv O Rec).toRForget_arrAt_iff (fgt := fgtOut) (w := (0 : Fin 4)) rfl n G, arrAt_0]
theorem ArrAt_forget_1 (Rv : sProp 𝕄) (O : CellTallies nD τ sig (HIx 1)) (Rec : Set (SemLoc sig × HIx 1)) (n : Nat) (G : Buf (Elt F) ((cfg2.win (1 : Fin 4)).arr.view.loc (c.tc : Thread nD τ))) : ((dat c WT P8 H OUT0 Rv O Rec).toRForget fgtOut).ArrAt (1 : Fin 4) n G ↔ G = P8 := by
  rw [(dat c WT P8 H OUT0 Rv O Rec).toRForget_arrAt_iff (fgt := fgtOut) (w := (1 : Fin 4)) rfl n G, arrAt_1]
theorem ArrAt_forget_2 (Rv : sProp 𝕄) (O : CellTallies nD τ sig (HIx 1)) (Rec : Set (SemLoc sig × HIx 1)) (n : Nat) (G : Buf (Elt F) ((cfg2.win (2 : Fin 4)).arr.view.loc (c.tc : Thread nD τ))) : ((dat c WT P8 H OUT0 Rv O Rec).toRForget fgtOut).ArrAt (2 : Fin 4) n G ↔ G = H := by
  rw [(dat c WT P8 H OUT0 Rv O Rec).toRForget_arrAt_iff (fgt := fgtOut) (w := (2 : Fin 4)) rfl n G, arrAt_2]

end Data

end Cert.Kernel.Region2
-- ==== Proof.Bits.RegionRec2.lean ====
/-
  The second TensorCore region as the launch sees it: the library's record of a kernel region for pipeline 1 — the
  decided layout, no semaphore of the kernel's own, the body obligation with the result's window forgotten, the waits'
  evidence (the staging cells wait at the index nothing is owed at), and the four entailments around the thread
  states: entered holding the four arrays at their entry contents and the core's dues, left holding the three input
  arrays unchanged, the result at some contents, and the same dues, the waits recorded meanwhile being the loop's
  own. The other scoped buffers ride through the region inside the body's invariant. Generic in the float instance.
-/
import proofs.«218855_g90357521973776_cont_sun_m_356_26_alg».proof.Proof.Bits.Region2

noncomputable section

namespace Cert.Kernel.RegionRec2

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig (HIx 1) (Elt F) ℕ Setup.UU ℕ

/-- The pipelines' one admissible contents: neither has a prefetched table. -/
abbrev adm : (p : Fin 2) → (pcfgs (F := F) p).Adm := fun p => (cfgs p).toPCfg_adm

/-- A buffer of core `c` held whole at the full share. -/
abbrev pl (c : Dev nD) (b : Ref sig .tc) (f : b.ty.Contents (Elt F)) : sProp 𝕄 := ((c.tc : Thread nD τ).loc b) ↦{fullShare} f

/-- The region's invariant is the one its proof data was given. -/
theorem dat_Φ (c : Dev nD) (WT : Buf (Elt F) ((c.tc : Thread nD τ).loc main_v13)) (P8 : Buf (Elt F) ((c.tc : Thread nD τ).loc main_v8))
    (H : Buf (Elt F) ((c.tc : Thread nD τ).loc main_v12)) (OUT0 : Buf (Elt F) ((c.tc : Thread nD τ).loc main_v14))
    (Rv : sProp 𝕄) (O : CellTallies nD τ sig (HIx 1)) (Rec : Set (SemLoc sig × HIx 1)) (t) : (Region2.dat c WT P8 H OUT0 Rv O Rec).Φ t = Rv := rfl

section Rec

variable (rdats : (p : Fin 2) → (c : Dev nD) → Pipeline.RDat τ (Elt F) (HIx 1) ℕ Setup.UU ℕ (Pipeline.pin (pcfgs (F := F)) adm p) c)
  (WT : (c : Dev nD) → Buf (Elt F) ((c.tc : Thread nD τ).loc main_v13)) (P8 : (c : Dev nD) → Buf (Elt F) ((c.tc : Thread nD τ).loc main_v8))
  (H : (c : Dev nD) → Buf (Elt F) ((c.tc : Thread nD τ).loc main_v12)) (OUT0 : (c : Dev nD) → Buf (Elt F) ((c.tc : Thread nD τ).loc main_v14))
  (O : Dev nD → CellTallies nD τ sig (HIx 1)) (Rec : Dev nD → Set (SemLoc sig × HIx 1)) (hO : ∀ c g, O c g none = 0)
  (h1 : ∀ c, rdats 1 c = (Region2.dat c (WT c) (P8 c) (H c) (OUT0 c) (Pipeline.scopedRest (Pipeline.pin (pcfgs (F := F)) adm 1).spec c) (O c) (Rec c)).toRForget Region2.fgtOut)

include h1 in
/-- Every array of the region is held at the full share. -/
theorem share2 (c : Dev nD) (w : Fin (Pipeline.pin (pcfgs (F := F)) adm 1).W) : (rdats 1 c).share w = fullShare := by
  rw [h1 c]; exact (Region2.dat c (WT c) (P8 c) (H c) (OUT0 c) (Pipeline.scopedRest (Pipeline.pin (pcfgs (F := F)) adm 1).spec c) (O c) (Rec c)).share_full (fun _ => rfl) w

include h1 in
/-- The region's arrays at contents `Fa` are the four buffers held. -/
theorem arrays2_eq (c : Dev nD) (Fa) :
    ((rdats 1 c).arrays Fa : sProp 𝕄) = iprop(pl c main_v13 (Fa 0) ∗ pl c main_v8 (Fa 1) ∗ pl c main_v12 (Fa 2) ∗ pl c main_v14 (Fa 3)) := by
  rw [Pipeline.RDat.arrays_eq (pcfgs (F := F)) adm rdats 1 c launch2.arr_whole (share2 rdats WT P8 H OUT0 O Rec h1 c) Fa, bigSep_W2]
  rfl

include h1 in
/-- After the write-backs below any point the three input arrays hold what they held and the result something. -/
theorem arraysAt2_elim (c : Dev nD) (n : Nat) :
    ((rdats 1 c).arraysAt n : sProp 𝕄)
      ⊢ iprop(pl c main_v13 (WT c) ∗ pl c main_v8 (P8 c) ∗ pl c main_v12 (H c) ∗ ∃ G, pl c main_v14 G) := by
  classical
  unfold Pipeline.RDat.arraysAt
  iintro Ha
  ihave Ha' := (BI.bigSep_exists_pi Finset.univ (fun w G => iprop(⌜(rdats 1 c).ArrAt w n G⌝
      ∗ ((Pipeline.pin (pcfgs (F := F)) adm 1).win w).arr.view.loc (c.tc : Thread nD τ) ↦[((Pipeline.pin (pcfgs (F := F)) adm 1).win w).arr.view.set]{(rdats 1 c).share w} G))) $$ Ha
  icases Ha' with ⟨%Fs, Ha⟩
  ihave Ha2 := (BI.bigSep_pure_sep Finset.univ (fun w => (rdats 1 c).ArrAt w n (Fs w))
      (fun w => ((Pipeline.pin (pcfgs (F := F)) adm 1).win w).arr.view.loc (c.tc : Thread nD τ) ↦[((Pipeline.pin (pcfgs (F := F)) adm 1).win w).arr.view.set]{(rdats 1 c).share w} Fs w)) $$ Ha
  icases Ha2 with ⟨%hFs, Ha⟩
  have e := arrays2_eq rdats WT P8 H OUT0 O Rec h1 c Fs
  unfold Pipeline.RDat.arrays at e
  rw [e]
  rw [h1 c] at hFs
  have h0 : Fs 0 = WT c := (Region2.ArrAt_forget_0 c (WT c) (P8 c) (H c) (OUT0 c) _ (O c) (Rec c) n (Fs 0)).mp (hFs 0 (Finset.mem_univ _))
  have h1' : Fs 1 = P8 c := (Region2.ArrAt_forget_1 c (WT c) (P8 c) (H c) (OUT0 c) _ (O c) (Rec c) n (Fs 1)).mp (hFs 1 (Finset.mem_univ _))
  have h2 : Fs 2 = H c := (Region2.ArrAt_forget_2 c (WT c) (P8 c) (H c) (OUT0 c) _ (O c) (Rec c) n (Fs 2)).mp (hFs 2 (Finset.mem_univ _))
  rw [h0, h1', h2]
  show iprop(pl c main_v13 (WT c) ∗ pl c main_v8 (P8 c) ∗ pl c main_v12 (H c) ∗ pl c main_v14 (Fs 3))
    ⊢ iprop(pl c main_v13 (WT c) ∗ pl c main_v8 (P8 c) ∗ pl c main_v12 (H c) ∗ ∃ G, pl c main_v14 G)
  iintro ⟨H0, H1, H2, H3⟩
  isplitl [H0]; · iexact H0
  isplitl [H1]; · iexact H1
  isplitl [H2]; · iexact H2
  iexists Fs 3; iexact H3

set_option maxHeartbeats 1600000 in
/-- THE REGION of pipeline 1: entered from the core's dues `O c`, its recorded waits within `Rec c`, and the four
    arrays held at their entry contents; left at the same dues, the waits recorded since being the loop's own (at
    the index nothing is owed at), the three input arrays unchanged and the result at some contents. -/
def seg2 : Pipeline.RDat.RegionSeg (pcfgs (F := F)) adm rdats none (defs₀ (F := F)) Setup.𝒱₀
    (Setup.K (F := F)).L (Setup.K (F := F)).lev 1 where
  win := launch2.win.to₀
  block_pos := launch2.block_pos
  stage_whole := launch2.stage_whole
  K := PEmpty
  osem k := k.elim
  ho := Pipeline.OwnSemFacts.none _
  hbody c := by
    rw [h1 c]
    exact (Region2.body_forget c (WT c) (P8 c) (H c) (OUT0 c) _ (O c) (Rec c)).toRForget
  hwaits c := Pipeline.RDat.cellsWaits_intro (Pipeline.pin (pcfgs (F := F)) adm) rdats none 1 c fun w s t => by
    rw [h1 c]
    exact (Setup.K (F := F)).mayWait_none _ (hO c)
  pre c := iprop((∃ W : Waits sig (HIx 1), ⌜(↑W : Set (SemLoc sig × HIx 1)) ⊆ Rec c⌝ ∗ owes (c.tc : Thread nD τ) (O c) W) ∗ pl c main_v13 (WT c) ∗ pl c main_v8 (P8 c)
    ∗ pl c main_v12 (H c) ∗ pl c main_v14 (OUT0 c))
  post c := iprop((∃ W : Waits sig (HIx 1), ⌜∀ p ∈ W, p ∈ Rec c ∨ p.2 = none⌝ ∗ owes (c.tc : Thread nD τ) (O c) W) ∗ pl c main_v13 (WT c) ∗ pl c main_v8 (P8 c)
    ∗ pl c main_v12 (H c) ∗ ∃ G, pl c main_v14 G)
  X _ := iprop(emp)
  Y _ := iprop(emp)
  Z _ := iprop(emp)
  hentry c := by
    rw [Pipeline.ownSems0_none, arrays2_eq rdats WT P8 H OUT0 O Rec h1 c, h1 c]
    iintro ⟨⟨⟨%W, %hW, HO⟩, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact hW.trans Set.subset_union_left
      iexact HO
    isplitr <;> iempintro
  hin c := by
    rw [h1 c, Pipeline.Dat.toRForget_Φ, dat_Φ]
    iintro ⟨-, -, Hs⟩; iexact Hs
  hout c := by
    rw [h1 c, Pipeline.ownSems0_none, Pipeline.Dat.toRForget_Φ, dat_Φ]
    iintro Hs
    isplitr; · iempintro
    isplitr; · iempintro
    iexact Hs
  hexit c := by
    iintro ⟨Ha, HO, -, -⟩
    ihave Ha' := (arraysAt2_elim rdats WT P8 H OUT0 O Rec h1 c _) $$ Ha
    imodintro
    isplitl [HO]
    · unfold Pipeline.RDat.owesAt Pipeline.owesWithin
      icases HO with ⟨%W, %hW, HO⟩
      rw [h1 c] at hW
      rw [h1 c]
      iexists W; isplitr
      · ipureintro
        intro p hp
        have hp' : p ∈ Rec c ∪ cfg2.waitPairs none := hW (Finset.mem_coe.mpr hp)
        rcases hp' with h | ⟨w, s, rfl⟩
        · exact .inl h
        · exact .inr rfl
      iexact HO
    iexact Ha'

end Rec

end Cert.Kernel.RegionRec2
-- ==== Proof.Bits.MainFront.lean ====
/-
  The front of @main on the TensorCore: the host operation before the first region (the table's source transposed),
  the first region, and the host operations before the SparseCore call (the physical index as a row), run from the
  TensorCore's arrays held as one family at a valuation, the core's dues with the bound on its recorded waits, the
  level facts and the first pipeline's ghost state — all given back, the family at the valuation the three
  stretches compute: the host operations' results over what the region left in its result array, the pair table.
-/
import proofs.«218855_g90357521973776_cont_sun_m_356_26_alg».proof.Proof.Bits.MainHeld
import proofs.«218855_g90357521973776_cont_sun_m_356_26_alg».proof.Proof.Bits.MainRegion
import proofs.«218855_g90357521973776_cont_sun_m_356_26_alg».proof.Proof.Bits.RegionRec2

noncomputable section

namespace Cert.Kernel.MainFront

open Cert.Kernel Cert.Kernel.Gen Cert.Kernel.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.MainOps
open Cert.Kernel.RegionRec2 (pl)
open Idealize.ShloMosaic.StableHlo (seq after held wp_seq)
open Idealize.ShloMosaic.Pipeline (pin)

variable {F : FTy → Type} [FloatOps F]

local notation "𝕄" => MT nD τ sig (HIx 1) (Elt F) ℕ UU ℕ

/-- The region's two arrays as device buffers: the transposed table (both input windows') and the pair table. -/
abbrev v0 : DevRef τ sig := Proc.devRef .tc main_v0
abbrev v1 : DevRef τ sig := Proc.devRef .tc main_v1
/-- The two together. -/
def T2 : Finset (DevRef τ sig) := [v0, v1].toFinset

theorem T2_sub {S : Finset (DevRef τ sig)} (h0 : v0 ∈ S) (h1 : v1 ∈ S) : T2 ⊆ S := fun b hb => by
  unfold T2 at hb
  simp only [List.toFinset_cons, List.toFinset_nil, Finset.mem_insert, Finset.mem_singleton, Finset.notMem_empty, or_false,
    insert_empty_eq] at hb
  rcases hb with rfl | rfl <;> assumption

/-- The two held at a valuation, one by one. -/
theorem held2_eq (d : Dev nD) (V : Valuation τ sig (Elt F)) :
    (held (d.tc : Thread nD τ) T2 V : sProp 𝕄) = iprop(pl d main_v0 (V v0) ∗ pl d main_v1 (V v1)) := by
  unfold held T2
  rw [bigSep_eq_bigSepL_of_eq [v0, v1] rfl (by decide)]
  rfl

/-- The region's arrays out of the family, -/
theorem take2 (d : Dev nD) {S : Finset (DevRef τ sig)} (h0 : v0 ∈ S) (h1 : v1 ∈ S) (V : Valuation τ sig (Elt F)) :
    (held (d.tc : Thread nD τ) S V : sProp 𝕄)
      = iprop((pl d main_v0 (V v0) ∗ pl d main_v1 (V v1)) ∗ held (d.tc : Thread nD τ) (S \ T2) V) := by
  rw [StableHlo.held_sub_split (d.tc : Thread nD τ) (T2_sub h0 h1) V, held2_eq]

/-- and back with the pair table at new contents. -/
theorem put2 (d : Dev nD) {S : Finset (DevRef τ sig)} (h0 : v0 ∈ S) (h1 : v1 ∈ S)
    (V : Valuation τ sig (Elt F)) (T1 : Buf (Elt F) ((d.tc : Thread nD τ).loc main_v1)) :
    (iprop((pl d main_v0 (V v0) ∗ pl d main_v1 T1) ∗ held (d.tc : Thread nD τ) (S \ T2) V) : sProp 𝕄)
      = held (d.tc : Thread nD τ) S (Function.update V v1 T1) := by
  have e0 : Function.update V v1 T1 v0 = V v0 := Function.update_of_ne (by decide) ..
  have e1 : Function.update V v1 T1 v1 = T1 := Function.update_self ..
  rw [take2 d h0 h1 (Function.update V v1 T1), e0, e1]
  congr 1
  refine (StableHlo.held_congr (d.tc : Thread nD τ) fun b hb => ?_).symm
  refine Function.update_of_ne (fun e => ?_) ..
  subst e
  exact (Finset.mem_sdiff.mp hb).2 (by unfold T2; decide)

theorem fresh_A : ∀ op ∈ (opsA : List (HloOp τ sig (Elt F))), op.fresh = ∅ := fun op h => by
  obtain rfl := List.mem_singleton.mp h; rfl
theorem fresh_B : ∀ op ∈ (opsB : List (HloOp τ sig (Elt F))), op.fresh = ∅ := fun op h => by
  simp only [opsB, List.mem_cons, List.not_mem_nil, or_false] at h
  rcases h with rfl | rfl | rfl | rfl | rfl | rfl | rfl | rfl <;> rfl

/-- The valuation the front ends at, over what the region left in the pair table. -/
abbrev Vmid (V : Valuation τ sig (Elt F)) (T1 : (Proc.devRef (τ := τ) .tc main_v1).ty.Contents (Elt F)) : Valuation τ sig (Elt F) :=
  after opsB (Function.update (after opsA V) v1 T1)

variable (rdats : (p : Fin 2) → (c : Dev nD) → Pipeline.RDat τ (Elt F) (HIx 1) ℕ UU ℕ (pin (pcfgs (F := F)) MainRegion.adm p) c)

-- as the library's stretch rule: the rules stated for any thread are applied at the TensorCore's
set_option backward.isDefEq.respectTransparency.types false in
set_option maxHeartbeats 1600000 in
/-- THE FRONT: the host operation before the first region, the region, the host operations after it. `Ptab` is
    what the region's record says of the contents it leaves in the pair table (`hpost`). -/
theorem front [∀ e, Nonempty (Elt F e)]
    (R0 : Pipeline.RDat.RegionSeg (pcfgs (F := F)) MainRegion.adm rdats none (defs₀ (F := F)) 𝒱₀ (K (F := F)).L (K (F := F)).lev 0)
    (d : Dev nD) (S : Finset (DevRef τ sig)) (V : Valuation τ sig (Elt F))
    (hA : ∀ op ∈ (opsA : List (HloOp τ sig (Elt F))), op.bufs ⊆ S) (hB : ∀ op ∈ (opsB : List (HloOp τ sig (Elt F))), op.bufs ⊆ S)
    (h0 : v0 ∈ S) (h1 : v1 ∈ S)
    (Rec : Set (SemLoc sig × HIx 1)) (O : CellTallies nD τ sig (HIx 1))
    (Ptab : (Proc.devRef (τ := τ) .tc main_v1).ty.Contents (Elt F) → Prop)
    (hpre : iprop((∃ W : Waits sig (HIx 1), ⌜(↑W : Set (SemLoc sig × HIx 1)) ⊆ Rec⌝ ∗ owes (d.tc : Thread nD τ) O W)
        ∗ pl d main_v0 (after opsA V v0) ∗ pl d main_v1 (after opsA V v1))
      ⊢ R0.pre d)
    (hpost : R0.post d
      ⊢ iprop((∃ W : Waits sig (HIx 1), ⌜∀ p ∈ W, p ∈ Rec ∨ p.2 = none⌝ ∗ owes (d.tc : Thread nD τ) O W)
        ∗ pl d main_v0 (after opsA V v0) ∗ ∃ T1, ⌜Ptab T1⌝ ∗ pl d main_v1 T1))
    {α : Type} (k : PUnit → Prog (TpuEff nD τ sig (Elt F) (SparseCore.Sig (ΛP (F := F)) 1) .tc) α) (Q : α → sProp 𝕄) :
    iprop(boundary (d.tc : Thread nD τ) ∗ held (d.tc : Thread nD τ) S V
        ∗ (∃ W : Waits sig (HIx 1), ⌜(↑W : Set (SemLoc sig × HIx 1)) ⊆ Rec⌝ ∗ owes (d.tc : Thread nD τ) O W)
        ∗ levAts (K (F := F)).L (K (F := F)).lev
        ∗ Pipeline.cellsGhost (pin (pcfgs (F := F)) MainRegion.adm) EP 0 d ∗ Pipeline.toksInit (pin (pcfgs (F := F)) MainRegion.adm) EP 0 d
        ∗ (∀ T1, iprop(⌜Ptab T1⌝ ∗ boundary (d.tc : Thread nD τ) ∗ held (d.tc : Thread nD τ) S (Vmid V T1)
              ∗ ∃ W : Waits sig (HIx 1), ⌜∀ p ∈ W, p ∈ Rec ∨ p.2 = none⌝ ∗ owes (d.tc : Thread nD τ) O W)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (seq opsA >>= fun _ => region 0 >>= fun _ => seq opsB >>= k) Q := by
  iintro ⟨Hb, Hh, HO, Hlv, Hg, Ht, Hk⟩
  iapply (wp_seq 𝒱 none Set.univ d S _ opsA hA fresh_A V) $$ [Hb Hh]
  · isplitl [Hb]; · iexact Hb
    iexact Hh
  iintro ⟨Hb, Hh⟩
  ihave Hh' := (Entails.of_eq (take2 d h0 h1 (after opsA V))) $$ Hh
  icases Hh' with ⟨H2, Hrest⟩
  iapply (MainRegion.wp_region rdats R0 d (fun _ => seq opsB >>= k) Q)
  isplitl [Hk Hrest]
  · iintro ⟨Hb, Hpost⟩
    ihave Hp := hpost $$ Hpost
    icases Hp with ⟨HO, H0, ⟨%T1, %hT1, H1⟩⟩
    ihave Hh := (Entails.of_eq (put2 d h0 h1 (after opsA V) T1)) $$ [H0 H1 Hrest]
    · isplitl [H0 H1]
      · isplitl [H0]; · iexact H0
        iexact H1
      iexact Hrest
    iapply (wp_seq 𝒱 none Set.univ d S _ opsB hB fresh_B (Function.update (after opsA V) v1 T1)) $$ [Hb Hh]
    · isplitl [Hb]; · iexact Hb
      iexact Hh
    iintro ⟨Hb, Hh⟩
    iapply Hk
    isplitr; · ipureintro; exact hT1
    isplitl [Hb]; · iexact Hb
    isplitl [Hh]; · iexact Hh
    iexact HO
  isplitl [Hb]; · iexact Hb
  isplitl [HO H2]
  · iapply hpre
    isplitl [HO]; · iexact HO
    iexact H2
  isplitl [Hlv]; · iexact Hlv
  isplitl [Hg]; · iexact Hg
  iexact Ht

/-! ## What the front's valuation holds -/

/-- The three arguments are as before the front. -/
theorem Vmid_arg0 (V : Valuation τ sig (Elt F)) (T1) : Vmid V T1 (Proc.devRef .tc main_arg0) = V (Proc.devRef .tc main_arg0) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]
theorem Vmid_arg1 (V : Valuation τ sig (Elt F)) (T1) : Vmid V T1 (Proc.devRef .tc main_arg1) = V (Proc.devRef .tc main_arg1) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]
theorem Vmid_arg2 (V : Valuation τ sig (Elt F)) (T1) : Vmid V T1 (Proc.devRef .tc main_arg2) = V (Proc.devRef .tc main_arg2) := by
  unfold Vmid
  rw [StableHlo.after_of_writes_sub (W := [main_c, main_v2, main_v3, main_c_0, main_v4, main_v5, main_v6, main_v7]) opsB _ (by simp [opsB]) (by decide),
    Function.update_of_ne (StableHlo.devRef_ne_of_ne (by decide)),
    StableHlo.after_of_writes_sub (W := [main_v0]) opsA _ (by simp [opsA]) (by decide)]

/-- The pair table is what the region left. -/
theorem Vmid_v1 (V : Valuation τ sig (Elt F)) (T1) : Vmid V T1 v1 = T1 := by
  unfold Vmid
  rw [StableHlo.after_of_writes_sub (W := [main_c, main_v2, main_v3, main_c_0, main_v4, main_v5, main_v6, main_v7]) opsB _ (by simp [opsB]) (by decide),
    Function.update_self]

/-- What the region finds in its two arrays: the table's source transposed, the pair table as the stretch found it. -/
theorem afterA_v0 (V : Valuation τ sig (Elt F)) :
    after opsA V v0 = transpose S64x100000 [1, 0] (V (Proc.devRef .tc main_arg1)) transposes_S100000x64_S64x100000_1_0 := by
  after_results
theorem afterA_v1 (V : Valuation τ sig (Elt F)) : after opsA V v1 = V v1 :=
  StableHlo.after_of_writes_sub (W := [main_v0]) opsA _ (by simp [opsA]) (by decide)

end Cert.Kernel.MainFront

end
-- ==== Proof.Bits.MainTail.lean ====
/-
  The tail of @main on the TensorCore: the host operations after the SparseCore call (the high bit as a column,
  the weights transposed), the second region, and the last host operation (the result transposed), run from the
  TensorCore's arrays held as one family at a valuation, the core's dues with the bound on its recorded waits, the
  level facts and the second pipeline's ghost state — all given back, the family at the valuation the three
  stretches compute: the host operations' results over what the region left in its result array.
-/
import proofs.«218855_g90357521973776_cont_sun_m_356_26_alg».proof.Proof.Bits.MainHeld
import proofs.«218855_g90357521973776_cont_sun_m_356_26_alg».proof.Proof.Bits.MainRegion
import proofs.«218855_g90357521973776_cont_sun_m_356_26_alg».proof.Proof.Bits.RegionRec2

noncomputable section

namespace Cert.Kernel.MainTail

open Cert.Kernel Cert.Kernel.Gen Cert.Kernel.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.MainOps
open Cert.Kernel.RegionRec2 (pl)
open Idealize.ShloMosaic.StableHlo (seq after held wp_seq)
open Idealize.ShloMosaic.Pipeline (pin)

variable {F : FTy → Type} [FloatOps F]

local notation "𝕄" => MT nD τ sig (HIx 1) (Elt F) ℕ UU ℕ

/-- The region's four arrays as device buffers. -/
abbrev v13 : DevRef τ sig := Proc.devRef .tc main_v13
abbrev v8 : DevRef τ sig := Proc.devRef .tc main_v8
abbrev v12 : DevRef τ sig := Proc.devRef .tc main_v12
abbrev v14 : DevRef τ sig := Proc.devRef .tc main_v14
/-- The four together. -/
def T4 : Finset (DevRef τ sig) := [v13, v8, v12, v14].toFinset

theorem T4_sub {S : Finset (DevRef τ sig)} (h13 : v13 ∈ S) (h8 : v8 ∈ S) (h12 : v12 ∈ S) (h14 : v14 ∈ S) : T4 ⊆ S := fun b hb => by
  unfold T4 at hb
  simp only [List.toFinset_cons, List.toFinset_nil, Finset.mem_insert, Finset.mem_singleton, Finset.notMem_empty, or_false,
    insert_empty_eq] at hb
  rcases hb with rfl | rfl | rfl | rfl <;> assumption

/-- The four held at a valuation, one by one. -/
theorem held4_eq (d : Dev nD) (V : Valuation τ sig (Elt F)) :
    (held (d.tc : Thread nD τ) T4 V : sProp 𝕄)
      = iprop(pl d main_v13 (V v13) ∗ pl d main_v8 (V v8) ∗ pl d main_v12 (V v12) ∗ pl d main_v14 (V v14)) := by
  unfold held T4
  rw [bigSep_eq_bigSepL_of_eq [v13, v8, v12, v14] rfl (by decide)]
  rfl

/-- The region's arrays out of the family, -/
theorem take4 (d : Dev nD) {S : Finset (DevRef τ sig)} (h13 : v13 ∈ S) (h8 : v8 ∈ S) (h12 : v12 ∈ S) (h14 : v14 ∈ S)
    (V : Valuation τ sig (Elt F)) :
    (held (d.tc : Thread nD τ) S V : sProp 𝕄)
      = iprop((pl d main_v13 (V v13) ∗ pl d main_v8 (V v8) ∗ pl d main_v12 (V v12) ∗ pl d main_v14 (V v14))
          ∗ held (d.tc : Thread nD τ) (S \ T4) V) := by
  rw [StableHlo.held_sub_split (d.tc : Thread nD τ) (T4_sub h13 h8 h12 h14) V, held4_eq]

/-- and back with the result array at new contents. -/
theorem put4 (d : Dev nD) {S : Finset (DevRef τ sig)} (h13 : v13 ∈ S) (h8 : v8 ∈ S) (h12 : v12 ∈ S) (h14 : v14 ∈ S)
    (V : Valuation τ sig (Elt F)) (G : Buf (Elt F) ((d.tc : Thread nD τ).loc main_v14)) :
    (iprop((pl d main_v13 (V v13) ∗ pl d main_v8 (V v8) ∗ pl d main_v12 (V v12) ∗ pl d main_v14 G)
        ∗ held (d.tc : Thread nD τ) (S \ T4) V) : sProp 𝕄)
      = held (d.tc : Thread nD τ) S (Function.update V v14 G) := by
  have e13 : Function.update V v14 G v13 = V v13 := Function.update_of_ne (by decide) ..
  have e8 : Function.update V v14 G v8 = V v8 := Function.update_of_ne (by decide) ..
  have e12 : Function.update V v14 G v12 = V v12 := Function.update_of_ne (by decide) ..
  have e14 : Function.update V v14 G v14 = G := Function.update_self ..
  rw [take4 d h13 h8 h12 h14 (Function.update V v14 G), e13, e8, e12, e14]
  congr 1
  refine (StableHlo.held_congr (d.tc : Thread nD τ) fun b hb => ?_).symm
  refine Function.update_of_ne (fun e => ?_) ..
  subst e
  exact (Finset.mem_sdiff.mp hb).2 (by unfold T4; decide)

theorem fresh_C : ∀ op ∈ (opsC : List (HloOp τ sig (Elt F))), op.fresh = ∅ := fun op h => by
  simp only [opsC, List.mem_cons, List.not_mem_nil, or_false] at h
  rcases h with rfl | rfl | rfl | rfl | rfl | rfl <;> rfl
theorem fresh_D : ∀ op ∈ (opsD : List (HloOp τ sig (Elt F))), op.fresh = ∅ := fun op h => by
  obtain rfl := List.mem_singleton.mp h; rfl

/-- The valuation the tail ends at, over what the region left in its result array. -/
abbrev Vend (V : Valuation τ sig (Elt F)) (G : (Proc.devRef (τ := τ) .tc main_v14).ty.Contents (Elt F)) : Valuation τ sig (Elt F) :=
  after opsD (Function.update (after opsC V) v14 G)

variable (rdats : (p : Fin 2) → (c : Dev nD) → Pipeline.RDat τ (Elt F) (HIx 1) ℕ UU ℕ (pin (pcfgs (F := F)) MainRegion.adm p) c)

-- as the library's stretch rule: the rules stated for any thread are applied at the TensorCore's
set_option backward.isDefEq.respectTransparency.types false in
set_option maxHeartbeats 1600000 in
/-- THE TAIL: the host operations after the SparseCore call, the second region, the last host operation. `Pout` is
    what the region's record says of the contents it leaves in its result array (`hpost`). -/
theorem tail [∀ e, Nonempty (Elt F e)]
    (R2 : Pipeline.RDat.RegionSeg (pcfgs (F := F)) MainRegion.adm rdats none (defs₀ (F := F)) 𝒱₀ (K (F := F)).L (K (F := F)).lev 1)
    (d : Dev nD) (S : Finset (DevRef τ sig)) (V : Valuation τ sig (Elt F))
    (hC : ∀ op ∈ (opsC : List (HloOp τ sig (Elt F))), op.bufs ⊆ S) (hD : ∀ op ∈ (opsD : List (HloOp τ sig (Elt F))), op.bufs ⊆ S)
    (h13 : v13 ∈ S) (h8 : v8 ∈ S) (h12 : v12 ∈ S) (h14 : v14 ∈ S)
    (Rec : Set (SemLoc sig × HIx 1)) (O : CellTallies nD τ sig (HIx 1))
    (Pout : (Proc.devRef (τ := τ) .tc main_v14).ty.Contents (Elt F) → Prop)
    (hpre : iprop((∃ W : Waits sig (HIx 1), ⌜(↑W : Set (SemLoc sig × HIx 1)) ⊆ Rec⌝ ∗ owes (d.tc : Thread nD τ) O W)
        ∗ pl d main_v13 (after opsC V v13) ∗ pl d main_v8 (after opsC V v8) ∗ pl d main_v12 (after opsC V v12) ∗ pl d main_v14 (after opsC V v14))
      ⊢ R2.pre d)
    (hpost : R2.post d
      ⊢ iprop((∃ W : Waits sig (HIx 1), ⌜∀ p ∈ W, p ∈ Rec ∨ p.2 = none⌝ ∗ owes (d.tc : Thread nD τ) O W)
        ∗ pl d main_v13 (after opsC V v13) ∗ pl d main_v8 (after opsC V v8) ∗ pl d main_v12 (after opsC V v12)
        ∗ ∃ G, ⌜Pout G⌝ ∗ pl d main_v14 G))
    {α : Type} (k : PUnit → Prog (TpuEff nD τ sig (Elt F) (SparseCore.Sig (ΛP (F := F)) 1) .tc) α) (Q : α → sProp 𝕄) :
    iprop(boundary (d.tc : Thread nD τ) ∗ held (d.tc : Thread nD τ) S V
        ∗ (∃ W : Waits sig (HIx 1), ⌜(↑W : Set (SemLoc sig × HIx 1)) ⊆ Rec⌝ ∗ owes (d.tc : Thread nD τ) O W)
        ∗ levAts (K (F := F)).L (K (F := F)).lev
        ∗ Pipeline.cellsGhost (pin (pcfgs (F := F)) MainRegion.adm) EP 1 d ∗ Pipeline.toksInit (pin (pcfgs (F := F)) MainRegion.adm) EP 1 d
        ∗ (∀ G, iprop(⌜Pout G⌝ ∗ boundary (d.tc : Thread nD τ) ∗ held (d.tc : Thread nD τ) S (Vend V G)
              ∗ ∃ W : Waits sig (HIx 1), ⌜∀ p ∈ W, p ∈ Rec ∨ p.2 = none⌝ ∗ owes (d.tc : Thread nD τ) O W)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (seq opsC >>= fun _ => region 1 >>= fun _ => seq opsD >>= k) Q := by
  iintro ⟨Hb, Hh, HO, Hlv, Hg, Ht, Hk⟩
  iapply (wp_seq 𝒱 none Set.univ d S _ opsC hC fresh_C V) $$ [Hb Hh]
  · isplitl [Hb]; · iexact Hb
    iexact Hh
  iintro ⟨Hb, Hh⟩
  ihave Hh' := (Entails.of_eq (take4 d h13 h8 h12 h14 (after opsC V))) $$ Hh
  icases Hh' with ⟨H4, Hrest⟩
  iapply (MainRegion.wp_region rdats R2 d (fun _ => seq opsD >>= k) Q)
  isplitl [Hk Hrest]
  · iintro ⟨Hb, Hpost⟩
    ihave Hp := hpost $$ Hpost
    icases Hp with ⟨HO, H13, H8, H12, ⟨%G, %hG, H14⟩⟩
    ihave Hh := (Entails.of_eq (put4 d h13 h8 h12 h14 (after opsC V) G)) $$ [H13 H8 H12 H14 Hrest]
    · isplitl [H13 H8 H12 H14]
      · isplitl [H13]; · iexact H13
        isplitl [H8]; · iexact H8
        isplitl [H12]; · iexact H12
        iexact H14
      iexact Hrest
    iapply (wp_seq 𝒱 none Set.univ d S _ opsD hD fresh_D (Function.update (after opsC V) v14 G)) $$ [Hb Hh]
    · isplitl [Hb]; · iexact Hb
      iexact Hh
    iintro ⟨Hb, Hh⟩
    iapply Hk
    isplitr; · ipureintro; exact hG
    isplitl [Hb]; · iexact Hb
    isplitl [Hh]; · iexact Hh
    iexact HO
  isplitl [Hb]; · iexact Hb
  isplitl [HO H4]
  · iapply hpre
    isplitl [HO]; · iexact HO
    iexact H4
  isplitl [Hlv]; · iexact Hlv
  isplitl [Hg]; · iexact Hg
  iexact Ht

/-! ## What the tail's valuation holds -/

/-- The three arguments are as before the tail. -/
theorem Vend_arg0 (V : Valuation τ sig (Elt F)) (G) : Vend V G (Proc.devRef .tc main_arg0) = V (Proc.devRef .tc main_arg0) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

theorem Vend_arg1 (V : Valuation τ sig (Elt F)) (G) : Vend V G (Proc.devRef .tc main_arg1) = V (Proc.devRef .tc main_arg1) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

theorem Vend_arg2 (V : Valuation τ sig (Elt F)) (G) : Vend V G (Proc.devRef .tc main_arg2) = V (Proc.devRef .tc main_arg2) := by
  unfold Vend
  rw [StableHlo.after_of_writes_sub (W := [main_v15]) opsD _ (by simp [opsD, StableHlo.unary_writes]) (by decide),
    Function.update_of_ne (StableHlo.devRef_ne_of_ne (by decide)),
    StableHlo.after_of_writes_sub (W := [main_c_1, main_v9, main_v10, main_v11, main_v12, main_v13]) opsC _ (by simp [opsC]) (by decide)]

/-- The program's result is the transpose of what the region left in its result array. -/
theorem Vend_v15 (V : Valuation τ sig (Elt F)) (G) :
    Vend V G (Proc.devRef .tc main_v15) = transpose S1024x100000 [1, 0] G transposes_S100000x1024_S1024x100000_1_0 := by
  unfold Vend
  after_results
  rw [Function.update_self]

/-- What the region finds in its four arrays: the weights transposed, the gathered pair rows and the result array
    as the stretch found them, the high bit of each index as a column. -/
theorem afterC_v13 (V : Valuation τ sig (Elt F)) :
    after opsC V v13 = transpose S64x100000 [1, 0] (V (Proc.devRef .tc main_arg2)) transposes_S100000x64_S64x100000_1_0 := by
  after_results
theorem afterC_v8 (V : Valuation τ sig (Elt F)) : after opsC V v8 = V v8 :=
  StableHlo.after_of_writes_sub (W := [main_c_1, main_v9, main_v10, main_v11, main_v12, main_v13]) opsC _ (by simp [opsC]) (by decide)
theorem afterC_v14 (V : Valuation τ sig (Elt F)) : after opsC V v14 = V v14 :=
  StableHlo.after_of_writes_sub (W := [main_c_1, main_v9, main_v10, main_v11, main_v12, main_v13]) opsC _ (by simp [opsC]) (by decide)

end Cert.Kernel.MainTail

end
-- ==== Proof.Bits.MainCall.lean ====
/-
  The SparseCore call's step of @main: the table, the physical indices and the gathered array go to SparseCore 0's
  sequencer and the indices and the gathered rows come back; the table is not needed again.
-/
import proofs.«218855_g90357521973776_cont_sun_m_356_26_alg».proof.Proof.Bits.Setup
import proofs.«218855_g90357521973776_cont_sun_m_356_26_alg».proof.Proof.Bits.MainLaunch
import proofs.«218855_g90357521973776_cont_sun_m_356_26_alg».proof.Proof.Bits.MainHeld

noncomputable section

namespace Cert.Kernel.MainCall

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.MainOps Cert.Kernel.MainHeld Cert.Kernel.MainRegion Cert.Kernel.MainLaunch
open Cert.Kernel.TileBody Cert.Kernel.ScPay
open Idealize.ShloMosaic.StableHlo (seq after held wp_seq)

variable [FloatOps F]
variable (ph : (d : Dev nD) → Buf (Elt F) (idxLoc d)) (Tab : (d : Dev nD) → Buf (Elt F) (tabLoc d) → Prop)

abbrev v1' : DevRef τ sig := Proc.devRef .tc main_v1
abbrev v7' : DevRef τ sig := Proc.devRef .tc main_v7
abbrev v8' : DevRef τ sig := Proc.devRef .tc main_v8

/-- Over the call's two SparseCores the operands are SparseCore 0's, -/
theorem st0_eq (d : Dev nD) :
    (bigSep Finset.univ fun c : Fin ((K (F := F)).nCore 0) => (P ph Tab).st 0 d c) = stRes ph Tab d := by
  refine (bigSep_univ_eq_bigSepL [(0 : Fin 2), (1 : Fin 2)] (by decide) (by decide) _).trans ?_
  show (iprop((if ((0 : Fin 2)).val = 0 then stRes ph Tab d else iprop(emp)) ∗ (if ((1 : Fin 2)).val = 0 then stRes ph Tab d else iprop(emp))) : sProp 𝕄) = _
  rw [if_pos (show ((0 : Fin 2)).val = 0 from rfl), if_neg (show ¬ ((1 : Fin 2)).val = 0 by decide)]
  exact BI.equiv_iff.mp sep_emp

/-- and so are the results. -/
theorem dn0_eq (d : Dev nD) :
    (bigSep Finset.univ fun c : Fin ((K (F := F)).nCore 0) => (P ph Tab).dn 0 d c) = dnRes ph Tab d := by
  refine (bigSep_univ_eq_bigSepL [(0 : Fin 2), (1 : Fin 2)] (by decide) (by decide) _).trans ?_
  show (iprop((if ((0 : Fin 2)).val = 0 then dnRes ph Tab d else iprop(emp)) ∗ (if ((1 : Fin 2)).val = 0 then dnRes ph Tab d else iprop(emp))) : sProp 𝕄) = _
  rw [if_pos (show ((0 : Fin 2)).val = 0 from rfl), if_neg (show ¬ ((1 : Fin 2)).val = 0 by decide)]
  exact BI.equiv_iff.mp sep_emp

/-- The call, at the head of the rest of @main. -/
theorem call_step (κ : GSem nD τ sig → ℕ) (d : Dev nD) (S : Finset (DevRef τ sig)) (V : Valuation τ sig (Elt F))
    (h1 : v1' ∈ S) (h7 : v7' ∈ S.erase v1') (h8 : v8' ∈ (S.erase v1').erase v7')
    (hph : V v7' = ph d) (hTab : Tab d (V v1'))
    {α : Type} (k : PUnit → Prog (TpuEff nD τ sig (Elt F) (SparseCore.Sig (ΛP (F := F)) 1) .tc) α) (Q : α → sProp 𝕄) :
    (iprop((K (F := F)).ctx EH (P ph Tab) κ ∗ (K (F := F)).tcSt EH d 0 ∗ held (T d) S V
        ∗ (∀ f, iprop(⌜∀ r, Gath ph Tab d f r⌝ ∗ (K (F := F)).tcSt EH d 1 ∗ held (T d) (S.erase v1') (Function.update V v8' f))
            -∗ wp frame (wpE ((K (F := F)).defs (D (F := F))) 𝒱 (T d) none) Set.univ (k ⟨⟩) Q)) : sProp 𝕄)
      ⊢ wp frame (wpE ((K (F := F)).defs (D (F := F))) 𝒱 (T d) none) Set.univ ((K (F := F)).run d 0 >>= k) Q := by
  rw [wp_bind, held_take d V h1, held_take d V h7, held_take d V h8]
  iintro ⟨#Hctx, Hst, ⟨Ht, Hi, Ho, Hrest⟩, Hk⟩
  iapply ((K (F := F)).wp_run (D (F := F)) 𝒱 (EH := EH) (P := P ph Tab) κ d 0)
  isplitr; · iexact Hctx
  isplitl [Hst]; · iexact Hst
  isplitl [Ht Hi Ho]
  · rw [st0_eq]
    isplitl [Ht]
    · iexists (V v1'); isplitr
      · ipureintro; exact hTab
      · iexact Ht
    isplitl [Hi]
    · rw [← hph]; iexact Hi
    iexists (V v8'); iexact Ho
  iintro ⟨Hst, Hdn⟩
  ihave Hdn' := (Entails.of_eq (dn0_eq ph Tab d)) $$ Hdn
  icases Hdn' with ⟨Hi, %f, %hf, Ho⟩
  iapply Hk
  isplitr; · ipureintro; exact hf
  isplitl [Hst]; · iexact Hst
  ihave H8 := (Entails.of_eq (held_put d V h8 f)) $$ [Ho Hrest]
  · isplitl [Ho]; · iexact Ho
    iexact Hrest
  iapply (Entails.of_eq (held_take d (Function.update V v8' f) h7).symm)
  isplitl [Hi]
  · rw [Function.update_of_ne (show v7' ≠ v8' by decide), hph]; iexact Hi
  iexact H8

end Cert.Kernel.MainCall

end
-- ==== Proof.Bits.Region0.lean ====
/-
  The first TensorCore region (the transposing pallas_call, pipeline 0): its proof data over relational
  staging contents, its body obligation, and what its arrays hold at entry and at exit.
  Everything here is generic in the float instance.
-/
import proofs.«218855_g90357521973776_cont_sun_m_356_26_alg».proof.Proof.Bits.Setup
import proofs.«218855_g90357521973776_cont_sun_m_356_26_alg».proof.Proof.Gen.Kernel.Points
import proofs.«218855_g90357521973776_cont_sun_m_356_26_alg».proof.Proof.Gen.Kernel.Skeleton
import Idealize.ShloMosaic.Lib.Pipeline.FrameBody
import Idealize.ShloMosaic.Lib.Pipeline.Value
import Idealize.ShloMosaic.Lib.ValueIdx

noncomputable section

namespace Cert.Kernel.Region0

open Cert.Kernel Cert.Kernel.Gen Cert.Kernel.Setup

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

/-- The one admissible (empty) prefetch contents of each pipeline. -/
abbrev adm : (p : Fin 2) → (pcfgs (F := F) p).Adm := fun p => (cfgs p).toPCfg_adm

/-! ## The proof data -/

section Data

variable (c : Dev nD) (V : (b : Ref sig .tc) → Buf (Elt F) ((c : Thread nD τ).loc b))

/-- The a block (column block t of the transposed table) as the fetch at point t leaves it in a staging
    buffer that held d: the block's columns inside the array, d elsewhere. -/
def ablk (t : Fin cfg0.N) (d : S64x16384.Idx → Elt F .f32) : S64x16384.Idx → Elt F .f32 :=
  win0_0.fill (grid0.coords t) d ((win0_0.blk t).view.read (Elt F) (V main_v0))

/-- The b block (column block min (t + 4) 6) likewise: at the last block only the first 1696 columns are
    the array's, the rest is d. -/
def bblk (t : Fin cfg0.N) (d : S64x16384.Idx → Elt F .f32) : S64x16384.Idx → Elt F .f32 :=
  win0_1.fill (grid0.coords t) d ((win0_1.blk t).view.read (Elt F) (V main_v0))

/-- The proof data of pipeline 0 on device c: both input windows read the transposed table and are left
    as found; the output's staging buffer is left at the concatenated transposes of some a block and
    some b block as fetched at that point (the filler words past the table's end are not named);
    the invariant Rinv carried unchanged; the tallies O owed throughout, the recorded pairs within Rec
    (the body records none). -/
def rdat0 (q : Fin 3 → PosShare TreeShare) (O : CellTallies nD τ sig (HIx 1)) (Rinv : sProp 𝕄)
    (Rec : Set (SemLoc sig × HIx 1)) :
    RDat τ (Elt F) (HIx 1) ℕ UU ℕ cfg0 c where
  A w := V (Pipeline.arrRef spec0 w)
  after w t := match w with
    | ⟨0, _⟩ => fun Y X => X = Y
    | ⟨1, _⟩ => fun Y X => X = Y
    | ⟨2, _⟩ => fun _ X => ∃ da db, X = k0_pay1 (ablk c V t da) (bblk c V t db)
  Φ _ := Rinv
  q := q
  owed _ := O
  recorded _ := Rec

end Data

/-! ## The kernel body's run -/

set_option maxHeartbeats 1600000 in
/-- The kernel body on staging buffers s0 of the a window, s1 of the b window and s2 of the output's: the whole
    loads of the two input buffers, the dead load of the output's, the whole store — the output's buffer ends
    holding the payload of what the other two hold, those unchanged. -/
theorem sound_body (c : Dev nD) (E : Set ℕ) (i : grid0.Coords) (s0 s1 s2 : Fin 2)
    (X0 X1 : S64x16384.Idx → Elt F .f32) (X2 : S16384x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0_tp_kernel i (stage0_0 s0) (hstage0_0 s0) (stage0_1 s1) (hstage0_1 s1) (stage0_2 s2) (hstage0_2 s2)) K := by
  -- the accesses are at offsets zero and the buffers' own sizes, the whole buffers: a load reads the contents, an
  -- unmasked store writes the payload, at whichever of its window's two buffers each memref is
  have hz : (![0, 0] : Fin 2 → Nat) = fun _ => 0 := funext fun a => by fin_cases a <;> rfl
  fin_cases s0 <;> fin_cases s1 <;> fin_cases s2
  · -- the a window's buffer cc0_stg0_0, the b window's cc0_stg1_0, the output's cc0_stg2_0
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_0, the output's cc0_stg2_1
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_1, the output's cc0_stg2_0
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_0, the b window's cc0_stg1_1, the output's cc0_stg2_1
    have hr0 : (Memref.whole cc0_stg0_0 : Memref sig .tc _ _ _).view.readAt (Elt F) (Rect.unit (s := S64x16384) ![0, 0] S64x16384.size
        inb_S64x16384_S64x16384_0_0).toLoadRect = id := funext (Memref.readAt_unit_zero (Elt F) cc0_stg0_0 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_0, the output's cc0_stg2_0
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_0, the output's cc0_stg2_1
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_0 : Memref sig .tc _ _ _).view.readAt (Elt F) (Rect.unit (s := S64x16384) ![0, 0] S64x16384.size
        inb_S64x16384_S64x16384_0_0).toLoadRect = id := funext (Memref.readAt_unit_zero (Elt F) cc0_stg1_0 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_1, the output's cc0_stg2_0
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_0).access (Rect.unit (s := S16384x128) ![0, 0] S16384x128.size inb_S16384x128_S16384x128_0_0)) :
        View sig .tc _ _ _).write (Elt F) f w Finset.univ = w := Memref.write_access_unit_zero_univ (Elt F) cc0_stg2_0 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · -- the a window's buffer cc0_stg0_1, the b window's cc0_stg1_1, the output's cc0_stg2_1
    have hr0 : (Memref.whole cc0_stg0_1 : Memref sig .tc _ _ _).view.readAt (Elt F) (Rect.unit (s := S64x16384) ![0, 0] S64x16384.size
        inb_S64x16384_S64x16384_0_0).toLoadRect = id := funext (Memref.readAt_unit_zero (Elt F) cc0_stg0_1 hz _)
    have hr1 : (Memref.whole cc0_stg1_1 : Memref sig .tc _ _ _).view.readAt (Elt F) (Rect.unit (s := S64x16384) ![0, 0] S64x16384.size
        inb_S64x16384_S64x16384_0_0).toLoadRect = id := funext (Memref.readAt_unit_zero (Elt F) cc0_stg1_1 hz _)
    have hw2 : ∀ f w, (((Memref.whole cc0_stg2_1).access (Rect.unit (s := S16384x128) ![0, 0] S16384x128.size inb_S16384x128_S16384x128_0_0)) :
        View sig .tc _ _ _).write (Elt F) f w Finset.univ = w := Memref.write_access_unit_zero_univ (Elt F) cc0_stg2_1 hz _
    simp only [owns_whole_eq, cc0_tp_kernel_eq_skeleton]; unfold cc0_tp_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-! ## What the body finds in the input buffers -/

section Obligation

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

theorem fetched_0 (t : Fin cfg0.N) (d) : (rdat0 c V q O Rinv Rec).fetched (0 : Fin 3) t d = ablk c V t d := rfl
theorem fetched_1 (t : Fin cfg0.N) (d) : (rdat0 c V q O Rinv Rec).fetched (1 : Fin 3) t d = bblk c V t d := rfl

/-- The a window's relation leaves the buffer as found and its cuts are a function of the block index: wherever
    the body is handed the buffer it holds the block of that point as a fetch leaves it. -/
theorem finds_0 (t : Fin cfg0.N) (Y : S64x16384.Idx → Elt F .f32) (h : (rdat0 c V q O Rinv Rec).Finds (0 : Fin 3) t Y) :
    ∃ d, Y = ablk c V t d :=
  (rdat0 c V q O Rinv Rec).finds_in_eq_fetched (0 : Fin 3) rfl
    (fun t t' h => funext fun a => by
      show Pipeline.Clip.of (cc0_transform_0 (grid0.coords t) a) _ _ = Pipeline.Clip.of (cc0_transform_0 (grid0.coords t') a) _ _
      rw [show cc0_transform_0 (grid0.coords t) a = cc0_transform_0 (grid0.coords t') a from congrFun h a])
    (fun _ _ _ h => h) t Y h

/-- The b window likewise: at the last point, which does not fetch it, it still holds the last block. -/
theorem finds_1 (t : Fin cfg0.N) (Y : S64x16384.Idx → Elt F .f32) (h : (rdat0 c V q O Rinv Rec).Finds (1 : Fin 3) t Y) :
    ∃ d, Y = bblk c V t d :=
  (rdat0 c V q O Rinv Rec).finds_in_eq_fetched (1 : Fin 3) rfl
    (fun t t' h => funext fun a => by
      show Pipeline.Clip.of (cc0_transform_1 (grid0.coords t) a) _ _ = Pipeline.Clip.of (cc0_transform_1 (grid0.coords t') a) _ _
      rw [show cc0_transform_1 (grid0.coords t) a = cc0_transform_1 (grid0.coords t') a from congrFun h a])
    (fun _ _ _ h => h) t Y h

/-! ## The body obligation -/

/-- At every point: the two input buffers come back as handed over, the output's at the payload of the two. -/
theorem body_obligation : (rdat0 c V q O Rinv Rec).BodyObligation (defs₀ (F := F)) 𝒱₀ none Set.univ := fun t Y hY => by
  obtain ⟨da, hda⟩ := finds_0 c V q O Rinv Rec t (Y 0) (hY 0)
  obtain ⟨db, hdb⟩ := finds_1 c V q O Rinv Rec t (Y 1) (hY 1)
  rw [bigSep_W0, bigSep_W0]
  simp only
  rw [show (rdat0 c V q O Rinv Rec).Φ t.succ = (rdat0 c V q O Rinv Rec).Φ t.castSucc from rfl,
    show (rdat0 c V q O Rinv Rec).owesAt none t.succ = (rdat0 c V q O Rinv Rec).owesAt none t.castSucc from rfl]
  iintro ⟨HΦ, Ho, H0, H1, H2⟩
  iapply (sound_body (F := F) c Set.univ (grid0.coords t) (cfg0.slots t 0) (cfg0.slots t 1) (cfg0.slots t 2) (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr
    · ipureintro; exact (rfl : Y 0 = Y 0)
    iexact H0
  isplitl [H1]
  · iexists Y 1; isplitr
    · ipureintro; exact (rfl : Y 1 = Y 1)
    iexact H1
  · iexists k0_pay1 (Y 0) (Y 1); isplitr
    · ipureintro
      exact (show ∃ da db, k0_pay1 (Y 0) (Y 1) = k0_pay1 (ablk c V t da) (bblk c V t db) from
        ⟨da, db, congr (congrArg (k0_pay1 (F := F)) hda) hdb⟩)
    iexact H2

end Obligation

/-! ## The wait evidence: the pipeline's cells sit at index none, below everything the TensorCore owes -/

/-- For any family of proof data whose pipeline 0 on device c owes O throughout, nothing of it at index none: the
    TensorCore may wait on each of the pipeline's cells at index none. -/
theorem hwaits0 (rdats : (p : Fin 2) → (c : Dev nD) → RDat τ (Elt F) (HIx 1) ℕ UU ℕ (Pipeline.pin (pcfgs (F := F)) adm p) c)
    (c : Dev nD) (O : CellTallies nD τ sig (HIx 1)) (hO : ∀ g, O g none = 0) (howed : ∀ t, (rdats 0 c).owed t = O)
    (lv : GSem nD τ sig → HIx 1 → ℕ) (hlv : (K (F := F)).Refines lv) :
    (levAts (K (F := F)).L lv : sProp 𝕄) ⊢ Pipeline.RDat.cellsWaits (Pipeline.pin (pcfgs (F := F)) adm) rdats none 0 c :=
  Pipeline.RDat.cellsWaits_intro (Pipeline.pin (pcfgs (F := F)) adm) rdats none 0 c fun w s t => by
    rw [howed t]; exact (K (F := F)).mayWait_none _ hO lv hlv

/-! ## The arrays at entry and at exit -/

section Arrays

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

theorem A_0 : (rdat0 c V q O Rinv Rec).A (0 : Fin 3) = V main_v0 := rfl
theorem A_1 : (rdat0 c V q O Rinv Rec).A (1 : Fin 3) = V main_v0 := rfl
theorem A_2 : (rdat0 c V q O Rinv Rec).A (2 : Fin 3) = V main_v1 := rfl
theorem owed_eq (t) : (rdat0 c V q O Rinv Rec).owed t = O := rfl
theorem recorded_eq (t) : (rdat0 c V q O Rinv Rec).recorded t = Rec := rfl
theorem Φ_eq (t) : (rdat0 c V q O Rinv Rec).Φ t = Rinv := rfl
theorem share_0 : (rdat0 c V q O Rinv Rec).share (0 : Fin 3) = q 0 := rfl
theorem share_1 : (rdat0 c V q O Rinv Rec).share (1 : Fin 3) = q 1 := rfl
theorem share_2 : (rdat0 c V q O Rinv Rec).share (2 : Fin 3) = fullShare := rfl

/-- The windows' arrays at entry: the transposed table twice, at the two input windows' shares, and the
    output array outright. -/
theorem arrays_entry :
    (rdat0 c V q O Rinv Rec).arrays (rdat0 c V q O Rinv Rec).A
      = (iprop((((c : Thread nD τ).loc main_v0) ↦{q 0} V main_v0) ∗ (((c : Thread nD τ).loc main_v0) ↦{q 1} V main_v0)
          ∗ (((c : Thread nD τ).loc main_v1) ↦{fullShare} V main_v1)) : sProp 𝕄) := by
  unfold RDat.arrays; rw [bigSep_W0]
  show (iprop((((c : Thread nD τ).loc main_v0) ↦[(View.whole main_v0).set]{q 0} V main_v0)
      ∗ (((c : Thread nD τ).loc main_v0) ↦[(View.whole main_v0).set]{q 1} V main_v0)
      ∗ (((c : Thread nD τ).loc main_v1) ↦[(View.whole main_v1).set]{fullShare} V main_v1)) : sProp 𝕄) = _
  rw [View.set_whole, View.set_whole]

/-- The input windows' array is never written: -/
theorem ArrAt_0 (n : Nat) : (rdat0 c V q O Rinv Rec).ArrAt (0 : Fin 3) n = fun G => G = V main_v0 :=
  (rdat0 c V q O Rinv Rec).ArrAt_in (0 : Fin 3) rfl n
theorem ArrAt_1 (n : Nat) : (rdat0 c V q O Rinv Rec).ArrAt (1 : Fin 3) n = fun G => G = V main_v0 :=
  (rdat0 c V q O Rinv Rec).ArrAt_in (1 : Fin 3) rfl n

/-- The arrays at exit: the transposed table as at entry, the output array at SOME contents the four
    write-backs may have left. -/
theorem arraysAt_exit :
    (rdat0 c V q O Rinv Rec).arraysAt cfg0.N
      ⊢ (iprop((((c : Thread nD τ).loc main_v0) ↦{q 0} V main_v0) ∗ (((c : Thread nD τ).loc main_v0) ↦{q 1} V main_v0)
          ∗ ∃ T1, ⌜(rdat0 c V q O Rinv Rec).ArrAt (2 : Fin 3) cfg0.N T1⌝ ∗ (((c : Thread nD τ).loc main_v1) ↦{fullShare} T1)) : sProp 𝕄) := by
  unfold RDat.arraysAt; rw [bigSep_W0, ArrAt_0, ArrAt_1]
  show (iprop((∃ G, ⌜G = V main_v0⌝ ∗ (((c : Thread nD τ).loc main_v0) ↦[(View.whole main_v0).set]{q 0} G))
      ∗ (∃ G, ⌜G = V main_v0⌝ ∗ (((c : Thread nD τ).loc main_v0) ↦[(View.whole main_v0).set]{q 1} G))
      ∗ (∃ T1, ⌜(rdat0 c V q O Rinv Rec).ArrAt (2 : Fin 3) cfg0.N T1⌝ ∗ (((c : Thread nD τ).loc main_v1) ↦[(View.whole main_v1).set]{fullShare} T1))) : sProp 𝕄) ⊢ _
  rw [View.set_whole, View.set_whole]
  iintro ⟨⟨%G0, %h0, H0⟩, ⟨%G1, %h1, H1⟩, ⟨%T1, %h2, H2⟩⟩
  subst h0; subst h1
  isplitl [H0]; · iexact H0
  isplitl [H1]; · iexact H1
  iexists T1; isplitr; · ipureintro; exact h2
  iexact H2

end Arrays

/-! ## The output array at exit, in closed form over the filler words -/

section Value

open Idealize.ShloMosaic.ValueIdx

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

/-- The output block the body stores at point t, for given filler words of the two input buffers. -/
def outBlk (t : Fin cfg0.N) (da db : S64x16384.Idx → Elt F .f32) : S16384x128.Idx → Elt F .f32 :=
  k0_pay1 (ablk c V t da) (bblk c V t db)

/-- What the body may leave in the output's buffer at point t is such a block. -/
theorem leaves_2 (t : Fin cfg0.N) (X : S16384x128.Idx → Elt F .f32) (h : (rdat0 c V q O Rinv Rec).Leaves (2 : Fin 3) t X) :
    ∃ da db, X = outBlk c V t da db := by
  obtain ⟨Y, -, hR⟩ := h; exact hR

/-- The point whose block holds row p of the output array, and the row's place in that block. -/
def ptOf (i : S65536x128.Idx) : Fin cfg0.N := ⟨(i 0).val / 16384, by
  have h : (i 0).val < 65536 := idx2_lt0 i
  show (i 0).val / 16384 < grid0.N
  rw [N_0]; omega⟩
def rowOf (i : S65536x128.Idx) : Fin 16384 := ⟨(i 0).val % 16384, Nat.mod_lt _ (by decide)⟩
def colOf (i : S65536x128.Idx) : Fin 128 := ⟨(i 1).val, idx2_lt1 i⟩

/-- The output array once the four blocks are written back: row p is row p % 16384 of the block stored at
    point p / 16384. -/
def outArr (da db : Fin cfg0.N → S64x16384.Idx → Elt F .f32) : S65536x128.Idx → Elt F .f32 := fun i =>
  outBlk c V (ptOf i) (da (ptOf i)) (db (ptOf i)) (ix2 (rowOf i) (colOf i))

theorem outArr_at (da db : Fin cfg0.N → S64x16384.Idx → Elt F .f32) (t : Fin cfg0.N) (r : Fin 16384) (k : Fin 128)
    (i : S65536x128.Idx) (h0 : (i 0).val = t.val * 16384 + r.val) (h1 : (i 1).val = k.val) :
    outArr c V da db i = outBlk c V t (da t) (db t) (ix2 r k) := by
  have hp : ptOf i = t := Fin.ext (by show (i 0).val / 16384 = t.val; rw [h0]; have := r.isLt; omega)
  have hr : rowOf i = r := Fin.ext (by show (i 0).val % 16384 = r.val; rw [h0]; have := r.isLt; omega)
  have hk : colOf i = k := Fin.ext h1
  unfold outArr; rw [hp, hr, hk]

end Value

section Exit

open Idealize.ShloMosaic.ValueIdx

variable (c : Dev nD) (V : (b : Ref sig .tc) → Buf (Elt F) ((c : Thread nD τ).loc b))
  (q : Fin 3 → PosShare TreeShare) (O : CellTallies nD τ sig (HIx 1)) (Rinv : sProp (MT nD τ sig (HIx 1) (Elt F) ℕ UU ℕ)) (Rec : Set (SemLoc sig × HIx 1))

/-- The output window's block index at point t: row block t. -/
theorem index_2 (t : Fin cfg0.N) : win0_2.index t 0 = t.val ∧ win0_2.index t 1 = 0 := by
  rcases fin_N0 t with rfl | rfl | rfl | rfl <;> decide +kernel

/-- An index of the output array lies in point t's block iff its row is among the block's rows. -/
theorem mem_blk (t : Fin cfg0.N) (i : S65536x128.Idx) :
    i ∈ (win0_2.blk t).view.setOn Finset.univ ↔ t.val * 16384 ≤ (i 0 : Nat) ∧ (i 0 : Nat) < t.val * 16384 + 16384 := by
  rw [View.setOn_univ]
  show i ∈ ((View.whole main_v1).slice (win0_2.rect t)).set ↔ _
  rw [View.set_slice_whole, Rect.mem_set_unit]
  have h1 : (i 1 : Nat) < 128 := idx2_lt1 i
  obtain ⟨e0, e1⟩ := index_2 t
  constructor
  · intro h
    have h' := h 0
    change win0_2.index t 0 * 16384 ≤ (i 0 : Nat) ∧ (i 0 : Nat) < win0_2.index t 0 * 16384 + 16384 at h'
    rw [e0] at h'; exact h'
  · intro h a
    match a with
    | ⟨0, _⟩ =>
      change win0_2.index t 0 * 16384 ≤ (i 0 : Nat) ∧ (i 0 : Nat) < win0_2.index t 0 * 16384 + 16384
      rw [e0]; exact h
    | ⟨1, _⟩ =>
      change win0_2.index t 1 * 128 ≤ (i 1 : Nat) ∧ (i 1 : Nat) < win0_2.index t 1 * 128 + 128
      rw [e1]; omega

/-- The block stored at point t is the closed form's rows read through the block. -/
theorem cut_outBlk (da db : Fin cfg0.N → S64x16384.Idx → Elt F .f32) (t : Fin cfg0.N) :
    win0_2.cut (grid0.coords t) (outBlk c V t (da t) (db t)) = (win0_2.blk t).view.read (Elt F) (outArr c V da db) := by
  funext y
  obtain ⟨e0, e1⟩ := index_2 t
  have h0 : (((win0_2.blk t).view.emb y) 0 : Nat) = win0_2.index t 0 * 16384 + (y 0 : Nat) := win0_2.rect_emb_val t y 0
  have h1 : (((win0_2.blk t).view.emb y) 1 : Nat) = win0_2.index t 1 * 128 + (y 1 : Nat) := win0_2.rect_emb_val t y 1
  rw [e0] at h0; rw [e1, Nat.zero_mul, Nat.zero_add] at h1
  symm
  refine (outArr_at c V da db t ⟨(y 0).val, (y 0).isLt⟩ ⟨(y 1).val, (y 1).isLt⟩ ((win0_2.blk t).view.emb y) h0 h1).trans ?_
  exact congrArg (outBlk c V t (da t) (db t)) (funext fun a => match a with | ⟨0, _⟩ => rfl | ⟨1, _⟩ => rfl)

/-- Four contents, one per point. -/
def pick4 {α : Type} (x0 x1 x2 x3 : α) (t : Fin cfg0.N) : α := match t.val with | 0 => x0 | 1 => x1 | 2 => x2 | _ => x3
theorem pick4_0 {α : Type} (x0 x1 x2 x3 : α) : pick4 x0 x1 x2 x3 t0_0 = x0 := rfl
theorem pick4_1 {α : Type} (x0 x1 x2 x3 : α) : pick4 x0 x1 x2 x3 t0_1 = x1 := rfl
theorem pick4_2 {α : Type} (x0 x1 x2 x3 : α) : pick4 x0 x1 x2 x3 t0_2 = x2 := rfl
theorem pick4_3 {α : Type} (x0 x1 x2 x3 : α) : pick4 x0 x1 x2 x3 t0_3 = x3 := rfl

/-- Four write-backs of blocks that are one whole-array function's rows leave that function: the four row blocks
    cover the array. -/
theorem writes_eq (G0 G : S65536x128.Idx → Elt F .f32) (Z0 Z1 Z2 Z3 : S16384x128.Idx → Elt F .f32)
    (c0 : win0_2.cut (grid0.coords t0_0) Z0 = (win0_2.blk t0_0).view.read (Elt F) G)
    (c1 : win0_2.cut (grid0.coords t0_1) Z1 = (win0_2.blk t0_1).view.read (Elt F) G)
    (c2 : win0_2.cut (grid0.coords t0_2) Z2 = (win0_2.blk t0_2).view.read (Elt F) G)
    (c3 : win0_2.cut (grid0.coords t0_3) Z3 = (win0_2.blk t0_3).view.read (Elt F) G) :
    (win0_2.blk t0_3).view.write (Elt F) ((win0_2.blk t0_2).view.write (Elt F) ((win0_2.blk t0_1).view.write (Elt F)
      ((win0_2.blk t0_0).view.write (Elt F) G0 (win0_2.cut (grid0.coords t0_0) Z0) Finset.univ)
      (win0_2.cut (grid0.coords t0_1) Z1) Finset.univ) (win0_2.cut (grid0.coords t0_2) Z2) Finset.univ)
      (win0_2.cut (grid0.coords t0_3) Z3) Finset.univ = G := by
  rw [c0, c1, c2, c3, View.write_read_eq_piecewise, View.write_read_eq_piecewise, View.write_read_eq_piecewise,
    View.write_read_eq_piecewise]
  funext i
  have h65 : (i 0 : Nat) < 65536 := idx2_lt0 i
  have m0 : i ∈ (win0_2.blk t0_0).view.setOn Finset.univ ↔ 0 ≤ (i 0 : Nat) ∧ (i 0 : Nat) < 16384 := mem_blk t0_0 i
  have m1 : i ∈ (win0_2.blk t0_1).view.setOn Finset.univ ↔ 16384 ≤ (i 0 : Nat) ∧ (i 0 : Nat) < 32768 := mem_blk t0_1 i
  have m2 : i ∈ (win0_2.blk t0_2).view.setOn Finset.univ ↔ 32768 ≤ (i 0 : Nat) ∧ (i 0 : Nat) < 49152 := mem_blk t0_2 i
  have m3 : i ∈ (win0_2.blk t0_3).view.setOn Finset.univ ↔ 49152 ≤ (i 0 : Nat) ∧ (i 0 : Nat) < 65536 := mem_blk t0_3 i
  unfold Finset.piecewise
  split
  · rfl
  split
  · rfl
  split
  · rfl
  split
  · rfl
  rename_i h3' h2' h1' h0'
  exfalso; rw [m3] at h3'; rw [m2] at h2'; rw [m1] at h1'; rw [m0] at h0'
  omega

/-- THE OUTPUT ARRAY AT EXIT: whatever the four write-backs may have left is the closed form at some filler words. -/
theorem exit_out (T1 : S65536x128.Idx → Elt F .f32) (h : (rdat0 c V q O Rinv Rec).ArrAt (2 : Fin 3) cfg0.N T1) :
    ∃ da db : Fin cfg0.N → S64x16384.Idx → Elt F .f32, T1 = outArr c V da db := by
  rw [show cfg0.N = t0_3.val + 1 from rfl, (rdat0 c V q O Rinv Rec).ArrAt_succ (2 : Fin 3) t0_3, if_pos (flush0_2 _)] at h
  obtain ⟨G3, X3, h3, hL3, rfl⟩ := h
  rw [show t0_3.val = t0_2.val + 1 from rfl, (rdat0 c V q O Rinv Rec).ArrAt_succ (2 : Fin 3) t0_2, if_pos (flush0_2 _)] at h3
  obtain ⟨G2, X2, h2, hL2, rfl⟩ := h3
  rw [show t0_2.val = t0_1.val + 1 from rfl, (rdat0 c V q O Rinv Rec).ArrAt_succ (2 : Fin 3) t0_1, if_pos (flush0_2 _)] at h2
  obtain ⟨G1, X1, h1, hL1, rfl⟩ := h2
  rw [show t0_1.val = t0_0.val + 1 from rfl, (rdat0 c V q O Rinv Rec).ArrAt_succ (2 : Fin 3) t0_0, if_pos (flush0_2 _)] at h1
  obtain ⟨G0, X0, -, hL0, rfl⟩ := h1
  obtain ⟨a0, b0, rfl⟩ := leaves_2 c V q O Rinv Rec _ _ hL0
  obtain ⟨a1, b1, rfl⟩ := leaves_2 c V q O Rinv Rec _ _ hL1
  obtain ⟨a2, b2, rfl⟩ := leaves_2 c V q O Rinv Rec _ _ hL2
  obtain ⟨a3, b3, rfl⟩ := leaves_2 c V q O Rinv Rec _ _ hL3
  refine ⟨pick4 a0 a1 a2 a3, pick4 b0 b1 b2 b3, ?_⟩
  have c0 := cut_outBlk c V (pick4 a0 a1 a2 a3) (pick4 b0 b1 b2 b3) t0_0
  have c1 := cut_outBlk c V (pick4 a0 a1 a2 a3) (pick4 b0 b1 b2 b3) t0_1
  have c2 := cut_outBlk c V (pick4 a0 a1 a2 a3) (pick4 b0 b1 b2 b3) t0_2
  have c3 := cut_outBlk c V (pick4 a0 a1 a2 a3) (pick4 b0 b1 b2 b3) t0_3
  rw [pick4_0, pick4_0] at c0; rw [pick4_1, pick4_1] at c1; rw [pick4_2, pick4_2] at c2; rw [pick4_3, pick4_3] at c3
  exact writes_eq G0 _ _ _ _ _ c0 c1 c2 c3

end Exit

end Cert.Kernel.Region0
end
-- ==== Proof.Bits.RegionRec0.lean ====
/-
  The first TensorCore region as the region rule's record: the layout facts, the body obligation, the wait
  evidence, and the four entailments around the thread states the region is entered from and leaves.
  Everything here is generic in the float instance.
-/
import proofs.«218855_g90357521973776_cont_sun_m_356_26_alg».proof.Proof.Bits.Region0

noncomputable section

namespace Cert.Kernel.RegionRec0

open Cert.Kernel Cert.Kernel.Gen Cert.Kernel.Setup Cert.Kernel.Region0

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- The shares the windows hold their arrays at: the two input windows read one array, each at a half; the
    output array is held outright. -/
def q0 : Fin 3 → PosShare TreeShare := fun w =>
  if w.val = 0 then fullShare.left else if w.val = 1 then fullShare.right else fullShare

theorem q0_0 : q0 (0 : Fin 3) = fullShare.left := rfl
theorem q0_1 : q0 (1 : Fin 3) = fullShare.right := rfl
theorem q0_2 : q0 (2 : Fin 3) = fullShare := rfl

/-- The region has no prefetched table. -/
theorem bigSep_none {M : Type} [URA M] (Φ : Fin 0 → sProp M) : bigSep Finset.univ Φ = (BI.emp : sProp M) :=
  bigSep_univ_eq_bigSepL [] (by decide) (by decide) Φ
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The core's owes as the region's points hold it — the tallies O, the recorded pairs within Rec and the loop's
    own — from the thread state's form, and back: the loop's own waits are at index none. -/
theorem owesAt_intro (c : Dev nD) (V : (b : Ref sig .tc) → Buf (Elt F) ((c : Thread nD τ).loc b))
    (q : Fin 3 → PosShare TreeShare) (O : CellTallies nD τ sig (HIx 1)) (Rinv : sProp 𝕄) (Rec : Set (SemLoc sig × HIx 1))
    (t : Fin (cfg0.N + 1)) :
    iprop(∃ W : Waits sig (HIx 1), ⌜(↑W : Set (SemLoc sig × HIx 1)) ⊆ Rec⌝ ∗ owes (c : Thread nD τ) O W)
      ⊢ ((rdat0 c V q O Rinv Rec).owesAt none t : sProp 𝕄) := by
  unfold Pipeline.RDat.owesAt Pipeline.owesWithin Pipeline.RDat.bound
  iintro ⟨%W, %hW, HO⟩; iexists W; isplitr; · ipureintro; exact fun x hx => Or.inl (hW hx)
  iexact HO
theorem owesAt_elim (c : Dev nD) (V : (b : Ref sig .tc) → Buf (Elt F) ((c : Thread nD τ).loc b))
    (q : Fin 3 → PosShare TreeShare) (O : CellTallies nD τ sig (HIx 1)) (Rinv : sProp 𝕄) (Rec : Set (SemLoc sig × HIx 1))
    (t : Fin (cfg0.N + 1)) :
    ((rdat0 c V q O Rinv Rec).owesAt none t : sProp 𝕄)
      ⊢ iprop(∃ W : Waits sig (HIx 1), ⌜∀ p ∈ W, p ∈ Rec ∨ p.2 = none⌝ ∗ owes (c : Thread nD τ) O W) := by
  unfold Pipeline.RDat.owesAt Pipeline.owesWithin Pipeline.RDat.bound
  iintro ⟨%W, %hW, HO⟩; iexists W; isplitr
  · ipureintro; intro p hp
    rcases hW (Finset.mem_coe.mpr hp) with h | ⟨w, s, rfl⟩
    · exact Or.inl h
    · exact Or.inr rfl
  iexact HO

/-- What the region's invariant carries: the core's scoped buffers that are no staging buffer of this region. -/
abbrev rest0 (c : Dev nD) : sProp 𝕄 := Pipeline.scopedRest (Pipeline.pin (pcfgs (F := F)) adm 0).spec c

/-- The region rule's record for pipeline 0, for any family of proof data that is this region's at pipeline 0:
    entered with the transposed table and the output array held outright and the core owing O with its recorded
    pairs within Rec, it leaves with the recorded pairs within Rec or at index none, with the
    table as it was and the output array at some contents the four write-backs may have left. -/
def seg0 (rdats : (p : Fin 2) → (c : Dev nD) → RDat τ (Elt F) (HIx 1) ℕ UU ℕ (Pipeline.pin (pcfgs (F := F)) adm p) c)
    (V : (c : Dev nD) → (b : Ref sig .tc) → Buf (Elt F) ((c : Thread nD τ).loc b))
    (O : Dev nD → CellTallies nD τ sig (HIx 1)) (hO : ∀ c g, O c g none = 0)
    (Rec : Dev nD → Set (SemLoc sig × HIx 1))
    (h0 : ∀ c, rdats 0 c = rdat0 c (V c) q0 (O c) (rest0 c) (Rec c)) :
    Pipeline.RDat.RegionSeg (pcfgs (F := F)) adm rdats none (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := by rw [h0 c]; exact body_obligation c (V c) q0 (O c) (rest0 c) (Rec c)
  hwaits c := hwaits0 rdats c (O c) (hO c) (fun t => by rw [h0 c]; rfl) (K (F := F)).lev (SparseCore.Cfg.refines_self _)
  pre c := iprop((∃ W : Waits sig (HIx 1), ⌜(↑W : Set (SemLoc sig × HIx 1)) ⊆ Rec c⌝ ∗ owes (c : Thread nD τ) (O c) W) ∗ (((c : Thread nD τ).loc main_v0) ↦{fullShare} V c main_v0)
    ∗ (((c : Thread nD τ).loc main_v1) ↦{fullShare} V c main_v1))
  post c := iprop((∃ W : Waits sig (HIx 1), ⌜∀ p ∈ W, p ∈ Rec c ∨ p.2 = none⌝ ∗ owes (c : Thread nD τ) (O c) W) ∗ (((c : Thread nD τ).loc main_v0) ↦{fullShare} V c main_v0)
    ∗ ∃ T1, ⌜(rdats 0 c).ArrAt (2 : Fin 3) cfg0.N T1⌝ ∗ (((c : Thread nD τ).loc main_v1) ↦{fullShare} T1))
  X _ := iprop(emp)
  Y _ := iprop(emp)
  Z _ := iprop(emp)
  hentry c := by
    rw [Pipeline.ownSems0_none, h0 c, arrays_entry, prefHeld0, q0_0, q0_1]
    iintro ⟨⟨HO, H0, H1⟩, -, -⟩
    imodintro
    ihave H0 := (pointsTo_share (PosShare.mem_left_op_right fullShare)).1 $$ H0
    icases H0 with ⟨Ha, Hb⟩
    isplitl [Ha Hb H1]
    · isplitl [Ha]; · iexact Ha
      isplitl [Hb]; · iexact Hb
      iexact H1
    isplitr; · iempintro
    isplitl [HO]; · iapply (owesAt_intro c (V c) q0 (O c) (rest0 c) (Rec c) 0); iexact HO
    isplitr <;> iempintro
  hin c := by
    rw [h0 c, Φ_eq]
    iintro ⟨-, -, H⟩; iexact H
  hout c := by
    rw [h0 c, Φ_eq, Pipeline.ownSems0_none]
    iintro H
    isplitr; · iempintro
    isplitr; · iempintro
    iexact H
  hexit c := by
    rw [h0 c]
    iintro ⟨HA, HO, -, -⟩
    ihave HA := (arraysAt_exit c (V c) q0 (O c) (rest0 c) (Rec c)) $$ HA
    rw [q0_0, q0_1]
    icases HA with ⟨Ha, Hb, ⟨%T1, %hT, H2⟩⟩
    imodintro
    isplitl [HO]; · iapply (owesAt_elim c (V c) q0 (O c) (rest0 c) (Rec c) _); iexact HO
    isplitl [Ha Hb]
    · ihave H := (pointsTo_share (PosShare.mem_left_op_right fullShare)).2 $$ [Ha Hb]
      · isplitl [Ha] <;> iassumption
      iexact H
    iexists T1; isplitr; · ipureintro; exact hT
    iexact H2

end Cert.Kernel.RegionRec0

end
-- ==== Proof.Bits.MainRun.lean ====
/-
  @main on the TensorCore, under the SparseCore launch, at the frame level: from the launch's context, the
  TensorCore's state before the one SparseCore call, what the launch deals the TensorCore and the two pipelines'
  ghost state, @main runs — the front (a host stretch, the first region, a host stretch), the SparseCore call, the
  tail (a host stretch, the second region, the last host operation) — to the TensorCore's state after the call and
  the three argument arrays at their launch contents. Generic in the float instance.
-/
import proofs.«218855_g90357521973776_cont_sun_m_356_26_alg».proof.Proof.Bits.MainFront
import proofs.«218855_g90357521973776_cont_sun_m_356_26_alg».proof.Proof.Bits.MainTail
import proofs.«218855_g90357521973776_cont_sun_m_356_26_alg».proof.Proof.Bits.MainCall
import proofs.«218855_g90357521973776_cont_sun_m_356_26_alg».proof.Proof.Bits.RegionRec0

noncomputable section

namespace Cert.Kernel.MainRun

open Cert.Kernel Cert.Kernel.Gen Cert.Kernel.Setup

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.MainOps Cert.Kernel.MainHeld
open Cert.Kernel.MainCall (v1' v7' v8')
open Idealize.ShloMosaic.StableHlo (seq after held)
open Idealize.ShloMosaic.Pipeline (pin)

variable {F : FTy → Type} [FloatOps F]

local notation "𝕄" => MT nD τ sig (HIx 1) (Elt F) ℕ UU ℕ

/-! ## The TensorCore's dues between calls -/

/-- The pairs the TensorCore may have recorded before call `n`. -/
def RecAt (d : Dev nD) (n : ℕ) : Set (SemLoc sig × HIx 1) := {p | (K (F := F)).lev (T d, p.1) p.2 ≤ 8 * n}

/-- The TensorCore's state between calls lends its dues, with the bound on the recorded pairs, and takes them back
    with more pairs at the index nothing is owed at. -/
theorem owes_lend (d : Dev nD) (n : ℕ) :
    (K (F := F)).tcSt EH d n ⊢ (iprop((∃ W : Waits sig (HIx 1), ⌜(↑W : Set (SemLoc sig × HIx 1)) ⊆ RecAt (F := F) d n⌝ ∗ owes (T d) ((K (F := F)).Otc d n) W)
      ∗ ((∃ W : Waits sig (HIx 1), ⌜∀ p ∈ W, p ∈ RecAt (F := F) d n ∨ p.2 = none⌝ ∗ owes (T d) ((K (F := F)).Otc d n) W) -∗ (K (F := F)).tcSt EH d n)) : sProp 𝕄) := by
  unfold SparseCore.Cfg.tcSt
  iintro ⟨⟨%W, %hW, HO⟩, Hrest⟩
  isplitl [HO]
  · iexists W; isplitr
    · ipureintro; intro p hp; exact hW p (Finset.mem_coe.mp hp)
    · iexact HO
  · iintro ⟨%W', %hW', HO'⟩
    isplitl [HO']
    · iexists W'; isplitr
      · ipureintro; intro p hp
        rcases hW' p hp with h | h
        · exact h
        · show (K (F := F)).lev (T d, p.1) p.2 ≤ 8 * n
          rw [h]; exact Nat.zero_le _
      · iexact HO'
    · iexact Hrest

theorem Otc_none (d : Dev nD) (n : ℕ) (g : GSem nD τ sig) : (K (F := F)).Otc d n g none = 0 := by
  by_contra h
  have := SparseCore.Cfg.lev_of_Otc_pos (K := K (F := F)) (d := d) (n := n) (g := g) (ι := none) (Nat.pos_of_ne_zero h)
  rw [SparseCore.Cfg.lev_none] at this
  omega

/-- The two pipelines, one by one. -/
theorem bigSep_P2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-! ## The held family's members -/

theorem devRef_mem_Sall (b : Ref sig .tc) (h : b.isScoped = false) : (Proc.devRef (τ := τ) .tc b) ∈ Sall := by
  unfold Sall
  exact Finset.mem_map_of_mem _ (Finset.mem_filter.mpr ⟨Finset.mem_univ _, by simp [h]⟩)

abbrev a0 : DevRef τ sig := Proc.devRef .tc main_arg0
abbrev a1 : DevRef τ sig := Proc.devRef .tc main_arg1
abbrev a2 : DevRef τ sig := Proc.devRef .tc main_arg2

/-! ## The two regions' proof data along the run -/

variable (m : (ℓ : Loc nD τ sig) → Buf (Elt F) ℓ)

/-- The first region's arrays as it finds them: the valuation after the first host stretch, seen from any core. -/
abbrev VA (d c : Dev nD) : (b : Ref sig .tc) → Buf (Elt F) ((c.tc : Thread nD τ).loc b) :=
  fun b => after opsA (V₀ m d) (Proc.devRef .tc b)

/-- The proof data while the first region runs: the first pipeline's over what the first stretch left; the second's
    is not entered (any data). -/
def rdatsA (d : Dev nD) : (p : Fin 2) → (c : Dev nD) → Pipeline.RDat τ (Elt F) (HIx 1) ℕ UU ℕ (pin (pcfgs (F := F)) MainRegion.adm p) c
  | ⟨0, _⟩ => fun c => Region0.rdat0 c (VA m d c) RegionRec0.q0 ((K (F := F)).Otc c 0) (RegionRec0.rest0 c) (RecAt (F := F) c 0)
  | ⟨1, _⟩ => fun c => (Region2.dat c (V₀ m d MainTail.v13) (V₀ m d MainTail.v8) (V₀ m d MainTail.v12) (V₀ m d MainTail.v14)
      (Pipeline.scopedRest (pin (pcfgs (F := F)) RegionRec2.adm 1).spec c) ((K (F := F)).Otc c 0) (RecAt (F := F) c 0)).toRForget Region2.fgtOut

/-- The proof data while the second region runs, over the valuation `V2` the SparseCore call left: the second
    pipeline's over what the host stretch after the call makes of it; the first's is not entered. -/
def rdatsB (V2 : Valuation τ sig (Elt F)) : (p : Fin 2) → (c : Dev nD) → Pipeline.RDat τ (Elt F) (HIx 1) ℕ UU ℕ (pin (pcfgs (F := F)) MainRegion.adm p) c
  | ⟨0, _⟩ => fun c => Region0.rdat0 c (fun b => V2 (Proc.devRef .tc b)) RegionRec0.q0 ((K (F := F)).Otc c 1) (RegionRec0.rest0 c) (RecAt (F := F) c 1)
  | ⟨1, _⟩ => fun c => (Region2.dat c (after opsC V2 MainTail.v13) (after opsC V2 MainTail.v8) (after opsC V2 MainTail.v12) (after opsC V2 MainTail.v14)
      (Pipeline.scopedRest (pin (pcfgs (F := F)) RegionRec2.adm 1).spec c) ((K (F := F)).Otc c 1) (RecAt (F := F) c 1)).toRForget Region2.fgtOut

/-- The first region's record along the run. -/
def R0 (d : Dev nD) :=
  RegionRec0.seg0 (rdatsA m d) (VA m d) (fun c => (K (F := F)).Otc c 0) (fun c g => Otc_none c 0 g) (fun c => RecAt (F := F) c 0) (fun _ => rfl)

/-- The second region's record along the run. -/
def R2 (V2 : Valuation τ sig (Elt F)) :=
  RegionRec2.seg2 (rdatsB V2) (fun _ => after opsC V2 MainTail.v13) (fun _ => after opsC V2 MainTail.v8) (fun _ => after opsC V2 MainTail.v12)
    (fun _ => after opsC V2 MainTail.v14) (fun c => (K (F := F)).Otc c 1) (fun c => RecAt (F := F) c 1) (fun c g => Otc_none c 1 g) (fun _ => rfl)

/-! ## The run -/

variable (g : Dev nD → PrngReg)
variable (ph : (d : Dev nD) → Buf (Elt F) (TileBody.idxLoc d)) (Tab : (d : Dev nD) → Buf (Elt F) (TileBody.tabLoc d) → Prop)

/-- What the claim reads at the end: the three argument arrays at their launch contents. -/
def FIN (d : Dev nD) : sProp 𝕄 :=
  iprop(((d, a0) ↦{fullShare} m (d, a0)) ∗ ((d, a1) ↦{fullShare} m (d, a1)) ∗ ((d, a2) ↦{fullShare} m (d, a2)))

-- as the library's stretch rule: rules stated at the TensorCore's thread are applied at its two spellings
set_option backward.isDefEq.respectTransparency.types false in
set_option maxHeartbeats 3200000 in
/-- @MAIN ON THE TENSORCORE, at the frame level. The side facts it takes: every host operation's buffers are among
    the TensorCore's unscoped arrays (the pair table apart, after the call), the physical indices the second host
    stretch computes are the launch's (`hph`), and the launch's fact of the pair table holds of whatever the first
    region leaves (`hTab`). -/
theorem hmain [∀ e, Nonempty (Elt F e)]
    (hA : ∀ op ∈ (opsA : List (HloOp τ sig (Elt F))), op.bufs ⊆ Sall) (hB : ∀ op ∈ (opsB : List (HloOp τ sig (Elt F))), op.bufs ⊆ Sall)
    (hC : ∀ op ∈ (opsC : List (HloOp τ sig (Elt F))), op.bufs ⊆ Sall.erase v1')
    (hD : ∀ op ∈ (opsD : List (HloOp τ sig (Elt F))), op.bufs ⊆ Sall.erase v1')
    (hph : ∀ d T1, MainFront.Vmid (V₀ m d) T1 v7' = ph d) (hTab : ∀ d T1, Tab d T1)
    (κ : GSem nD τ sig → ℕ) (d : Dev nD) :
    iprop((K (F := F)).ctx EH (ScPay.P ph Tab) κ ∗ (K (F := F)).tcSt EH d 0 ∗ (K (F := F)).tcRes m g d ∗ MainLaunch.G (F := F) d)
      ⊢ wp frame (wpE ((K (F := F)).defs (D (F := F))) 𝒱 (T d) none) Set.univ (main (F := F) d)
          fun _ => iprop((K (F := F)).tcSt EH d 1 ∗ FIN m d) := by
  -- the held family's members
  have h0 : MainFront.v0 ∈ Sall := devRef_mem_Sall main_v0 (by decide)
  have h1 : MainFront.v1 ∈ Sall := devRef_mem_Sall main_v1 (by decide)
  have h7 : v7' ∈ Sall.erase v1' := Finset.mem_erase.mpr ⟨by decide, devRef_mem_Sall main_v7 (by decide)⟩
  have h8 : v8' ∈ (Sall.erase v1').erase v7' :=
    Finset.mem_erase.mpr ⟨by decide, Finset.mem_erase.mpr ⟨by decide, devRef_mem_Sall main_v8 (by decide)⟩⟩
  have h13 : MainTail.v13 ∈ Sall.erase v1' := Finset.mem_erase.mpr ⟨by decide, devRef_mem_Sall main_v13 (by decide)⟩
  have h8t : MainTail.v8 ∈ Sall.erase v1' := Finset.mem_erase.mpr ⟨by decide, devRef_mem_Sall main_v8 (by decide)⟩
  have h12 : MainTail.v12 ∈ Sall.erase v1' := Finset.mem_erase.mpr ⟨by decide, devRef_mem_Sall main_v12 (by decide)⟩
  have h14 : MainTail.v14 ∈ Sall.erase v1' := Finset.mem_erase.mpr ⟨by decide, devRef_mem_Sall main_v14 (by decide)⟩
  have ha0 : a0 ∈ Sall.erase v1' := Finset.mem_erase.mpr ⟨by decide, devRef_mem_Sall main_arg0 (by decide)⟩
  have ha1 : a1 ∈ (Sall.erase v1').erase a0 :=
    Finset.mem_erase.mpr ⟨by decide, Finset.mem_erase.mpr ⟨by decide, devRef_mem_Sall main_arg1 (by decide)⟩⟩
  have ha2 : a2 ∈ ((Sall.erase v1').erase a0).erase a1 :=
    Finset.mem_erase.mpr ⟨by decide, Finset.mem_erase.mpr ⟨by decide, Finset.mem_erase.mpr ⟨by decide, devRef_mem_Sall main_arg2 (by decide)⟩⟩⟩
  rw [main_chain d]
  show _ ⊢ wp frame (wpE ((K (F := F)).defs (D (F := F))) 𝒱 (T d) none) Set.univ
    (seq opsA >>= fun _ => region 0 >>= fun _ => seq opsB >>= fun _ => (K (F := F)).run d 0 >>= fun _ =>
      seq opsC >>= fun _ => region 1 >>= fun _ => seq opsD >>= fun _ => Prog.ret PUnit.unit) _
  unfold SparseCore.Cfg.tcRes MainLaunch.G
  rw [unscoped_held m d, bigSep_P2]
  iintro ⟨#Hctx, Hst, ⟨Hb, Hh, -, -⟩, ⟨Hg0, Ht0⟩, ⟨Hg1, Ht1⟩⟩
  ihave Hlv := (SparseCore.Cfg.ctx_levAts (K := K (F := F)) κ) $$ Hctx
  ihave Ho := (owes_lend (F := F) d 0) $$ Hst
  icases Ho with ⟨HO, Hback⟩
  -- the front
  iapply (MainFront.front (rdatsA m d) (R0 m d) d Sall (V₀ m d) hA hB h0 h1 (RecAt (F := F) d 0) ((K (F := F)).Otc d 0) (fun _ => True)
    .rfl (by
      dsimp only [R0, RegionRec0.seg0]
      iintro ⟨HO, H0, ⟨%T1, -, H1⟩⟩
      isplitl [HO]; · iexact HO
      isplitl [H0]; · iexact H0
      iexists T1; isplitr; · ipureintro; trivial
      iexact H1) _ _)
  isplitl [Hb]; · iexact Hb
  isplitl [Hh]; · iexact Hh
  isplitl [HO]; · iexact HO
  isplitl [Hlv]; · iexact Hlv
  isplitl [Hg0]; · iexact Hg0
  isplitl [Ht0]; · iexact Ht0
  iintro %T1 ⟨-, Hb, Hh, HO⟩
  ihave Hst := Hback $$ HO
  -- the SparseCore call
  iapply (MainCall.call_step ph Tab κ d Sall (MainFront.Vmid (V₀ m d) T1) h1 h7 h8 (hph d T1) (hTab d _) _ _)
  isplitr; · iexact Hctx
  isplitl [Hst]; · iexact Hst
  isplitl [Hh]; · iexact Hh
  iintro %f ⟨-, Hst, Hh⟩
  ihave Hlv := (SparseCore.Cfg.ctx_levAts (K := K (F := F)) κ) $$ Hctx
  ihave Ho := (owes_lend (F := F) d 1) $$ Hst
  icases Ho with ⟨HO, Hback⟩
  -- the tail
  iapply (MainTail.tail (rdatsB (Function.update (MainFront.Vmid (V₀ m d) T1) v8' f)) (R2 (Function.update (MainFront.Vmid (V₀ m d) T1) v8' f)) d
    (Sall.erase v1') (Function.update (MainFront.Vmid (V₀ m d) T1) v8' f) hC hD h13 h8t h12 h14 (RecAt (F := F) d 1) ((K (F := F)).Otc d 1) (fun _ => True)
    .rfl (by
      dsimp only [R2, RegionRec2.seg2]
      iintro ⟨HO, H13, H8, H12, ⟨%G, H14⟩⟩
      isplitl [HO]; · iexact HO
      isplitl [H13]; · iexact H13
      isplitl [H8]; · iexact H8
      isplitl [H12]; · iexact H12
      iexists G; isplitr; · ipureintro; trivial
      iexact H14) _ _)
  isplitl [Hb]; · iexact Hb
  isplitl [Hh]; · iexact Hh
  isplitl [HO]; · iexact HO
  isplitl [Hlv]; · iexact Hlv
  isplitl [Hg1]; · iexact Hg1
  isplitl [Ht1]; · iexact Ht1
  iintro %G ⟨-, -, Hh, HO⟩
  ihave Hst := Hback $$ HO
  -- the three arguments, as at the launch
  have e0 : MainTail.Vend (Function.update (MainFront.Vmid (V₀ m d) T1) v8' f) G a0 = m (d, a0) := by
    rw [MainTail.Vend_arg0, Function.update_of_ne (show a0 ≠ v8' by decide), MainFront.Vmid_arg0]; rfl
  have e1 : MainTail.Vend (Function.update (MainFront.Vmid (V₀ m d) T1) v8' f) G a1 = m (d, a1) := by
    rw [MainTail.Vend_arg1, Function.update_of_ne (show a1 ≠ v8' by decide), MainFront.Vmid_arg1]; rfl
  have e2 : MainTail.Vend (Function.update (MainFront.Vmid (V₀ m d) T1) v8' f) G a2 = m (d, a2) := by
    rw [MainTail.Vend_arg2, Function.update_of_ne (show a2 ≠ v8' by decide), MainFront.Vmid_arg2]; rfl
  ihave Hh' := (Entails.of_eq (held_take d (MainTail.Vend (Function.update (MainFront.Vmid (V₀ m d) T1) v8' f) G) ha0)) $$ Hh
  icases Hh' with ⟨Ha0, Hh⟩
  ihave Hh' := (Entails.of_eq (held_take d (MainTail.Vend (Function.update (MainFront.Vmid (V₀ m d) T1) v8' f) G) ha1)) $$ Hh
  icases Hh' with ⟨Ha1, Hh⟩
  ihave Hh' := (Entails.of_eq (held_take d (MainTail.Vend (Function.update (MainFront.Vmid (V₀ m d) T1) v8' f) G) ha2)) $$ Hh
  icases Hh' with ⟨Ha2, -⟩
  rw [wp_ret]
  imodintro
  isplitl [Hst]; · iexact Hst
  unfold FIN
  rw [← e0, ← e1, ← e2]
  isplitl [Ha0]; · iexact Ha0
  isplitl [Ha1]; · iexact Ha1
  iexact Ha2

end Cert.Kernel.MainRun

end
-- ==== Proof.Bits.MainTop.lean ====
/-
  The top of the frame: the SparseCore launch theorem applied to the program — the tile obligation, the split of
  the call's operands, the launch element and @main on the TensorCore — and the frame claims read off it.
-/
import proofs.«218855_g90357521973776_cont_sun_m_356_26_alg».proof.Proof.Bits.Setup
import proofs.«218855_g90357521973776_cont_sun_m_356_26_alg».proof.Proof.Bits.ScPay
import proofs.«218855_g90357521973776_cont_sun_m_356_26_alg».proof.Proof.Bits.ScObl
import proofs.«218855_g90357521973776_cont_sun_m_356_26_alg».proof.Proof.Bits.ScSplit
import proofs.«218855_g90357521973776_cont_sun_m_356_26_alg».proof.Proof.Bits.MainLaunch
import proofs.«218855_g90357521973776_cont_sun_m_356_26_alg».proof.Proof.Bits.MainFin
import proofs.«218855_g90357521973776_cont_sun_m_356_26_alg».proof.Proof.Bits.HostVals
import proofs.«218855_g90357521973776_cont_sun_m_356_26_alg».proof.Proof.Bits.MainRun

noncomputable section

namespace Cert.Kernel.MainTop

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The physical indices the SparseCore call reads: computed by the host from the launch contents of the index
    argument. -/
def ph (d : Dev nD) : Buf (Elt F) (TileBody.idxLoc d) := HostVals.phOf (m (MainFin.a0Loc d))

/-- Nothing is asked of the table the tiles gather from. -/
def Tab : (d : Dev nD) → Buf (Elt F) (TileBody.tabLoc d) → Prop := fun _ _ => True

/-- Index words between 0 and 99999 have physical indices below the table's 65536 rows. -/
theorem hph (hx : ∀ (d : Dev nD) (b : Fin 1024), 0 ≤ (m (MainFin.a0Loc d) (ValueIdx.ix1 b)).toInt
      ∧ (m (MainFin.a0Loc d) (ValueIdx.ix1 b)).toInt ≤ 99999) :
    ∀ d j, (ph m d j).toNat < 65536 := fun d j => HostVals.phOf_lt _ (hx d) j

/-- What the second host stretch computes into the index buffer is the launch's physical indices, whatever the
    first region left in the pair table: the stretch reads the index argument, which nothing before it writes. -/
theorem hph_front (d : Dev nD) (T1) : MainFront.Vmid (MainHeld.V₀ m d) T1 MainCall.v7' = ph m d := by
  show StableHlo.after MainOps.opsB (Function.update (StableHlo.after MainOps.opsA (MainHeld.V₀ m d)) MainFront.v1 T1)
    (Proc.devRef .tc main_v7) = _
  rw [HostVals.after_opsB_v7, Function.update_of_ne (StableHlo.devRef_ne_of_ne (by decide)), HostVals.opsA_keeps_arg0]
  rfl

/-- THE RUN: for any float instance, from any memory with zero counters whose index words lie in [0, 99999], every
    weakly fair execution of the program's threads terminates and leaves the three arguments as launched. -/
theorem run_main [∀ e, Nonempty (Elt F e)]
    (hx : ∀ (d : Dev nD) (b : Fin 1024), 0 ≤ (m (MainFin.a0Loc d) (ValueIdx.ix1 b)).toInt
      ∧ (m (MainFin.a0Loc d) (ValueIdx.ix1 b)).toInt ≤ 99999) :
    θ_run (Cert.Kernel.defs (F := F)) (Cert.Kernel.threads (F := F)) ⟨m, fun _ => 0, ρ⟩ (MainFin.QC m) :=
  SparseCore.Cfg.θ_run_sc (K := K (F := F)) (D := D (F := F)) (𝒱 := 𝒱) (EH := EH) (P := ScPay.P (ph m) Tab) facts v₀
    (fun q hq => match q with | 0 => nomatch hq)
    (fun q _ => match q with | 0 => ScObl.tileObl (ph m) Tab facts (hph m hx))
    (fun q _ => match q with | 0 => SparseCore.Cfg.VecSplit.of_plain (ScSplit.vecSplit (ph m) Tab))
    m ρ main MainLaunch.G (MainRun.FIN m) MainLaunch.u₀ (sep_elim_left.trans (MainLaunch.hu₀ (ph m) Tab))
    (MainRun.hmain m ρ (ph m) Tab HostVals.opsA_bufs HostVals.opsB_bufs HostVals.opsC_bufs_less_v1 HostVals.opsD_bufs_less_v1
      (hph_front m) (fun _ _ => trivial))
    (MainFin.fq m) (fun d s' => MainFin.hfin m d s') (MainFin.QC m) (fun _ h => h)

end Cert.Kernel.MainTop

end
-- ==== Proof.PreFacts.lean ====
/-
  The precondition read back. The input-domain predicate is the conjunction of three reductions by "and": every entry
  of the first float table is below +inf in absolute value, every entry of the second one too, and every integer index
  lies in [0, 99999] read signed. Stated to be all ones, it gives each of the three facts at every index: the range of
  the indices for any float instance (the floats do not enter that conjunct), and, at the extended reals, that every
  table entry is a real number (an extended real whose absolute value max(x, -x) is below +inf is neither infinity).
-/
import proofs.«218855_g90357521973776_cont_sun_m_356_26_alg».proof.Proof.Gen.Pre_input_domain
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_input_domain (S1024 S100000x64 S_)

/-- The scalar shape has one index. -/
instance subsingleton_scalar_idx : Subsingleton S_.Idx := ⟨fun a b => funext fun d => d.elim0⟩

/-- The three conjuncts of the predicate at its one index, each a reduction by "and" that is 1. -/
theorem conjuncts {F : FTy → Type} [FloatOps F] [hP : Cert.Pre_input_domain.Facts]
    (x : IVec S1024 32) (e w : FVec F S100000x64 .f32)
    (h : Cert.Pre_input_domain.fn (F := F) x e w = fun _ => 1#1) :
    (Host.reduce IntOp.andi
        (cmpf .olt (Host.absf e) (broadcastInDim S100000x64 ![] hP.bcast_S_S100000x64 (constant (F := F) S_ .f32 0x7F800000#32)))
        (constantI S_ 1 1#1) hP.reducesTo_S100000x64_S_d0_1 hP.h_S_ ix0 = 1#1)
    ∧ (Host.reduce IntOp.andi
        (cmpf .olt (Host.absf w) (broadcastInDim S100000x64 ![] hP.bcast_S_S100000x64 (constant (F := F) S_ .f32 0x7F800000#32)))
        (constantI S_ 1 1#1) hP.reducesTo_S100000x64_S_d0_1 hP.h_S_ ix0 = 1#1)
    ∧ (Host.reduce IntOp.andi
        (andi (cmpi .sge x (broadcastInDim S1024 ![] hP.bcast_S_S1024 (constantI S_ 32 0#32)))
          (cmpi .sle x (broadcastInDim S1024 ![] hP.bcast_S_S1024 (constantI S_ 32 99999#32))))
        (constantI S_ 1 1#1) hP.reducesTo_S1024_S_d0 hP.h_S_ ix0 = 1#1) := by
  have h0 := congrFun h ix0
  dsimp only [Cert.Pre_input_domain.fn] at h0
  obtain ⟨h12, h3⟩ := IntOp.andi_eq_one.1 h0
  obtain ⟨h1, h2⟩ := IntOp.andi_eq_one.1 h12
  exact ⟨h1, h2, h3⟩

/-- Every index word lies in [0, 99999], read signed: the third conjunct at row b. -/
theorem x_range {F : FTy → Type} [FloatOps F] [hP : Cert.Pre_input_domain.Facts]
    (x : IVec S1024 32) (e w : FVec F S100000x64 .f32)
    (h : Cert.Pre_input_domain.fn (F := F) x e w = fun _ => 1#1) :
    ∀ b : Fin 1024, 0 ≤ (x (ix1 b)).toInt ∧ (x (ix1 b)).toInt ≤ 99999 := by
  intro b
  have hb := Host.reduce_andi_all _ _ _ _ ix0 (conjuncts x e w h).2.2 (ix1 b)
  obtain ⟨hge, hle⟩ := IntOp.andi_eq_one.1 hb
  have hge' : (0#32 : BitVec 32).toInt ≤ (x (ix1 b)).toInt := IntOp.cmpi_sge.1 hge
  have hle' : (x (ix1 b)).toInt ≤ (99999#32 : BitVec 32).toInt := IntOp.cmpi_sle.1 hle
  rw [show (0#32 : BitVec 32).toInt = 0 from by decide] at hge'
  rw [show (99999#32 : BitVec 32).toInt = 99999 from by decide] at hle'
  exact ⟨hge', hle'⟩

/-- The word 0x7F800000 is +inf. -/
theorem ofBits_inf : Ideal.ofBits .f32 0x7F800000#32 = (⊤ : EReal) := by
  simp [Ideal.ofBits, Ideal.ieee]

/-- An extended real whose absolute value max(x, -x) is below +inf is a real number. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- One table's conjunct at an entry: the entry is a real number. -/
theorem real_of_conjunct [hP : Cert.Pre_input_domain.Facts] (e : FVec Ideal S100000x64 .f32)
    (h : Host.reduce IntOp.andi
        (cmpf .olt (Host.absf e) (broadcastInDim S100000x64 ![] hP.bcast_S_S100000x64 (constant (F := Ideal) S_ .f32 0x7F800000#32)))
        (constantI S_ 1 1#1) hP.reducesTo_S100000x64_S_d0_1 hP.h_S_ ix0 = 1#1)
    (i : S100000x64.Idx) : ∃ r : ℝ, e i = (r : EReal) := by
  have hi := Host.reduce_andi_all _ _ _ _ ix0 h i
  have hlt : Ideal.cmp .olt (max (e i) (-(e i))) (Ideal.ofBits .f32 0x7F800000#32) = 1#1 := hi
  rw [ofBits_inf] at hlt
  refine real_of_abs_lt_top (e i) ?_
  by_contra hn
  simp [Ideal.cmp, hn] at hlt

/-- At the extended reals both float tables hold real numbers only. -/
theorem finite_args [hP : Cert.Pre_input_domain.Facts] (x : IVec S1024 32) (e w : FVec Ideal S100000x64 .f32)
    (h : Cert.Pre_input_domain.fn (F := Ideal) x e w = fun _ => 1#1) :
    (∀ i, ∃ r : ℝ, e i = (r : EReal)) ∧ (∀ i, ∃ r : ℝ, w i = (r : EReal)) :=
  ⟨fun i => real_of_conjunct e (conjuncts x e w h).1 i, fun i => real_of_conjunct w (conjuncts x e w h).2.1 i⟩

end Cert.PreFacts

end
-- ==== Proof.TopClaims.lean ====
/-
  The frame claims of the two kernel programs, read off the run of each: the bit-exact program at the bit-exact
  instance, the idealized program at the ideal instance. The precondition's range conjunct gives the run's
  hypothesis on the index words.
-/
import proofs.«218855_g90357521973776_cont_sun_m_356_26_alg».proof.Proof.MainTop
import proofs.«218855_g90357521973776_cont_sun_m_356_26_alg».proof.Proof.Bits.MainTop
import proofs.«218855_g90357521973776_cont_sun_m_356_26_alg».proof.Proof.PreFacts

noncomputable section

namespace Cert.TopClaims

open Idealize.ShloMosaic Idealize.SL.Sem

/-- The idealized program runs and leaves its arguments unchanged. -/
theorem frame_KernelIdeal : Cert.frame_KernelIdeal := fun m g hpre =>
  (θ_run Cert.KernelIdeal.defs _ _).mono (fun _ h c => h c)
    (Cert.KernelIdeal.MainTop.run_main (F := Ideal) m g (fun d b => Cert.PreFacts.x_range _ _ _ (hpre d) b))

/-- The bit-exact program runs and leaves its arguments unchanged. -/
theorem frame_Kernel : Cert.frame_Kernel := fun m g hpre =>
  (θ_run Cert.Kernel.defs _ _).mono (fun _ h c => h c)
    (Cert.Kernel.MainTop.run_main (F := Bits) m g (fun d b => Cert.PreFacts.x_range _ _ _ (hpre d) b))

/-- info: 'Cert.TopClaims.frame_KernelIdeal' depends on axioms: [propext, Classical.choice, Quot.sound] -/
#guard_msgs in #print axioms frame_KernelIdeal
/-- info: 'Cert.TopClaims.frame_Kernel' depends on axioms: [propext, Classical.choice, Quot.sound] -/
#guard_msgs in #print axioms frame_Kernel

end Cert.TopClaims

end
-- ==== Proof.RefRun.lean ====
/-
  The reference's result as one function of its three arguments, that function read at an index, and the reference's run.

  The reference takes rows of the first table at the integer indices (negative indices wrapped by the table's
  height, then a row outside the table replaced by a row of NaN), and multiplies the 1024 x 64 array of rows
  by the transpose of the second table. When every index lies in [0, 99999] no index is wrapped, the in-range mask
  is all ones, the clamp of the gather is the identity, and entry (b, v) of the result is the sum over the 64
  columns k of (first table)[x b, k] * (second table)[v, k].
-/
import proofs.«218855_g90357521973776_cont_sun_m_356_26_alg».proof.Proof.Gen.ReferenceIdeal
import Idealize.ShloMosaic.Lib.Affine
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.RefValue

open Idealize.ShloMosaic Idealize.ShloMosaic.ValueIdx
open Cert.ReferenceIdeal.Facts₀

/-! ## The operations' composed term -/

section Term
variable {F : FTy → Type} [FloatOps F]

/-- The indices with the negative ones wrapped: x + 100000 where x < 0, else x. -/
def wrapped (x : IVec S1024 32) : IVec S1024 32 :=
  select (cmpi .slt x (broadcastInDim S1024 ![] bcast_S_S1024 (constantI S_ 32 0#32)))
    (addi x (broadcastInDim S1024 ![] bcast_S_S1024 (constantI S_ 32 100000#32))) x

/-- The wrapped indices as a column: the start indices of the gather. -/
def startIdx (x : IVec S1024 32) : IVec S1024x1 32 :=
  broadcastInDim S1024x1 ![0] bcast_S1024_S1024x1_0 (wrapped x)

/-- Which start indices lie in [0, 99999], as a column. -/
def inRangeCol (x : IVec S1024 32) : IVec S1024x1 1 :=
  andi (cmpi .sge (startIdx x) (broadcastInDim S1024x1 ![] bcast_S_S1024x1 (constantI S_ 32 0#32)))
    (cmpi .sle (startIdx x) (broadcastInDim S1024x1 ![0, 1] bcast_S1x1_S1024x1_0_1
      (broadcastInDim S1x1 ![1] bcast_S1_S1x1_1 (constantI S1 32 99999#32))))

/-- The same per row: the "and" along the column's one entry. -/
def inRange (x : IVec S1024 32) : IVec S1024 1 :=
  Host.reduce IntOp.andi (inRangeCol x) (constantI S_ 1 1#1) reducesTo_S1024x1_S1024_d1 h_S_

/-- The gathered rows, a row whose index is out of range replaced by NaN. -/
def rows (x : IVec S1024 32) (emb : FVec F S100000x64 .f32) : FVec F S1024x64 .f32 :=
  select (broadcastInDim S1024x64 ![0] bcast_S1024_S1024x64_0 (inRange x))
    (Host.gather gather_S100000x64_S1024x1_S1024x64_1_0_n_n_0_1_164 emb (startIdx x))
    (broadcastInDim S1024x64 ![] bcast_S_S1024x64 (constant (F := F) S_ .f32 0x7FC00000#32))

/-- THE REFERENCE'S RESULT: the rows times the transposed second table. -/
def refOut (x : IVec S1024 32) (emb W : FVec F S100000x64 .f32) : FVec F S1024x100000 .f32 :=
  Host.dotGeneral (F := F) dot_S1024x64_S64x100000_S1024x100000_1_0_0_1_n_n none (rows x emb)
    (transpose S64x100000 [1, 0] W transposes_S100000x64_S64x100000_1_0)

end Term

/-! ## Words -/

/-- A word in [0, 99999] read signed is below 100000 read unsigned, and its signed reading clamped into
    [0, 99999] is its unsigned reading. -/
theorem word_of_range (w : BitVec 32) (h0 : 0 ≤ w.toInt) (h1 : w.toInt ≤ 99999) :
    w.toNat < 100000 ∧ w.toNat = min w.toInt.toNat 99999 := by
  have hc := BitVec.toInt_eq_toNat_cond w
  have hlt := w.isLt
  split at hc <;> omega

/-- The table row that index b names. -/
def rowOf (x : IVec S1024 32) (hx : ∀ b : Fin 1024, 0 ≤ (x (ix1 b)).toInt ∧ (x (ix1 b)).toInt ≤ 99999) (b : Fin 1024) :
    Fin 100000 :=
  ⟨(x (ix1 b)).toNat, (word_of_range _ (hx b).1 (hx b).2).1⟩

theorem rowOf_val (x : IVec S1024 32) (hx : ∀ b : Fin 1024, 0 ≤ (x (ix1 b)).toInt ∧ (x (ix1 b)).toInt ≤ 99999) (b : Fin 1024) :
    (rowOf x hx b).val = (x (ix1 b)).toNat := rfl

/-! ## The index chain under the range hypothesis -/

/-- A nonnegative index is not wrapped. -/
theorem wrapped_apply (x : IVec S1024 32) (b : Fin 1024) (h0 : 0 ≤ (x (ix1 b)).toInt) : wrapped x (ix1 b) = x (ix1 b) := by
  have hc : ¬ IntOp.cmpi .slt (x (ix1 b)) (0#32) = 1#1 := by
    rw [IntOp.cmpi_slt, show (0#32 : BitVec 32).toInt = 0 from by decide]
    omega
  show Scalar.select (IntOp.cmpi .slt (x (ix1 b)) (0#32)) _ (x (ix1 b)) = x (ix1 b)
  exact if_neg hc

/-- The column of start indices at row b is the wrapped index of row b. -/
theorem startIdx_apply (x : IVec S1024 32) (b : Fin 1024) (z : Fin 1) : startIdx x (ix2 b z) = wrapped x (ix1 b) := by
  unfold startIdx
  refine broadcastInDim_apply _ _ (wrapped x) (ix2 b z) (ix1 b) fun a => ?_
  match a with
  | ⟨0, _⟩ => exact (if_neg (show ¬ (1024 : Nat) = 1 from by decide)).symm

/-- Under the range hypothesis every entry of the in-range column is 1. -/
theorem inRangeCol_apply (x : IVec S1024 32) (hx : ∀ b : Fin 1024, 0 ≤ (x (ix1 b)).toInt ∧ (x (ix1 b)).toInt ≤ 99999)
    (j : S1024x1.Idx) : inRangeCol x j = 1#1 := by
  obtain ⟨b, z, rfl⟩ : ∃ (b : Fin 1024) (z : Fin 1), j = ix2 b z := ⟨j 0, j 1, eq_ix2 j⟩
  show IntOp.andi (IntOp.cmpi .sge (startIdx x (ix2 b z)) (0#32)) (IntOp.cmpi .sle (startIdx x (ix2 b z)) (99999#32)) = 1#1
  rw [startIdx_apply, wrapped_apply x b (hx b).1, IntOp.andi_eq_one, IntOp.cmpi_sge, IntOp.cmpi_sle,
    show (0#32 : BitVec 32).toInt = 0 from by decide, show (99999#32 : BitVec 32).toInt = 99999 from by decide]
  exact hx b

/-- A left fold by "and" from 1 over words that are all 1 is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_all_one f l _ (IntOp.andi_eq_one.2 ⟨h, hl a List.mem_cons_self⟩) fun n hn => hl n (List.mem_cons_of_mem _ hn)

/-- Under the range hypothesis the per-row mask is 1 at every row. -/
theorem inRange_apply (x : IVec S1024 32) (hx : ∀ b : Fin 1024, 0 ≤ (x (ix1 b)).toInt ∧ (x (ix1 b)).toInt ≤ 99999)
    (i : S1024.Idx) : inRange x i = 1#1 := by
  unfold inRange
  rw [Host.reduce_eq_foldl]
  exact foldl_andi_of_all_one (inRangeCol x) _ _ rfl fun n _ => inRangeCol_apply x hx n

/-! ## The gather read at an index -/

/-- Row b, column k of the gather is the table at the row the start index of b names, read signed and clamped into
    [0, 99999], and column k: axis 0 is the one axis the start index addresses (and is collapsed), axis 1 is the offset
    axis. The row is named by the caller. -/
theorem gather_apply {α : Type} (emb : S100000x64.Idx → α) (idx : IVec S1024x1 32) (b : Fin 1024) (k : Fin 64) (r : Fin 100000)
    (hr : r.val = min (idx (ix2 b (0 : Fin 1))).toInt.toNat 99999) :
    Host.gather gather_S100000x64_S1024x1_S1024x64_1_0_n_n_0_1_164 emb idx (ix2 b k) = emb (ix2 r k) := by
  unfold Host.gather
  refine congrArg emb (funext fun a => Fin.ext ?_)
  match a with
  | ⟨0, _⟩ =>
    show gather_S100000x64_S1024x1_S1024x64_1_0_n_n_0_1_164.start (ix2 b k) idx 0
        + gather_S100000x64_S1024x1_S1024x64_1_0_n_n_0_1_164.batchCoord (ix2 b k) 0
        + gather_S100000x64_S1024x1_S1024x64_1_0_n_n_0_1_164.offCoord (ix2 b k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100000x64.rank) ∈ gather_S100000x64_S1024x1_S1024x64_1_0_n_n_0_1_164.startIndexMap from
      List.mem_singleton.mpr rfl)]
    have hsi : gather_S100000x64_S1024x1_S1024x64_1_0_n_n_0_1_164.siIdx (ix2 b k)
        ⟨List.idxOf (0 : Fin S100000x64.rank) gather_S100000x64_S1024x1_S1024x64_1_0_n_n_0_1_164.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, hr]
    rfl
  | ⟨1, _⟩ =>
    show gather_S100000x64_S1024x1_S1024x64_1_0_n_n_0_1_164.start (ix2 b k) idx 1
        + gather_S100000x64_S1024x1_S1024x64_1_0_n_n_0_1_164.batchCoord (ix2 b k) 1
        + gather_S100000x64_S1024x1_S1024x64_1_0_n_n_0_1_164.offCoord (ix2 b k) 1 = k.val
    rw [GatherDims.batchCoord_eq_zero _ _ _ List.not_mem_nil]
    unfold GatherDims.start
    rw [dif_neg (show ¬ (1 : Fin S100000x64.rank) ∈ gather_S100000x64_S1024x1_S1024x64_1_0_n_n_0_1_164.startIndexMap from by decide)]
    simp only [Nat.add_zero, Nat.zero_add]
    rfl

/-! ## The rows, the transpose and the product at an index, at the extended reals -/

/-- Under the range hypothesis row b of the rows is row (x b) of the first table. -/
theorem rows_apply (x : IVec S1024 32) (emb : FVec Ideal S100000x64 .f32)
    (hx : ∀ b : Fin 1024, 0 ≤ (x (ix1 b)).toInt ∧ (x (ix1 b)).toInt ≤ 99999) (b : Fin 1024) (k : Fin 64) :
    rows (F := Ideal) x emb (ix2 b k) = emb (ix2 (rowOf x hx b) k) := by
  have hm : broadcastInDim S1024x64 ![0] bcast_S1024_S1024x64_0 (inRange x) (ix2 b k) = 1#1 := by
    unfold broadcastInDim
    exact inRange_apply x hx _
  unfold rows
  rw [select_apply, hm, select_one]
  refine gather_apply emb (startIdx x) b k (rowOf x hx b) ?_
  rw [startIdx_apply, wrapped_apply x b (hx b).1]
  exact (word_of_range _ (hx b).1 (hx b).2).2

/-- The transposed second table at (k, v) is the table at (v, k). -/
theorem transpose_apply_kv (W : FVec Ideal S100000x64 .f32) (k : Fin 64) (v : Fin 100000) :
    transpose S64x100000 [1, 0] W transposes_S100000x64_S64x100000_1_0 (ix2 k v) = W (ix2 v k) :=
  transpose_apply [1, 0] W transposes_S100000x64_S64x100000_1_0 (ix2 k v) (ix2 v k) fun c => by
    match c with
    | ⟨0, _⟩ => rfl
    | ⟨1, _⟩ => rfl

/-- The left operand's index at result (b, v) and contraction position q: row b on axis 0 … -/
theorem lhs_0 (i : S1024x100000.Idx) (q : dot_S1024x64_S64x100000_S1024x100000_1_0_0_1_n_n.contr.Idx) :
    (dot_S1024x64_S64x100000_S1024x100000_1_0_0_1_n_n.lhsIdx i q 0).val = (i 0).val := by
  unfold DotDims.lhsIdx
  rw [dif_neg (show ¬ (0 : Fin S1024x64.rank) ∈ dot_S1024x64_S64x100000_S1024x100000_1_0_0_1_n_n.lhsBatch from by decide),
    dif_pos (show (0 : Fin S1024x64.rank) ∈ dot_S1024x64_S64x100000_S1024x100000_1_0_0_1_n_n.lhsNonContracting from by decide)]
  rfl
/-- … and the contraction position on axis 1. -/
theorem lhs_1 (i : S1024x100000.Idx) (q : dot_S1024x64_S64x100000_S1024x100000_1_0_0_1_n_n.contr.Idx) :
    (dot_S1024x64_S64x100000_S1024x100000_1_0_0_1_n_n.lhsIdx i q 1).val = (q ⟨0, by decide⟩).val :=
  dot_S1024x64_S64x100000_S1024x100000_1_0_0_1_n_n.lhsIdx_val_of_single rfl i q
/-- The right operand's index: the contraction position on axis 0 … -/
theorem rhs_0 (i : S1024x100000.Idx) (q : dot_S1024x64_S64x100000_S1024x100000_1_0_0_1_n_n.contr.Idx) :
    (dot_S1024x64_S64x100000_S1024x100000_1_0_0_1_n_n.rhsIdx i q 0).val = (q ⟨0, by decide⟩).val :=
  dot_S1024x64_S64x100000_S1024x100000_1_0_0_1_n_n.rhsIdx_val_of_single rfl i q
/-- … and column v on axis 1. -/
theorem rhs_1 (i : S1024x100000.Idx) (q : dot_S1024x64_S64x100000_S1024x100000_1_0_0_1_n_n.contr.Idx) :
    (dot_S1024x64_S64x100000_S1024x100000_1_0_0_1_n_n.rhsIdx i q 1).val = (i 1).val := by
  unfold DotDims.rhsIdx
  rw [dif_neg (show ¬ (1 : Fin S64x100000.rank) ∈ dot_S1024x64_S64x100000_S1024x100000_1_0_0_1_n_n.rhsBatch from by decide),
    dif_pos (show (1 : Fin S64x100000.rank) ∈ dot_S1024x64_S64x100000_S1024x100000_1_0_0_1_n_n.rhsNonContracting from by decide)]
  rfl

/-- The product at (b, v): the sum over the 64 contraction positions. -/
theorem dot_apply (l : FVec Ideal S1024x64 .f32) (r : FVec Ideal S64x100000 .f32) (b : Fin 1024) (v : Fin 100000) :
    Host.dotGeneral (F := Ideal) dot_S1024x64_S64x100000_S1024x100000_1_0_0_1_n_n none l r (ix2 b v)
      = ∑ k : Fin 64, l (ix2 b k) * r (ix2 k v) := by
  simp only [Host.dotGeneral]
  rw [Ideal.dotGeneral_apply,
    ← Equiv.sum_comp (contrEquiv1 dot_S1024x64_S64x100000_S1024x100000_1_0_0_1_n_n 64 rfl rfl).symm]
  refine Finset.sum_congr rfl fun k _ => ?_
  have hk := contrEquiv1_symm_val dot_S1024x64_S64x100000_S1024x100000_1_0_0_1_n_n 64 rfl rfl k
  have el : dot_S1024x64_S64x100000_S1024x100000_1_0_0_1_n_n.lhsIdx (ix2 b v)
      ((contrEquiv1 dot_S1024x64_S64x100000_S1024x100000_1_0_0_1_n_n 64 rfl rfl).symm k) = ix2 b k :=
    funext fun a => Fin.ext (by
      match a with
      | ⟨0, _⟩ => exact lhs_0 _ _
      | ⟨1, _⟩ => exact (lhs_1 _ _).trans hk)
  have er : dot_S1024x64_S64x100000_S1024x100000_1_0_0_1_n_n.rhsIdx (ix2 b v)
      ((contrEquiv1 dot_S1024x64_S64x100000_S1024x100000_1_0_0_1_n_n 64 rfl rfl).symm k) = ix2 k v :=
    funext fun a => Fin.ext (by
      match a with
      | ⟨0, _⟩ => exact (rhs_0 _ _).trans hk
      | ⟨1, _⟩ => exact rhs_1 _ _)
  rw [el, er]

/-- THE REFERENCE'S RESULT AT (b, v), every index in [0, 99999]: the sum over the 64 columns k of the first table
    at (x b, k) times the second table at (v, k). -/
theorem refOut_apply (x : IVec S1024 32) (emb W : FVec Ideal S100000x64 .f32)
    (hx : ∀ b : Fin 1024, 0 ≤ (x (ix1 b)).toInt ∧ (x (ix1 b)).toInt ≤ 99999) (b : Fin 1024) (v : Fin 100000) :
    refOut (F := Ideal) x emb W (ix2 b v) = ∑ k : Fin 64, emb (ix2 (rowOf x hx b) k) * W (ix2 v k) := by
  unfold refOut
  rw [dot_apply]
  refine Finset.sum_congr rfl fun k _ => ?_
  rw [rows_apply x emb hx b k, transpose_apply_kv W k v]

end Cert.ReferenceIdeal.RefValue

/-! ## The run

The reference's @main as the list of its 25 operations, the call of the take function and, inside it, of the where
function written at their call sites over the call's own buffers; every weakly fair execution terminates with the
result buffer at the composed term above and the arguments unchanged. -/

namespace Cert.ReferenceIdeal.RefValue

open Idealize.ShloMosaic Idealize.ShloMosaic.TcCoe Idealize.SL.Sem Idealize.ShloMosaic.StableHlo
open Cert.ReferenceIdeal.Facts₀

variable [hF : Cert.ReferenceIdeal.Facts]
variable {F : FTy → Type} [FloatOps F]

/-- @main's operations in order, the two calls unfolded. -/
abbrev ops : List (HloOp τ sig (Elt F)) :=
  [ TRef.nullary main_call0.c (constantI S_ 32 0#32),
    TRef.unary main_call0.c main_call0.v0 (broadcastInDim S1024 ![] bcast_S_S1024),
    TRef.binary (.of main_arg0) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0) main_call0.v2 main_call0.v3 addi,
    TRef.ternary main_call0.v1 main_call0.v3 (.of main_arg0) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select,
    unary main_arg2 main_v1 ((transpose S64x100000 [1, 0] · transposes_S100000x64_S64x100000_1_0) : (⟨S100000x64, .f32⟩ : BufTy).Contents (Elt F) → (⟨S64x100000, .f32⟩ : BufTy).Contents (Elt F)),
    binary main_v0 main_v1 main_v2 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)) ]

set_option maxRecDepth 4096 in
/-- @main is that straight line: the two functions' definitions unfolded at their calls, both sides one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub ..⟩

set_option maxRecDepth 8192 in
/-- The fold of the operations at the result buffer is the composed term of the three arguments' contents. -/
theorem out_eq (V : Valuation τ sig (Elt F)) :
    after ops V (main_v2 : DevRef τ sig)
      = refOut (V (main_arg0 : DevRef τ sig)) (V (main_arg1 : DevRef τ sig)) (V (main_arg2 : DevRef τ sig)) := by
  after_results
  simp only [TRef.ofBuf, TRef.toBuf, cast_cast, cast_eq]
  rfl

/-- No operation writes an argument. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- On every device, for any float values, from any memory with zero counters: every weakly fair execution of
    @main terminates with the result at the composed term of the arguments and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v2)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v2).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m g)

end Cert.ReferenceIdeal.RefValue

end
-- ==== Proof.MainFinV.lean ====
/-
  What @main leaves for the value claim at the ideal instance: the arguments unchanged and the result array at
  the reference's function of them, `take(emb, x) · Wᵀ`.
-/
import proofs.«218855_g90357521973776_cont_sun_m_356_26_alg».proof.Proof.Setup
import proofs.«218855_g90357521973776_cont_sun_m_356_26_alg».proof.Proof.MainFin
import proofs.«218855_g90357521973776_cont_sun_m_356_26_alg».proof.Proof.RefRun

noncomputable section

namespace Cert.KernelIdeal.MainFinV

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainFin

variable (m : (ℓ : Loc nD τ sig) → Buf (Elt Ideal) ℓ)

abbrev rLoc (d : Dev nD) : Loc nD τ sig := (SparseCore.T d).loc main_v15

/-- The reference's result as a function of this program's argument arrays. -/
def spec (d : Dev nD) : Buf (Elt Ideal) (rLoc d) :=
  Cert.ReferenceIdeal.RefValue.refOut (F := Ideal) (m (a0Loc d)) (m (a1Loc d)) (m (a2Loc d))

abbrev FINv (d : Dev nD) : sProp (MT nD τ sig (HIx 1) (Elt Ideal) ℕ UU ℕ) :=
  iprop(FIN m d ∗ (rLoc d ↦{fullShare} spec m d))

def fqv (d : Dev nD) (s' : Phys nD τ sig (Elt Ideal)) : Prop :=
  s'.mem.mem (rLoc d) = spec m d ∧ fq m d s'

set_option maxRecDepth 16384 in
theorem hfinv (d : Dev nD) (s' : Phys nD τ sig (Elt Ideal)) :
    iprop(FINv m d ∗ SI s') ⊢ (⌜fqv m d s'⌝ : sProp (MT nD τ sig (HIx 1) (Elt Ideal) ℕ UU ℕ)) := by
  iintro ⟨⟨HF, Hr⟩, HSI⟩
  ihave H := (persistent_entails_right (SI_pointsTo_agree (st := s') (ℓ := rLoc d) (I := Finset.univ) (q := fullShare) (f := spec m d))) $$ [HSI Hr]
  · isplitl [HSI] <;> iassumption
  icases H with ⟨%hr, HSI, -⟩
  ihave H := (hfin m d s') $$ [HF HSI]
  · isplitl [HF] <;> iassumption
  icases H with %hf
  ipureintro
  exact ⟨funext fun i => hr i (Finset.mem_univ i), hf⟩

/-- The value claim's post. -/
def QCv : PUnit × MemSt nD τ sig (Elt Ideal) → Prop := fun r => ∀ c : Dev nD,
  r.2.mem (rLoc c) = spec m c ∧ r.2.mem (a0Loc c) = m (a0Loc c) ∧ r.2.mem (a1Loc c) = m (a1Loc c) ∧ r.2.mem (a2Loc c) = m (a2Loc c)

end Cert.KernelIdeal.MainFinV

end
-- ==== Proof.ValueBridge.lean ====
/-
  The kernel's value against the reference's, as mathematics over functions.

  The table of 100000 rows of 64 is held by the kernel as 65536 rows of 128: row p holds table row p in its columns
  0..63 and, for p < 34464, table row 65536 + p in its columns 64..127. An index w in [0, 99999] is looked up at the
  physical row w, or w - 65536 when w is 65536 or more, and the half is chosen by that same comparison; either way the
  64 entries chosen are table row w. The product with the second table is then the reference's sum, the factors in the
  other order.
-/
import proofs.«218855_g90357521973776_cont_sun_m_356_26_alg».proof.Proof.RefRun

noncomputable section

open scoped BigOperators

namespace Cert.KernelIdeal.ValueBridge

open Idealize.ShloMosaic Idealize.ShloMosaic.ValueIdx
open Cert.ReferenceIdeal (S1024 S100000x64 S1024x100000)
open Cert.ReferenceIdeal.RefValue (refOut rowOf refOut_apply word_of_range)

/-- What is known of the pair table: its left half is the table's first 65536 rows, the first 34464 rows of its right
    half the table's remaining rows. -/
def Tab (emb : FVec Ideal S100000x64 .f32) (T1 : (⟨2, ![65536, 128]⟩ : Shape).Idx → EReal) : Prop :=
  (∀ (p : Fin 65536) (k : Fin 64),
      T1 (ix2 (n0 := 65536) (n1 := 128) p ⟨k.val, by omega⟩) = emb (ix2 (n0 := 100000) (n1 := 64) ⟨p.val, by omega⟩ k))
  ∧ (∀ (p : Fin 65536) (hp : p.val < 34464) (k : Fin 64),
      T1 (ix2 (n0 := 65536) (n1 := 128) p ⟨64 + k.val, by omega⟩) = emb (ix2 (n0 := 100000) (n1 := 64) ⟨65536 + p.val, by omega⟩ k))

/-- The pair table built from the transposed table has those two properties. -/
theorem tab_of_transposed (emb : FVec Ideal S100000x64 .f32) (V0 : (⟨2, ![64, 100000]⟩ : Shape).Idx → EReal)
    (T1 : (⟨2, ![65536, 128]⟩ : Shape).Idx → EReal)
    (hV : ∀ (k : Fin 64) (p : Fin 100000), V0 (ix2 (n0 := 64) (n1 := 100000) k p) = emb (ix2 (n0 := 100000) (n1 := 64) p k))
    (hlo : ∀ (p : Fin 65536) (k : Fin 64),
      T1 (ix2 (n0 := 65536) (n1 := 128) p ⟨k.val, by omega⟩) = V0 (ix2 (n0 := 64) (n1 := 100000) k ⟨p.val, by omega⟩))
    (hhi : ∀ (p : Fin 65536) (hp : p.val < 34464) (k : Fin 64),
      T1 (ix2 (n0 := 65536) (n1 := 128) p ⟨64 + k.val, by omega⟩) = V0 (ix2 (n0 := 64) (n1 := 100000) k ⟨65536 + p.val, by omega⟩)) :
    Tab emb T1 :=
  And.intro (fun p k => (hlo p k).trans (hV k _)) (fun p hp k => (hhi p hp k).trans (hV k _))

/-- The 64 entries the kernel keeps of gathered row b: the right half when the high bit is set, else the left. -/
def sel (H : (⟨2, ![1024, 1]⟩ : Shape).Idx → BitVec 32) (P8 : (⟨2, ![1024, 128]⟩ : Shape).Idx → EReal) (b : Fin 1024) (k : Fin 64) :
    EReal :=
  Scalar.select (IntOp.cmpi .ne (H (ix2 (n0 := 1024) (n1 := 1) b (0 : Fin 1))) 0#32)
    (P8 (ix2 (n0 := 1024) (n1 := 128) b ⟨64 + k.val, by omega⟩)) (P8 (ix2 (n0 := 1024) (n1 := 128) b ⟨k.val, by omega⟩))

section Bridge

variable (x : IVec S1024 32) (emb W : FVec Ideal S100000x64 .f32)
  (hx : ∀ b : Fin 1024, 0 ≤ (x (ix1 b)).toInt ∧ (x (ix1 b)).toInt ≤ 99999)
  (ph : Fin 1024 → BitVec 32)
  (hph : ∀ b : Fin 1024, ph b = if 65536 ≤ (x (ix1 b)).toInt then x (ix1 b) - 65536#32 else x (ix1 b))
  (H : (⟨2, ![1024, 1]⟩ : Shape).Idx → BitVec 32)
  (hH : ∀ b : Fin 1024, H (ix2 (n0 := 1024) (n1 := 1) b (0 : Fin 1)) = (IntOp.cmpi .sge (x (ix1 b)) 65536#32).setWidth 32)
  (P8 : (⟨2, ![1024, 128]⟩ : Shape).Idx → EReal)
  (hP : ∀ r : Fin 1024, ∃ T1, Tab emb T1 ∧ ∀ c : Fin 128,
    P8 (ix2 (n0 := 1024) (n1 := 128) r c) = T1 (ix2 (n0 := 65536) (n1 := 128) ⟨(ph r).toNat % 65536, Nat.mod_lt _ (by decide)⟩ c))

include hx hph hH hP in
/-- The entries kept of gathered row b are table row x b. -/
theorem sel_eq (b : Fin 1024) (k : Fin 64) : sel H P8 b k = emb (ix2 (rowOf x hx b) k) := by
  obtain ⟨T1, hT, hrow⟩ := hP b
  obtain ⟨hlo, hhi⟩ := hT
  obtain ⟨h0, h1⟩ := hx b
  have hlt := (x (ix1 b)).isLt
  have hti : (x (ix1 b)).toInt = ((x (ix1 b)).toNat : Int) := by
    have hc := BitVec.toInt_eq_toNat_cond (x (ix1 b))
    split at hc <;> omega
  have e65i : (65536#32 : BitVec 32).toInt = 65536 := by decide
  have e65n : (65536#32 : BitVec 32).toNat = 65536 := by decide
  unfold sel
  by_cases hge : 65536 ≤ (x (ix1 b)).toInt
  · -- the index is 65536 or more: the right half of physical row (x b - 65536)
    have hc : IntOp.cmpi .sge (x (ix1 b)) 65536#32 = 1#1 := IntOp.cmpi_sge.2 (by rw [e65i]; exact hge)
    have hphb : ph b = x (ix1 b) - 65536#32 := by rw [hph b, if_pos hge]
    have hn : (ph b).toNat % 65536 = (x (ix1 b)).toNat - 65536 := by
      rw [hphb, BitVec.toNat_sub, e65n]; omega
    rw [hH b, hc, show IntOp.cmpi .ne ((1#1 : BitVec 1).setWidth 32) 0#32 = 1#1 from by decide, select_one, hrow]
    refine (hhi ⟨(ph b).toNat % 65536, Nat.mod_lt _ (by decide)⟩ (by show (ph b).toNat % 65536 < 34464; omega) k).trans ?_
    refine congrArg (fun r => emb (ix2 (n0 := 100000) (n1 := 64) r k)) (Fin.ext ?_)
    show 65536 + (ph b).toNat % 65536 = (x (ix1 b)).toNat
    omega
  · -- the index is below 65536: the left half of physical row x b
    have hc : ¬ IntOp.cmpi .sge (x (ix1 b)) 65536#32 = 1#1 := fun h => hge (by have h' := IntOp.cmpi_sge.1 h; rwa [e65i] at h')
    have hphb : ph b = x (ix1 b) := by rw [hph b, if_neg hge]
    have hn : (ph b).toNat % 65536 = (x (ix1 b)).toNat := by
      rw [hphb]; omega
    rw [hH b, eq_zero_of_ne_one hc, show IntOp.cmpi .ne ((0#1 : BitVec 1).setWidth 32) 0#32 = 0#1 from by decide, select_zero, hrow]
    refine (hlo ⟨(ph b).toNat % 65536, Nat.mod_lt _ (by decide)⟩ k).trans ?_
    refine congrArg (fun r => emb (ix2 (n0 := 100000) (n1 := 64) r k)) (Fin.ext ?_)
    show (ph b).toNat % 65536 = (x (ix1 b)).toNat
    exact hn

include hx hph hH hP in
/-- The kernel's product at (b, v) is the reference's result there. -/
theorem out_eq_ref (b : Fin 1024) (v : Fin 100000) :
    (∑ k : Fin 64, W (ix2 (n0 := 100000) (n1 := 64) v k) * sel H P8 b k) = refOut (F := Ideal) x emb W (ix2 b v) := by
  rw [refOut_apply x emb W hx b v]
  refine Finset.sum_congr rfl fun k _ => ?_
  rw [sel_eq x emb hx ph hph H hH P8 hP b k, mul_comm]

end Bridge

end Cert.KernelIdeal.ValueBridge

end
-- ==== Proof.Region2Value.lean ====
/-
  The second TensorCore region at the ideal values: the body's product read at an index (a sum of 64 products, the
  weight block's column against the selected half of a pair row), that the rows of the product inside the array do
  not depend on the words the last block's fetch leaves past the weights' end, the body obligation with nothing
  forgotten, and the result array after the run in closed form: entry (v, b) is the sum over the 64 weight rows of
  the transposed weights' (k, v) times the selected half of pair row b at k.
-/
import proofs.«218855_g90357521973776_cont_sun_m_356_26_alg».proof.Proof.Region2
import Idealize.ShloMosaic.Lib.ValueIdx
import Idealize.ShloMosaic.Lib.Pipeline.Value
import Idealize.ShloMosaic.PureOps.Ideal.Laws

noncomputable section

namespace Cert.KernelIdeal.Region2

open Cert.KernelIdeal Cert.KernelIdeal.Gen

open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat RDat Cfg Window BodyObligation BodyObligationLoose)

local notation "𝕄" => MT nD τ sig (HIx 1) (Elt Ideal) ℕ Setup.UU ℕ

/-! ## The grid's arithmetic, decided over its 25 points -/

/-- The block indices: the weights' block is column block `t`, the result's row block `t`, the pair rows and the
    flags are whole. -/
theorem idx_facts : ∀ t : Fin cfg2.N,
    win2_0.index t 0 = 0 ∧ win2_0.index t 1 = t.val ∧ win2_1.index t 0 = 0 ∧ win2_1.index t 1 = 0
      ∧ win2_2.index t 0 = 0 ∧ win2_2.index t 1 = 0 ∧ win2_3.index t 0 = t.val ∧ win2_3.index t 1 = 0 :=
  (by decide +kernel : ∀ t : Fin grid2.N,
    win2_0.index t 0 = 0 ∧ win2_0.index t 1 = t.val ∧ win2_1.index t 0 = 0 ∧ win2_1.index t 1 = 0
      ∧ win2_2.index t 0 = 0 ∧ win2_2.index t 1 = 0 ∧ win2_3.index t 0 = t.val ∧ win2_3.index t 1 = 0)

/-- The cuts: the weights' block keeps its 64 rows and as many columns as the result's block keeps rows — 4096, or
    what is left of the 100000 at the last point —, and the result's block keeps its 1024 columns. -/
theorem xsize_facts : ∀ t : Fin cfg2.N,
    win2_0.xsize (grid2.coords t) 0 = 64 ∧ win2_0.xsize (grid2.coords t) 1 = win2_3.xsize (grid2.coords t) 0
      ∧ win2_3.xsize (grid2.coords t) 1 = 1024
      ∧ ((t.val + 1) * 4096 ≤ 100000 → win2_3.xsize (grid2.coords t) 0 = 4096)
      ∧ (100000 < (t.val + 1) * 4096 → t.val * 4096 + win2_3.xsize (grid2.coords t) 0 = 100000) :=
  (by decide +kernel : ∀ t : Fin grid2.N,
    win2_0.xsize (grid2.coords t) 0 = 64 ∧ win2_0.xsize (grid2.coords t) 1 = win2_3.xsize (grid2.coords t) 0
      ∧ win2_3.xsize (grid2.coords t) 1 = 1024
      ∧ ((t.val + 1) * 4096 ≤ 100000 → win2_3.xsize (grid2.coords t) 0 = 4096)
      ∧ (100000 < (t.val + 1) * 4096 → t.val * 4096 + win2_3.xsize (grid2.coords t) 0 = 100000))

/-! ## A filled block on the part the transfer moves -/

theorem fill_apply_of_moved {G : Pipeline.Grid} (w : Window sig G) {α : Type} (i : G.Coords) (d : w.block.Idx → α)
    (g : (w.xblock i).Idx → α) {j : w.block.Idx} (hm : w.moved i j = true) :
    w.fill i d g j = g fun a => ⟨(j a).val, (w.moved_iff i j).mp hm a⟩ := by
  unfold Window.fill; rw [dif_pos hm]

theorem fill_eq_of_moved {G : Pipeline.Grid} (w : Window sig G) {α : Type} (i : G.Coords) (d d' : w.block.Idx → α)
    (g : (w.xblock i).Idx → α) {j : w.block.Idx} (hm : w.moved i j = true) : w.fill i d g j = w.fill i d' g j := by
  rw [fill_apply_of_moved w i d g hm, fill_apply_of_moved w i d' g hm]

/-! ## The body's product at an index -/

/-- The product's dimension numbers: the weights' axis 0 against the pair rows' axis 1. -/
abbrev D2 : DotDims S64x4096 S1024x64 S4096x1024 := dot_S64x4096_S1024x64_S4096x1024_0_1_1_0_n_n

/-- Into the zero accumulator the product at (v, b) is the sum over the 64 contracted positions of the left operand's
    (k, v) times the right operand's (b, k). -/
theorem mm_apply (l : FVec Ideal S64x4096 .bf16) (r : FVec Ideal S1024x64 .f32) (v : Fin 4096) (b : Fin 1024) :
    matmul D2 none l r (constant (F := Ideal) S4096x1024 .f32 0x00000000#32) (ix2 v b)
      = ∑ k : Fin 64, l (ix2 k v) * r (ix2 b k) := by
  show FloatOps.matmul D2 none l r (constant (F := Ideal) S4096x1024 .f32 0x00000000#32) (ix2 v b) = _
  rw [Ideal.matmul_constant_zero_apply, ← Equiv.sum_comp (contrEquiv1 D2 64 rfl rfl).symm]
  refine Finset.sum_congr rfl fun k _ => ?_
  have c2 := contrEquiv1_symm_val D2 64 rfl rfl k
  have l2 : D2.lhsIdx (ix2 v b) ((contrEquiv1 D2 64 rfl rfl).symm k) = ix2 k v := by
    funext ax; apply Fin.ext
    match ax with
    | ⟨0, _⟩ => simp [DotDims.lhsIdx, D2, dot_S64x4096_S1024x64_S4096x1024_0_1_1_0_n_n]; exact c2
    | ⟨1, _⟩ => simp [DotDims.lhsIdx, D2, dot_S64x4096_S1024x64_S4096x1024_0_1_1_0_n_n]; rfl
  have r2 : D2.rhsIdx (ix2 v b) ((contrEquiv1 D2 64 rfl rfl).symm k) = ix2 b k := by
    funext ax; apply Fin.ext
    match ax with
    | ⟨0, _⟩ => simp [DotDims.rhsIdx, D2, dot_S64x4096_S1024x64_S4096x1024_0_1_1_0_n_n]; rfl
    | ⟨1, _⟩ => simp [DotDims.rhsIdx, D2, dot_S64x4096_S1024x64_S4096x1024_0_1_1_0_n_n]; exact c2
  rw [l2, r2]

section AnyInstance

variable {F : FTy → Type} [FloatOps F]

/-- The selected half of pair row `b` at position `k`: columns 64..127 where the row's flag is not zero, else
    columns 0..63. -/
def sel (X2 : S1024x1.Idx → Elt F .i32) (X1 : S1024x128.Idx → Elt F .f32) (b : Fin 1024) (k : Fin 64) : Elt F .f32 :=
  Scalar.select (IntOp.cmpi .ne (X2 (ix2 b (0 : Fin 1))) 0#32)
    (X1 (ix2 b (⟨64 + k.val, by have := k.isLt; omega⟩ : Fin 128))) (X1 (ix2 b (⟨k.val, by have := k.isLt; omega⟩ : Fin 128)))

/-- The body's right operand: the select of the two halves by the broadcast flag. -/
def abv (X2 : S1024x1.Idx → Elt F .i32) (X1 : S1024x128.Idx → Elt F .f32) : FVec F S1024x64 .f32 :=
  select (broadcastTo S1024x64 (shapeCast S1024x1 (cmpi .ne (shapeCast S1024x1 X2 shapeCasts_S1024x1_S1024x1)
      (broadcast S1024x1 0#32)) shapeCasts_S1024x1_S1024x1) broadcasts_S1024x1_S1024x64)
    (shapeCast S1024x64 (rdHi X1) shapeCasts_S1024x64_S1024x64) (shapeCast S1024x64 (rdLo X1) shapeCasts_S1024x64_S1024x64)

/-- The body's payload is the product of the rounded weight block with it. -/
theorem pay_eq (X2 : S1024x1.Idx → Elt F .i32) (X1 : S1024x128.Idx → Elt F .f32) (X0 : S64x4096.Idx → Elt F .f32) :
    pay X2 X1 X0 = matmul D2 none (truncf .bf16 (shapeCast S64x4096 X0 shapeCasts_S64x4096_S64x4096) bitsLt_bf16_f32)
      (abv X2 X1) (constant S4096x1024 .f32 0x00000000#32) := rfl

theorem rdHi_apply (X1 : S1024x128.Idx → Elt F .f32) (b : Fin 1024) (k : Fin 64) :
    rdHi X1 (ix2 b k) = X1 (ix2 b (⟨64 + k.val, by have := k.isLt; omega⟩ : Fin 128)) := by
  show X1 ((Rect.unit (s := S1024x128) ![0, 64] S1024x64.size inb_S1024x128_S1024x64_0_64).emb (ix2 b k)) = _
  refine congrArg X1 (funext fun a => Fin.ext ?_)
  match a with
  | ⟨0, _⟩ => show 0 + 1 * b.val = b.val; omega
  | ⟨1, _⟩ => show 64 + 1 * k.val = 64 + k.val; omega

theorem rdLo_apply (X1 : S1024x128.Idx → Elt F .f32) (b : Fin 1024) (k : Fin 64) :
    rdLo X1 (ix2 b k) = X1 (ix2 b (⟨k.val, by have := k.isLt; omega⟩ : Fin 128)) := by
  show X1 ((Rect.unit (s := S1024x128) ![0, 0] S1024x64.size inb_S1024x128_S1024x64_0_0).emb (ix2 b k)) = _
  refine congrArg X1 (funext fun a => Fin.ext ?_)
  match a with
  | ⟨0, _⟩ => show 0 + 1 * b.val = b.val; omega
  | ⟨1, _⟩ => show 0 + 1 * k.val = k.val; omega

theorem abv_apply (X2 : S1024x1.Idx → Elt F .i32) (X1 : S1024x128.Idx → Elt F .f32) (b : Fin 1024) (k : Fin 64) :
    abv X2 X1 (ix2 b k) = sel X2 X1 b k := by
  unfold abv sel
  rw [select_apply, broadcastTo_apply _ _ (ix2 b k) (ix2 b (0 : Fin 1)) (fun a => by
    match a with
    | ⟨0, _⟩ => rfl
    | ⟨1, _⟩ => rfl)]
  simp only [shapeCast_self]
  rw [rdHi_apply, rdLo_apply]
  rfl

end AnyInstance

/-- The body's result at (v, b): the sum over the weight block's 64 rows of its (k, v) times the selected half of
    pair row `b` at `k`. -/
theorem pay_apply (X2 : S1024x1.Idx → Elt Ideal .i32) (X1 : S1024x128.Idx → Elt Ideal .f32) (X0 : S64x4096.Idx → Elt Ideal .f32)
    (v : Fin 4096) (b : Fin 1024) :
    pay (F := Ideal) X2 X1 X0 (ix2 v b) = ∑ k : Fin 64, (X0 (ix2 k v) : Ideal .f32) * sel X2 X1 b k := by
  refine (congrFun (pay_eq X2 X1 X0) (ix2 v b)).trans ((mm_apply _ _ v b).trans (Finset.sum_congr rfl fun k _ => ?_))
  rw [abv_apply, truncf_apply, shapeCast_self]

/-- The rows of the product inside the array do not depend on what fills the weight block past the array's end. -/
theorem pay_cut_indep (t : Fin cfg2.N) (X2 : S1024x1.Idx → Elt Ideal .i32) (X1 : S1024x128.Idx → Elt Ideal .f32)
    (d d' : S64x4096.Idx → Elt Ideal .f32) (g : (win2_0.xblock (grid2.coords t)).Idx → Elt Ideal .f32) :
    win2_3.cut (grid2.coords t) (pay (F := Ideal) X2 X1 (win2_0.fill (grid2.coords t) d g))
      = win2_3.cut (grid2.coords t) (pay (F := Ideal) X2 X1 (win2_0.fill (grid2.coords t) d' g)) := by
  funext j
  have hx := xsize_facts t
  have h0 : (j 0).val < win2_3.xsize (grid2.coords t) 0 := (j 0).isLt
  have h1 : (j 1).val < 1024 := by
    have h : (j 1).val < win2_3.xsize (grid2.coords t) 1 := (j 1).isLt
    rw [hx.2.2.1] at h; exact h
  have hv : (j 0).val < 4096 := lt_of_lt_of_le h0 (win2_3.xsize_le _ 0)
  have e : win2_3.xinj (grid2.coords t) j = ix2 (⟨(j 0).val, hv⟩ : Fin 4096) (⟨(j 1).val, h1⟩ : Fin 1024) := by
    funext a
    match a with
    | ⟨0, _⟩ => rfl
    | ⟨1, _⟩ => rfl
  show pay (F := Ideal) X2 X1 _ (win2_3.xinj (grid2.coords t) j) = pay (F := Ideal) X2 X1 _ (win2_3.xinj (grid2.coords t) j)
  rw [e, pay_apply, pay_apply]
  refine Finset.sum_congr rfl fun k _ => ?_
  refine congrArg (· * sel X2 X1 _ k) ?_
  exact fill_eq_of_moved win2_0 _ d d' g ((win2_0.moved_iff _ _).mpr fun a => by
    match a with
    | ⟨0, _⟩ => show k.val < win2_0.xsize (grid2.coords t) 0; rw [hx.1]; exact k.isLt
    | ⟨1, _⟩ => show (j 0).val < win2_0.xsize (grid2.coords t) 1; rw [hx.2.1]; exact h0)

/-! ## The body obligation, nothing forgotten -/

section Data

variable (c : Dev nD)
  (WT : Buf (Elt Ideal) ((c.tc : Thread nD τ).loc main_v13)) (P8 : Buf (Elt Ideal) ((c.tc : Thread nD τ).loc main_v8))
  (H : Buf (Elt Ideal) ((c.tc : Thread nD τ).loc main_v12)) (OUT0 : Buf (Elt Ideal) ((c.tc : Thread nD τ).loc main_v14))

/-- The library's body obligation at the ideal values: as with the result's window forgotten, and the result's
    buffer leaves holding the product of the three blocks — on the rows inside the array the product of the blocks
    filled out by any words (`pay_cut_indep`), which is all the loose window's obligation asks. -/
theorem body_exact (Rv : sProp 𝕄) (O : CellTallies nD τ sig (HIx 1)) (Rec : Set (SemLoc sig × HIx 1)) : BodyObligationLoose (dat (F := Ideal) c WT P8 H OUT0 Rv O Rec) (defs₀ (F := Ideal)) Setup.𝒱₀ none Set.univ := fun t => by
  rw [bigSep_W2, bigSep_W2]
  simp only
  rw [show (dat (F := Ideal) c WT P8 H OUT0 Rv O Rec).Φ t.succ = (dat (F := Ideal) c WT P8 H OUT0 Rv O Rec).Φ t.castSucc from rfl,
    show (dat (F := Ideal) c WT P8 H OUT0 Rv O Rec).owesAt none t.succ = (dat (F := Ideal) c WT P8 H OUT0 Rv O Rec).owesAt none t.castSucc from rfl]
  iintro ⟨HΦ, Ho, ⟨%d0, H0⟩, ⟨%d1, H1⟩, ⟨%d2, H2⟩, ⟨%d3, H3⟩⟩
  rw [before_0 c WT P8 H OUT0 Rv O Rec t d0, before_1 c WT P8 H OUT0 Rv O Rec t d1, before_2 c WT P8 H OUT0 Rv O Rec t d2,
    before_3 c WT P8 H OUT0 Rv O Rec t d3, p8_eq c P8 t d1, h8_eq c H t d2]
  iapply (sound_body (F := Ideal) c Set.univ (grid2.coords t) (cfg2.slots t 0) (cfg2.slots t 1) (cfg2.slots t 2) (cfg2.slots t 3)
    (win2_0.fill (grid2.coords t) d0 (wblk c WT t)) (p8 c P8 t) (h8 c H t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win2_0.cut (grid2.coords t) (w8 c WT t) = wblk c WT t := win2_0.cut_fill _ _ _
  have hcut : win2_3.cut (grid2.coords t) (pay (F := Ideal) (h8 c H t) (p8 c P8 t) (win2_0.fill (grid2.coords t) d0 (wblk c WT t)))
      = win2_3.cut (grid2.coords t) (pay (F := Ideal) (h8 c H t) (p8 c P8 t) (w8 c WT t)) :=
    pay_cut_indep t (h8 c H t) (p8 c P8 t) d0 (fun _ => (Elt.inhabited Ideal _).default) (wblk c WT t)
  isplitl [H0]
  · iexists d0
    change _ ⊢ owns (c.tc : Thread nD τ) (stage2_0 (cfg2.slots t 0)) fullShare (win2_0.fill (grid2.coords t) d0 (win2_0.cut (grid2.coords t) (w8 c WT t)))
    rw [hx]; try iexact H0
  isplitl [H1]
  · iexact H1
  isplitl [H2]
  · iexact H2
  · iexists pay (F := Ideal) (h8 c H t) (p8 c P8 t) (win2_0.fill (grid2.coords t) d0 (wblk c WT t))
    change _ ⊢ owns (c.tc : Thread nD τ) (stage2_3 (cfg2.slots t 3)) fullShare
      (win2_3.fill (grid2.coords t) (pay (F := Ideal) (h8 c H t) (p8 c P8 t) (win2_0.fill (grid2.coords t) d0 (wblk c WT t)))
        (win2_3.cut (grid2.coords t) (pay (F := Ideal) (h8 c H t) (p8 c P8 t) (w8 c WT t))))
    rw [win2_3.fill_congr_cut (grid2.coords t) hcut]; try iexact H3

end Data

/-! ## The result array after the run, in closed form -/

section Final

variable (c : Dev nD)
  (WT : Buf (Elt Ideal) ((c.tc : Thread nD τ).loc main_v13)) (P8 : Buf (Elt Ideal) ((c.tc : Thread nD τ).loc main_v8))
  (H : Buf (Elt Ideal) ((c.tc : Thread nD τ).loc main_v12)) (OUT0 : Buf (Elt Ideal) ((c.tc : Thread nD τ).loc main_v14))

/-- The pair rows' and the flags' staging blocks are the whole arrays. -/
theorem p8_whole (t : Fin cfg2.N) : p8 (F := Ideal) c P8 t = (P8 : S1024x128.Idx → Elt Ideal .f32) := by
  funext x
  have hi := idx_facts t
  have hm : win2_1.moved (grid2.coords t) x = true := (win2_1.moved_iff _ _).mpr fun a => (x a).isLt
  unfold p8; rw [fill_apply_of_moved win2_1 _ _ _ hm]
  unfold pblk
  show (P8 : S1024x128.Idx → Elt Ideal .f32) ((win2_1.rect t).emb _) = (P8 : S1024x128.Idx → Elt Ideal .f32) x
  refine congrArg (P8 : S1024x128.Idx → Elt Ideal .f32) (funext fun a => Fin.ext ?_)
  match a with
  | ⟨0, _⟩ => show win2_1.index t 0 * 1024 + 1 * (x 0).val = (x 0).val; rw [hi.2.2.1]; omega
  | ⟨1, _⟩ => show win2_1.index t 1 * 128 + 1 * (x 1).val = (x 1).val; rw [hi.2.2.2.1]; omega

theorem h8_whole (t : Fin cfg2.N) : h8 (F := Ideal) c H t = (H : S1024x1.Idx → Elt Ideal .i32) := by
  funext x
  have hi := idx_facts t
  have hm : win2_2.moved (grid2.coords t) x = true := (win2_2.moved_iff _ _).mpr fun a => (x a).isLt
  unfold h8; rw [fill_apply_of_moved win2_2 _ _ _ hm]
  unfold hblk
  show (H : S1024x1.Idx → Elt Ideal .i32) ((win2_2.rect t).emb _) = (H : S1024x1.Idx → Elt Ideal .i32) x
  refine congrArg (H : S1024x1.Idx → Elt Ideal .i32) (funext fun a => Fin.ext ?_)
  match a with
  | ⟨0, _⟩ => show win2_2.index t 0 * 1024 + 1 * (x 0).val = (x 0).val; rw [hi.2.2.2.2.1]; omega
  | ⟨1, _⟩ => show win2_2.index t 1 * 1 + 1 * (x 1).val = (x 1).val; rw [hi.2.2.2.2.2.1]; omega

/-- The weights' staging block at a column the fetch moves is the transposed weights' column `4096 t + v`. -/
theorem w8_apply (t : Fin cfg2.N) (k : Fin 64) (v : Fin 4096) (hv : v.val < win2_0.xsize (grid2.coords t) 1)
    (hb : t.val * 4096 + v.val < 100000) :
    w8 (F := Ideal) c WT t (ix2 k v) = (WT : S64x100000.Idx → Elt Ideal .f32) (ix2 k (⟨t.val * 4096 + v.val, hb⟩ : Fin 100000)) := by
  have hi := idx_facts t
  have hx := xsize_facts t
  have hm : win2_0.moved (grid2.coords t) (ix2 k v) = true := (win2_0.moved_iff _ _).mpr fun a => by
    match a with
    | ⟨0, _⟩ => show k.val < win2_0.xsize (grid2.coords t) 0; rw [hx.1]; exact k.isLt
    | ⟨1, _⟩ => exact hv
  unfold w8; rw [fill_apply_of_moved win2_0 _ _ _ hm]
  unfold wblk
  show (WT : S64x100000.Idx → Elt Ideal .f32) ((win2_0.rect t).emb _) = _
  refine congrArg (WT : S64x100000.Idx → Elt Ideal .f32) (funext fun a => Fin.ext ?_)
  match a with
  | ⟨0, _⟩ => show win2_0.index t 0 * 64 + 1 * k.val = k.val; rw [hi.1]; omega
  | ⟨1, _⟩ => show win2_0.index t 1 * 4096 + 1 * v.val = t.val * 4096 + v.val; rw [hi.2.1]; omega

/-- Entry (v, b) of the result: the 64 rows of the transposed weights' column `v` against the selected half of pair
    row `b`. -/
def gval (WT' : S64x100000.Idx → Ideal .f32) (P8' : S1024x128.Idx → Ideal .f32) (H' : S1024x1.Idx → BitVec 32)
    (v : Fin 100000) (b : Fin 1024) : Ideal .f32 :=
  ∑ k : Fin 64, WT' (ix2 k v) * sel (F := Ideal) H' P8' b k

/-- The result array in closed form. -/
def G : S100000x1024.Idx → Ideal .f32 := fun i => gval WT P8 H ⟨(i 0).val, (i 0).isLt⟩ ⟨(i 1).val, (i 1).isLt⟩

/-- The closed form read at (v, b). -/
theorem G_apply (v : Fin 100000) (b : Fin 1024) : G c WT P8 H (ix2 v b) = gval WT P8 H v b := rfl

theorem gval_congr (WT' : S64x100000.Idx → Ideal .f32) (P8' : S1024x128.Idx → Ideal .f32) (H' : S1024x1.Idx → BitVec 32)
    {v v' : Fin 100000} {b b' : Fin 1024} (hv : v.val = v'.val) (hb : b.val = b'.val) : gval WT' P8' H' v b = gval WT' P8' H' v' b' := by
  obtain rfl := Fin.ext hv; obtain rfl := Fin.ext hb; rfl

/-- What point `t` writes back — the rows inside the array of the product of the three blocks — is block `t` of
    the closed form. -/
theorem flushed_eq (Rv : sProp 𝕄) (O : CellTallies nD τ sig (HIx 1)) (Rec : Set (SemLoc sig × HIx 1)) (t : Fin cfg2.N) :
    (dat (F := Ideal) c WT P8 H OUT0 Rv O Rec).flushed (3 : Fin 4) t = ((cfg2.win (3 : Fin 4)).blk t).view.read (Elt Ideal) (G c WT P8 H) := by
  funext j
  have hi := idx_facts t
  have hx := xsize_facts t
  have h0 : (j 0).val < win2_3.xsize (grid2.coords t) 0 := (j 0).isLt
  have h1 : (j 1).val < 1024 := by
    have h : (j 1).val < win2_3.xsize (grid2.coords t) 1 := (j 1).isLt
    rw [hx.2.2.1] at h; exact h
  have hv : (j 0).val < 4096 := lt_of_lt_of_le h0 (win2_3.xsize_le _ 0)
  have hb : t.val * 4096 + (j 0).val < 100000 := by
    rcases Nat.lt_or_ge 100000 ((t.val + 1) * 4096) with h | h
    · have := hx.2.2.2.2 h; omega
    · have := hx.2.2.2.1 h; omega
  have e : win2_3.xinj (grid2.coords t) j = ix2 (⟨(j 0).val, hv⟩ : Fin 4096) (⟨(j 1).val, h1⟩ : Fin 1024) := by
    funext a
    match a with
    | ⟨0, _⟩ => rfl
    | ⟨1, _⟩ => rfl
  show pay (F := Ideal) (h8 c H t) (p8 c P8 t) (w8 c WT t) (win2_3.xinj (grid2.coords t) j)
      = G c WT P8 H ((win2_3.rect t).emb j)
  rw [e, pay_apply, h8_whole, p8_whole]
  show _ = gval WT P8 H _ _
  refine Eq.trans ?_ (gval_congr WT P8 H (v := ⟨t.val * 4096 + (j 0).val, hb⟩) (b := ⟨(j 1).val, h1⟩) ?_ ?_)
  · unfold gval
    refine Finset.sum_congr rfl fun k _ => ?_
    rw [w8_apply c WT t k ⟨(j 0).val, hv⟩ (by rw [hx.2.1]; exact h0) hb]
  · show t.val * 4096 + (j 0).val = win2_3.index t 0 * 4096 + 1 * (j 0).val
    rw [hi.2.2.2.2.2.2.1]; omega
  · show (j 1).val = win2_3.index t 1 * 1024 + 1 * (j 1).val
    rw [hi.2.2.2.2.2.2.2]; omega

/-- Every row of the result is in the block of the point `row / 4096`: its first 4096 rows, or at the last point
    the 1696 that are left. -/
theorem cover (i : S100000x1024.Idx) :
    ∃ t : Fin cfg2.N, (cfg2.win (3 : Fin 4)).flush t = true ∧ i ∈ ((cfg2.win (3 : Fin 4)).blk t).view.set := by
  have hi0 : (i 0).val < 100000 := (i 0).isLt
  have hi1 : (i 1).val < 1024 := (i 1).isLt
  have ht : (i 0).val / 4096 < 25 := by omega
  refine ⟨⟨(i 0).val / 4096, ht⟩, flush2_3 _, ?_⟩
  have hidx := idx_facts ⟨(i 0).val / 4096, ht⟩
  have hx := xsize_facts ⟨(i 0).val / 4096, ht⟩
  show i ∈ ((View.whole main_v14).slice (win2_3.rect ⟨(i 0).val / 4096, ht⟩)).set
  rw [View.set_slice_whole, Rect.mem_set_unit]
  intro a
  match a with
  | ⟨0, _⟩ =>
    show win2_3.index ⟨(i 0).val / 4096, ht⟩ 0 * 4096 ≤ (i 0).val
      ∧ (i 0).val < win2_3.index ⟨(i 0).val / 4096, ht⟩ 0 * 4096 + win2_3.xsize (grid2.coords ⟨(i 0).val / 4096, ht⟩) 0
    rw [hidx.2.2.2.2.2.2.1]
    show (i 0).val / 4096 * 4096 ≤ (i 0).val
      ∧ (i 0).val < (i 0).val / 4096 * 4096 + win2_3.xsize (grid2.coords ⟨(i 0).val / 4096, ht⟩) 0
    rcases Nat.lt_or_ge 100000 (((i 0).val / 4096 + 1) * 4096) with h | h
    · have := hx.2.2.2.2 h; omega
    · have := hx.2.2.2.1 h; omega
  | ⟨1, _⟩ =>
    show win2_3.index ⟨(i 0).val / 4096, ht⟩ 1 * 1024 ≤ (i 1).val
      ∧ (i 1).val < win2_3.index ⟨(i 0).val / 4096, ht⟩ 1 * 1024 + win2_3.xsize (grid2.coords ⟨(i 0).val / 4096, ht⟩) 1
    rw [hidx.2.2.2.2.2.2.2, hx.2.2.1]; omega

/-- The result array after the run. -/
theorem final_out (Rv : sProp 𝕄) (O : CellTallies nD τ sig (HIx 1)) (Rec : Set (SemLoc sig × HIx 1)) : (dat (F := Ideal) c WT P8 H OUT0 Rv O Rec).arrAt (3 : Fin 4) cfg2.N = G c WT P8 H :=
  (dat (F := Ideal) c WT P8 H OUT0 Rv O Rec).arrAt_eq_of_cover (3 : Fin 4) (G c WT P8 H) (fun t _ => flushed_eq c WT P8 H OUT0 Rv O Rec t) (cover)

/-- Entry (v, b) of the result array after the run. -/
theorem out_value (Rv : sProp 𝕄) (O : CellTallies nD τ sig (HIx 1)) (Rec : Set (SemLoc sig × HIx 1)) (v : Fin 100000) (b : Fin 1024) :
    (dat (F := Ideal) c WT P8 H OUT0 Rv O Rec).arrAt (3 : Fin 4) cfg2.N (ix2 v b) = gval WT P8 H v b :=
  (congrFun (final_out c WT P8 H OUT0 Rv O Rec) (ix2 v b)).trans rfl

end Final

end Cert.KernelIdeal.Region2
-- ==== Proof.ValueGlue.lean ====
/-
  The kernel's result against the reference's, assembled from the pieces: the pair table that the first region
  leaves is the table in two halves; the gathered rows, the high bits and the transposed weights give, entry by
  entry, the reference's sum; so the transposed product is the reference's result.
-/
import proofs.«218855_g90357521973776_cont_sun_m_356_26_alg».proof.Proof.HostVals
import proofs.«218855_g90357521973776_cont_sun_m_356_26_alg».proof.Proof.ScPay
import proofs.«218855_g90357521973776_cont_sun_m_356_26_alg».proof.Proof.ValueBridge
import proofs.«218855_g90357521973776_cont_sun_m_356_26_alg».proof.Proof.Region2Value
import proofs.«218855_g90357521973776_cont_sun_m_356_26_alg».proof.Proof.MainFinV

noncomputable section

open scoped BigOperators

namespace Cert.KernelIdeal.ValueGlue

open Cert.KernelIdeal Cert.KernelIdeal.Gen Cert.KernelIdeal.Setup
open Idealize.ShloMosaic Idealize.ShloMosaic.ValueIdx
open Cert.KernelIdeal.TileBody (tabLoc idxLoc outLoc)
open Cert.KernelIdeal.MainFin (a0Loc a1Loc a2Loc)

/-! ## The pair table -/

/-- A pair table whose left half is the transposed table's first 65536 columns, transposed, and whose right half's
    first 34464 rows are its remaining columns, transposed, is the table in two halves. -/
theorem tab_of_exit (emb : FVec Ideal S100000x64 .f32) (V0 : S64x100000.Idx → Ideal .f32) (T1 : S65536x128.Idx → Ideal .f32)
    (hV0 : V0 = transpose (s := S100000x64) S64x100000 [1, 0] emb transposes_S100000x64_S64x100000_1_0)
    (hlo : ∀ (p : Fin 65536) (k : Fin 64), T1 (ix2 p (⟨k.val, by have := k.isLt; omega⟩ : Fin 128))
        = V0 (ix2 k (⟨p.val, by have := p.isLt; omega⟩ : Fin 100000)))
    (hhi : ∀ (p : Fin 65536) (k : Fin 64) (hp : p.val < 34464), T1 (ix2 p (⟨64 + k.val, by have := k.isLt; omega⟩ : Fin 128))
        = V0 (ix2 k (⟨65536 + p.val, by omega⟩ : Fin 100000))) :
    ValueBridge.Tab emb T1 :=
  ValueBridge.tab_of_transposed emb V0 T1
    (fun k p => by rw [hV0]; exact HostVals.transpose_100000x64_apply emb k p) hlo (fun p hp k => hhi p k hp)

/-! ## The result -/

section Result

variable (m : (ℓ : Loc nD τ sig) → Buf (Elt Ideal) ℓ) (d : Dev nD)

/-- The physical index of row b, as the bridge states it. -/
theorem phOf_if (x : IVec S1024 32) (b : Fin 1024) :
    HostVals.phOf x (ix2 (n0 := 1) (n1 := 1024) 0 b) = if 65536 ≤ (x (ix1 b)).toInt then x (ix1 b) - 65536#32 else x (ix1 b) := by
  have e65i : (65536#32 : BitVec 32).toInt = 65536 := by decide
  rw [HostVals.phOf_apply]
  unfold Scalar.select
  by_cases hge : 65536 ≤ (x (ix1 b)).toInt
  · rw [if_pos hge]
    exact if_pos (IntOp.cmpi_sge.2 (by rw [e65i]; exact hge))
  · rw [if_neg hge]
    exact if_neg (fun h => hge (by have h' := IntOp.cmpi_sge.1 h; rwa [e65i] at h'))

/-- The transposed product of the transposed weights with the selected halves of the gathered rows is the
    reference's result. -/
theorem result_eq (hx : ∀ b : Fin 1024, 0 ≤ ((m (a0Loc d) : IVec S1024 32) (ix1 b)).toInt ∧ ((m (a0Loc d) : IVec S1024 32) (ix1 b)).toInt ≤ 99999)
    (f : Buf (Elt Ideal) (outLoc d))
    (hG : ∀ r, ScPay.Gath (F := Ideal) (fun d => HostVals.phOf (m (a0Loc d))) (fun d T1 => ValueBridge.Tab (m (a1Loc d)) T1) d f r) :
    transpose (s := S100000x1024) S1024x100000 [1, 0]
        (Region2.G d (transpose (s := S100000x64) S64x100000 [1, 0] (m (a2Loc d)) transposes_S100000x64_S64x100000_1_0) f
          (HostVals.hiOf (m (a0Loc d))))
        transposes_S100000x1024_S1024x100000_1_0
      = MainFinV.spec m d := by
  funext i
  obtain ⟨b, v, rfl⟩ : ∃ (b : Fin 1024) (v : Fin 100000), i = ix2 b v := ⟨i 0, i 1, eq_ix2 i⟩
  rw [HostVals.transpose_100000x1024_apply, Region2.G_apply]
  have h := ValueBridge.out_eq_ref (m (a0Loc d)) (m (a1Loc d)) (m (a2Loc d)) hx
    (fun r => HostVals.phOf (m (a0Loc d)) (ix2 (n0 := 1) (n1 := 1024) 0 r)) (fun b => phOf_if (m (a0Loc d)) b)
    (HostVals.hiOf (m (a0Loc d))) (fun b => HostVals.hiOf_apply (m (a0Loc d)) b) f hG b v
  refine Eq.trans (Finset.sum_congr rfl fun k _ => ?_) h
  rw [HostVals.transpose_100000x64_apply]
  rfl

end Result

end Cert.KernelIdeal.ValueGlue

end
-- ==== Proof.MainTopV.lean ====
/-
  The top of the value claim at the extended reals: the SparseCore launch theorem applied to the program with the
  pair table known as the table in two halves, and the result array that @main leaves rewritten to the
  reference's function of the arguments.
-/
import proofs.«218855_g90357521973776_cont_sun_m_356_26_alg».proof.Proof.Setup
import proofs.«218855_g90357521973776_cont_sun_m_356_26_alg».proof.Proof.ScPay
import proofs.«218855_g90357521973776_cont_sun_m_356_26_alg».proof.Proof.ScObl
import proofs.«218855_g90357521973776_cont_sun_m_356_26_alg».proof.Proof.ScSplit
import proofs.«218855_g90357521973776_cont_sun_m_356_26_alg».proof.Proof.MainLaunch
import proofs.«218855_g90357521973776_cont_sun_m_356_26_alg».proof.Proof.MainFinV
import proofs.«218855_g90357521973776_cont_sun_m_356_26_alg».proof.Proof.MainRun
import proofs.«218855_g90357521973776_cont_sun_m_356_26_alg».proof.Proof.HostVals
import proofs.«218855_g90357521973776_cont_sun_m_356_26_alg».proof.Proof.ValueGlue

noncomputable section

namespace Cert.KernelIdeal.MainTopV

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainFin (a0Loc a1Loc a2Loc)

local notation "𝕄" => MT nD τ sig (HIx 1) (Elt Ideal) ℕ UU ℕ

variable (m : (ℓ : Loc nD τ sig) → Buf (Elt Ideal) ℓ) (ρ : Dev nD → PrngReg)

/-- The physical indices the SparseCore call reads: computed by the host from the launch contents of the index
    argument. -/
def ph (d : Dev nD) : Buf (Elt Ideal) (TileBody.idxLoc d) := HostVals.phOf (m (a0Loc d))

/-- What is known of the table the tiles gather from: it is the first float argument in two halves. -/
def Tab : (d : Dev nD) → Buf (Elt Ideal) (TileBody.tabLoc d) → Prop := fun d T1 => ValueBridge.Tab (m (a1Loc d)) T1

/-- Index words between 0 and 99999 have physical indices below the table's 65536 rows. -/
theorem hph (hx : ∀ (d : Dev nD) (b : Fin 1024), 0 ≤ ((m (a0Loc d) : IVec S1024 32) (ValueIdx.ix1 b)).toInt
      ∧ ((m (a0Loc d) : IVec S1024 32) (ValueIdx.ix1 b)).toInt ≤ 99999) :
    ∀ d j, (ph m d j).toNat < 65536 := fun d j => HostVals.phOf_lt _ (hx d) j

/-- What @main leaves, with the result array in the kernel's closed form, is what the claim reads: the arguments
    unchanged and the result array at the reference's function of them. -/
theorem post_entails (hx : ∀ (d : Dev nD) (b : Fin 1024), 0 ≤ ((m (a0Loc d) : IVec S1024 32) (ValueIdx.ix1 b)).toInt
      ∧ ((m (a0Loc d) : IVec S1024 32) (ValueIdx.ix1 b)).toInt ≤ 99999) (d : Dev nD) :
    (iprop((K (F := Ideal)).tcSt EH d 1 ∗ MainRun.FIN m d
        ∗ ∃ f, ⌜∀ r, ScPay.Gath (ph m) (Tab m) d f r⌝
          ∗ (((d, Proc.devRef .tc main_v15) : Loc nD τ sig) ↦{fullShare}
              transpose (s := S100000x1024) S1024x100000 [1, 0]
                (Region2.G d (transpose (s := S100000x64) S64x100000 [1, 0] (m (d, Proc.devRef .tc main_arg2)) transposes_S100000x64_S64x100000_1_0) f
                  (HostVals.hiOf (m (d, Proc.devRef .tc main_arg0))))
                transposes_S100000x1024_S1024x100000_1_0)) : sProp 𝕄)
      ⊢ iprop((K (F := Ideal)).tcSt EH d 1 ∗ MainFinV.FINv m d) := by
  rw [show (MainRun.FIN m d : sProp 𝕄) = MainFin.FIN m d from rfl]
  iintro ⟨Hst, HF, %f, %hG, Hr⟩
  isplitl [Hst]; · iexact Hst
  isplitl [HF]; · iexact HF
  iapply (Entails.of_eq (congrArg (fun g : Buf (Elt Ideal) (MainFinV.rLoc d) => (MainFinV.rLoc d ↦{fullShare} g : sProp 𝕄))
    (ValueGlue.result_eq m d (hx d) f hG)))
  iexact Hr

/-- THE RUN at the extended reals: from any memory with zero counters whose index words lie in [0, 99999], every
    weakly fair execution of the program's threads terminates and leaves the three arguments as launched and the
    result array at the reference's function of them — given @main's run on the TensorCore. -/
theorem run_main_v
    (hx : ∀ (d : Dev nD) (b : Fin 1024), 0 ≤ ((m (a0Loc d) : IVec S1024 32) (ValueIdx.ix1 b)).toInt
      ∧ ((m (a0Loc d) : IVec S1024 32) (ValueIdx.ix1 b)).toInt ≤ 99999)
    (hmv : ∀ (κ : GSem nD τ sig → ℕ) (d : Dev nD),
      iprop((K (F := Ideal)).ctx EH (ScPay.P (ph m) (Tab m)) κ ∗ (K (F := Ideal)).tcSt EH d 0 ∗ (K (F := Ideal)).tcRes m ρ d ∗ MainLaunch.G d)
        ⊢ wp frame (wpE ((K (F := Ideal)).defs (D (F := Ideal))) 𝒱 (T d) none) Set.univ (main d)
            fun _ => iprop((K (F := Ideal)).tcSt EH d 1 ∗ MainRun.FIN m d
              ∗ ∃ f, ⌜∀ r, ScPay.Gath (ph m) (Tab m) d f r⌝
                ∗ (((d, Proc.devRef .tc main_v15) : Loc nD τ sig) ↦{fullShare}
                    transpose (s := S100000x1024) S1024x100000 [1, 0]
                      (Region2.G d (transpose (s := S100000x64) S64x100000 [1, 0] (m (d, Proc.devRef .tc main_arg2)) transposes_S100000x64_S64x100000_1_0) f
                        (HostVals.hiOf (m (d, Proc.devRef .tc main_arg0))))
                      transposes_S100000x1024_S1024x100000_1_0))) :
    θ_run (Cert.KernelIdeal.defs (F := Ideal)) (Cert.KernelIdeal.threads (F := Ideal)) ⟨m, fun _ => 0, ρ⟩ (MainFinV.QCv m) :=
  SparseCore.Cfg.θ_run_sc (K := K (F := Ideal)) (D := D (F := Ideal)) (𝒱 := 𝒱) (EH := EH) (P := ScPay.P (ph m) (Tab m)) facts v₀
    (fun q hq => match q with | 0 => nomatch hq)
    (fun q _ => match q with | 0 => ScObl.tileObl (ph m) (Tab m) facts (hph m hx))
    (fun q _ => match q with | 0 => SparseCore.Cfg.VecSplit.of_plain (ScSplit.vecSplit (ph m) (Tab m)))
    m ρ main MainLaunch.G (MainFinV.FINv m) MainLaunch.u₀ (sep_elim_left.trans (MainLaunch.hu₀ (ph m) (Tab m)))
    (fun κ d => (hmv κ d).trans (wp_mono frame _ _ fun _ => post_entails m hx d))
    (MainFinV.fqv m) (MainFinV.hfinv m) (MainFinV.QCv m) (fun _ h => h)

end Cert.KernelIdeal.MainTopV

end
-- ==== Proof.RegionRec2Value.lean ====
/-
  The second TensorCore region as the launch sees it, at the ideal values with nothing forgotten: the library's
  record of a kernel region for pipeline 1 over the proof data read exactly — as the record with the result's
  window forgotten, but left holding the result array at its closed form: entry (v, b) the sum over the 64 weight
  rows of the transposed weights' (k, v) times the selected half of pair row b at k.
-/
import proofs.«218855_g90357521973776_cont_sun_m_356_26_alg».proof.Proof.Region2Value
import proofs.«218855_g90357521973776_cont_sun_m_356_26_alg».proof.Proof.RegionRec2

noncomputable section

namespace Cert.KernelIdeal.RegionRec2Value

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

open Cert.KernelIdeal.RegionRec2 (adm pl dat_Φ)

local notation "𝕄" => MT nD τ sig (HIx 1) (Elt Ideal) ℕ Setup.UU ℕ

section Rec

variable (rdats : (p : Fin 2) → (c : Dev nD) → Pipeline.RDat τ (Elt Ideal) (HIx 1) ℕ Setup.UU ℕ (Pipeline.pin (pcfgs (F := Ideal)) adm p) c)
  (WT : (c : Dev nD) → Buf (Elt Ideal) ((c.tc : Thread nD τ).loc main_v13)) (P8 : (c : Dev nD) → Buf (Elt Ideal) ((c.tc : Thread nD τ).loc main_v8))
  (H : (c : Dev nD) → Buf (Elt Ideal) ((c.tc : Thread nD τ).loc main_v12)) (OUT0 : (c : Dev nD) → Buf (Elt Ideal) ((c.tc : Thread nD τ).loc main_v14))
  (O : Dev nD → CellTallies nD τ sig (HIx 1)) (Rec : Dev nD → Set (SemLoc sig × HIx 1)) (hO : ∀ c g, O c g none = 0)
  (h1 : ∀ c, rdats 1 c = (Region2.dat (F := Ideal) c (WT c) (P8 c) (H c) (OUT0 c) (Pipeline.scopedRest (Pipeline.pin (pcfgs (F := Ideal)) adm 1).spec c) (O c) (Rec c)).toR)

include h1 in
/-- Every array of the region is held at the full share. -/
theorem share2 (c : Dev nD) (w : Fin (Pipeline.pin (pcfgs (F := Ideal)) adm 1).W) : (rdats 1 c).share w = fullShare := by
  rw [h1 c]; exact (Region2.dat (F := Ideal) c (WT c) (P8 c) (H c) (OUT0 c) (Pipeline.scopedRest (Pipeline.pin (pcfgs (F := Ideal)) adm 1).spec c) (O c) (Rec c)).share_full (fun _ => rfl) w

include h1 in
/-- The region's arrays at contents `Fa` are the four buffers held. -/
theorem arrays2_eq (c : Dev nD) (Fa) :
    ((rdats 1 c).arrays Fa : sProp 𝕄) = iprop(pl c main_v13 (Fa 0) ∗ pl c main_v8 (Fa 1) ∗ pl c main_v12 (Fa 2) ∗ pl c main_v14 (Fa 3)) := by
  rw [Pipeline.RDat.arrays_eq (pcfgs (F := Ideal)) adm rdats 1 c launch2.arr_whole (share2 rdats WT P8 H OUT0 O Rec h1 c) Fa, bigSep_W2]
  rfl

include h1 in
/-- After the write-backs below the last point the three input arrays hold what they held and the result its closed form. -/
theorem arraysAt2_elim (c : Dev nD) :
    ((rdats 1 c).arraysAt cfg2.N : sProp 𝕄)
      ⊢ iprop(pl c main_v13 (WT c) ∗ pl c main_v8 (P8 c) ∗ pl c main_v12 (H c) ∗ pl c main_v14 (Region2.G c (WT c) (P8 c) (H c))) := by
  classical
  unfold Pipeline.RDat.arraysAt
  iintro Ha
  ihave Ha' := (BI.bigSep_exists_pi Finset.univ (fun w G => iprop(⌜(rdats 1 c).ArrAt w cfg2.N G⌝
      ∗ ((Pipeline.pin (pcfgs (F := Ideal)) adm 1).win w).arr.view.loc (c.tc : Thread nD τ) ↦[((Pipeline.pin (pcfgs (F := Ideal)) adm 1).win w).arr.view.set]{(rdats 1 c).share w} G))) $$ Ha
  icases Ha' with ⟨%Fs, Ha⟩
  ihave Ha2 := (BI.bigSep_pure_sep Finset.univ (fun w => (rdats 1 c).ArrAt w cfg2.N (Fs w))
      (fun w => ((Pipeline.pin (pcfgs (F := Ideal)) adm 1).win w).arr.view.loc (c.tc : Thread nD τ) ↦[((Pipeline.pin (pcfgs (F := Ideal)) adm 1).win w).arr.view.set]{(rdats 1 c).share w} Fs w)) $$ Ha
  icases Ha2 with ⟨%hFs, Ha⟩
  have e := arrays2_eq rdats WT P8 H OUT0 O Rec h1 c Fs
  unfold Pipeline.RDat.arrays at e
  rw [e]
  rw [h1 c] at hFs
  have h0 : Fs 0 = WT c := (((Region2.dat (F := Ideal) c (WT c) (P8 c) (H c) (OUT0 c) (Pipeline.scopedRest (Pipeline.pin (pcfgs (F := Ideal)) adm 1).spec c) (O c) (Rec c)).toR_arrAt_iff (0 : Fin 4) cfg2.N (Fs 0)).mp (hFs 0 (Finset.mem_univ _))).trans (Region2.arrAt_0 c (WT c) (P8 c) (H c) (OUT0 c) _ (O c) (Rec c) cfg2.N)
  have h1' : Fs 1 = P8 c := (((Region2.dat (F := Ideal) c (WT c) (P8 c) (H c) (OUT0 c) (Pipeline.scopedRest (Pipeline.pin (pcfgs (F := Ideal)) adm 1).spec c) (O c) (Rec c)).toR_arrAt_iff (1 : Fin 4) cfg2.N (Fs 1)).mp (hFs 1 (Finset.mem_univ _))).trans (Region2.arrAt_1 c (WT c) (P8 c) (H c) (OUT0 c) _ (O c) (Rec c) cfg2.N)
  have h2 : Fs 2 = H c := (((Region2.dat (F := Ideal) c (WT c) (P8 c) (H c) (OUT0 c) (Pipeline.scopedRest (Pipeline.pin (pcfgs (F := Ideal)) adm 1).spec c) (O c) (Rec c)).toR_arrAt_iff (2 : Fin 4) cfg2.N (Fs 2)).mp (hFs 2 (Finset.mem_univ _))).trans (Region2.arrAt_2 c (WT c) (P8 c) (H c) (OUT0 c) _ (O c) (Rec c) cfg2.N)
  have h3 : Fs 3 = Region2.G c (WT c) (P8 c) (H c) := by
    exact (((Region2.dat (F := Ideal) c (WT c) (P8 c) (H c) (OUT0 c) (Pipeline.scopedRest (Pipeline.pin (pcfgs (F := Ideal)) adm 1).spec c) (O c) (Rec c)).toR_arrAt_iff (3 : Fin 4) cfg2.N (Fs 3)).mp (hFs 3 (Finset.mem_univ _))).trans (Region2.final_out c (WT c) (P8 c) (H c) (OUT0 c) _ (O c) (Rec c))
  rw [h0, h1', h2, h3]
  exact .rfl

set_option maxHeartbeats 1600000 in
/-- THE REGION of pipeline 1: entered from the core's dues `O c`, its recorded waits within `Rec c`, and the four
    arrays held at their entry contents; left at the same dues, the waits recorded since being the loop's own (at
    the index nothing is owed at), the three input arrays unchanged and the result at its closed form. -/
def seg2v : Pipeline.RDat.RegionSeg (pcfgs (F := Ideal)) adm rdats none (defs₀ (F := Ideal)) Setup.𝒱₀
    (Setup.K (F := Ideal)).L (Setup.K (F := Ideal)).lev 1 where
  win := launch2.win.to₀
  block_pos := launch2.block_pos
  stage_whole := launch2.stage_whole
  K := PEmpty
  osem k := k.elim
  ho := Pipeline.OwnSemFacts.none _
  hbody c := by
    rw [h1 c]
    exact (Region2.body_exact c (WT c) (P8 c) (H c) (OUT0 c) _ (O c) (Rec c)).toR
  hwaits c := Pipeline.RDat.cellsWaits_intro (Pipeline.pin (pcfgs (F := Ideal)) adm) rdats none 1 c fun w s t => by
    rw [h1 c]
    exact (Setup.K (F := Ideal)).mayWait_none _ (hO c)
  pre c := iprop((∃ W : Waits sig (HIx 1), ⌜(↑W : Set (SemLoc sig × HIx 1)) ⊆ Rec c⌝ ∗ owes (c.tc : Thread nD τ) (O c) W) ∗ pl c main_v13 (WT c) ∗ pl c main_v8 (P8 c)
    ∗ pl c main_v12 (H c) ∗ pl c main_v14 (OUT0 c))
  post c := iprop((∃ W : Waits sig (HIx 1), ⌜∀ p ∈ W, p ∈ Rec c ∨ p.2 = none⌝ ∗ owes (c.tc : Thread nD τ) (O c) W) ∗ pl c main_v13 (WT c) ∗ pl c main_v8 (P8 c)
    ∗ pl c main_v12 (H c) ∗ pl c main_v14 (Region2.G c (WT c) (P8 c) (H c)))
  X _ := iprop(emp)
  Y _ := iprop(emp)
  Z _ := iprop(emp)
  hentry c := by
    rw [Pipeline.ownSems0_none, arrays2_eq rdats WT P8 H OUT0 O Rec h1 c, h1 c]
    iintro ⟨⟨⟨%W, %hW, HO⟩, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact hW.trans Set.subset_union_left
      iexact HO
    isplitr <;> iempintro
  hin c := by
    rw [h1 c, Pipeline.Dat.toR_Φ, dat_Φ]
    iintro ⟨-, -, Hs⟩; iexact Hs
  hout c := by
    rw [h1 c, Pipeline.ownSems0_none, Pipeline.Dat.toR_Φ, dat_Φ]
    iintro Hs
    isplitr; · iempintro
    isplitr; · iempintro
    iexact Hs
  hexit c := by
    iintro ⟨Ha, HO, -, -⟩
    ihave Ha' := (arraysAt2_elim rdats WT P8 H OUT0 O Rec h1 c) $$ Ha
    imodintro
    isplitl [HO]
    · unfold Pipeline.RDat.owesAt Pipeline.owesWithin
      icases HO with ⟨%W, %hW, HO⟩
      rw [h1 c] at hW
      rw [h1 c]
      iexists W; isplitr
      · ipureintro
        intro p hp
        have hp' : p ∈ Rec c ∪ cfg2.waitPairs none := hW (Finset.mem_coe.mpr hp)
        rcases hp' with h | ⟨w, s, rfl⟩
        · exact .inl h
        · exact .inr rfl
      iexact HO
    iexact Ha'

end Rec

end Cert.KernelIdeal.RegionRec2Value
-- ==== Proof.MainRunValue.lean ====
/-
  @main on the TensorCore, under the SparseCore launch, at the ideal values with nothing forgotten: as the frame-level
  run, and the program's result array ends holding the transpose of the second region's closed form over what the
  host stretch after the SparseCore call makes of the call's valuation — the pair table being some contents the first
  region may leave, the gathered rows some contents the call may leave.
-/
import proofs.«218855_g90357521973776_cont_sun_m_356_26_alg».proof.Proof.MainRun
import proofs.«218855_g90357521973776_cont_sun_m_356_26_alg».proof.Proof.RegionRec2Value
import proofs.«218855_g90357521973776_cont_sun_m_356_26_alg».proof.Proof.HostVals

noncomputable section

namespace Cert.KernelIdeal.MainRunValue

open Cert.KernelIdeal Cert.KernelIdeal.Gen Cert.KernelIdeal.Setup

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainOps Cert.KernelIdeal.MainHeld
open Cert.KernelIdeal.MainCall (v1' v7' v8')
open Cert.KernelIdeal.MainRun (RecAt owes_lend Otc_none bigSep_P2 devRef_mem_Sall a0 a1 a2 VA rdatsA R0 FIN)
open Idealize.ShloMosaic.StableHlo (seq after held)
open Idealize.ShloMosaic.Pipeline (pin)

local notation "𝕄" => MT nD τ sig (HIx 1) (Elt Ideal) ℕ UU ℕ

abbrev v15' : DevRef τ sig := Proc.devRef .tc main_v15

variable (m : (ℓ : Loc nD τ sig) → Buf (Elt Ideal) ℓ)

/-- The proof data while the second region runs, read exactly, over the valuation `V2` the SparseCore call left. -/
def rdatsBv (V2 : Valuation τ sig (Elt Ideal)) : (p : Fin 2) → (c : Dev nD) → Pipeline.RDat τ (Elt Ideal) (HIx 1) ℕ UU ℕ (pin (pcfgs (F := Ideal)) MainRegion.adm p) c
  | ⟨0, _⟩ => fun c => Region0.rdat0 c (fun b => V2 (Proc.devRef .tc b)) RegionRec0.q0 ((K (F := Ideal)).Otc c 1) (RegionRec0.rest0 c) (RecAt (F := Ideal) c 1)
  | ⟨1, _⟩ => fun c => (Region2.dat (F := Ideal) c (after opsC V2 MainTail.v13) (after opsC V2 MainTail.v8) (after opsC V2 MainTail.v12) (after opsC V2 MainTail.v14)
      (Pipeline.scopedRest (pin (pcfgs (F := Ideal)) RegionRec2.adm 1).spec c) ((K (F := Ideal)).Otc c 1) (RecAt (F := Ideal) c 1)).toR

/-- The second region's record along the run, at the ideal values. -/
def R2v (V2 : Valuation τ sig (Elt Ideal)) :=
  RegionRec2Value.seg2v (rdatsBv V2) (fun _ => after opsC V2 MainTail.v13) (fun _ => after opsC V2 MainTail.v8) (fun _ => after opsC V2 MainTail.v12)
    (fun _ => after opsC V2 MainTail.v14) (fun c => (K (F := Ideal)).Otc c 1) (fun c => RecAt (F := Ideal) c 1) (fun c g => Otc_none c 1 g) (fun _ => rfl)

/-- The second region's result in closed form, over the valuation the SparseCore call left. -/
abbrev Gof (d : Dev nD) (V2 : Valuation τ sig (Elt Ideal)) : S100000x1024.Idx → Ideal .f32 :=
  Region2.G d (after opsC V2 MainTail.v13) (after opsC V2 MainTail.v8) (after opsC V2 MainTail.v12)

variable (g : Dev nD → PrngReg)
variable (ph : (d : Dev nD) → Buf (Elt Ideal) (TileBody.idxLoc d)) (Tab : (d : Dev nD) → Buf (Elt Ideal) (TileBody.tabLoc d) → Prop)

/-- What the first region may leave in the pair table, on device `d`. -/
abbrev Ptab (d : Dev nD) (T1 : (Proc.devRef (τ := τ) .tc main_v1).ty.Contents (Elt Ideal)) : Prop :=
  (rdatsA m d 0 d).ArrAt (2 : Fin 3) cfg0.N T1

-- as the library's stretch rule: rules stated at the TensorCore's thread are applied at its two spellings
set_option backward.isDefEq.respectTransparency.types false in
set_option maxHeartbeats 3200000 in
/-- @MAIN ON THE TENSORCORE, at the ideal values: the frame-level run's post, and the result array at the transpose
    of the second region's closed form over the valuation `Function.update (Vmid (V₀ m d) T1) v8' f` — `T1` some
    contents the first region may leave in the pair table, `f` some contents the SparseCore call may leave in the
    gathered array. -/
theorem hmainV [∀ e, Nonempty (Elt Ideal e)]
    (hA : ∀ op ∈ (opsA : List (HloOp τ sig (Elt Ideal))), op.bufs ⊆ Sall) (hB : ∀ op ∈ (opsB : List (HloOp τ sig (Elt Ideal))), op.bufs ⊆ Sall)
    (hC : ∀ op ∈ (opsC : List (HloOp τ sig (Elt Ideal))), op.bufs ⊆ Sall.erase v1')
    (hD : ∀ op ∈ (opsD : List (HloOp τ sig (Elt Ideal))), op.bufs ⊆ Sall.erase v1')
    (hph : ∀ d T1, MainFront.Vmid (V₀ m d) T1 v7' = ph d) (hTab : ∀ d T1, Ptab m d T1 → Tab d T1)
    (κ : GSem nD τ sig → ℕ) (d : Dev nD) :
    iprop((K (F := Ideal)).ctx EH (ScPay.P ph Tab) κ ∗ (K (F := Ideal)).tcSt EH d 0 ∗ (K (F := Ideal)).tcRes m g d ∗ MainLaunch.G (F := Ideal) d)
      ⊢ wp frame (wpE ((K (F := Ideal)).defs (D (F := Ideal))) 𝒱 (T d) none) Set.univ (main (F := Ideal) d)
          fun _ => iprop((K (F := Ideal)).tcSt EH d 1 ∗ FIN m d
            ∗ ∃ T1 f, ⌜Ptab m d T1 ∧ ∀ r, ScPay.Gath ph Tab d f r⌝
              ∗ ((d, v15') ↦{fullShare} transpose S1024x100000 [1, 0] (Gof d (Function.update (MainFront.Vmid (V₀ m d) T1) v8' f)) transposes_S100000x1024_S1024x100000_1_0)) := by
  have h0 : MainFront.v0 ∈ Sall := devRef_mem_Sall main_v0 (by decide)
  have h1 : MainFront.v1 ∈ Sall := devRef_mem_Sall main_v1 (by decide)
  have h7 : v7' ∈ Sall.erase v1' := Finset.mem_erase.mpr ⟨by decide, devRef_mem_Sall main_v7 (by decide)⟩
  have h8 : v8' ∈ (Sall.erase v1').erase v7' :=
    Finset.mem_erase.mpr ⟨by decide, Finset.mem_erase.mpr ⟨by decide, devRef_mem_Sall main_v8 (by decide)⟩⟩
  have h13 : MainTail.v13 ∈ Sall.erase v1' := Finset.mem_erase.mpr ⟨by decide, devRef_mem_Sall main_v13 (by decide)⟩
  have h8t : MainTail.v8 ∈ Sall.erase v1' := Finset.mem_erase.mpr ⟨by decide, devRef_mem_Sall main_v8 (by decide)⟩
  have h12 : MainTail.v12 ∈ Sall.erase v1' := Finset.mem_erase.mpr ⟨by decide, devRef_mem_Sall main_v12 (by decide)⟩
  have h14 : MainTail.v14 ∈ Sall.erase v1' := Finset.mem_erase.mpr ⟨by decide, devRef_mem_Sall main_v14 (by decide)⟩
  have ha0 : a0 ∈ Sall.erase v1' := Finset.mem_erase.mpr ⟨by decide, devRef_mem_Sall main_arg0 (by decide)⟩
  have ha1 : a1 ∈ (Sall.erase v1').erase a0 :=
    Finset.mem_erase.mpr ⟨by decide, Finset.mem_erase.mpr ⟨by decide, devRef_mem_Sall main_arg1 (by decide)⟩⟩
  have ha2 : a2 ∈ ((Sall.erase v1').erase a0).erase a1 :=
    Finset.mem_erase.mpr ⟨by decide, Finset.mem_erase.mpr ⟨by decide, Finset.mem_erase.mpr ⟨by decide, devRef_mem_Sall main_arg2 (by decide)⟩⟩⟩
  have h15 : v15' ∈ (((Sall.erase v1').erase a0).erase a1).erase a2 :=
    Finset.mem_erase.mpr ⟨by decide, Finset.mem_erase.mpr ⟨by decide, Finset.mem_erase.mpr ⟨by decide, Finset.mem_erase.mpr ⟨by decide, devRef_mem_Sall main_v15 (by decide)⟩⟩⟩⟩
  rw [main_chain d]
  show _ ⊢ wp frame (wpE ((K (F := Ideal)).defs (D (F := Ideal))) 𝒱 (T d) none) Set.univ
    (seq opsA >>= fun _ => region 0 >>= fun _ => seq opsB >>= fun _ => (K (F := Ideal)).run d 0 >>= fun _ =>
      seq opsC >>= fun _ => region 1 >>= fun _ => seq opsD >>= fun _ => Prog.ret PUnit.unit) _
  unfold SparseCore.Cfg.tcRes MainLaunch.G
  rw [unscoped_held m d, bigSep_P2]
  iintro ⟨#Hctx, Hst, ⟨Hb, Hh, -, -⟩, ⟨Hg0, Ht0⟩, ⟨Hg1, Ht1⟩⟩
  ihave Hlv := (SparseCore.Cfg.ctx_levAts (K := K (F := Ideal)) κ) $$ Hctx
  ihave Ho := (owes_lend (F := Ideal) d 0) $$ Hst
  icases Ho with ⟨HO, Hback⟩
  -- the front
  iapply (MainFront.front (rdatsA m d) (R0 m d) d Sall (V₀ m d) hA hB h0 h1 (RecAt (F := Ideal) d 0) ((K (F := Ideal)).Otc d 0) (Ptab m d)
    .rfl (by
      dsimp only [R0, RegionRec0.seg0]
      exact .rfl) _ _)
  isplitl [Hb]; · iexact Hb
  isplitl [Hh]; · iexact Hh
  isplitl [HO]; · iexact HO
  isplitl [Hlv]; · iexact Hlv
  isplitl [Hg0]; · iexact Hg0
  isplitl [Ht0]; · iexact Ht0
  iintro %T1 ⟨%hT1, Hb, Hh, HO⟩
  ihave Hst := Hback $$ HO
  -- the SparseCore call
  iapply (MainCall.call_step ph Tab κ d Sall (MainFront.Vmid (V₀ m d) T1) h1 h7 h8 (hph d T1) (hTab d _ hT1) _ _)
  isplitr; · iexact Hctx
  isplitl [Hst]; · iexact Hst
  isplitl [Hh]; · iexact Hh
  iintro %f ⟨%hf, Hst, Hh⟩
  ihave Hlv := (SparseCore.Cfg.ctx_levAts (K := K (F := Ideal)) κ) $$ Hctx
  ihave Ho := (owes_lend (F := Ideal) d 1) $$ Hst
  icases Ho with ⟨HO, Hback⟩
  -- the tail
  iapply (MainTail.tail (rdatsBv (Function.update (MainFront.Vmid (V₀ m d) T1) v8' f)) (R2v (Function.update (MainFront.Vmid (V₀ m d) T1) v8' f)) d
    (Sall.erase v1') (Function.update (MainFront.Vmid (V₀ m d) T1) v8' f) hC hD h13 h8t h12 h14 (RecAt (F := Ideal) d 1) ((K (F := Ideal)).Otc d 1) (fun G => G = Gof d (Function.update (MainFront.Vmid (V₀ m d) T1) v8' f))
    .rfl (by
      dsimp only [R2v, RegionRec2Value.seg2v]
      iintro ⟨HO, H13, H8, H12, H14⟩
      isplitl [HO]; · iexact HO
      isplitl [H13]; · iexact H13
      isplitl [H8]; · iexact H8
      isplitl [H12]; · iexact H12
      iexists _; isplitr; · ipureintro; rfl
      iexact H14) _ _)
  isplitl [Hb]; · iexact Hb
  isplitl [Hh]; · iexact Hh
  isplitl [HO]; · iexact HO
  isplitl [Hlv]; · iexact Hlv
  isplitl [Hg1]; · iexact Hg1
  isplitl [Ht1]; · iexact Ht1
  iintro %G ⟨%hG, -, Hh, HO⟩
  ihave Hst := Hback $$ HO
  -- the three arguments as at the launch, and the result
  have e0 : MainTail.Vend (Function.update (MainFront.Vmid (V₀ m d) T1) v8' f) G a0 = m (d, a0) := by
    rw [MainTail.Vend_arg0, Function.update_of_ne (show a0 ≠ v8' by decide), MainFront.Vmid_arg0]; rfl
  have e1 : MainTail.Vend (Function.update (MainFront.Vmid (V₀ m d) T1) v8' f) G a1 = m (d, a1) := by
    rw [MainTail.Vend_arg1, Function.update_of_ne (show a1 ≠ v8' by decide), MainFront.Vmid_arg1]; rfl
  have e2 : MainTail.Vend (Function.update (MainFront.Vmid (V₀ m d) T1) v8' f) G a2 = m (d, a2) := by
    rw [MainTail.Vend_arg2, Function.update_of_ne (show a2 ≠ v8' by decide), MainFront.Vmid_arg2]; rfl
  have e15 : MainTail.Vend (Function.update (MainFront.Vmid (V₀ m d) T1) v8' f) G v15'
      = transpose S1024x100000 [1, 0] (Gof d (Function.update (MainFront.Vmid (V₀ m d) T1) v8' f)) transposes_S100000x1024_S1024x100000_1_0 := by
    rw [MainTail.Vend_v15, hG]
  ihave Hh' := (Entails.of_eq (held_take d (MainTail.Vend (Function.update (MainFront.Vmid (V₀ m d) T1) v8' f) G) ha0)) $$ Hh
  icases Hh' with ⟨Ha0, Hh⟩
  ihave Hh' := (Entails.of_eq (held_take d (MainTail.Vend (Function.update (MainFront.Vmid (V₀ m d) T1) v8' f) G) ha1)) $$ Hh
  icases Hh' with ⟨Ha1, Hh⟩
  ihave Hh' := (Entails.of_eq (held_take d (MainTail.Vend (Function.update (MainFront.Vmid (V₀ m d) T1) v8' f) G) ha2)) $$ Hh
  icases Hh' with ⟨Ha2, Hh⟩
  ihave Hh' := (Entails.of_eq (held_take d (MainTail.Vend (Function.update (MainFront.Vmid (V₀ m d) T1) v8' f) G) h15)) $$ Hh
  icases Hh' with ⟨H15, -⟩
  rw [wp_ret]
  imodintro
  isplitl [Hst]; · iexact Hst
  isplitl [Ha0 Ha1 Ha2]
  · unfold FIN
    rw [← e0, ← e1, ← e2]
    isplitl [Ha0]; · iexact Ha0
    isplitl [Ha1]; · iexact Ha1
    iexact Ha2
  iexists T1, f
  isplitr; · ipureintro; exact ⟨hT1, hf⟩
  rw [← e15]
  iexact H15

/-! ## The result named by the run's own terms -/

/-- The program's result over the launch memory and the gathered rows `f`: the transpose of the second region's
    closed form at the transposed weights, `f`, and the indices' high bits. -/
abbrev resOf (d : Dev nD) (f : (Proc.devRef (τ := τ) .tc main_v8).ty.Contents (Elt Ideal)) : (Proc.devRef (τ := τ) .tc main_v15).ty.Contents (Elt Ideal) :=
  transpose (s := S100000x1024) S1024x100000 [1, 0]
    (Region2.G d (transpose (s := S100000x64) S64x100000 [1, 0] (m (d, a2)) transposes_S100000x64_S64x100000_1_0) f (HostVals.hiOf (m (d, a0))))
    transposes_S100000x1024_S1024x100000_1_0

/-- The host stretch after the call makes of the call's valuation: the weights transposed, the gathered rows as the
    call left them, the high bits of the launch's indices. -/
theorem Gof_eq (d : Dev nD) (T1) (f) :
    Gof d (Function.update (MainFront.Vmid (V₀ m d) T1) v8' f)
      = Region2.G d (transpose (s := S100000x64) S64x100000 [1, 0] (m (d, a2)) transposes_S100000x64_S64x100000_1_0) f (HostVals.hiOf (m (d, a0))) := by
  show Region2.G d (after opsC (Function.update (MainFront.Vmid (V₀ m d) T1) v8' f) MainTail.v13) (after opsC (Function.update (MainFront.Vmid (V₀ m d) T1) v8' f) MainTail.v8) (after opsC (Function.update (MainFront.Vmid (V₀ m d) T1) v8' f) MainTail.v12) = _
  rw [HostVals.after_opsC_v13, MainTail.afterC_v8, HostVals.after_opsC_v12, Function.update_self,
    Function.update_of_ne (show a2 ≠ v8' by decide), Function.update_of_ne (show a0 ≠ v8' by decide),
    MainFront.Vmid_arg2, MainFront.Vmid_arg0]
  rfl

theorem res_eq (d : Dev nD) (T1) (f) :
    transpose S1024x100000 [1, 0] (Gof d (Function.update (MainFront.Vmid (V₀ m d) T1) v8' f)) transposes_S100000x1024_S1024x100000_1_0 = resOf m d f := by
  rw [Gof_eq]

/-- @MAIN ON THE TENSORCORE, at the ideal values, the result named over the launch memory and the gathered rows. -/
theorem hmain_v [∀ e, Nonempty (Elt Ideal e)]
    (hA : ∀ op ∈ (opsA : List (HloOp τ sig (Elt Ideal))), op.bufs ⊆ Sall) (hB : ∀ op ∈ (opsB : List (HloOp τ sig (Elt Ideal))), op.bufs ⊆ Sall)
    (hC : ∀ op ∈ (opsC : List (HloOp τ sig (Elt Ideal))), op.bufs ⊆ Sall.erase v1')
    (hD : ∀ op ∈ (opsD : List (HloOp τ sig (Elt Ideal))), op.bufs ⊆ Sall.erase v1')
    (hph : ∀ d T1, MainFront.Vmid (V₀ m d) T1 v7' = ph d) (hTab : ∀ d T1, Ptab m d T1 → Tab d T1)
    (κ : GSem nD τ sig → ℕ) (d : Dev nD) :
    iprop((K (F := Ideal)).ctx EH (ScPay.P ph Tab) κ ∗ (K (F := Ideal)).tcSt EH d 0 ∗ (K (F := Ideal)).tcRes m g d ∗ MainLaunch.G (F := Ideal) d)
      ⊢ wp frame (wpE ((K (F := Ideal)).defs (D (F := Ideal))) 𝒱 (T d) none) Set.univ (main (F := Ideal) d)
          fun _ => iprop((K (F := Ideal)).tcSt EH d 1 ∗ FIN m d
            ∗ ∃ f, ⌜∀ r, ScPay.Gath ph Tab d f r⌝ ∗ ((d, v15') ↦{fullShare} resOf m d f)) :=
  (hmainV m g ph Tab hA hB hC hD hph hTab κ d).trans (wp_mono _ _ _ fun _ => by
    iintro ⟨Hst, Hfin, ⟨%T1, %f, %h, H15⟩⟩
    isplitl [Hst]; · iexact Hst
    isplitl [Hfin]; · iexact Hfin
    iexists f
    isplitr; · ipureintro; exact h.2
    rw [← res_eq m d T1 f]
    iexact H15)

end Cert.KernelIdeal.MainRunValue

end
-- ==== Proof.Region0Blocks.lean ====
/-
  The fetched blocks of the transposing region read at an index: inside the transposed table a block's entry is
  the table's, whatever the staging buffer held before the fetch. Generic in the float instance.
-/
import proofs.«218855_g90357521973776_cont_sun_m_356_26_alg».proof.Proof.Region0

noncomputable section

namespace Cert.KernelIdeal.Region0

open Cert.KernelIdeal Cert.KernelIdeal.Gen Cert.KernelIdeal.Setup

open Idealize.ShloMosaic
open Idealize.ShloMosaic.TcCoe
open Idealize.ShloMosaic.Pipeline (RDat Cfg Window)
open Idealize.ShloMosaic.ValueIdx

variable {F : FTy → Type} [FloatOps F]

section Blocks

variable (c : Dev nD) (V : (b : Ref sig .tc) → Buf (Elt F) ((c : Thread nD τ).loc b))

theorem pt_lt (t : Fin cfg0.N) : t.val < 4 := lt_of_lt_of_eq t.isLt N_0

/-- The a window's block index at point t: column block t; the b window's: column block min (t + 4) 6. -/
theorem index_0 (t : Fin cfg0.N) : win0_0.index t 0 = 0 ∧ win0_0.index t 1 = t.val := by
  rcases fin_N0 t with rfl | rfl | rfl | rfl <;> decide +kernel
theorem index_1 (t : Fin cfg0.N) : win0_1.index t 0 = 0 ∧ win0_1.index t 1 = min (t.val + 4) 6 := by
  rcases fin_N0 t with rfl | rfl | rfl | rfl <;> decide +kernel

/-- What the a window's fetch moves at every point: the whole block (the first four column blocks lie inside the
    table); the b window's: the whole block at the first two points, its first 1696 columns at the last two. -/
theorem xsize_0 : ∀ t : Fin grid0.N, win0_0.xsize (grid0.coords t) 0 = 64 ∧ win0_0.xsize (grid0.coords t) 1 = 16384 := by
  decide +kernel
theorem xsize_1 : ∀ t : Fin grid0.N,
    win0_1.xsize (grid0.coords t) 0 = 64 ∧ win0_1.xsize (grid0.coords t) 1 = if t.val ≤ 1 then 16384 else 1696 := by
  decide +kernel

/-- Row k, column r of the a block at point t is the table's row k at column 16384 t + r, whatever the buffer
    held before. -/
theorem ablk_apply (t : Fin cfg0.N) (d : S64x16384.Idx → Elt F .f32) (k : Fin 64) (r : Fin 16384) :
    ablk c V t d (ix2 k r)
      = V main_v0 (ix2 k (⟨t.val * 16384 + r.val, by have := pt_lt t; have := r.isLt; omega⟩ : Fin 100000)) := by
  have hm : win0_0.moved (grid0.coords t) (ix2 k r) = true := (win0_0.moved_iff _ _).mpr fun a => by
    match a with
    | ⟨0, _⟩ => show k.val < win0_0.xsize (grid0.coords t) 0; rw [(xsize_0 t).1]; exact k.isLt
    | ⟨1, _⟩ => show r.val < win0_0.xsize (grid0.coords t) 1; rw [(xsize_0 t).2]; exact r.isLt
  obtain ⟨e0, e1⟩ := index_0 t
  unfold ablk Window.fill
  rw [dif_pos hm]
  show V main_v0 ((win0_0.blk t).view.emb _) = _
  refine congrArg (V main_v0) (funext fun a => Fin.ext ?_)
  match a with
  | ⟨0, _⟩ =>
    refine (win0_0.rect_emb_val t _ 0).trans ?_
    rw [e0]; show 0 * 64 + k.val = k.val; omega
  | ⟨1, _⟩ =>
    refine (win0_0.rect_emb_val t _ 1).trans ?_
    rw [e1]; rfl

/-- Row k, column r of the b block at point t is the table's row k at column 16384 (min (t + 4) 6) + r when that
    column is inside the table (at the last column block: r below 1696), whatever the buffer held before. -/
theorem bblk_apply (t : Fin cfg0.N) (d : S64x16384.Idx → Elt F .f32) (k : Fin 64) (r : Fin 16384)
    (hr : min (t.val + 4) 6 * 16384 + r.val < 100000) :
    bblk c V t d (ix2 k r) = V main_v0 (ix2 k (⟨min (t.val + 4) 6 * 16384 + r.val, hr⟩ : Fin 100000)) := by
  have hm : win0_1.moved (grid0.coords t) (ix2 k r) = true := (win0_1.moved_iff _ _).mpr fun a => by
    match a with
    | ⟨0, _⟩ => show k.val < win0_1.xsize (grid0.coords t) 0; rw [(xsize_1 t).1]; exact k.isLt
    | ⟨1, _⟩ =>
      show r.val < win0_1.xsize (grid0.coords t) 1
      rw [(xsize_1 t).2]
      have := r.isLt
      split <;> omega
  obtain ⟨e0, e1⟩ := index_1 t
  unfold bblk Window.fill
  rw [dif_pos hm]
  show V main_v0 ((win0_1.blk t).view.emb _) = _
  refine congrArg (V main_v0) (funext fun a => Fin.ext ?_)
  match a with
  | ⟨0, _⟩ =>
    refine (win0_1.rect_emb_val t _ 0).trans ?_
    rw [e0]; show 0 * 64 + k.val = k.val; omega
  | ⟨1, _⟩ =>
    refine (win0_1.rect_emb_val t _ 1).trans ?_
    rw [e1]; rfl

end Blocks

end Cert.KernelIdeal.Region0
end
-- ==== Proof.Region0Ideal.lean ====
/-
  The transposing region's payload at the ideal values: a matrix product against the identity matrix the body
  builds from two iotas is a transpose, so each stored block is the a block's transpose beside the b block's.
-/
import proofs.«218855_g90357521973776_cont_sun_m_356_26_alg».proof.Proof.Region0Blocks
import Idealize.ShloMosaic.Lib.ValueIdx
import Idealize.ShloMosaic.Lib.Pipeline.Value
import Idealize.ShloMosaic.PureOps.Ideal.Laws

noncomputable section

namespace Cert.KernelIdeal.Region0Ideal

open Cert.KernelIdeal Cert.KernelIdeal.Gen
open Idealize.ShloMosaic Idealize.ShloMosaic.ValueIdx
open scoped BigOperators

/-- The 64×64 matrix the body builds: the two iotas compared, widened, converted. -/
def eye : FVec Ideal S64x64 .bf16 :=
  truncf .bf16 (sitofp .f32 (extui 32 (cmpi .eq (iota .tc S64x64 32 [0] iota_S64x64_d0_w32) (iota .tc S64x64 32 [1] iota_S64x64_d1_w32)) natLt_1_32)) bitsLt_bf16_f32

/-- The product of a block, contracted along its rows, with that matrix. -/
def mm (X : Vec Ideal S64x16384 .f32) : FVec Ideal S16384x64 .f32 :=
  matmul dot_S64x16384_S64x64_S16384x64_0_0_1_1_n_n none
    (truncf .bf16 (shapeCast S64x16384 X shapeCasts_S64x16384_S64x16384 : FVec Ideal S64x16384 .f32) bitsLt_bf16_f32) eye
    (constant S16384x64 .f32 0x00000000#32)

/-- The payload is the two products side by side. -/
theorem k0_pay1_eq (A B : Vec Ideal S64x16384 .f32) :
    k0_pay1 (F := Ideal) A B
      = concatenate S16384x128 1 [⟨S16384x64, mm A⟩, ⟨S16384x64, mm B⟩] concatenates_S16384x64_S16384x64_S16384x128_d1 := rfl

/-- Comparing two coordinates below 64 as 32-bit words decides their equality. -/
theorem eye_int : ∀ k c : Fin 64,
    ((IntOp.cmpi .eq (BitVec.ofNat 32 k.val) (BitVec.ofNat 32 c.val)).setWidth 32).toInt = if k = c then 1 else 0 := by
  decide +kernel

/-- That matrix is the identity. -/
theorem eye_apply (k c : Fin 64) : eye (ix2 k c) = if k = c then 1 else 0 := by
  unfold eye
  show (((((cmpi .eq (iota .tc S64x64 32 [0] iota_S64x64_d0_w32) (iota .tc S64x64 32 [1] iota_S64x64_d1_w32)) (ix2 k c)).setWidth 32).toInt : ℝ) : EReal) = _
  show ((((IntOp.cmpi .eq (iota .tc S64x64 32 [0] iota_S64x64_d0_w32 (ix2 k c)) (iota .tc S64x64 32 [1] iota_S64x64_d1_w32 (ix2 k c))).setWidth 32).toInt : ℝ) : EReal) = _
  rw [iota_single_apply, iota_single_apply]
  show ((((IntOp.cmpi .eq (BitVec.ofNat 32 k.val) (BitVec.ofNat 32 c.val)).setWidth 32).toInt : ℝ) : EReal) = _
  rw [eye_int k c]
  split <;> simp

/-- A block times the identity, contracted along the block's rows, is the block's transpose. -/
theorem mm_apply (X : Vec Ideal S64x16384 .f32) (r : Fin 16384) (k : Fin 64) : mm X (ix2 r k) = X (ix2 k r) := by
  unfold mm
  show FloatOps.matmul dot_S64x16384_S64x64_S16384x64_0_0_1_1_n_n none _ eye (constant S16384x64 .f32 0x00000000#32) (ix2 r k) = _
  rw [Ideal.matmul_constant_zero_apply,
    ← Equiv.sum_comp (contrEquiv1 dot_S64x16384_S64x64_S16384x64_0_0_1_1_n_n 64 rfl rfl).symm]
  have hl : ∀ q : Fin 64, dot_S64x16384_S64x64_S16384x64_0_0_1_1_n_n.lhsIdx (ix2 r k)
      ((contrEquiv1 dot_S64x16384_S64x64_S16384x64_0_0_1_1_n_n 64 rfl rfl).symm q) = ix2 q r := fun q => by
    have c2 := contrEquiv1_symm_val dot_S64x16384_S64x64_S16384x64_0_0_1_1_n_n 64 rfl rfl q
    funext ax; apply Fin.ext
    match ax with
    | ⟨0, _⟩ => simp [DotDims.lhsIdx, dot_S64x16384_S64x64_S16384x64_0_0_1_1_n_n]; exact c2
    | ⟨1, _⟩ => simp [DotDims.lhsIdx, dot_S64x16384_S64x64_S16384x64_0_0_1_1_n_n]; rfl
  have hr : ∀ q : Fin 64, dot_S64x16384_S64x64_S16384x64_0_0_1_1_n_n.rhsIdx (ix2 r k)
      ((contrEquiv1 dot_S64x16384_S64x64_S16384x64_0_0_1_1_n_n 64 rfl rfl).symm q) = ix2 q k := fun q => by
    have c2 := contrEquiv1_symm_val dot_S64x16384_S64x64_S16384x64_0_0_1_1_n_n 64 rfl rfl q
    funext ax; apply Fin.ext
    match ax with
    | ⟨0, _⟩ => simp [DotDims.rhsIdx, dot_S64x16384_S64x64_S16384x64_0_0_1_1_n_n]; exact c2
    | ⟨1, _⟩ => simp [DotDims.rhsIdx, dot_S64x16384_S64x64_S16384x64_0_0_1_1_n_n]; rfl
  refine (Finset.sum_congr rfl fun q _ => by rw [hl q, hr q]).trans ?_
  rw [Finset.sum_eq_single k]
  · rw [eye_apply, if_pos rfl, mul_one]
    show (shapeCast S64x16384 X shapeCasts_S64x16384_S64x16384) (ix2 k r) = _
    rw [shapeCast_self]
  · intro q _ hq
    rw [eye_apply, if_neg hq, mul_zero]
  · intro h; exact absurd (Finset.mem_univ k) h

/-- THE STORED BLOCK AT THE IDEAL VALUES: its left half is the a block's transpose, its right half the b block's. -/
theorem k0_pay1_left (A B : Vec Ideal S64x16384 .f32) (r : Fin 16384) (k : Fin 64) :
    k0_pay1 (F := Ideal) A B (ix2 r (⟨k.val, by have := k.isLt; omega⟩ : Fin 128)) = A (ix2 k r) := by
  rw [k0_pay1_eq]
  refine (concatenate_pair_apply_left (1 : Fin S16384x128.rank) (mm A) (mm B)
    concatenates_S16384x64_S16384x64_S16384x128_d1 _ rfl (ix2 r k) ?_).trans (mm_apply A r k)
  intro b
  match b with
  | ⟨0, _⟩ => rfl
  | ⟨1, _⟩ => rfl

theorem k0_pay1_right (A B : Vec Ideal S64x16384 .f32) (r : Fin 16384) (k : Fin 64) :
    k0_pay1 (F := Ideal) A B (ix2 r (⟨64 + k.val, by have := k.isLt; omega⟩ : Fin 128)) = B (ix2 k r) := by
  rw [k0_pay1_eq]
  refine (concatenate_pair_apply_right (1 : Fin S16384x128.rank) (mm A) (mm B)
    concatenates_S16384x64_S16384x64_S16384x128_d1 _ rfl rfl (ix2 r k) ?_ ?_).trans (mm_apply B r k)
  · intro b hb
    match b with
    | ⟨0, _⟩ => rfl
    | ⟨1, _⟩ => exact absurd rfl hb
  · show k.val + 64 = 64 + k.val; omega

/-! ## The output array at the ideal values -/

section Array

open Cert.KernelIdeal.Region0 Idealize.ShloMosaic.TcCoe
open Idealize.SL Idealize.SL.RA Idealize.SL.BI Idealize.SL.Sem

variable (c : Dev nD) (V : (b : Ref sig .tc) → Buf (Elt Ideal) ((c : Thread nD τ).loc b))
  (da db : Fin cfg0.N → S64x16384.Idx → Elt Ideal .f32)

/-- THE LEFT HALF: row p, column k of the output array is the transposed table's row k at column p, whatever the
    filler words. -/
theorem outArr_left (p : Fin 65536) (k : Fin 64) :
    outArr c V da db (ix2 p (⟨k.val, by have := k.isLt; omega⟩ : Fin 128))
      = V main_v0 (ix2 k (⟨p.val, by have := p.isLt; omega⟩ : Fin 100000)) := by
  unfold outArr outBlk
  refine (k0_pay1_left _ _ (rowOf (ix2 p (⟨k.val, by have := k.isLt; omega⟩ : Fin 128))) k).trans ?_
  refine (ablk_apply c V _ _ k _).trans ?_
  refine congrArg (V main_v0) (congrArg (ix2 k) (Fin.ext ?_))
  show p.val / 16384 * 16384 + p.val % 16384 = p.val
  omega

/-- THE RIGHT HALF: for the rows below 34464, row p, column 64 + k is the transposed table's row k at column
    65536 + p, whatever the filler words (the rows from 34464 on read the filler). -/
theorem outArr_right (p : Fin 65536) (k : Fin 64) (hp : p.val < 34464) :
    outArr c V da db (ix2 p (⟨64 + k.val, by have := k.isLt; omega⟩ : Fin 128))
      = V main_v0 (ix2 k (⟨65536 + p.val, by omega⟩ : Fin 100000)) := by
  unfold outArr outBlk
  refine (k0_pay1_right _ _ (rowOf (ix2 p (⟨64 + k.val, by have := k.isLt; omega⟩ : Fin 128))) k).trans ?_
  refine (bblk_apply c V _ _ k _ (by show min (p.val / 16384 + 4) 6 * 16384 + p.val % 16384 < 100000; omega)).trans ?_
  refine congrArg (V main_v0) (congrArg (ix2 k) (Fin.ext ?_))
  show min (p.val / 16384 + 4) 6 * 16384 + p.val % 16384 = 65536 + p.val
  omega

/-- THE OUTPUT ARRAY AT EXIT, AT THE IDEAL VALUES: whatever the four write-backs may have left, its left half is the
    transposed table's first 65536 columns transposed, and the first 34464 rows of its right half are the table's
    columns from 65536 on, transposed; the right half's other rows are not determined. -/
theorem exit_value (q : Fin 3 → PosShare TreeShare) (O : CellTallies nD τ sig (SparseCore.Cfg.HIx 1))
    (Rinv : sProp (MT nD τ sig (SparseCore.Cfg.HIx 1) (Elt Ideal) ℕ Setup.UU ℕ)) (Rec : Set (SemLoc sig × SparseCore.Cfg.HIx 1))
    (T1 : S65536x128.Idx → Elt Ideal .f32) (h : (rdat0 c V q O Rinv Rec).ArrAt (2 : Fin 3) cfg0.N T1) :
    (∀ (p : Fin 65536) (k : Fin 64), T1 (ix2 p (⟨k.val, by have := k.isLt; omega⟩ : Fin 128))
        = V main_v0 (ix2 k (⟨p.val, by have := p.isLt; omega⟩ : Fin 100000)))
      ∧ ∀ (p : Fin 65536) (k : Fin 64) (hp : p.val < 34464), T1 (ix2 p (⟨64 + k.val, by have := k.isLt; omega⟩ : Fin 128))
        = V main_v0 (ix2 k (⟨65536 + p.val, by omega⟩ : Fin 100000)) := by
  obtain ⟨da, db, rfl⟩ := exit_out c V q O Rinv Rec T1 h
  exact ⟨fun p k => outArr_left c V da db p k, fun p k hp => outArr_right c V da db p k hp⟩

end Array

end Cert.KernelIdeal.Region0Ideal

end
-- ==== Proof.ValueTop.lean ====
/-
  The kernel's run at the extended reals, from the precondition alone: the index words lie in [0, 99999], so the
  physical indices the host computes are what the SparseCore call reads, the pair table the first region leaves is
  the first float argument in two halves, and the run ends with the result array at the reference's function of
  the arguments.
-/
import proofs.«218855_g90357521973776_cont_sun_m_356_26_alg».proof.Defs
import proofs.«218855_g90357521973776_cont_sun_m_356_26_alg».proof.Proof.MainTopV
import proofs.«218855_g90357521973776_cont_sun_m_356_26_alg».proof.Proof.MainRunValue
import proofs.«218855_g90357521973776_cont_sun_m_356_26_alg».proof.Proof.Region0Ideal
import proofs.«218855_g90357521973776_cont_sun_m_356_26_alg».proof.Proof.ValueGlue
import proofs.«218855_g90357521973776_cont_sun_m_356_26_alg».proof.Proof.HostVals
import proofs.«218855_g90357521973776_cont_sun_m_356_26_alg».proof.Proof.PreFacts

noncomputable section

namespace Cert.KernelIdeal.ValueTop

open Cert.KernelIdeal Cert.KernelIdeal.Gen Cert.KernelIdeal.Setup

open Idealize.ShloMosaic Idealize.SL.Sem
open Idealize.ShloMosaic.StableHlo (after)
open Cert.KernelIdeal.MainOps
open Cert.KernelIdeal.MainFin (a0Loc a1Loc a2Loc)

variable (m : (ℓ : Loc Cert.KernelIdeal.nD Cert.KernelIdeal.τ Cert.KernelIdeal.sig) → Buf (Elt Ideal) ℓ)

/-- The index array the SparseCore call reads is the physical index of the launch's index words, whatever the first
    region left in the pair table. -/
theorem hph (d : Dev nD) (T1 : (Proc.devRef (τ := τ) .tc main_v1).ty.Contents (Elt Ideal)) :
    MainFront.Vmid (MainHeld.V₀ m d) T1 MainCall.v7' = MainTopV.ph m d := by
  unfold MainTopV.ph
  show after opsB (Function.update (after opsA (MainHeld.V₀ m d)) (Proc.devRef .tc main_v1) T1) (Proc.devRef .tc main_v7) = _
  rw [HostVals.after_opsB_v7, Function.update_of_ne (StableHlo.devRef_ne_of_ne (by decide)), HostVals.opsA_keeps_arg0]
  rfl

/-- Whatever the first region may leave in the pair table is the first float argument in two halves. -/
theorem hTab (d : Dev nD) (T1 : (Proc.devRef (τ := τ) .tc main_v1).ty.Contents (Elt Ideal)) (h : MainRunValue.Ptab m d T1) :
    MainTopV.Tab m d T1 := by
  obtain ⟨hlo, hhi⟩ := Region0Ideal.exit_value d (MainRun.VA m d d) RegionRec0.q0 ((K (F := Ideal)).Otc d 0) (RegionRec0.rest0 d)
    (MainRun.RecAt (F := Ideal) d 0) T1 h
  exact ValueGlue.tab_of_exit (m (a1Loc d)) (MainRun.VA m d d main_v0) T1 (HostVals.after_opsA_v0 (MainHeld.V₀ m d)) hlo hhi

/-- THE RUN at the extended reals, under the precondition: every weakly fair execution of the program's threads
    terminates and leaves the three arguments as launched and the result array at the reference's function of
    them. -/
theorem run_v (g : Dev Cert.KernelIdeal.nD → PrngReg) (hpre : Cert.Pre_KernelIdeal m) :
    θ_run (Cert.KernelIdeal.defs (F := Ideal)) (Cert.KernelIdeal.threads (F := Ideal)) ⟨m, fun _ => 0, g⟩ (MainFinV.QCv m) :=
  MainTopV.run_main_v m g (fun d b => Cert.PreFacts.x_range _ _ _ (hpre d) b)
    (fun κ d => MainRunValue.hmain_v m g (MainTopV.ph m) (MainTopV.Tab m) HostVals.opsA_bufs HostVals.opsB_bufs
      HostVals.opsC_bufs_less_v1 HostVals.opsD_bufs_less_v1 (hph m) (hTab m) κ d)

end Cert.KernelIdeal.ValueTop

end
-- ==== Proof.AlgebraicTop.lean ====
/-
  The value conjunct from the kernel's run. Given that, under the precondition, every run of the kernel ends with its
  result array at the reference's function of the kernel's own argument arrays and the arguments unchanged, the two
  programs run from memories that agree on the arguments end with equal results: the common value is that function of
  the kernel's arguments; the reference's run ends at the same function of ITS arguments, which are the kernel's.
-/
import proofs.«218855_g90357521973776_cont_sun_m_356_26_alg».proof.Defs
import proofs.«218855_g90357521973776_cont_sun_m_356_26_alg».proof.Proof.MainFinV
import proofs.«218855_g90357521973776_cont_sun_m_356_26_alg».proof.Proof.RefRun
import proofs.«218855_g90357521973776_cont_sun_m_356_26_alg».proof.Proof.PreFacts

noncomputable section

namespace Cert.KernelIdeal.AlgebraicTop

open Idealize.ShloMosaic Idealize.SL.Sem

/-- The value conjunct, from the kernel's run stated at the reference's function of the kernel's arguments. -/
theorem algebraic_of_run
    (hrun : ∀ (m : (ℓ : Loc Cert.KernelIdeal.nD Cert.KernelIdeal.τ Cert.KernelIdeal.sig) → Buf (Elt Ideal) ℓ)
      (g : Dev Cert.KernelIdeal.nD → PrngReg), Cert.Pre_KernelIdeal m →
      θ_run (Cert.KernelIdeal.defs (F := Ideal)) (Cert.KernelIdeal.threads (F := Ideal)) ⟨m, fun _ => 0, g⟩ (MainFinV.QCv m)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => MainFinV.spec m c, ?_, ?_⟩
  · -- the kernel's run, its post respelt
    exact (θ_run (Cert.KernelIdeal.defs (F := Ideal)) _ _).mono (fun r h c => h c) (hrun m g hpre)
  · -- the reference's run ends at the same function of its own arguments, which are the kernel's
    refine (θ_run (Cert.ReferenceIdeal.defs (F := Ideal)) _ _).mono (fun r h c => ?_)
      (Cert.ReferenceIdeal.RefValue.run (F := Ideal) m' g')
    obtain ⟨hv, h0, h1, h2⟩ := h c
    refine ⟨?_, h0, h1, h2⟩
    rw [hv, (hagree c).1, (hagree c).2.1, (hagree c).2.2]
    rfl

end Cert.KernelIdeal.AlgebraicTop

end
-- ==== Proof.lean ====
/-
  Embedding lookup followed by the output projection: `take(emb, x) · Wᵀ` over x : i32[1024] and
  emb, W : f32[100000, 64], the kernel's program against the reference's.

  The kernel's program first lays the embedding table out as 65536 rows of PAIRS — row p holds row p of the table in its
  left 64 words and row 65536 + p in its right 64: a TensorCore region that transposes 64 x 16384 blocks of the
  transposed table through a product with the identity matrix; the right halves of rows p ≥ 34464 come from a block
  that overhangs the table and hold words nothing names —, then gathers, on the SparseCores, for every index x its
  physical row of that pair table (`x - 65536` where `x ≥ 65536`, else `x`; below 34464 in the first case, so a row whose
  right half is a table row), and finally, on the TensorCore again, selects each gathered row's left or right half by
  the index's high bit — which is row x of the table exactly — and contracts it with the transposed weight, 4096 output
  rows at a time; the result is transposed back.

  On the extended reals every step is exact: a product against the 0/1 identity keeps one term of each sum
  (`a · 0 = 0` for every extended real), a change of float format is the identity, and the kernel's sum
  `∑ₖ W[v, k] · emb[x_b, k]` is the reference's `∑ₖ emb[x_b, k] · W[v, k]` term by term.

  The frames: @main runs on the TensorCore as a chain — host operations, the first region, host operations, the one
  SparseCore call, host operations, the second region, a host operation — under the SparseCore launch theorem; each
  region is entered through the pipeline library's region rule, its staging cells funded at the launch; of the 32
  tiles, tiles 0 to 7 of SparseCore 0 each fetch 128 indices, gather 128 rows and write them out, the others return at
  once; the precondition bounds every index by 99999, hence every physical row by 65535. The word-level program's
  frame is the same proof read at the word-level instance: no step of it uses a law of the float operations.
-/
import proofs.«218855_g90357521973776_cont_sun_m_356_26_alg».proof.Defs
import proofs.«218855_g90357521973776_cont_sun_m_356_26_alg».proof.Proof.Gen.Kernel
import proofs.«218855_g90357521973776_cont_sun_m_356_26_alg».proof.Proof.Gen.KernelIdeal
import proofs.«218855_g90357521973776_cont_sun_m_356_26_alg».proof.Proof.Gen.ReferenceIdeal
import proofs.«218855_g90357521973776_cont_sun_m_356_26_alg».proof.Proof.Gen.Pre_input_domain
import proofs.«218855_g90357521973776_cont_sun_m_356_26_alg».proof.Proof.TopClaims
import proofs.«218855_g90357521973776_cont_sun_m_356_26_alg».proof.Proof.ValueTop
import proofs.«218855_g90357521973776_cont_sun_m_356_26_alg».proof.Proof.AlgebraicTop
import proofs.«218855_g90357521973776_cont_sun_m_356_26_alg».proof.Proof.RefRun

noncomputable section

namespace Cert.Proof

open Idealize.ShloMosaic Idealize.SL.Sem

/-- The reference's frame is its run with the result dropped. -/
theorem frame_ri : Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2) (Cert.ReferenceIdeal.RefValue.run (F := Ideal) m g)

/-- The two idealized programs end at the same function of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  Cert.KernelIdeal.AlgebraicTop.algebraic_of_run Cert.KernelIdeal.ValueTop.run_v

theorem claim : Cert.Claim :=
  ⟨Cert.Kernel.Gen.facts, Cert.KernelIdeal.Gen.facts, Cert.ReferenceIdeal.Gen.facts, Cert.Pre_input_domain.Gen.facts,
    Cert.TopClaims.frame_Kernel, Cert.TopClaims.frame_KernelIdeal, frame_ri, trivial, algebraic⟩

end Cert.Proof

end
